-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v194)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v194) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v311) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x320000 : Shape := ⟨2, ![2, 320000]⟩
abbrev S320000x4 : Shape := ⟨2, ![320000, 4]⟩
abbrev S5x512x256 : Shape := ⟨3, ![5, 512, 256]⟩
abbrev S5x256 : Shape := ⟨2, ![5, 256]⟩
abbrev S5x1x128 : Shape := ⟨3, ![5, 1, 128]⟩
abbrev S5x3x128 : Shape := ⟨3, ![5, 3, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S320000x4 : S_.BroadcastsInDim S320000x4 (![] : Fin 0 → Fin S320000x4.rank)
  reducesTo_S320000x4_S_d0_1 : S320000x4.ReducesTo [0, 1] S_
  bcast_S_S5x512x256 : S_.BroadcastsInDim S5x512x256 (![] : Fin 0 → Fin S5x512x256.rank)
  reducesTo_S5x512x256_S_d0_1_2 : S5x512x256.ReducesTo [0, 1, 2] S_
  bcast_S_S5x256 : S_.BroadcastsInDim S5x256 (![] : Fin 0 → Fin S5x256.rank)
  reducesTo_S5x256_S_d0_1 : S5x256.ReducesTo [0, 1] S_
  bcast_S_S5x1x128 : S_.BroadcastsInDim S5x1x128 (![] : Fin 0 → Fin S5x1x128.rank)
  reducesTo_S5x1x128_S_d0_1_2 : S5x1x128.ReducesTo [0, 1, 2] S_
  bcast_S_S5x3x128 : S_.BroadcastsInDim S5x3x128 (![] : Fin 0 → Fin S5x3x128.rank)
  reducesTo_S5x3x128_S_d0_1_2 : S5x3x128.ReducesTo [0, 1, 2] S_

variable [Facts]

def fn_part2 {F : FTy → Type} [FloatOps F] (main_arg8 : FVec F S5x256 .f32) (main_v33 : IVec S_ 1) : IVec S_ 1 :=
  let main_v34 : FVec F S5x256 .f32 := Host.absf main_arg8
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  main_v38

def fn_part1 {F : FTy → Type} [FloatOps F] (main_arg5 : FVec F S5x1x128 .f32) (main_arg6 : FVec F S5x3x128 .f32) (main_arg7 : FVec F S5x256 .f32) (main_arg8 : FVec F S5x256 .f32) (main_v13 : IVec S_ 1) (main_v16 : IVec S5x256 1) : IVec S_ 1 :=
  let main_c_5 : IVec S_ 1 := constantI S_ 1 1#1
  let main_v17 : IVec S_ 1 := (fun x v => Host.reduce IntOp.andi x v reducesTo_S5x256_S_d0_1 h_S_) main_v16 main_c_5
  let main_v18 : IVec S_ 1 := andi main_v13 main_v17
  let main_v19 : FVec F S5x1x128 .f32 := Host.absf main_arg5
  let main_cst_6 : FVec F S_ .f32 := constant S_ .f32 0x7F800000#32
  let main_v20 : FVec F S5x1x128 .f32 := broadcastInDim S5x1x128 ![] bcast_S_S5x1x128 main_cst_6
  let main_v21 : IVec S5x1x128 1 := cmpf .olt main_v19 main_v20
  let main_c_7 : IVec S_ 1 := constantI S_ 1 1#1
  let main_v22 : IVec S_ 1 := (fun x v => Host.reduce IntOp.andi x v reducesTo_S5x1x128_S_d0_1_2 h_S_) main_v21 main_c_7
  let main_v23 : IVec S_ 1 := andi main_v18 main_v22
  let main_v24 : FVec F S5x3x128 .f32 := Host.absf main_arg6
  let main_cst_8 : FVec F S_ .f32 := constant S_ .f32 0x7F800000#32
  let main_v25 : FVec F S5x3x128 .f32 := broadcastInDim S5x3x128 ![] bcast_S_S5x3x128 main_cst_8
  let main_v26 : IVec S5x3x128 1 := cmpf .olt main_v24 main_v25
  let main_c_9 : IVec S_ 1 := constantI S_ 1 1#1
  let main_v27 : IVec S_ 1 := (fun x v => Host.reduce IntOp.andi x v reducesTo_S5x3x128_S_d0_1_2 h_S_) main_v26 main_c_9
  let main_v28 : IVec S_ 1 := andi main_v23 main_v27
  let main_v29 : FVec F S5x256 .f32 := Host.absf main_arg7
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x320000 32) (main_arg2 : FVec F S320000x4 .f32) (main_arg3 : FVec F S5x512x256 .f32) (main_arg4 : FVec F S5x256 .f32) (main_arg5 : FVec F S5x1x128 .f32) (main_arg6 : FVec F S5x3x128 .f32) (main_arg7 : FVec F S5x256 .f32) (main_arg8 : FVec F S5x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S320000x4 .f32 := Host.absf main_arg2
  let main_cst_0 : FVec F S_ .f32 := constant S_ .f32 0x7F800000#32
  let main_v5 : FVec F S320000x4 .f32 := broadcastInDim S320000x4 ![] bcast_S_S320000x4 main_cst_0
  let main_v6 : IVec S320000x4 1 := cmpf .olt main_v4 main_v5
  let main_c_1 : IVec S_ 1 := constantI S_ 1 1#1
  let main_v7 : IVec S_ 1 := (fun x v => Host.reduce IntOp.andi x v reducesTo_S320000x4_S_d0_1 h_S_) main_v6 main_c_1
  let main_v8 : IVec S_ 1 := andi main_v3 main_v7
  let main_v9 : FVec F S5x512x256 .f32 := Host.absf main_arg3
  let main_cst_2 : FVec F S_ .f32 := constant S_ .f32 0x7F800000#32
  let main_v10 : FVec F S5x512x256 .f32 := broadcastInDim S5x512x256 ![] bcast_S_S5x512x256 main_cst_2
  let main_v11 : IVec S5x512x256 1 := cmpf .olt main_v9 main_v10
  let main_c_3 : IVec S_ 1 := constantI S_ 1 1#1
  let main_v12 : IVec S_ 1 := (fun x v => Host.reduce IntOp.andi x v reducesTo_S5x512x256_S_d0_1_2 h_S_) main_v11 main_c_3
  let main_v13 : IVec S_ 1 := andi main_v8 main_v12
  let main_v14 : FVec F S5x256 .f32 := Host.absf main_arg4
  let main_cst_4 : FVec F S_ .f32 := constant S_ .f32 0x7F800000#32
  let main_v15 : FVec F S5x256 .f32 := broadcastInDim S5x256 ![] bcast_S_S5x256 main_cst_4
  let main_v16 : IVec S5x256 1 := cmpf .olt main_v14 main_v15
  fn_part1 (F := F) main_arg5 main_arg6 main_arg7 main_arg8 main_v13 main_v16
-- ==== Kernel.lean ====
abbrev S50000x256 : Shape := ⟨2, ![50000, 256]⟩
abbrev S2x320000 : Shape := ⟨2, ![2, 320000]⟩
abbrev S320000x4 : Shape := ⟨2, ![320000, 4]⟩
abbrev S5x512x256 : Shape := ⟨3, ![5, 512, 256]⟩
abbrev S5x256 : Shape := ⟨2, ![5, 256]⟩
abbrev S5x1x128 : Shape := ⟨3, ![5, 1, 128]⟩
abbrev S5x3x128 : Shape := ⟨3, ![5, 3, 128]⟩
abbrev S1x320000 : Shape := ⟨2, ![1, 320000]⟩
abbrev S320000 : Shape := ⟨1, ![320000]⟩
abbrev S_ : Shape := ⟨0, ![]⟩
abbrev S50000 : Shape := ⟨1, ![50000]⟩
abbrev S320000x1 : Shape := ⟨2, ![320000, 1]⟩
abbrev S320000x5 : Shape := ⟨2, ![320000, 5]⟩
abbrev S320000x256 : Shape := ⟨2, ![320000, 256]⟩
abbrev S1x1x128 : Shape := ⟨3, ![1, 1, 128]⟩
abbrev S1x128 : Shape := ⟨2, ![1, 128]⟩
abbrev S1x3x128 : Shape := ⟨3, ![1, 3, 128]⟩
abbrev S3x128 : Shape := ⟨2, ![3, 128]⟩
abbrev S3200x256 : Shape := ⟨2, ![3200, 256]⟩
abbrev S3200x5 : Shape := ⟨2, ![3200, 5]⟩
abbrev S3200x4 : Shape := ⟨2, ![3200, 4]⟩
abbrev S3200x1 : Shape := ⟨2, ![3200, 1]⟩
abbrev S3200x128 : Shape := ⟨2, ![3200, 128]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩
abbrev S2000x256 : Shape := ⟨2, ![2000, 256]⟩
abbrev S256x256 : Shape := ⟨2, ![256, 256]⟩

abbrev nBuf : Space → Nat
  | .hbm => 355
  | .vmem => 120
  | .smem => 0
  | _ => 0

abbrev hbmTy0_0 (i : Nat) : BufTy := match i % 128 with
  | 0 => ⟨S50000x256, .f32⟩
  | 1 => ⟨S2x320000, .i32⟩
  | 2 => ⟨S320000x4, .f32⟩
  | 3 => ⟨S5x512x256, .f32⟩
  | 4 => ⟨S5x256, .f32⟩
  | 5 => ⟨S5x1x128, .f32⟩
  | 6 => ⟨S5x3x128, .f32⟩
  | 7 => ⟨S5x256, .f32⟩
  | 8 => ⟨S5x256, .f32⟩
  | 9 => ⟨S1x320000, .i32⟩
  | 10 => ⟨S320000, .i32⟩
  | 11 => ⟨S1x320000, .i32⟩
  | 12 => ⟨S320000, .i32⟩
  | 13 => ⟨S_, .f32⟩
  | 14 => ⟨S320000, .f32⟩
  | 15 => ⟨S_, .f32⟩
  | 16 => ⟨S50000, .f32⟩
  | 17 => ⟨S320000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000x1, .f32⟩
  | 49 => ⟨S320000x5, .f32⟩
  | 50 => ⟨S_, .i32⟩
  | 51 => ⟨S320000, .i32⟩
  | 52 => ⟨S320000, .i1⟩
  | 53 => ⟨S_, .i32⟩
  | 54 => ⟨S320000, .i32⟩
  | 55 => ⟨S320000, .i32⟩
  | 56 => ⟨S320000, .i32⟩
  | 57 => ⟨S320000x1, .i32⟩
  | 58 => ⟨S320000x256, .f32⟩
  | 59 => ⟨S1x1x128, .f32⟩
  | 60 => ⟨S1x128, .f32⟩
  | 61 => ⟨S1x3x128, .f32⟩
  | 62 => ⟨S3x128, .f32⟩
  | 63 => ⟨S320000x256, .f32⟩
  | 64 => ⟨S_, .f32⟩
  | 65 => ⟨S50000x256, .f32⟩
  | 66 => ⟨S320000x1, .i32⟩
  | 67 => ⟨S50000x256, .f32⟩
  | 68 => ⟨S1x512x256, .f32⟩
  | 69 => ⟨S512x256, .f32⟩
  | 70 => ⟨S1x256, .f32⟩
  | 71 => ⟨S256, .f32⟩
  | 72 => ⟨S1x256, .f32⟩
  | 73 => ⟨S50000x256, .f32⟩
  | 74 => ⟨S_, .f32⟩
  | 75 => ⟨S256, .f32⟩
  | 76 => ⟨S1x256, .f32⟩
  | 77 => ⟨S_, .f32⟩
  | 78 => ⟨S1x256, .f32⟩
  | 79 => ⟨S1x256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S50000x256, .f32⟩
  | 88 => ⟨S50000x256, .f32⟩
  | 89 => ⟨S50000x256, .f32⟩
  | 90 => ⟨S_, .f32⟩
  | 91 => ⟨S_, .f32⟩
  | 92 => ⟨S_, .f32⟩
  | 93 => ⟨S_, .f32⟩
  | 94 => ⟨S256, .f32⟩
  | 95 => ⟨S1x256, .f32⟩
  | 96 => ⟨S1x256, .f32⟩
  | 97 => ⟨S1x256, .f32⟩
  | 98 => ⟨S_, .f32⟩
  | 99 => ⟨S_, .i1⟩
  | 100 => ⟨S_, .f32⟩
  | 101 => ⟨S_, .f32⟩
  | 102 => ⟨S1x256, .f32⟩
  | 103 => ⟨S1x256, .f32⟩
  | 104 => ⟨S1x256, .f32⟩
  | 105 => ⟨S256, .f32⟩
  | 106 => ⟨S1x256, .f32⟩
  | 107 => ⟨S1x256, .f32⟩
  | 108 => ⟨S256, .f32⟩
  | 109 => ⟨S1x256, .f32⟩
  | 110 => ⟨S50000x256, .f32⟩
  | 111 => ⟨S_, .i32⟩
  | 112 => ⟨S320000, .i32⟩
  | 113 => ⟨S320000, .i1⟩
  | 114 => ⟨S_, .i32⟩
  | 115 => ⟨S320000, .i32⟩
  | 116 => ⟨S320000, .i32⟩
  | 117 => ⟨S320000, .i32⟩
  | 118 => ⟨S320000x1, .i32⟩
  | 119 => ⟨S320000x256, .f32⟩
  | 120 => ⟨S1x1x128, .f32⟩
  | 121 => ⟨S1x128, .f32⟩
  | 122 => ⟨S1x3x128, .f32⟩
  | 123 => ⟨S3x128, .f32⟩
  | 124 => ⟨S320000x256, .f32⟩
  | 125 => ⟨S_, .f32⟩
  | 126 => ⟨S50000x256, .f32⟩
  | 127 => ⟨S320000x1, .i32⟩
  | _ => ⟨S50000x256, .f32⟩

abbrev hbmTy0_1 (i : Nat) : BufTy := match i % 128 with
  | 0 => ⟨S50000x256, .f32⟩
  | 1 => ⟨S1x512x256, .f32⟩
  | 2 => ⟨S512x256, .f32⟩
  | 3 => ⟨S1x256, .f32⟩
  | 4 => ⟨S256, .f32⟩
  | 5 => ⟨S1x256, .f32⟩
  | 6 => ⟨S50000x256, .f32⟩
  | 7 => ⟨S_, .f32⟩
  | 8 => ⟨S256, .f32⟩
  | 9 => ⟨S1x256, .f32⟩
  | 10 => ⟨S_, .f32⟩
  | 11 => ⟨S1x256, .f32⟩
  | 12 => ⟨S1x256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S50000x256, .f32⟩
  | 21 => ⟨S50000x256, .f32⟩
  | 22 => ⟨S50000x256, .f32⟩
  | 23 => ⟨S_, .f32⟩
  | 24 => ⟨S_, .f32⟩
  | 25 => ⟨S_, .f32⟩
  | 26 => ⟨S_, .f32⟩
  | 27 => ⟨S256, .f32⟩
  | 28 => ⟨S1x256, .f32⟩
  | 29 => ⟨S1x256, .f32⟩
  | 30 => ⟨S1x256, .f32⟩
  | 31 => ⟨S_, .f32⟩
  | 32 => ⟨S_, .i1⟩
  | 33 => ⟨S_, .f32⟩
  | 34 => ⟨S_, .f32⟩
  | 35 => ⟨S1x256, .f32⟩
  | 36 => ⟨S1x256, .f32⟩
  | 37 => ⟨S1x256, .f32⟩
  | 38 => ⟨S256, .f32⟩
  | 39 => ⟨S1x256, .f32⟩
  | 40 => ⟨S1x256, .f32⟩
  | 41 => ⟨S256, .f32⟩
  | 42 => ⟨S1x256, .f32⟩
  | 43 => ⟨S50000x256, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x256, .f32⟩
  | 53 => ⟨S1x1x128, .f32⟩
  | 54 => ⟨S1x128, .f32⟩
  | 55 => ⟨S1x3x128, .f32⟩
  | 56 => ⟨S3x128, .f32⟩
  | 57 => ⟨S320000x256, .f32⟩
  | 58 => ⟨S_, .f32⟩
  | 59 => ⟨S50000x256, .f32⟩
  | 60 => ⟨S320000x1, .i32⟩
  | 61 => ⟨S50000x256, .f32⟩
  | 62 => ⟨S1x512x256, .f32⟩
  | 63 => ⟨S512x256, .f32⟩
  | 64 => ⟨S1x256, .f32⟩
  | 65 => ⟨S256, .f32⟩
  | 66 => ⟨S1x256, .f32⟩
  | 67 => ⟨S50000x256, .f32⟩
  | 68 => ⟨S_, .f32⟩
  | 69 => ⟨S256, .f32⟩
  | 70 => ⟨S1x256, .f32⟩
  | 71 => ⟨S_, .f32⟩
  | 72 => ⟨S1x256, .f32⟩
  | 73 => ⟨S1x256, .f32⟩
  | 74 => ⟨S_, .i32⟩
  | 75 => ⟨S_, .f32⟩
  | 76 => ⟨S256, .f32⟩
  | 77 => ⟨S1x256, .f32⟩
  | 78 => ⟨S_, .f32⟩
  | 79 => ⟨S1x256, .f32⟩
  | 80 => ⟨S1x256, .f32⟩
  | 81 => ⟨S50000x256, .f32⟩
  | 82 => ⟨S50000x256, .f32⟩
  | 83 => ⟨S50000x256, .f32⟩
  | 84 => ⟨S_, .f32⟩
  | 85 => ⟨S_, .f32⟩
  | 86 => ⟨S_, .f32⟩
  | 87 => ⟨S_, .f32⟩
  | 88 => ⟨S256, .f32⟩
  | 89 => ⟨S1x256, .f32⟩
  | 90 => ⟨S1x256, .f32⟩
  | 91 => ⟨S1x256, .f32⟩
  | 92 => ⟨S_, .f32⟩
  | 93 => ⟨S_, .i1⟩
  | 94 => ⟨S_, .f32⟩
  | 95 => ⟨S_, .f32⟩
  | 96 => ⟨S1x256, .f32⟩
  | 97 => ⟨S1x256, .f32⟩
  | 98 => ⟨S1x256, .f32⟩
  | 99 => ⟨S256, .f32⟩
  | 100 => ⟨S1x256, .f32⟩
  | 101 => ⟨S1x256, .f32⟩
  | 102 => ⟨S256, .f32⟩
  | 103 => ⟨S1x256, .f32⟩
  | 104 => ⟨S50000x256, .f32⟩
  | 105 => ⟨S_, .i32⟩
  | 106 => ⟨S320000, .i32⟩
  | 107 => ⟨S320000, .i1⟩
  | 108 => ⟨S_, .i32⟩
  | 109 => ⟨S320000, .i32⟩
  | 110 => ⟨S320000, .i32⟩
  | 111 => ⟨S320000, .i32⟩
  | 112 => ⟨S320000x1, .i32⟩
  | 113 => ⟨S320000x256, .f32⟩
  | 114 => ⟨S1x1x128, .f32⟩
  | 115 => ⟨S1x128, .f32⟩
  | 116 => ⟨S1x3x128, .f32⟩
  | 117 => ⟨S3x128, .f32⟩
  | 118 => ⟨S320000x256, .f32⟩
  | 119 => ⟨S_, .f32⟩
  | 120 => ⟨S50000x256, .f32⟩
  | 121 => ⟨S320000x1, .i32⟩
  | 122 => ⟨S50000x256, .f32⟩
  | 123 => ⟨S1x512x256, .f32⟩
  | 124 => ⟨S512x256, .f32⟩
  | 125 => ⟨S1x256, .f32⟩
  | 126 => ⟨S256, .f32⟩
  | 127 => ⟨S1x256, .f32⟩
  | _ => ⟨S50000x256, .f32⟩

abbrev hbmTy0_2 (i : Nat) : BufTy := match i % 128 with
  | 0 => ⟨S50000x256, .f32⟩
  | 1 => ⟨S_, .f32⟩
  | 2 => ⟨S256, .f32⟩
  | 3 => ⟨S1x256, .f32⟩
  | 4 => ⟨S_, .f32⟩
  | 5 => ⟨S1x256, .f32⟩
  | 6 => ⟨S1x256, .f32⟩
  | 7 => ⟨S_, .i32⟩
  | 8 => ⟨S_, .f32⟩
  | 9 => ⟨S256, .f32⟩
  | 10 => ⟨S1x256, .f32⟩
  | 11 => ⟨S_, .f32⟩
  | 12 => ⟨S1x256, .f32⟩
  | 13 => ⟨S1x256, .f32⟩
  | 14 => ⟨S50000x256, .f32⟩
  | 15 => ⟨S50000x256, .f32⟩
  | 16 => ⟨S50000x256, .f32⟩
  | 17 => ⟨S_, .f32⟩
  | 18 => ⟨S_, .f32⟩
  | 19 => ⟨S_, .f32⟩
  | 20 => ⟨S_, .f32⟩
  | 21 => ⟨S256, .f32⟩
  | 22 => ⟨S1x256, .f32⟩
  | 23 => ⟨S1x256, .f32⟩
  | 24 => ⟨S1x256, .f32⟩
  | 25 => ⟨S_, .f32⟩
  | 26 => ⟨S_, .i1⟩
  | 27 => ⟨S_, .f32⟩
  | 28 => ⟨S_, .f32⟩
  | 29 => ⟨S1x256, .f32⟩
  | 30 => ⟨S1x256, .f32⟩
  | 31 => ⟨S1x256, .f32⟩
  | 32 => ⟨S256, .f32⟩
  | 33 => ⟨S1x256, .f32⟩
  | 34 => ⟨S1x256, .f32⟩
  | 35 => ⟨S256, .f32⟩
  | 36 => ⟨S1x256, .f32⟩
  | 37 => ⟨S50000x256, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000x256, .f32⟩
  | 47 => ⟨S1x1x128, .f32⟩
  | 48 => ⟨S1x128, .f32⟩
  | 49 => ⟨S1x3x128, .f32⟩
  | 50 => ⟨S3x128, .f32⟩
  | 51 => ⟨S320000x256, .f32⟩
  | 52 => ⟨S_, .f32⟩
  | 53 => ⟨S50000x256, .f32⟩
  | 54 => ⟨S320000x1, .i32⟩
  | 55 => ⟨S50000x256, .f32⟩
  | 56 => ⟨S1x512x256, .f32⟩
  | 57 => ⟨S512x256, .f32⟩
  | 58 => ⟨S1x256, .f32⟩
  | 59 => ⟨S256, .f32⟩
  | 60 => ⟨S1x256, .f32⟩
  | 61 => ⟨S50000x256, .f32⟩
  | 62 => ⟨S_, .f32⟩
  | 63 => ⟨S256, .f32⟩
  | 64 => ⟨S1x256, .f32⟩
  | 65 => ⟨S_, .f32⟩
  | 66 => ⟨S1x256, .f32⟩
  | 67 => ⟨S1x256, .f32⟩
  | 68 => ⟨S_, .i32⟩
  | 69 => ⟨S_, .f32⟩
  | 70 => ⟨S256, .f32⟩
  | 71 => ⟨S1x256, .f32⟩
  | 72 => ⟨S_, .f32⟩
  | 73 => ⟨S1x256, .f32⟩
  | 74 => ⟨S1x256, .f32⟩
  | 75 => ⟨S50000x256, .f32⟩
  | 76 => ⟨S50000x256, .f32⟩
  | 77 => ⟨S50000x256, .f32⟩
  | 78 => ⟨S_, .f32⟩
  | 79 => ⟨S_, .f32⟩
  | 80 => ⟨S_, .f32⟩
  | 81 => ⟨S_, .f32⟩
  | 82 => ⟨S256, .f32⟩
  | 83 => ⟨S1x256, .f32⟩
  | 84 => ⟨S1x256, .f32⟩
  | 85 => ⟨S1x256, .f32⟩
  | 86 => ⟨S_, .f32⟩
  | 87 => ⟨S_, .i1⟩
  | 88 => ⟨S_, .f32⟩
  | 89 => ⟨S_, .f32⟩
  | 90 => ⟨S1x256, .f32⟩
  | 91 => ⟨S1x256, .f32⟩
  | 92 => ⟨S1x256, .f32⟩
  | 93 => ⟨S256, .f32⟩
  | 94 => ⟨S1x256, .f32⟩
  | 95 => ⟨S1x256, .f32⟩
  | 96 => ⟨S256, .f32⟩
  | 97 => ⟨S1x256, .f32⟩
  | 98 => ⟨S50000x256, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S3200x256, .f32⟩
  | .local _ .vmem, ⟨1, _⟩ => ⟨S3200x256, .f32⟩
  | .local _ .vmem, ⟨2, _⟩ => ⟨S3200x5, .f32⟩
  | .local _ .vmem, ⟨3, _⟩ => ⟨S3200x5, .f32⟩
  | .local _ .vmem, ⟨4, _⟩ => ⟨S1x128, .f32⟩
  | .local _ .vmem, ⟨5, _⟩ => ⟨S3x128, .f32⟩
  | .local _ .vmem, ⟨6, _⟩ => ⟨S3200x256, .f32⟩
  | .local _ .vmem, ⟨7, _⟩ => ⟨S3200x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S512x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S2000x256, .f32⟩
  | .local _ .vmem, ⟨23, _⟩ => ⟨S2000x256, .f32⟩
  | .local _ .vmem, ⟨24, _⟩ => ⟨S3200x256, .f32⟩
  | .local _ .vmem, ⟨25, _⟩ => ⟨S3200x256, .f32⟩
  | .local _ .vmem, ⟨26, _⟩ => ⟨S3200x5, .f32⟩
  | .local _ .vmem, ⟨27, _⟩ => ⟨S3200x5, .f32⟩
  | .local _ .vmem, ⟨28, _⟩ => ⟨S1x128, .f32⟩
  | .local _ .vmem, ⟨29, _⟩ => ⟨S3x128, .f32⟩
  | .local _ .vmem, ⟨30, _⟩ => ⟨S3200x256, .f32⟩
  | .local _ .vmem, ⟨31, _⟩ => ⟨S3200x256, .f32⟩
  | .local _ .vmem, ⟨32, _⟩ => ⟨S2000x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S512x256, .f32⟩
  | .local _ .vmem, ⟨37, _⟩ => ⟨S1x256, .f32⟩
  | .local _ .vmem, ⟨38, _⟩ => ⟨S2000x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S1x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S3200x256, .f32⟩
  | .local _ .vmem, ⟨49, _⟩ => ⟨S3200x256, .f32⟩
  | .local _ .vmem, ⟨50, _⟩ => ⟨S3200x5, .f32⟩
  | .local _ .vmem, ⟨51, _⟩ => ⟨S3200x5, .f32⟩
  | .local _ .vmem, ⟨52, _⟩ => ⟨S1x128, .f32⟩
  | .local _ .vmem, ⟨53, _⟩ => ⟨S3x128, .f32⟩
  | .local _ .vmem, ⟨54, _⟩ => ⟨S3200x256, .f32⟩
  | .local _ .vmem, ⟨55, _⟩ => ⟨S3200x256, .f32⟩
  | .local _ .vmem, ⟨56, _⟩ => ⟨S2000x256, .f32⟩
  | .local _ .vmem, ⟨57, _⟩ => ⟨S2000x256, .f32⟩
  | .local _ .vmem, ⟨58, _⟩ => ⟨S2000x256, .f32⟩
  | .local _ .vmem, ⟨59, _⟩ => ⟨S2000x256, .f32⟩
  | .local _ .vmem, ⟨60, _⟩ => ⟨S512x256, .f32⟩
  | .local _ .vmem, ⟨61, _⟩ => ⟨S1x256, .f32⟩
  | .local _ .vmem, ⟨62, _⟩ => ⟨S2000x256, .f32⟩
  | .local _ .vmem, ⟨63, _⟩ => ⟨S2000x256, .f32⟩
  | .local _ .vmem, ⟨64, _⟩ => ⟨S2000x256, .f32⟩
  | .local _ .vmem, ⟨65, _⟩ => ⟨S2000x256, .f32⟩
  | .local _ .vmem, ⟨66, _⟩ => ⟨S1x256, .f32⟩
  | .local _ .vmem, ⟨67, _⟩ => ⟨S1x256, .f32⟩
  | .local _ .vmem, ⟨68, _⟩ => ⟨S1x256, .f32⟩
  | .local _ .vmem, ⟨69, _⟩ => ⟨S1x256, .f32⟩
  | .local _ .vmem, ⟨70, _⟩ => ⟨S2000x256, .f32⟩
  | .local _ .vmem, ⟨71, _⟩ => ⟨S2000x256, .f32⟩
  | .local _ .vmem, ⟨72, _⟩ => ⟨S3200x256, .f32⟩
  | .local _ .vmem, ⟨73, _⟩ => ⟨S3200x256, .f32⟩
  | .local _ .vmem, ⟨74, _⟩ => ⟨S3200x5, .f32⟩
  | .local _ .vmem, ⟨75, _⟩ => ⟨S3200x5, .f32⟩
  | .local _ .vmem, ⟨76, _⟩ => ⟨S1x128, .f32⟩
  | .local _ .vmem, ⟨77, _⟩ => ⟨S3x128, .f32⟩
  | .local _ .vmem, ⟨78, _⟩ => ⟨S3200x256, .f32⟩
  | .local _ .vmem, ⟨79, _⟩ => ⟨S3200x256, .f32⟩
  | .local _ .vmem, ⟨80, _⟩ => ⟨S2000x256, .f32⟩
  | .local _ .vmem, ⟨81, _⟩ => ⟨S2000x256, .f32⟩
  | .local _ .vmem, ⟨82, _⟩ => ⟨S2000x256, .f32⟩
  | .local _ .vmem, ⟨83, _⟩ => ⟨S2000x256, .f32⟩
  | .local _ .vmem, ⟨84, _⟩ => ⟨S512x256, .f32⟩
  | .local _ .vmem, ⟨85, _⟩ => ⟨S1x256, .f32⟩
  | .local _ .vmem, ⟨86, _⟩ => ⟨S2000x256, .f32⟩
  | .local _ .vmem, ⟨87, _⟩ => ⟨S2000x256, .f32⟩
  | .local _ .vmem, ⟨88, _⟩ => ⟨S2000x256, .f32⟩
  | .local _ .vmem, ⟨89, _⟩ => ⟨S2000x256, .f32⟩
  | .local _ .vmem, ⟨90, _⟩ => ⟨S1x256, .f32⟩
  | .local _ .vmem, ⟨91, _⟩ => ⟨S1x256, .f32⟩
  | .local _ .vmem, ⟨92, _⟩ => ⟨S1x256, .f32⟩
  | .local _ .vmem, ⟨93, _⟩ => ⟨S1x256, .f32⟩
  | .local _ .vmem, ⟨94, _⟩ => ⟨S2000x256, .f32⟩
  | .local _ .vmem, ⟨95, _⟩ => ⟨S2000x256, .f32⟩
  | .local _ .vmem, ⟨96, _⟩ => ⟨S3200x256, .f32⟩
  | .local _ .vmem, ⟨97, _⟩ => ⟨S3200x256, .f32⟩
  | .local _ .vmem, ⟨98, _⟩ => ⟨S3200x5, .f32⟩
  | .local _ .vmem, ⟨99, _⟩ => ⟨S3200x5, .f32⟩
  | .local _ .vmem, ⟨100, _⟩ => ⟨S1x128, .f32⟩
  | .local _ .vmem, ⟨101, _⟩ => ⟨S3x128, .f32⟩
  | .local _ .vmem, ⟨102, _⟩ => ⟨S3200x256, .f32⟩
  | .local _ .vmem, ⟨103, _⟩ => ⟨S3200x256, .f32⟩
  | .local _ .vmem, ⟨104, _⟩ => ⟨S2000x256, .f32⟩
  | .local _ .vmem, ⟨105, _⟩ => ⟨S2000x256, .f32⟩
  | .local _ .vmem, ⟨106, _⟩ => ⟨S2000x256, .f32⟩
  | .local _ .vmem, ⟨107, _⟩ => ⟨S2000x256, .f32⟩
  | .local _ .vmem, ⟨108, _⟩ => ⟨S512x256, .f32⟩
  | .local _ .vmem, ⟨109, _⟩ => ⟨S1x256, .f32⟩
  | .local _ .vmem, ⟨110, _⟩ => ⟨S2000x256, .f32⟩
  | .local _ .vmem, ⟨111, _⟩ => ⟨S2000x256, .f32⟩
  | .local _ .vmem, ⟨112, _⟩ => ⟨S2000x256, .f32⟩
  | .local _ .vmem, ⟨113, _⟩ => ⟨S2000x256, .f32⟩
  | .local _ .vmem, ⟨114, _⟩ => ⟨S1x256, .f32⟩
  | .local _ .vmem, ⟨115, _⟩ => ⟨S1x256, .f32⟩
  | .local _ .vmem, ⟨116, _⟩ => ⟨S1x256, .f32⟩
  | .local _ .vmem, ⟨117, _⟩ => ⟨S1x256, .f32⟩
  | .local _ .vmem, ⟨118, _⟩ => ⟨S2000x256, .f32⟩
  | .local _ .vmem, ⟨119, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_7 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_cst_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_cst_1 : Ref sig .tc := ⟨.hbm, 91, rfl⟩
abbrev main_call1_v8 : Ref sig .tc := ⟨.hbm, 92, rfl⟩
abbrev main_call1_cst_2 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_v12 : Ref sig .tc := ⟨.hbm, 97, rfl⟩
abbrev main_call1_cst_3 : Ref sig .tc := ⟨.hbm, 98, rfl⟩
abbrev main_call1_v13 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_13 : Ref sig .tc := ⟨.hbm, 111, rfl⟩
abbrev main_v63 : Ref sig .tc := ⟨.hbm, 112, rfl⟩
abbrev main_v64 : Ref sig .tc := ⟨.hbm, 113, rfl⟩
abbrev main_c_14 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_cst_15 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_cst_16 : Ref sig .tc := ⟨.hbm, 135, rfl⟩
abbrev main_v84 : Ref sig .tc := ⟨.hbm, 136, rfl⟩
abbrev main_v85 : Ref sig .tc := ⟨.hbm, 137, rfl⟩
abbrev main_cst_17 : Ref sig .tc := ⟨.hbm, 138, rfl⟩
abbrev main_v86 : Ref sig .tc := ⟨.hbm, 139, rfl⟩
abbrev main_v87 : Ref sig .tc := ⟨.hbm, 140, rfl⟩
abbrev main_c_18 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_v12 : Ref sig .tc := ⟨.hbm, 158, rfl⟩
abbrev main_call2_cst_3 : Ref sig .tc := ⟨.hbm, 159, rfl⟩
abbrev main_call2_v13 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_c_19 : Ref sig .tc := ⟨.hbm, 172, rfl⟩
abbrev main_v96 : Ref sig .tc := ⟨.hbm, 173, rfl⟩
abbrev main_v97 : Ref sig .tc := ⟨.hbm, 174, rfl⟩
abbrev main_c_20 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_cst_21 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_cst_22 : Ref sig .tc := ⟨.hbm, 196, rfl⟩
abbrev main_v117 : Ref sig .tc := ⟨.hbm, 197, rfl⟩
abbrev main_v118 : Ref sig .tc := ⟨.hbm, 198, rfl⟩
abbrev main_cst_23 : Ref sig .tc := ⟨.hbm, 199, rfl⟩
abbrev main_v119 : Ref sig .tc := ⟨.hbm, 200, rfl⟩
abbrev main_v120 : Ref sig .tc := ⟨.hbm, 201, rfl⟩
abbrev main_c_24 : Ref sig .tc := ⟨.hbm, 202, rfl⟩
abbrev main_call3_cst : Ref sig .tc := ⟨.hbm, 203, rfl⟩
abbrev main_call3_v0 : Ref sig .tc := ⟨.hbm, 204, rfl⟩
abbrev main_call3_v1 : Ref sig .tc := ⟨.hbm, 205, rfl⟩
abbrev main_call3_cst_0 : Ref sig .tc := ⟨.hbm, 206, rfl⟩
abbrev main_call3_v2 : Ref sig .tc := ⟨.hbm, 207, rfl⟩
abbrev main_call3_v3 : Ref sig .tc := ⟨.hbm, 208, rfl⟩
abbrev main_call3_v4 : Ref sig .tc := ⟨.hbm, 209, rfl⟩
abbrev main_call3_v5 : Ref sig .tc := ⟨.hbm, 210, rfl⟩
abbrev main_call3_v6 : Ref sig .tc := ⟨.hbm, 211, rfl⟩
abbrev main_call3_v7 : Ref sig .tc := ⟨.hbm, 212, rfl⟩
abbrev main_call3_cst_1 : Ref sig .tc := ⟨.hbm, 213, rfl⟩
abbrev main_call3_v8 : Ref sig .tc := ⟨.hbm, 214, rfl⟩
abbrev main_call3_cst_2 : Ref sig .tc := ⟨.hbm, 215, rfl⟩
abbrev main_call3_v9 : Ref sig .tc := ⟨.hbm, 216, rfl⟩
abbrev main_call3_v10 : Ref sig .tc := ⟨.hbm, 217, rfl⟩
abbrev main_call3_v11 : Ref sig .tc := ⟨.hbm, 218, rfl⟩
abbrev main_call3_v12 : Ref sig .tc := ⟨.hbm, 219, rfl⟩
abbrev main_call3_cst_3 : Ref sig .tc := ⟨.hbm, 220, rfl⟩
abbrev main_call3_v13 : Ref sig .tc := ⟨.hbm, 221, rfl⟩
abbrev main_call3_cst_4 : Ref sig .tc := ⟨.hbm, 222, rfl⟩
abbrev main_call3_call0_v0 : Ref sig .tc := ⟨.hbm, 223, rfl⟩
abbrev main_call3_call0_v1 : Ref sig .tc := ⟨.hbm, 224, rfl⟩
abbrev main_v121 : Ref sig .tc := ⟨.hbm, 225, rfl⟩
abbrev main_v122 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_v126 : Ref sig .tc := ⟨.hbm, 230, rfl⟩
abbrev main_v127 : Ref sig .tc := ⟨.hbm, 231, rfl⟩
abbrev main_v128 : Ref sig .tc := ⟨.hbm, 232, rfl⟩
abbrev main_c_25 : Ref sig .tc := ⟨.hbm, 233, rfl⟩
abbrev main_v129 : Ref sig .tc := ⟨.hbm, 234, rfl⟩
abbrev main_v130 : Ref sig .tc := ⟨.hbm, 235, rfl⟩
abbrev main_c_26 : Ref sig .tc := ⟨.hbm, 236, rfl⟩
abbrev main_v131 : Ref sig .tc := ⟨.hbm, 237, rfl⟩
abbrev main_v132 : Ref sig .tc := ⟨.hbm, 238, rfl⟩
abbrev main_v133 : Ref sig .tc := ⟨.hbm, 239, rfl⟩
abbrev main_v134 : Ref sig .tc := ⟨.hbm, 240, rfl⟩
abbrev main_v135 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_v139 : Ref sig .tc := ⟨.hbm, 245, rfl⟩
abbrev main_v140 : Ref sig .tc := ⟨.hbm, 246, rfl⟩
abbrev main_cst_27 : Ref sig .tc := ⟨.hbm, 247, rfl⟩
abbrev main_v141 : Ref sig .tc := ⟨.hbm, 248, rfl⟩
abbrev main_v142 : Ref sig .tc := ⟨.hbm, 249, rfl⟩
abbrev main_v143 : Ref sig .tc := ⟨.hbm, 250, rfl⟩
abbrev main_v144 : Ref sig .tc := ⟨.hbm, 251, rfl⟩
abbrev main_v145 : Ref sig .tc := ⟨.hbm, 252, rfl⟩
abbrev main_v146 : Ref sig .tc := ⟨.hbm, 253, rfl⟩
abbrev main_v147 : Ref sig .tc := ⟨.hbm, 254, rfl⟩
abbrev main_v148 : Ref sig .tc := ⟨.hbm, 255, rfl⟩
abbrev main_v149 : Ref sig .tc := ⟨.hbm, 256, rfl⟩
abbrev main_cst_28 : Ref sig .tc := ⟨.hbm, 257, rfl⟩
abbrev main_v150 : Ref sig .tc := ⟨.hbm, 258, rfl⟩
abbrev main_v151 : Ref sig .tc := ⟨.hbm, 259, rfl⟩
abbrev main_cst_29 : Ref sig .tc := ⟨.hbm, 260, rfl⟩
abbrev main_v152 : Ref sig .tc := ⟨.hbm, 261, rfl⟩
abbrev main_v153 : Ref sig .tc := ⟨.hbm, 262, rfl⟩
abbrev main_c_30 : Ref sig .tc := ⟨.hbm, 263, rfl⟩
abbrev main_call4_cst : Ref sig .tc := ⟨.hbm, 264, rfl⟩
abbrev main_call4_v0 : Ref sig .tc := ⟨.hbm, 265, rfl⟩
abbrev main_call4_v1 : Ref sig .tc := ⟨.hbm, 266, rfl⟩
abbrev main_call4_cst_0 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_call4_v5 : Ref sig .tc := ⟨.hbm, 271, rfl⟩
abbrev main_call4_v6 : Ref sig .tc := ⟨.hbm, 272, rfl⟩
abbrev main_call4_v7 : Ref sig .tc := ⟨.hbm, 273, rfl⟩
abbrev main_call4_cst_1 : Ref sig .tc := ⟨.hbm, 274, rfl⟩
abbrev main_call4_v8 : Ref sig .tc := ⟨.hbm, 275, rfl⟩
abbrev main_call4_cst_2 : Ref sig .tc := ⟨.hbm, 276, rfl⟩
abbrev main_call4_v9 : Ref sig .tc := ⟨.hbm, 277, rfl⟩
abbrev main_call4_v10 : Ref sig .tc := ⟨.hbm, 278, rfl⟩
abbrev main_call4_v11 : Ref sig .tc := ⟨.hbm, 279, rfl⟩
abbrev main_call4_v12 : Ref sig .tc := ⟨.hbm, 280, rfl⟩
abbrev main_call4_cst_3 : Ref sig .tc := ⟨.hbm, 281, rfl⟩
abbrev main_call4_v13 : Ref sig .tc := ⟨.hbm, 282, rfl⟩
abbrev main_call4_cst_4 : Ref sig .tc := ⟨.hbm, 283, rfl⟩
abbrev main_call4_call0_v0 : Ref sig .tc := ⟨.hbm, 284, rfl⟩
abbrev main_call4_call0_v1 : Ref sig .tc := ⟨.hbm, 285, rfl⟩
abbrev main_v154 : Ref sig .tc := ⟨.hbm, 286, rfl⟩
abbrev main_v155 : Ref sig .tc := ⟨.hbm, 287, rfl⟩
abbrev main_v156 : Ref sig .tc := ⟨.hbm, 288, rfl⟩
abbrev main_v157 : Ref sig .tc := ⟨.hbm, 289, rfl⟩
abbrev main_v158 : Ref sig .tc := ⟨.hbm, 290, rfl⟩
abbrev main_v159 : Ref sig .tc := ⟨.hbm, 291, rfl⟩
abbrev main_v160 : Ref sig .tc := ⟨.hbm, 292, rfl⟩
abbrev main_v161 : Ref sig .tc := ⟨.hbm, 293, rfl⟩
abbrev main_c_31 : Ref sig .tc := ⟨.hbm, 294, rfl⟩
abbrev main_v162 : Ref sig .tc := ⟨.hbm, 295, rfl⟩
abbrev main_v163 : Ref sig .tc := ⟨.hbm, 296, rfl⟩
abbrev main_c_32 : Ref sig .tc := ⟨.hbm, 297, rfl⟩
abbrev main_v164 : Ref sig .tc := ⟨.hbm, 298, rfl⟩
abbrev main_v165 : Ref sig .tc := ⟨.hbm, 299, rfl⟩
abbrev main_v166 : Ref sig .tc := ⟨.hbm, 300, rfl⟩
abbrev main_v167 : Ref sig .tc := ⟨.hbm, 301, rfl⟩
abbrev main_v168 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_cst_33 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_cst_34 : Ref sig .tc := ⟨.hbm, 318, rfl⟩
abbrev main_v183 : Ref sig .tc := ⟨.hbm, 319, rfl⟩
abbrev main_v184 : Ref sig .tc := ⟨.hbm, 320, rfl⟩
abbrev main_cst_35 : Ref sig .tc := ⟨.hbm, 321, rfl⟩
abbrev main_v185 : Ref sig .tc := ⟨.hbm, 322, rfl⟩
abbrev main_v186 : Ref sig .tc := ⟨.hbm, 323, rfl⟩
abbrev main_c_36 : Ref sig .tc := ⟨.hbm, 324, rfl⟩
abbrev main_call5_cst : Ref sig .tc := ⟨.hbm, 325, rfl⟩
abbrev main_call5_v0 : Ref sig .tc := ⟨.hbm, 326, rfl⟩
abbrev main_call5_v1 : Ref sig .tc := ⟨.hbm, 327, rfl⟩
abbrev main_call5_cst_0 : Ref sig .tc := ⟨.hbm, 328, rfl⟩
abbrev main_call5_v2 : Ref sig .tc := ⟨.hbm, 329, rfl⟩
abbrev main_call5_v3 : Ref sig .tc := ⟨.hbm, 330, rfl⟩
abbrev main_call5_v4 : Ref sig .tc := ⟨.hbm, 331, rfl⟩
abbrev main_call5_v5 : Ref sig .tc := ⟨.hbm, 332, rfl⟩
abbrev main_call5_v6 : Ref sig .tc := ⟨.hbm, 333, rfl⟩
abbrev main_call5_v7 : Ref sig .tc := ⟨.hbm, 334, rfl⟩
abbrev main_call5_cst_1 : Ref sig .tc := ⟨.hbm, 335, rfl⟩
abbrev main_call5_v8 : Ref sig .tc := ⟨.hbm, 336, rfl⟩
abbrev main_call5_cst_2 : Ref sig .tc := ⟨.hbm, 337, rfl⟩
abbrev main_call5_v9 : Ref sig .tc := ⟨.hbm, 338, rfl⟩
abbrev main_call5_v10 : Ref sig .tc := ⟨.hbm, 339, rfl⟩
abbrev main_call5_v11 : Ref sig .tc := ⟨.hbm, 340, rfl⟩
abbrev main_call5_v12 : Ref sig .tc := ⟨.hbm, 341, rfl⟩
abbrev main_call5_cst_3 : Ref sig .tc := ⟨.hbm, 342, rfl⟩
abbrev main_call5_v13 : Ref sig .tc := ⟨.hbm, 343, rfl⟩
abbrev main_call5_cst_4 : Ref sig .tc := ⟨.hbm, 344, rfl⟩
abbrev main_call5_call0_v0 : Ref sig .tc := ⟨.hbm, 345, rfl⟩
abbrev main_call5_call0_v1 : Ref sig .tc := ⟨.hbm, 346, rfl⟩
abbrev main_v187 : Ref sig .tc := ⟨.hbm, 347, rfl⟩
abbrev main_v188 : Ref sig .tc := ⟨.hbm, 348, rfl⟩
abbrev main_v189 : Ref sig .tc := ⟨.hbm, 349, rfl⟩
abbrev main_v190 : Ref sig .tc := ⟨.hbm, 350, rfl⟩
abbrev main_v191 : Ref sig .tc := ⟨.hbm, 351, rfl⟩
abbrev main_v192 : Ref sig .tc := ⟨.hbm, 352, rfl⟩
abbrev main_v193 : Ref sig .tc := ⟨.hbm, 353, rfl⟩
abbrev main_v194 : Ref sig .tc := ⟨.hbm, 354, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg3_0 : Ref sig .tc := ⟨.vmem, 53, rfl⟩
abbrev cc6_stg4_0 : Ref sig .tc := ⟨.vmem, 54, rfl⟩
abbrev cc6_stg4_1 : Ref sig .tc := ⟨.vmem, 55, rfl⟩
abbrev cc7_stg0_0 : Ref sig .tc := ⟨.vmem, 56, rfl⟩
abbrev cc7_stg0_1 : Ref sig .tc := ⟨.vmem, 57, rfl⟩
abbrev cc7_stg1_0 : Ref sig .tc := ⟨.vmem, 58, rfl⟩
abbrev cc7_stg1_1 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg4_0 : Ref sig .tc := ⟨.vmem, 69, rfl⟩
abbrev cc8_stg5_0 : Ref sig .tc := ⟨.vmem, 70, rfl⟩
abbrev cc8_stg5_1 : Ref sig .tc := ⟨.vmem, 71, rfl⟩
abbrev cc9_stg0_0 : Ref sig .tc := ⟨.vmem, 72, rfl⟩
abbrev cc9_stg0_1 : Ref sig .tc := ⟨.vmem, 73, rfl⟩
abbrev cc9_stg1_0 : Ref sig .tc := ⟨.vmem, 74, rfl⟩
abbrev cc9_stg1_1 : Ref sig .tc := ⟨.vmem, 75, rfl⟩
abbrev cc9_stg2_0 : Ref sig .tc := ⟨.vmem, 76, rfl⟩
abbrev cc9_stg3_0 : Ref sig .tc := ⟨.vmem, 77, rfl⟩
abbrev cc9_stg4_0 : Ref sig .tc := ⟨.vmem, 78, rfl⟩
abbrev cc9_stg4_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg1_1 : Ref sig .tc := ⟨.vmem, 83, rfl⟩
abbrev cc10_stg2_0 : Ref sig .tc := ⟨.vmem, 84, rfl⟩
abbrev cc10_stg3_0 : Ref sig .tc := ⟨.vmem, 85, rfl⟩
abbrev cc10_stg4_0 : Ref sig .tc := ⟨.vmem, 86, rfl⟩
abbrev cc10_stg4_1 : Ref sig .tc := ⟨.vmem, 87, rfl⟩
abbrev cc11_stg0_0 : Ref sig .tc := ⟨.vmem, 88, rfl⟩
abbrev cc11_stg0_1 : Ref sig .tc := ⟨.vmem, 89, rfl⟩
abbrev cc11_stg1_0 : Ref sig .tc := ⟨.vmem, 90, rfl⟩
abbrev cc11_stg2_0 : Ref sig .tc := ⟨.vmem, 91, rfl⟩
abbrev cc11_stg3_0 : Ref sig .tc := ⟨.vmem, 92, rfl⟩
abbrev cc11_stg4_0 : Ref sig .tc := ⟨.vmem, 93, rfl⟩
abbrev cc11_stg5_0 : Ref sig .tc := ⟨.vmem, 94, rfl⟩
abbrev cc11_stg5_1 : Ref sig .tc := ⟨.vmem, 95, rfl⟩
abbrev cc12_stg0_0 : Ref sig .tc := ⟨.vmem, 96, rfl⟩
abbrev cc12_stg0_1 : Ref sig .tc := ⟨.vmem, 97, rfl⟩
abbrev cc12_stg1_0 : Ref sig .tc := ⟨.vmem, 98, rfl⟩
abbrev cc12_stg1_1 : Ref sig .tc := ⟨.vmem, 99, rfl⟩
abbrev cc12_stg2_0 : Ref sig .tc := ⟨.vmem, 100, rfl⟩
abbrev cc12_stg3_0 : Ref sig .tc := ⟨.vmem, 101, rfl⟩
abbrev cc12_stg4_0 : Ref sig .tc := ⟨.vmem, 102, rfl⟩
abbrev cc12_stg4_1 : Ref sig .tc := ⟨.vmem, 103, rfl⟩
abbrev cc13_stg0_0 : Ref sig .tc := ⟨.vmem, 104, rfl⟩
abbrev cc13_stg0_1 : Ref sig .tc := ⟨.vmem, 105, rfl⟩
abbrev cc13_stg1_0 : Ref sig .tc := ⟨.vmem, 106, rfl⟩
abbrev cc13_stg1_1 : Ref sig .tc := ⟨.vmem, 107, rfl⟩
abbrev cc13_stg2_0 : Ref sig .tc := ⟨.vmem, 108, rfl⟩
abbrev cc13_stg3_0 : Ref sig .tc := ⟨.vmem, 109, rfl⟩
abbrev cc13_stg4_0 : Ref sig .tc := ⟨.vmem, 110, rfl⟩
abbrev cc13_stg4_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg4_0 : Ref sig .tc := ⟨.vmem, 117, rfl⟩
abbrev cc14_stg5_0 : Ref sig .tc := ⟨.vmem, 118, rfl⟩
abbrev cc14_stg5_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem4_0 : DmaSem sig := 54
abbrev cc6_sem4_1 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem4_0 : DmaSem sig := 62
abbrev cc7_sem4_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem4_0 : DmaSem sig := 78
abbrev cc9_sem4_1 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem4_0 : DmaSem sig := 86
abbrev cc10_sem4_1 : DmaSem sig := 87
abbrev cc11_sem0_0 : DmaSem sig := 88
abbrev cc11_sem0_1 : DmaSem sig := 89
abbrev cc11_sem1_0 : DmaSem sig := 90
abbrev cc11_sem2_0 : DmaSem sig := 91
abbrev cc11_sem3_0 : DmaSem sig := 92
abbrev cc11_sem4_0 : DmaSem sig := 93
abbrev cc11_sem5_0 : DmaSem sig := 94
abbrev cc11_sem5_1 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem3_0 : DmaSem sig := 101
abbrev cc12_sem4_0 : DmaSem sig := 102
abbrev cc12_sem4_1 : DmaSem sig := 103
abbrev cc13_sem0_0 : DmaSem sig := 104
abbrev cc13_sem0_1 : DmaSem sig := 105
abbrev cc13_sem1_0 : DmaSem sig := 106
abbrev cc13_sem1_1 : DmaSem sig := 107
abbrev cc13_sem2_0 : DmaSem sig := 108
abbrev cc13_sem3_0 : DmaSem sig := 109
abbrev cc13_sem4_0 : DmaSem sig := 110
abbrev cc13_sem4_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem4_0 : DmaSem sig := 117
abbrev cc14_sem5_0 : DmaSem sig := 118
abbrev cc14_sem5_1 : DmaSem sig := 119

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3200x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x5 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S3x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S3200x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S512x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![100], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S3200x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S3200x5 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S3x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S3200x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S512x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x256 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x256 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![100], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S3200x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3200x5 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S3x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S3200x256 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S2000x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S2000x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S512x256 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x256 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S2000x256 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x256 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![100], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S3200x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S3200x5 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S3x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S3200x256 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![25], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S2000x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S512x256 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x256 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S2000x256 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev grid14 : Pipeline.Grid := ⟨1, ![25], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S2000x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x256 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x256 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x256 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x256 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 2 → Memref sig .tc .vmem S2000x256 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S50000 : S_.BroadcastsInDim S50000 (![] : Fin 0 → Fin S50000.rank)
  bcast_S320000_S320000x1_0 : S320000.BroadcastsInDim S320000x1 (![0] : Fin 1 → Fin S320000x1.rank)
  shapeCasts_S320000_S320000x1 : S320000.ShapeCasts S320000x1
  concatenates_S320000x4_S320000x1_S320000x5_d1 : Shape.Concatenates [S320000x4, S320000x1] S320000x5 1
  slices_S5x1x128_S1x1x128_0_0_0 : S5x1x128.Slices ![0, 0, 0] S1x1x128
  shapeCasts_S1x1x128_S1x128 : S1x1x128.ShapeCasts S1x128
  slices_S5x3x128_S1x3x128_0_0_0 : S5x3x128.Slices ![0, 0, 0] S1x3x128
  shapeCasts_S1x3x128_S3x128 : S1x3x128.ShapeCasts S3x128
  inb_S3200x5_S3200x4_0_0 : ∀ a, (![0, 0] : Fin 2 → Nat) a + S3200x4.size a ≤ S3200x5.size a
  h_S3200x4 : 0 < S3200x4.numel
  shapeCasts_S3200x4_S3200x4 : S3200x4.ShapeCasts S3200x4
  inb_S3200x5_S3200x1_0_4 : ∀ a, (![0, 4] : Fin 2 → Nat) a + S3200x1.size a ≤ S3200x5.size a
  h_S3200x1 : 0 < S3200x1.numel
  shapeCasts_S3200x1_S3200x1 : S3200x1.ShapeCasts S3200x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S3x128_S3x128_0_0 : ∀ a, (![0, 0] : Fin 2 → Nat) a + S3x128.size a ≤ S3x128.size a
  h_S3x128 : 0 < S3x128.numel
  shapeCasts_S3x128_S3x128 : S3x128.ShapeCasts S3x128
  slices_S3200x4_o0_3_S3200x1 : S3200x4.Slices ![0, 3] S3200x1
  broadcasts_S3200x1_S3200x128 : S3200x1.Broadcasts S3200x128
  broadcasts_S1x128_S3200x128 : S1x128.Broadcasts S3200x128
  slices_S3200x4_o0_0_S3200x1 : S3200x4.Slices ![0, 0] S3200x1
  slices_S3x128_o0_0_S1x128 : S3x128.Slices ![0, 0] S1x128
  slices_S3200x4_o0_1_S3200x1 : S3200x4.Slices ![0, 1] S3200x1
  slices_S3x128_o1_0_S1x128 : S3x128.Slices ![1, 0] S1x128
  slices_S3200x4_o0_2_S3200x1 : S3200x4.Slices ![0, 2] S3200x1
  slices_S3x128_o2_0_S1x128 : S3x128.Slices ![2, 0] S1x128
  inb_S3200x256_S3200x128_0_0 : ∀ a, (![0, 0] : Fin 2 → Nat) a + S3200x128.size a ≤ S3200x256.size a
  h_S3200x128 : 0 < S3200x128.numel
  shapeCasts_S3200x128_S3200x128 : S3200x128.ShapeCasts S3200x128
  inb_S3200x256_S3200x128_0_128 : ∀ a, (![0, 128] : Fin 2 → Nat) a + S3200x128.size a ≤ S3200x256.size a
  bcast_S_S50000x256 : S_.BroadcastsInDim S50000x256 (![] : Fin 0 → Fin S50000x256.rank)
  slices_S5x512x256_S1x512x256_0_0_0 : S5x512x256.Slices ![0, 0, 0] S1x512x256
  shapeCasts_S1x512x256_S512x256 : S1x512x256.ShapeCasts S512x256
  slices_S5x256_S1x256_0_0 : S5x256.Slices ![0, 0] S1x256
  shapeCasts_S1x256_S256 : S1x256.ShapeCasts S256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  slices_S512x256_o0_0_S256x256 : S512x256.Slices ![0, 0] S256x256
  slices_S512x256_o256_0_S256x256 : S512x256.Slices ![256, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reducesTo_S50000x256_S256_d0 : S50000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S50000x256_0_1 : S1x256.BroadcastsInDim S50000x256 (![0, 1] : Fin 2 → Fin S50000x256.rank)
  slices_S5x1x128_S1x1x128_1_0_0 : S5x1x128.Slices ![1, 0, 0] S1x1x128
  slices_S5x3x128_S1x3x128_1_0_0 : S5x3x128.Slices ![1, 0, 0] S1x3x128
  slices_S5x512x256_S1x512x256_1_0_0 : S5x512x256.Slices ![1, 0, 0] S1x512x256
  slices_S5x256_S1x256_1_0 : S5x256.Slices ![1, 0] S1x256
  slices_S5x1x128_S1x1x128_2_0_0 : S5x1x128.Slices ![2, 0, 0] S1x1x128
  slices_S5x3x128_S1x3x128_2_0_0 : S5x3x128.Slices ![2, 0, 0] S1x3x128
  slices_S5x512x256_S1x512x256_2_0_0 : S5x512x256.Slices ![2, 0, 0] S1x512x256
  slices_S5x256_S1x256_2_0 : S5x256.Slices ![2, 0] S1x256
  slices_S5x1x128_S1x1x128_3_0_0 : S5x1x128.Slices ![3, 0, 0] S1x1x128
  slices_S5x3x128_S1x3x128_3_0_0 : S5x3x128.Slices ![3, 0, 0] S1x3x128
  slices_S5x512x256_S1x512x256_3_0_0 : S5x512x256.Slices ![3, 0, 0] S1x512x256
  slices_S5x256_S1x256_3_0 : S5x256.Slices ![3, 0] S1x256
  slices_S5x1x128_S1x1x128_4_0_0 : S5x1x128.Slices ![4, 0, 0] S1x1x128
  slices_S5x3x128_S1x3x128_4_0_0 : S5x3x128.Slices ![4, 0, 0] S1x3x128
  slices_S5x512x256_S1x512x256_4_0_0 : S5x512x256.Slices ![4, 0, 0] S1x512x256
  slices_S5x256_S1x256_4_0 : S5x256.Slices ![4, 0] S1x256
  scatter_S50000_S320000x1_S320000_n_0_0_1_wf : ScatterDims.WF S50000 S320000x1 S320000 [] [0] [0] 1
  gather_S50000_S320000x1_S320000_n_0_n_n_0_1_1_wf : GatherDims.WF S50000 S320000x1 S320000 [] [0] [] [0] [] 1 ![1]
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .f32 = 32 ∨ (Rect.block (s := S320000x256) S3200x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x5.size a ≤ S320000x5.size a
  hwx0_1 : ∀ i : grid0.Coords, EltTy.bits .f32 = 32 ∨ (Rect.block (s := S320000x5) S3200x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3200x256.size a ≤ S320000x256.size a
  hwx0_4 : ∀ i : grid0.Coords, EltTy.bits .f32 = 32 ∨ (Rect.block (s := S320000x256) S3200x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S512x256.size a
  hwx1_2 : ∀ i : grid1.Coords, EltTy.bits .f32 = 32 ∨ (Rect.block (s := S512x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3200x256.size a ≤ S320000x256.size a
  hwx3_0 : ∀ i : grid3.Coords, EltTy.bits .f32 = 32 ∨ (Rect.block (s := S320000x256) S3200x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S3200x5.size a ≤ S320000x5.size a
  hwx3_1 : ∀ i : grid3.Coords, EltTy.bits .f32 = 32 ∨ (Rect.block (s := S320000x5) S3200x5.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x128.size a ≤ S3x128.size a
  hwx3_3 : ∀ i : grid3.Coords, EltTy.bits .f32 = 32 ∨ (Rect.block (s := S3x128) S3x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S3200x256.size a ≤ S320000x256.size a
  hwx3_4 : ∀ i : grid3.Coords, EltTy.bits .f32 = 32 ∨ (Rect.block (s := S320000x256) S3200x256.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S50000x256.size a
  hwx4_1 : ∀ i : grid4.Coords, EltTy.bits .f32 = 32 ∨ (Rect.block (s := S50000x256) S2000x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512x256.size a ≤ S512x256.size a
  hwx4_2 : ∀ i : grid4.Coords, EltTy.bits .f32 = 32 ∨ (Rect.block (s := S512x256) S512x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S50000x256.size a
  hwx4_4 : ∀ i : grid4.Coords, EltTy.bits .f32 = 32 ∨ (Rect.block (s := S50000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S3200x256.size a ≤ S320000x256.size a
  hwx6_0 : ∀ i : grid6.Coords, EltTy.bits .f32 = 32 ∨ (Rect.block (s := S320000x256) S3200x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S3200x5.size a ≤ S320000x5.size a
  hwx6_1 : ∀ i : grid6.Coords, EltTy.bits .f32 = 32 ∨ (Rect.block (s := S320000x5) S3200x5.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x128.size a ≤ S3x128.size a
  hwx6_3 : ∀ i : grid6.Coords, EltTy.bits .f32 = 32 ∨ (Rect.block (s := S3x128) S3x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S3200x256.size a ≤ S320000x256.size a
  hwx6_4 : ∀ i : grid6.Coords, EltTy.bits .f32 = 32 ∨ (Rect.block (s := S320000x256) S3200x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S50000x256.size a
  hwx7_0 : ∀ i : grid7.Coords, EltTy.bits .f32 = 32 ∨ (Rect.block (s := S50000x256) S2000x256.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x256.size a ≤ S50000x256.size a
  hwx7_1 : ∀ i : grid7.Coords, EltTy.bits .f32 = 32 ∨ (Rect.block (s := S50000x256) S2000x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512x256.size a ≤ S512x256.size a
  hwx7_2 : ∀ i : grid7.Coords, EltTy.bits .f32 = 32 ∨ (Rect.block (s := S512x256) S512x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x256.size a ≤ S1x256.size a
  hwx7_3 : ∀ i : grid7.Coords, EltTy.bits .f32 = 32 ∨ (Rect.block (s := S1x256) S1x256.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x256.size a ≤ S50000x256.size a
  hwx7_4 : ∀ i : grid7.Coords, EltTy.bits .f32 = 32 ∨ (Rect.block (s := S50000x256) S2000x256.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x256.size a ≤ S50000x256.size a
  hwx8_0 : ∀ i : grid8.Coords, EltTy.bits .f32 = 32 ∨ (Rect.block (s := S50000x256) S2000x256.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x256.size a ≤ S1x256.size a
  hwx8_1 : ∀ i : grid8.Coords, EltTy.bits .f32 = 32 ∨ (Rect.block (s := S1x256) S1x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x256.size a ≤ S50000x256.size a
  hwx8_5 : ∀ i : grid8.Coords, EltTy.bits .f32 = 32 ∨ (Rect.block (s := S50000x256) S2000x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S3200x256.size a ≤ S320000x256.size a
  hwx9_0 : ∀ i : grid9.Coords, EltTy.bits .f32 = 32 ∨ (Rect.block (s := S320000x256) S3200x256.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S3200x5.size a ≤ S320000x5.size a
  hwx9_1 : ∀ i : grid9.Coords, EltTy.bits .f32 = 32 ∨ (Rect.block (s := S320000x5) S3200x5.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S3x128.size a ≤ S3x128.size a
  hwx9_3 : ∀ i : grid9.Coords, EltTy.bits .f32 = 32 ∨ (Rect.block (s := S3x128) S3x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S3200x256.size a ≤ S320000x256.size a
  hwx9_4 : ∀ i : grid9.Coords, EltTy.bits .f32 = 32 ∨ (Rect.block (s := S320000x256) S3200x256.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x256.size a ≤ S50000x256.size a
  hwx10_0 : ∀ i : grid10.Coords, EltTy.bits .f32 = 32 ∨ (Rect.block (s := S50000x256) S2000x256.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S2000x256.size a ≤ S50000x256.size a
  hwx10_1 : ∀ i : grid10.Coords, EltTy.bits .f32 = 32 ∨ (Rect.block (s := S50000x256) S2000x256.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S512x256.size a ≤ S512x256.size a
  hwx10_2 : ∀ i : grid10.Coords, EltTy.bits .f32 = 32 ∨ (Rect.block (s := S512x256) S512x256.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x256.size a ≤ S1x256.size a
  hwx10_3 : ∀ i : grid10.Coords, EltTy.bits .f32 = 32 ∨ (Rect.block (s := S1x256) S1x256.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S2000x256.size a ≤ S50000x256.size a
  hwx10_4 : ∀ i : grid10.Coords, EltTy.bits .f32 = 32 ∨ (Rect.block (s := S50000x256) S2000x256.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x256.size a ≤ S50000x256.size a
  hwx11_0 : ∀ i : grid11.Coords, EltTy.bits .f32 = 32 ∨ (Rect.block (s := S50000x256) S2000x256.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x256.size a ≤ S1x256.size a
  hwx11_1 : ∀ i : grid11.Coords, EltTy.bits .f32 = 32 ∨ (Rect.block (s := S1x256) S1x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x256.size a ≤ S50000x256.size a
  hwx11_5 : ∀ i : grid11.Coords, EltTy.bits .f32 = 32 ∨ (Rect.block (s := S50000x256) S2000x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S3200x256.size a ≤ S320000x256.size a
  hwx12_0 : ∀ i : grid12.Coords, EltTy.bits .f32 = 32 ∨ (Rect.block (s := S320000x256) S3200x256.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S3200x5.size a ≤ S320000x5.size a
  hwx12_1 : ∀ i : grid12.Coords, EltTy.bits .f32 = 32 ∨ (Rect.block (s := S320000x5) S3200x5.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S3x128.size a ≤ S3x128.size a
  hwx12_3 : ∀ i : grid12.Coords, EltTy.bits .f32 = 32 ∨ (Rect.block (s := S3x128) S3x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S3200x256.size a ≤ S320000x256.size a
  hwx12_4 : ∀ i : grid12.Coords, EltTy.bits .f32 = 32 ∨ (Rect.block (s := S320000x256) S3200x256.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x256.size a ≤ S50000x256.size a
  hwx13_0 : ∀ i : grid13.Coords, EltTy.bits .f32 = 32 ∨ (Rect.block (s := S50000x256) S2000x256.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x256.size a ≤ S50000x256.size a
  hwx13_1 : ∀ i : grid13.Coords, EltTy.bits .f32 = 32 ∨ (Rect.block (s := S50000x256) S2000x256.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x256.size a ≤ S512x256.size a
  hwx13_2 : ∀ i : grid13.Coords, EltTy.bits .f32 = 32 ∨ (Rect.block (s := S512x256) S512x256.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x256.size a ≤ S1x256.size a
  hwx13_3 : ∀ i : grid13.Coords, EltTy.bits .f32 = 32 ∨ (Rect.block (s := S1x256) S1x256.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S2000x256.size a ≤ S50000x256.size a
  hwx13_4 : ∀ i : grid13.Coords, EltTy.bits .f32 = 32 ∨ (Rect.block (s := S50000x256) S2000x256.size (cc13_transform_4 i) (hinb13_4 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S2000x256.size a ≤ S50000x256.size a
  hwx14_0 : ∀ i : grid14.Coords, EltTy.bits .f32 = 32 ∨ (Rect.block (s := S50000x256) S2000x256.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x256.size a ≤ S1x256.size a
  hwx14_1 : ∀ i : grid14.Coords, EltTy.bits .f32 = 32 ∨ (Rect.block (s := S1x256) S1x256.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x256.size a ≤ S1x256.size a
  hwx14_2 : ∀ i : grid14.Coords, EltTy.bits .f32 = 32 ∨ (Rect.block (s := S1x256) S1x256.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x256.size a ≤ S1x256.size a
  hwx14_3 : ∀ i : grid14.Coords, EltTy.bits .f32 = 32 ∨ (Rect.block (s := S1x256) S1x256.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x256.size a ≤ S1x256.size a
  hwx14_4 : ∀ i : grid14.Coords, EltTy.bits .f32 = 32 ∨ (Rect.block (s := S1x256) S1x256.size (cc14_transform_4 i) (hinb14_4 i)).WholeWords (EltTy.packing .f32)
  hstage14_5 : ∀ j, (stage14_5 j).IsWhole
  nbuf14_5 : grid14.bufCount reads14_5 false = 2
  hreads14_5 : ∀ i i' : grid14.Coords, (∀ a, reads14_5 a = true → i a = i' a) → cc14_transform_5 i = cc14_transform_5 i'
  hinb14_5 : ∀ (i : grid14.Coords) a, (cc14_transform_5 i a + 1) * S2000x256.size a ≤ S50000x256.size a
  hwx14_5 : ∀ i : grid14.Coords, EltTy.bits .f32 = 32 ∨ (Rect.block (s := S50000x256) S2000x256.size (cc14_transform_5 i) (hinb14_5 i)).WholeWords (EltTy.packing .f32)

variable [Facts₀]

def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def gather_S50000_S320000x1_S320000_n_0_n_n_0_1_1 : GatherDims S50000 S320000x1 S320000 where
  offsetDims := []
  collapsedSliceDims := [0]
  operandBatchingDims := []
  startIndicesBatchingDims := []
  startIndexMap := [0]
  indexVectorDim := 1
  sliceSizes := ![1]
  wf := gather_S50000_S320000x1_S320000_n_0_n_n_0_1_1_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v36) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S3200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S3200x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S512x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v69) S3200x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S3200x5.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S3x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S3200x256.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v77) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v79) S512x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v82) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v83) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v83) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v94) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v95) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v102) S3200x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v29) S3200x5.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v104) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S3x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S3200x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v95) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v110) S2000x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v112) S512x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v115) S1x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v116) S2000x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v116) S2000x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v120) S1x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v121) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v124) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v127) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v128) S2000x256.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v135) S3200x256.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v29) S3200x5.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v137) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v139) S3x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v140) S3200x256.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v128) S2000x256.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v143) S2000x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v145) S512x256.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v148) S1x256.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v149) S2000x256.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v149) S2000x256.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v153) S1x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v154) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v157) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v160) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v161) S2000x256.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v168) S3200x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v29) S3200x5.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v170) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v172) S3x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v173) S3200x256.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v161) S2000x256.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v176) S2000x256.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v178) S512x256.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v181) S1x256.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v182) S2000x256.size cc13_transform_4 reads13_4 true false 2 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev win14_0 : Pipeline.Window sig grid14 :=
  Pipeline.Window.ofSpec (Memref.whole main_v182) S2000x256.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v186) S1x256.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v187) S1x256.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v190) S1x256.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v193) S1x256.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v194) S2000x256.size cc14_transform_5 reads14_5 true false 2 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

class Facts : Prop extends Facts₀ where

variable [Facts]
-- ==== ReferenceIdeal.lean ====
abbrev S50000x256 : Shape := ⟨2, ![50000, 256]⟩
abbrev S2x320000 : Shape := ⟨2, ![2, 320000]⟩
abbrev S320000x4 : Shape := ⟨2, ![320000, 4]⟩
abbrev S5x512x256 : Shape := ⟨3, ![5, 512, 256]⟩
abbrev S5x256 : Shape := ⟨2, ![5, 256]⟩
abbrev S5x1x128 : Shape := ⟨3, ![5, 1, 128]⟩
abbrev S5x3x128 : Shape := ⟨3, ![5, 3, 128]⟩
abbrev S1x320000 : Shape := ⟨2, ![1, 320000]⟩
abbrev S320000 : Shape := ⟨1, ![320000]⟩
abbrev S_ : Shape := ⟨0, ![]⟩
abbrev S50000 : Shape := ⟨1, ![50000]⟩
abbrev S320000x1 : Shape := ⟨2, ![320000, 1]⟩
abbrev S1x1x128 : Shape := ⟨3, ![1, 1, 128]⟩
abbrev S1x128 : Shape := ⟨2, ![1, 128]⟩
abbrev S320000x128 : Shape := ⟨2, ![320000, 128]⟩
abbrev S320000x3 : Shape := ⟨2, ![320000, 3]⟩
abbrev S1x3x128 : Shape := ⟨3, ![1, 3, 128]⟩
abbrev S3x128 : Shape := ⟨2, ![3, 128]⟩
abbrev S320000x256 : Shape := ⟨2, ![320000, 256]⟩
abbrev S50000x512 : Shape := ⟨2, ![50000, 512]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩

abbrev nBuf : Space → Nat
  | .hbm => 490
  | .vmem => 0
  | .smem => 0
  | _ => 0

abbrev hbmTy0_0 (i : Nat) : BufTy := match i % 128 with
  | 0 => ⟨S50000x256, .f32⟩
  | 1 => ⟨S2x320000, .i32⟩
  | 2 => ⟨S320000x4, .f32⟩
  | 3 => ⟨S5x512x256, .f32⟩
  | 4 => ⟨S5x256, .f32⟩
  | 5 => ⟨S5x1x128, .f32⟩
  | 6 => ⟨S5x3x128, .f32⟩
  | 7 => ⟨S5x256, .f32⟩
  | 8 => ⟨S5x256, .f32⟩
  | 9 => ⟨S1x320000, .i32⟩
  | 10 => ⟨S320000, .i32⟩
  | 11 => ⟨S1x320000, .i32⟩
  | 12 => ⟨S320000, .i32⟩
  | 13 => ⟨S_, .f32⟩
  | 14 => ⟨S320000, .f32⟩
  | 15 => ⟨S_, .f32⟩
  | 16 => ⟨S50000, .f32⟩
  | 17 => ⟨S320000x1, .i32⟩
  | 18 => ⟨S50000, .f32⟩
  | 19 => ⟨S_, .f32⟩
  | 20 => ⟨S50000, .f32⟩
  | 21 => ⟨S50000, .i1⟩
  | 22 => ⟨S_, .f32⟩
  | 23 => ⟨S50000, .f32⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000, .f32⟩
  | 38 => ⟨S_, .i32⟩
  | 39 => ⟨S320000, .i32⟩
  | 40 => ⟨S320000, .i1⟩
  | 41 => ⟨S_, .i32⟩
  | 42 => ⟨S320000, .i32⟩
  | 43 => ⟨S320000, .i32⟩
  | 44 => ⟨S320000, .i32⟩
  | 45 => ⟨S320000x1, .i32⟩
  | 46 => ⟨S320000, .f32⟩
  | 47 => ⟨S320000, .f32⟩
  | 48 => ⟨S320000x1, .f32⟩
  | 49 => ⟨S1x1x128, .f32⟩
  | 50 => ⟨S1x128, .f32⟩
  | 51 => ⟨S320000x128, .f32⟩
  | 52 => ⟨S320000x3, .f32⟩
  | 53 => ⟨S1x3x128, .f32⟩
  | 54 => ⟨S3x128, .f32⟩
  | 55 => ⟨S320000x128, .f32⟩
  | 56 => ⟨S320000x256, .f32⟩
  | 57 => ⟨S320000x1, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x256, .f32⟩
  | 67 => ⟨S320000x256, .f32⟩
  | 68 => ⟨S320000x256, .f32⟩
  | 69 => ⟨S320000x256, .f32⟩
  | 70 => ⟨S_, .f32⟩
  | 71 => ⟨S50000x256, .f32⟩
  | 72 => ⟨S320000x1, .i32⟩
  | 73 => ⟨S50000x256, .f32⟩
  | 74 => ⟨S50000x512, .f32⟩
  | 75 => ⟨S1x512x256, .f32⟩
  | 76 => ⟨S512x256, .f32⟩
  | 77 => ⟨S50000x256, .f32⟩
  | 78 => ⟨S1x256, .f32⟩
  | 79 => ⟨S256, .f32⟩
  | 80 => ⟨S1x256, .f32⟩
  | 81 => ⟨S50000x256, .f32⟩
  | 82 => ⟨S50000x256, .f32⟩
  | 83 => ⟨S_, .f32⟩
  | 84 => ⟨S50000x256, .f32⟩
  | 85 => ⟨S50000x256, .f32⟩
  | 86 => ⟨S_, .f32⟩
  | 87 => ⟨S256, .f32⟩
  | 88 => ⟨S_, .f32⟩
  | 89 => ⟨S256, .f32⟩
  | 90 => ⟨S256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S50000x256, .f32⟩
  | 99 => ⟨S50000x256, .f32⟩
  | 100 => ⟨S50000x256, .f32⟩
  | 101 => ⟨S_, .f32⟩
  | 102 => ⟨S_, .f32⟩
  | 103 => ⟨S_, .f32⟩
  | 104 => ⟨S_, .f32⟩
  | 105 => ⟨S256, .f32⟩
  | 106 => ⟨S256, .f32⟩
  | 107 => ⟨S256, .f32⟩
  | 108 => ⟨S_, .f32⟩
  | 109 => ⟨S_, .i1⟩
  | 110 => ⟨S_, .f32⟩
  | 111 => ⟨S_, .f32⟩
  | 112 => ⟨S256, .f32⟩
  | 113 => ⟨S256, .f32⟩
  | 114 => ⟨S1x256, .f32⟩
  | 115 => ⟨S50000x256, .f32⟩
  | 116 => ⟨S50000x256, .f32⟩
  | 117 => ⟨S_, .f32⟩
  | 118 => ⟨S256, .f32⟩
  | 119 => ⟨S256, .f32⟩
  | 120 => ⟨S256, .f32⟩
  | 121 => ⟨S1x256, .f32⟩
  | 122 => ⟨S50000x256, .f32⟩
  | 123 => ⟨S50000x256, .f32⟩
  | 124 => ⟨S1x256, .f32⟩
  | 125 => ⟨S256, .f32⟩
  | 126 => ⟨S1x256, .f32⟩
  | 127 => ⟨S50000x256, .f32⟩
  | _ => ⟨S50000x256, .f32⟩

abbrev hbmTy0_1 (i : Nat) : BufTy := match i % 128 with
  | 0 => ⟨S50000x256, .f32⟩
  | 1 => ⟨S1x256, .f32⟩
  | 2 => ⟨S256, .f32⟩
  | 3 => ⟨S1x256, .f32⟩
  | 4 => ⟨S50000x256, .f32⟩
  | 5 => ⟨S50000x256, .f32⟩
  | 6 => ⟨S_, .f32⟩
  | 7 => ⟨S50000x256, .f32⟩
  | 8 => ⟨S50000x256, .f32⟩
  | 9 => ⟨S320000x1, .f32⟩
  | 10 => ⟨S1x1x128, .f32⟩
  | 11 => ⟨S1x128, .f32⟩
  | 12 => ⟨S320000x128, .f32⟩
  | 13 => ⟨S320000x3, .f32⟩
  | 14 => ⟨S1x3x128, .f32⟩
  | 15 => ⟨S3x128, .f32⟩
  | 16 => ⟨S320000x128, .f32⟩
  | 17 => ⟨S320000x256, .f32⟩
  | 18 => ⟨S320000x1, .f32⟩
  | 19 => ⟨S_, .i32⟩
  | 20 => ⟨S320000, .i32⟩
  | 21 => ⟨S320000, .i1⟩
  | 22 => ⟨S_, .i32⟩
  | 23 => ⟨S320000, .i32⟩
  | 24 => ⟨S320000, .i32⟩
  | 25 => ⟨S320000, .i32⟩
  | 26 => ⟨S320000x1, .i32⟩
  | 27 => ⟨S320000x256, .f32⟩
  | 28 => ⟨S320000x256, .f32⟩
  | 29 => ⟨S320000x256, .f32⟩
  | 30 => ⟨S320000x256, .f32⟩
  | 31 => ⟨S_, .f32⟩
  | 32 => ⟨S50000x256, .f32⟩
  | 33 => ⟨S320000x1, .i32⟩
  | 34 => ⟨S50000x256, .f32⟩
  | 35 => ⟨S50000x512, .f32⟩
  | 36 => ⟨S1x512x256, .f32⟩
  | 37 => ⟨S512x256, .f32⟩
  | 38 => ⟨S50000x256, .f32⟩
  | 39 => ⟨S1x256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S_, .i32⟩
  | 53 => ⟨S_, .f32⟩
  | 54 => ⟨S256, .f32⟩
  | 55 => ⟨S1x256, .f32⟩
  | 56 => ⟨S_, .f32⟩
  | 57 => ⟨S1x256, .f32⟩
  | 58 => ⟨S1x256, .f32⟩
  | 59 => ⟨S50000x256, .f32⟩
  | 60 => ⟨S50000x256, .f32⟩
  | 61 => ⟨S50000x256, .f32⟩
  | 62 => ⟨S_, .f32⟩
  | 63 => ⟨S_, .f32⟩
  | 64 => ⟨S_, .f32⟩
  | 65 => ⟨S_, .f32⟩
  | 66 => ⟨S256, .f32⟩
  | 67 => ⟨S256, .f32⟩
  | 68 => ⟨S256, .f32⟩
  | 69 => ⟨S_, .f32⟩
  | 70 => ⟨S_, .i1⟩
  | 71 => ⟨S_, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S_, .f32⟩
  | 79 => ⟨S256, .f32⟩
  | 80 => ⟨S256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S50000x256, .f32⟩
  | 89 => ⟨S50000x256, .f32⟩
  | 90 => ⟨S1x256, .f32⟩
  | 91 => ⟨S256, .f32⟩
  | 92 => ⟨S1x256, .f32⟩
  | 93 => ⟨S50000x256, .f32⟩
  | 94 => ⟨S50000x256, .f32⟩
  | 95 => ⟨S_, .f32⟩
  | 96 => ⟨S50000x256, .f32⟩
  | 97 => ⟨S50000x256, .f32⟩
  | 98 => ⟨S320000x1, .f32⟩
  | 99 => ⟨S1x1x128, .f32⟩
  | 100 => ⟨S1x128, .f32⟩
  | 101 => ⟨S320000x128, .f32⟩
  | 102 => ⟨S320000x3, .f32⟩
  | 103 => ⟨S1x3x128, .f32⟩
  | 104 => ⟨S3x128, .f32⟩
  | 105 => ⟨S320000x128, .f32⟩
  | 106 => ⟨S320000x256, .f32⟩
  | 107 => ⟨S320000x1, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S320000x256, .f32⟩
  | 118 => ⟨S320000x256, .f32⟩
  | 119 => ⟨S320000x256, .f32⟩
  | 120 => ⟨S_, .f32⟩
  | 121 => ⟨S50000x256, .f32⟩
  | 122 => ⟨S320000x1, .i32⟩
  | 123 => ⟨S50000x256, .f32⟩
  | 124 => ⟨S50000x512, .f32⟩
  | 125 => ⟨S1x512x256, .f32⟩
  | 126 => ⟨S512x256, .f32⟩
  | 127 => ⟨S50000x256, .f32⟩
  | _ => ⟨S50000x256, .f32⟩

abbrev hbmTy0_2 (i : Nat) : BufTy := match i % 128 with
  | 0 => ⟨S1x256, .f32⟩
  | 1 => ⟨S256, .f32⟩
  | 2 => ⟨S1x256, .f32⟩
  | 3 => ⟨S50000x256, .f32⟩
  | 4 => ⟨S50000x256, .f32⟩
  | 5 => ⟨S_, .f32⟩
  | 6 => ⟨S50000x256, .f32⟩
  | 7 => ⟨S50000x256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S50000x256, .f32⟩
  | 21 => ⟨S50000x256, .f32⟩
  | 22 => ⟨S50000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S50000x256, .f32⟩
  | 38 => ⟨S50000x256, .f32⟩
  | 39 => ⟨S_, .f32⟩
  | 40 => ⟨S256, .f32⟩
  | 41 => ⟨S256, .f32⟩
  | 42 => ⟨S256, .f32⟩
  | 43 => ⟨S1x256, .f32⟩
  | 44 => ⟨S50000x256, .f32⟩
  | 45 => ⟨S50000x256, .f32⟩
  | 46 => ⟨S1x256, .f32⟩
  | 47 => ⟨S256, .f32⟩
  | 48 => ⟨S1x256, .f32⟩
  | 49 => ⟨S50000x256, .f32⟩
  | 50 => ⟨S50000x256, .f32⟩
  | 51 => ⟨S1x256, .f32⟩
  | 52 => ⟨S256, .f32⟩
  | 53 => ⟨S1x256, .f32⟩
  | 54 => ⟨S50000x256, .f32⟩
  | 55 => ⟨S50000x256, .f32⟩
  | 56 => ⟨S_, .f32⟩
  | 57 => ⟨S50000x256, .f32⟩
  | 58 => ⟨S50000x256, .f32⟩
  | 59 => ⟨S320000x1, .f32⟩
  | 60 => ⟨S1x1x128, .f32⟩
  | 61 => ⟨S1x128, .f32⟩
  | 62 => ⟨S320000x128, .f32⟩
  | 63 => ⟨S320000x3, .f32⟩
  | 64 => ⟨S1x3x128, .f32⟩
  | 65 => ⟨S3x128, .f32⟩
  | 66 => ⟨S320000x128, .f32⟩
  | 67 => ⟨S320000x256, .f32⟩
  | 68 => ⟨S320000x1, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x256, .f32⟩
  | 78 => ⟨S320000x256, .f32⟩
  | 79 => ⟨S320000x256, .f32⟩
  | 80 => ⟨S320000x256, .f32⟩
  | 81 => ⟨S_, .f32⟩
  | 82 => ⟨S50000x256, .f32⟩
  | 83 => ⟨S320000x1, .i32⟩
  | 84 => ⟨S50000x256, .f32⟩
  | 85 => ⟨S50000x512, .f32⟩
  | 86 => ⟨S1x512x256, .f32⟩
  | 87 => ⟨S512x256, .f32⟩
  | 88 => ⟨S50000x256, .f32⟩
  | 89 => ⟨S1x256, .f32⟩
  | 90 => ⟨S256, .f32⟩
  | 91 => ⟨S1x256, .f32⟩
  | 92 => ⟨S50000x256, .f32⟩
  | 93 => ⟨S50000x256, .f32⟩
  | 94 => ⟨S_, .f32⟩
  | 95 => ⟨S50000x256, .f32⟩
  | 96 => ⟨S50000x256, .f32⟩
  | 97 => ⟨S_, .f32⟩
  | 98 => ⟨S256, .f32⟩
  | 99 => ⟨S_, .f32⟩
  | 100 => ⟨S256, .f32⟩
  | 101 => ⟨S256, .f32⟩
  | 102 => ⟨S_, .i32⟩
  | 103 => ⟨S_, .f32⟩
  | 104 => ⟨S256, .f32⟩
  | 105 => ⟨S1x256, .f32⟩
  | 106 => ⟨S_, .f32⟩
  | 107 => ⟨S1x256, .f32⟩
  | 108 => ⟨S1x256, .f32⟩
  | 109 => ⟨S50000x256, .f32⟩
  | 110 => ⟨S50000x256, .f32⟩
  | 111 => ⟨S50000x256, .f32⟩
  | 112 => ⟨S_, .f32⟩
  | 113 => ⟨S_, .f32⟩
  | 114 => ⟨S_, .f32⟩
  | 115 => ⟨S_, .f32⟩
  | 116 => ⟨S256, .f32⟩
  | 117 => ⟨S256, .f32⟩
  | 118 => ⟨S256, .f32⟩
  | 119 => ⟨S_, .f32⟩
  | 120 => ⟨S_, .i1⟩
  | 121 => ⟨S_, .f32⟩
  | 122 => ⟨S_, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x256, .f32⟩

abbrev hbmTy0_3 (i : Nat) : BufTy := match i % 128 with
  | 0 => ⟨S_, .f32⟩
  | 1 => ⟨S256, .f32⟩
  | 2 => ⟨S256, .f32⟩
  | 3 => ⟨S256, .f32⟩
  | 4 => ⟨S1x256, .f32⟩
  | 5 => ⟨S50000x256, .f32⟩
  | 6 => ⟨S50000x256, .f32⟩
  | 7 => ⟨S1x256, .f32⟩
  | 8 => ⟨S256, .f32⟩
  | 9 => ⟨S1x256, .f32⟩
  | 10 => ⟨S50000x256, .f32⟩
  | 11 => ⟨S50000x256, .f32⟩
  | 12 => ⟨S1x256, .f32⟩
  | 13 => ⟨S256, .f32⟩
  | 14 => ⟨S1x256, .f32⟩
  | 15 => ⟨S50000x256, .f32⟩
  | 16 => ⟨S50000x256, .f32⟩
  | 17 => ⟨S_, .f32⟩
  | 18 => ⟨S50000x256, .f32⟩
  | 19 => ⟨S50000x256, .f32⟩
  | 20 => ⟨S320000x1, .f32⟩
  | 21 => ⟨S1x1x128, .f32⟩
  | 22 => ⟨S1x128, .f32⟩
  | 23 => ⟨S320000x128, .f32⟩
  | 24 => ⟨S320000x3, .f32⟩
  | 25 => ⟨S1x3x128, .f32⟩
  | 26 => ⟨S3x128, .f32⟩
  | 27 => ⟨S320000x128, .f32⟩
  | 28 => ⟨S320000x256, .f32⟩
  | 29 => ⟨S320000x1, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x256, .f32⟩
  | 39 => ⟨S320000x256, .f32⟩
  | 40 => ⟨S320000x256, .f32⟩
  | 41 => ⟨S320000x256, .f32⟩
  | 42 => ⟨S_, .f32⟩
  | 43 => ⟨S50000x256, .f32⟩
  | 44 => ⟨S320000x1, .i32⟩
  | 45 => ⟨S50000x256, .f32⟩
  | 46 => ⟨S50000x512, .f32⟩
  | 47 => ⟨S1x512x256, .f32⟩
  | 48 => ⟨S512x256, .f32⟩
  | 49 => ⟨S50000x256, .f32⟩
  | 50 => ⟨S1x256, .f32⟩
  | 51 => ⟨S256, .f32⟩
  | 52 => ⟨S1x256, .f32⟩
  | 53 => ⟨S50000x256, .f32⟩
  | 54 => ⟨S50000x256, .f32⟩
  | 55 => ⟨S_, .f32⟩
  | 56 => ⟨S50000x256, .f32⟩
  | 57 => ⟨S50000x256, .f32⟩
  | 58 => ⟨S_, .f32⟩
  | 59 => ⟨S256, .f32⟩
  | 60 => ⟨S_, .f32⟩
  | 61 => ⟨S256, .f32⟩
  | 62 => ⟨S256, .f32⟩
  | 63 => ⟨S_, .i32⟩
  | 64 => ⟨S_, .f32⟩
  | 65 => ⟨S256, .f32⟩
  | 66 => ⟨S1x256, .f32⟩
  | 67 => ⟨S_, .f32⟩
  | 68 => ⟨S1x256, .f32⟩
  | 69 => ⟨S1x256, .f32⟩
  | 70 => ⟨S50000x256, .f32⟩
  | 71 => ⟨S50000x256, .f32⟩
  | 72 => ⟨S50000x256, .f32⟩
  | 73 => ⟨S_, .f32⟩
  | 74 => ⟨S_, .f32⟩
  | 75 => ⟨S_, .f32⟩
  | 76 => ⟨S_, .f32⟩
  | 77 => ⟨S256, .f32⟩
  | 78 => ⟨S256, .f32⟩
  | 79 => ⟨S256, .f32⟩
  | 80 => ⟨S_, .f32⟩
  | 81 => ⟨S_, .i1⟩
  | 82 => ⟨S_, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S256, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S256, .f32⟩
  | 98 => ⟨S1x256, .f32⟩
  | 99 => ⟨S50000x256, .f32⟩
  | 100 => ⟨S50000x256, .f32⟩
  | 101 => ⟨S1x256, .f32⟩
  | 102 => ⟨S256, .f32⟩
  | 103 => ⟨S1x256, .f32⟩
  | 104 => ⟨S50000x256, .f32⟩
  | 105 => ⟨S50000x256, .f32⟩
  | _ => ⟨S50000x256, .f32⟩

abbrev hbmTy (i : Nat) : BufTy := match i / 128 with
  | 0 => hbmTy0_0 i
  | 1 => hbmTy0_1 i
  | 2 => hbmTy0_2 i
  | 3 => hbmTy0_3 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_5 : Ref sig .tc := ⟨.hbm, 38, rfl⟩
abbrev main_v20 : Ref sig .tc := ⟨.hbm, 39, rfl⟩
abbrev main_v21 : Ref sig .tc := ⟨.hbm, 40, rfl⟩
abbrev main_c_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_cst_0 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_cst_1 : Ref sig .tc := ⟨.hbm, 102, rfl⟩
abbrev main_call2_v8 : Ref sig .tc := ⟨.hbm, 103, rfl⟩
abbrev main_call2_cst_2 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_cst_3 : Ref sig .tc := ⟨.hbm, 108, rfl⟩
abbrev main_call2_v12 : Ref sig .tc := ⟨.hbm, 109, rfl⟩
abbrev main_call2_cst_4 : Ref sig .tc := ⟨.hbm, 110, rfl⟩
abbrev main_call2_call0_v0 : Ref sig .tc := ⟨.hbm, 111, rfl⟩
abbrev main_call2_call0_v1 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_cst_13 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_call3_cst : Ref sig .tc := ⟨.hbm, 134, rfl⟩
abbrev main_call3_v0 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_c_14 : Ref sig .tc := ⟨.hbm, 147, rfl⟩
abbrev main_v95 : Ref sig .tc := ⟨.hbm, 148, rfl⟩
abbrev main_v96 : Ref sig .tc := ⟨.hbm, 149, rfl⟩
abbrev main_c_15 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_cst_16 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_call4_cst : Ref sig .tc := ⟨.hbm, 172, rfl⟩
abbrev main_call4_v0 : Ref sig .tc := ⟨.hbm, 173, rfl⟩
abbrev main_v117 : Ref sig .tc := ⟨.hbm, 174, rfl⟩
abbrev main_cst_17 : Ref sig .tc := ⟨.hbm, 175, rfl⟩
abbrev main_v118 : Ref sig .tc := ⟨.hbm, 176, rfl⟩
abbrev main_cst_18 : Ref sig .tc := ⟨.hbm, 177, rfl⟩
abbrev main_v119 : Ref sig .tc := ⟨.hbm, 178, rfl⟩
abbrev main_v120 : Ref sig .tc := ⟨.hbm, 179, rfl⟩
abbrev main_c_19 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_cst_0 : Ref sig .tc := ⟨.hbm, 184, rfl⟩
abbrev main_call5_v2 : Ref sig .tc := ⟨.hbm, 185, rfl⟩
abbrev main_call5_v3 : Ref sig .tc := ⟨.hbm, 186, rfl⟩
abbrev main_call5_v4 : Ref sig .tc := ⟨.hbm, 187, rfl⟩
abbrev main_call5_v5 : Ref sig .tc := ⟨.hbm, 188, rfl⟩
abbrev main_call5_v6 : Ref sig .tc := ⟨.hbm, 189, rfl⟩
abbrev main_call5_v7 : Ref sig .tc := ⟨.hbm, 190, rfl⟩
abbrev main_call5_cst_1 : Ref sig .tc := ⟨.hbm, 191, rfl⟩
abbrev main_call5_v8 : Ref sig .tc := ⟨.hbm, 192, rfl⟩
abbrev main_call5_cst_2 : Ref sig .tc := ⟨.hbm, 193, rfl⟩
abbrev main_call5_v9 : Ref sig .tc := ⟨.hbm, 194, rfl⟩
abbrev main_call5_v10 : Ref sig .tc := ⟨.hbm, 195, rfl⟩
abbrev main_call5_v11 : Ref sig .tc := ⟨.hbm, 196, rfl⟩
abbrev main_call5_cst_3 : Ref sig .tc := ⟨.hbm, 197, rfl⟩
abbrev main_call5_v12 : Ref sig .tc := ⟨.hbm, 198, rfl⟩
abbrev main_call5_cst_4 : Ref sig .tc := ⟨.hbm, 199, rfl⟩
abbrev main_call5_call0_v0 : Ref sig .tc := ⟨.hbm, 200, rfl⟩
abbrev main_call5_call0_v1 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_cst_20 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_v131 : Ref sig .tc := ⟨.hbm, 213, rfl⟩
abbrev main_v132 : Ref sig .tc := ⟨.hbm, 214, rfl⟩
abbrev main_v133 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_call6_cst : Ref sig .tc := ⟨.hbm, 223, rfl⟩
abbrev main_call6_v0 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_c_21 : Ref sig .tc := ⟨.hbm, 236, rfl⟩
abbrev main_v152 : Ref sig .tc := ⟨.hbm, 237, rfl⟩
abbrev main_v153 : Ref sig .tc := ⟨.hbm, 238, rfl⟩
abbrev main_c_22 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_23 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_call7_cst : Ref sig .tc := ⟨.hbm, 261, rfl⟩
abbrev main_call7_v0 : Ref sig .tc := ⟨.hbm, 262, rfl⟩
abbrev main_v174 : Ref sig .tc := ⟨.hbm, 263, rfl⟩
abbrev main_cst_24 : Ref sig .tc := ⟨.hbm, 264, rfl⟩
abbrev main_v175 : Ref sig .tc := ⟨.hbm, 265, rfl⟩
abbrev main_cst_25 : Ref sig .tc := ⟨.hbm, 266, rfl⟩
abbrev main_v176 : Ref sig .tc := ⟨.hbm, 267, rfl⟩
abbrev main_v177 : Ref sig .tc := ⟨.hbm, 268, rfl⟩
abbrev main_c_26 : Ref sig .tc := ⟨.hbm, 269, rfl⟩
abbrev main_call8_cst : Ref sig .tc := ⟨.hbm, 270, rfl⟩
abbrev main_call8_v0 : Ref sig .tc := ⟨.hbm, 271, rfl⟩
abbrev main_call8_v1 : Ref sig .tc := ⟨.hbm, 272, rfl⟩
abbrev main_call8_cst_0 : Ref sig .tc := ⟨.hbm, 273, rfl⟩
abbrev main_call8_v2 : Ref sig .tc := ⟨.hbm, 274, rfl⟩
abbrev main_call8_v3 : Ref sig .tc := ⟨.hbm, 275, rfl⟩
abbrev main_call8_v4 : Ref sig .tc := ⟨.hbm, 276, rfl⟩
abbrev main_call8_v5 : Ref sig .tc := ⟨.hbm, 277, rfl⟩
abbrev main_call8_v6 : Ref sig .tc := ⟨.hbm, 278, rfl⟩
abbrev main_call8_v7 : Ref sig .tc := ⟨.hbm, 279, rfl⟩
abbrev main_call8_cst_1 : Ref sig .tc := ⟨.hbm, 280, rfl⟩
abbrev main_call8_v8 : Ref sig .tc := ⟨.hbm, 281, rfl⟩
abbrev main_call8_cst_2 : Ref sig .tc := ⟨.hbm, 282, rfl⟩
abbrev main_call8_v9 : Ref sig .tc := ⟨.hbm, 283, rfl⟩
abbrev main_call8_v10 : Ref sig .tc := ⟨.hbm, 284, rfl⟩
abbrev main_call8_v11 : Ref sig .tc := ⟨.hbm, 285, rfl⟩
abbrev main_call8_cst_3 : Ref sig .tc := ⟨.hbm, 286, rfl⟩
abbrev main_call8_v12 : Ref sig .tc := ⟨.hbm, 287, rfl⟩
abbrev main_call8_cst_4 : Ref sig .tc := ⟨.hbm, 288, rfl⟩
abbrev main_call8_call0_v0 : Ref sig .tc := ⟨.hbm, 289, rfl⟩
abbrev main_call8_call0_v1 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_cst_27 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_v187 : Ref sig .tc := ⟨.hbm, 301, rfl⟩
abbrev main_v188 : Ref sig .tc := ⟨.hbm, 302, rfl⟩
abbrev main_v189 : Ref sig .tc := ⟨.hbm, 303, rfl⟩
abbrev main_v190 : Ref sig .tc := ⟨.hbm, 304, rfl⟩
abbrev main_v191 : Ref sig .tc := ⟨.hbm, 305, rfl⟩
abbrev main_v192 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_v197 : Ref sig .tc := ⟨.hbm, 311, rfl⟩
abbrev main_call9_cst : Ref sig .tc := ⟨.hbm, 312, rfl⟩
abbrev main_call9_v0 : Ref sig .tc := ⟨.hbm, 313, rfl⟩
abbrev main_v198 : Ref sig .tc := ⟨.hbm, 314, rfl⟩
abbrev main_v199 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_v204 : Ref sig .tc := ⟨.hbm, 320, rfl⟩
abbrev main_v205 : Ref sig .tc := ⟨.hbm, 321, rfl⟩
abbrev main_v206 : Ref sig .tc := ⟨.hbm, 322, rfl⟩
abbrev main_v207 : Ref sig .tc := ⟨.hbm, 323, rfl⟩
abbrev main_v208 : Ref sig .tc := ⟨.hbm, 324, rfl⟩
abbrev main_c_28 : Ref sig .tc := ⟨.hbm, 325, rfl⟩
abbrev main_v209 : Ref sig .tc := ⟨.hbm, 326, rfl⟩
abbrev main_v210 : Ref sig .tc := ⟨.hbm, 327, rfl⟩
abbrev main_c_29 : Ref sig .tc := ⟨.hbm, 328, rfl⟩
abbrev main_v211 : Ref sig .tc := ⟨.hbm, 329, rfl⟩
abbrev main_v212 : Ref sig .tc := ⟨.hbm, 330, rfl⟩
abbrev main_v213 : Ref sig .tc := ⟨.hbm, 331, rfl⟩
abbrev main_v214 : Ref sig .tc := ⟨.hbm, 332, rfl⟩
abbrev main_v215 : Ref sig .tc := ⟨.hbm, 333, rfl⟩
abbrev main_v216 : Ref sig .tc := ⟨.hbm, 334, rfl⟩
abbrev main_v217 : Ref sig .tc := ⟨.hbm, 335, rfl⟩
abbrev main_v218 : Ref sig .tc := ⟨.hbm, 336, rfl⟩
abbrev main_cst_30 : Ref sig .tc := ⟨.hbm, 337, rfl⟩
abbrev main_v219 : Ref sig .tc := ⟨.hbm, 338, rfl⟩
abbrev main_v220 : Ref sig .tc := ⟨.hbm, 339, rfl⟩
abbrev main_v221 : Ref sig .tc := ⟨.hbm, 340, rfl⟩
abbrev main_v222 : Ref sig .tc := ⟨.hbm, 341, rfl⟩
abbrev main_v223 : Ref sig .tc := ⟨.hbm, 342, rfl⟩
abbrev main_v224 : Ref sig .tc := ⟨.hbm, 343, rfl⟩
abbrev main_v225 : Ref sig .tc := ⟨.hbm, 344, rfl⟩
abbrev main_v226 : Ref sig .tc := ⟨.hbm, 345, rfl⟩
abbrev main_v227 : Ref sig .tc := ⟨.hbm, 346, rfl⟩
abbrev main_v228 : Ref sig .tc := ⟨.hbm, 347, rfl⟩
abbrev main_v229 : Ref sig .tc := ⟨.hbm, 348, rfl⟩
abbrev main_v230 : Ref sig .tc := ⟨.hbm, 349, rfl⟩
abbrev main_call10_cst : Ref sig .tc := ⟨.hbm, 350, rfl⟩
abbrev main_call10_v0 : Ref sig .tc := ⟨.hbm, 351, rfl⟩
abbrev main_v231 : Ref sig .tc := ⟨.hbm, 352, rfl⟩
abbrev main_cst_31 : Ref sig .tc := ⟨.hbm, 353, rfl⟩
abbrev main_v232 : Ref sig .tc := ⟨.hbm, 354, rfl⟩
abbrev main_cst_32 : Ref sig .tc := ⟨.hbm, 355, rfl⟩
abbrev main_v233 : Ref sig .tc := ⟨.hbm, 356, rfl⟩
abbrev main_v234 : Ref sig .tc := ⟨.hbm, 357, rfl⟩
abbrev main_c_33 : Ref sig .tc := ⟨.hbm, 358, rfl⟩
abbrev main_call11_cst : Ref sig .tc := ⟨.hbm, 359, rfl⟩
abbrev main_call11_v0 : Ref sig .tc := ⟨.hbm, 360, rfl⟩
abbrev main_call11_v1 : Ref sig .tc := ⟨.hbm, 361, rfl⟩
abbrev main_call11_cst_0 : Ref sig .tc := ⟨.hbm, 362, rfl⟩
abbrev main_call11_v2 : Ref sig .tc := ⟨.hbm, 363, rfl⟩
abbrev main_call11_v3 : Ref sig .tc := ⟨.hbm, 364, rfl⟩
abbrev main_call11_v4 : Ref sig .tc := ⟨.hbm, 365, rfl⟩
abbrev main_call11_v5 : Ref sig .tc := ⟨.hbm, 366, rfl⟩
abbrev main_call11_v6 : Ref sig .tc := ⟨.hbm, 367, rfl⟩
abbrev main_call11_v7 : Ref sig .tc := ⟨.hbm, 368, rfl⟩
abbrev main_call11_cst_1 : Ref sig .tc := ⟨.hbm, 369, rfl⟩
abbrev main_call11_v8 : Ref sig .tc := ⟨.hbm, 370, rfl⟩
abbrev main_call11_cst_2 : Ref sig .tc := ⟨.hbm, 371, rfl⟩
abbrev main_call11_v9 : Ref sig .tc := ⟨.hbm, 372, rfl⟩
abbrev main_call11_v10 : Ref sig .tc := ⟨.hbm, 373, rfl⟩
abbrev main_call11_v11 : Ref sig .tc := ⟨.hbm, 374, rfl⟩
abbrev main_call11_cst_3 : Ref sig .tc := ⟨.hbm, 375, rfl⟩
abbrev main_call11_v12 : Ref sig .tc := ⟨.hbm, 376, rfl⟩
abbrev main_call11_cst_4 : Ref sig .tc := ⟨.hbm, 377, rfl⟩
abbrev main_call11_call0_v0 : Ref sig .tc := ⟨.hbm, 378, rfl⟩
abbrev main_call11_call0_v1 : Ref sig .tc := ⟨.hbm, 379, rfl⟩
abbrev main_v235 : Ref sig .tc := ⟨.hbm, 380, rfl⟩
abbrev main_v236 : Ref sig .tc := ⟨.hbm, 381, rfl⟩
abbrev main_v237 : Ref sig .tc := ⟨.hbm, 382, rfl⟩
abbrev main_v238 : Ref sig .tc := ⟨.hbm, 383, rfl⟩
abbrev main_cst_34 : Ref sig .tc := ⟨.hbm, 384, rfl⟩
abbrev main_v239 : Ref sig .tc := ⟨.hbm, 385, rfl⟩
abbrev main_v240 : Ref sig .tc := ⟨.hbm, 386, rfl⟩
abbrev main_v241 : Ref sig .tc := ⟨.hbm, 387, rfl⟩
abbrev main_v242 : Ref sig .tc := ⟨.hbm, 388, rfl⟩
abbrev main_v243 : Ref sig .tc := ⟨.hbm, 389, rfl⟩
abbrev main_v244 : Ref sig .tc := ⟨.hbm, 390, rfl⟩
abbrev main_v245 : Ref sig .tc := ⟨.hbm, 391, rfl⟩
abbrev main_v246 : Ref sig .tc := ⟨.hbm, 392, rfl⟩
abbrev main_v247 : Ref sig .tc := ⟨.hbm, 393, rfl⟩
abbrev main_v248 : Ref sig .tc := ⟨.hbm, 394, rfl⟩
abbrev main_v249 : Ref sig .tc := ⟨.hbm, 395, rfl⟩
abbrev main_v250 : Ref sig .tc := ⟨.hbm, 396, rfl⟩
abbrev main_v251 : Ref sig .tc := ⟨.hbm, 397, rfl⟩
abbrev main_v252 : Ref sig .tc := ⟨.hbm, 398, rfl⟩
abbrev main_v253 : Ref sig .tc := ⟨.hbm, 399, rfl⟩
abbrev main_v254 : Ref sig .tc := ⟨.hbm, 400, rfl⟩
abbrev main_call12_cst : Ref sig .tc := ⟨.hbm, 401, rfl⟩
abbrev main_call12_v0 : Ref sig .tc := ⟨.hbm, 402, rfl⟩
abbrev main_v255 : Ref sig .tc := ⟨.hbm, 403, rfl⟩
abbrev main_v256 : Ref sig .tc := ⟨.hbm, 404, rfl⟩
abbrev main_v257 : Ref sig .tc := ⟨.hbm, 405, rfl⟩
abbrev main_v258 : Ref sig .tc := ⟨.hbm, 406, rfl⟩
abbrev main_v259 : Ref sig .tc := ⟨.hbm, 407, rfl⟩
abbrev main_v260 : Ref sig .tc := ⟨.hbm, 408, rfl⟩
abbrev main_v261 : Ref sig .tc := ⟨.hbm, 409, rfl⟩
abbrev main_v262 : Ref sig .tc := ⟨.hbm, 410, rfl⟩
abbrev main_v263 : Ref sig .tc := ⟨.hbm, 411, rfl⟩
abbrev main_v264 : Ref sig .tc := ⟨.hbm, 412, rfl⟩
abbrev main_v265 : Ref sig .tc := ⟨.hbm, 413, rfl⟩
abbrev main_c_35 : Ref sig .tc := ⟨.hbm, 414, rfl⟩
abbrev main_v266 : Ref sig .tc := ⟨.hbm, 415, rfl⟩
abbrev main_v267 : Ref sig .tc := ⟨.hbm, 416, rfl⟩
abbrev main_c_36 : Ref sig .tc := ⟨.hbm, 417, rfl⟩
abbrev main_v268 : Ref sig .tc := ⟨.hbm, 418, rfl⟩
abbrev main_v269 : Ref sig .tc := ⟨.hbm, 419, rfl⟩
abbrev main_v270 : Ref sig .tc := ⟨.hbm, 420, rfl⟩
abbrev main_v271 : Ref sig .tc := ⟨.hbm, 421, rfl⟩
abbrev main_v272 : Ref sig .tc := ⟨.hbm, 422, rfl⟩
abbrev main_v273 : Ref sig .tc := ⟨.hbm, 423, rfl⟩
abbrev main_v274 : Ref sig .tc := ⟨.hbm, 424, rfl⟩
abbrev main_v275 : Ref sig .tc := ⟨.hbm, 425, rfl⟩
abbrev main_cst_37 : Ref sig .tc := ⟨.hbm, 426, rfl⟩
abbrev main_v276 : Ref sig .tc := ⟨.hbm, 427, rfl⟩
abbrev main_v277 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_v283 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_v287 : Ref sig .tc := ⟨.hbm, 438, rfl⟩
abbrev main_call13_cst : Ref sig .tc := ⟨.hbm, 439, rfl⟩
abbrev main_call13_v0 : Ref sig .tc := ⟨.hbm, 440, rfl⟩
abbrev main_v288 : Ref sig .tc := ⟨.hbm, 441, rfl⟩
abbrev main_cst_38 : Ref sig .tc := ⟨.hbm, 442, rfl⟩
abbrev main_v289 : Ref sig .tc := ⟨.hbm, 443, rfl⟩
abbrev main_cst_39 : Ref sig .tc := ⟨.hbm, 444, rfl⟩
abbrev main_v290 : Ref sig .tc := ⟨.hbm, 445, rfl⟩
abbrev main_v291 : Ref sig .tc := ⟨.hbm, 446, rfl⟩
abbrev main_c_40 : Ref sig .tc := ⟨.hbm, 447, rfl⟩
abbrev main_call14_cst : Ref sig .tc := ⟨.hbm, 448, rfl⟩
abbrev main_call14_v0 : Ref sig .tc := ⟨.hbm, 449, rfl⟩
abbrev main_call14_v1 : Ref sig .tc := ⟨.hbm, 450, rfl⟩
abbrev main_call14_cst_0 : Ref sig .tc := ⟨.hbm, 451, rfl⟩
abbrev main_call14_v2 : Ref sig .tc := ⟨.hbm, 452, rfl⟩
abbrev main_call14_v3 : Ref sig .tc := ⟨.hbm, 453, rfl⟩
abbrev main_call14_v4 : Ref sig .tc := ⟨.hbm, 454, rfl⟩
abbrev main_call14_v5 : Ref sig .tc := ⟨.hbm, 455, rfl⟩
abbrev main_call14_v6 : Ref sig .tc := ⟨.hbm, 456, rfl⟩
abbrev main_call14_v7 : Ref sig .tc := ⟨.hbm, 457, rfl⟩
abbrev main_call14_cst_1 : Ref sig .tc := ⟨.hbm, 458, rfl⟩
abbrev main_call14_v8 : Ref sig .tc := ⟨.hbm, 459, rfl⟩
abbrev main_call14_cst_2 : Ref sig .tc := ⟨.hbm, 460, rfl⟩
abbrev main_call14_v9 : Ref sig .tc := ⟨.hbm, 461, rfl⟩
abbrev main_call14_v10 : Ref sig .tc := ⟨.hbm, 462, rfl⟩
abbrev main_call14_v11 : Ref sig .tc := ⟨.hbm, 463, rfl⟩
abbrev main_call14_cst_3 : Ref sig .tc := ⟨.hbm, 464, rfl⟩
abbrev main_call14_v12 : Ref sig .tc := ⟨.hbm, 465, rfl⟩
abbrev main_call14_cst_4 : Ref sig .tc := ⟨.hbm, 466, rfl⟩
abbrev main_call14_call0_v0 : Ref sig .tc := ⟨.hbm, 467, rfl⟩
abbrev main_call14_call0_v1 : Ref sig .tc := ⟨.hbm, 468, rfl⟩
abbrev main_v292 : Ref sig .tc := ⟨.hbm, 469, rfl⟩
abbrev main_v293 : Ref sig .tc := ⟨.hbm, 470, rfl⟩
abbrev main_v294 : Ref sig .tc := ⟨.hbm, 471, rfl⟩
abbrev main_v295 : Ref sig .tc := ⟨.hbm, 472, rfl⟩
abbrev main_cst_41 : Ref sig .tc := ⟨.hbm, 473, rfl⟩
abbrev main_v296 : Ref sig .tc := ⟨.hbm, 474, rfl⟩
abbrev main_v297 : Ref sig .tc := ⟨.hbm, 475, rfl⟩
abbrev main_v298 : Ref sig .tc := ⟨.hbm, 476, rfl⟩
abbrev main_v299 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_v303 : Ref sig .tc := ⟨.hbm, 481, rfl⟩
abbrev main_v304 : Ref sig .tc := ⟨.hbm, 482, rfl⟩
abbrev main_v305 : Ref sig .tc := ⟨.hbm, 483, rfl⟩
abbrev main_v306 : Ref sig .tc := ⟨.hbm, 484, rfl⟩
abbrev main_v307 : Ref sig .tc := ⟨.hbm, 485, rfl⟩
abbrev main_v308 : Ref sig .tc := ⟨.hbm, 486, rfl⟩
abbrev main_v309 : Ref sig .tc := ⟨.hbm, 487, rfl⟩
abbrev main_v310 : Ref sig .tc := ⟨.hbm, 488, rfl⟩
abbrev main_v311 : Ref sig .tc := ⟨.hbm, 489, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S50000 : S_.BroadcastsInDim S50000 (![] : Fin 0 → Fin S50000.rank)
  bcast_S320000_S320000x1_0 : S320000.BroadcastsInDim S320000x1 (![0] : Fin 1 → Fin S320000x1.rank)
  slices_S320000x4_S320000x1_0_3 : S320000x4.Slices ![0, 3] S320000x1
  slices_S5x1x128_S1x1x128_0_0_0 : S5x1x128.Slices ![0, 0, 0] S1x1x128
  shapeCasts_S1x1x128_S1x128 : S1x1x128.ShapeCasts S1x128
  slices_S320000x4_S320000x3_0_0 : S320000x4.Slices ![0, 0] S320000x3
  slices_S5x3x128_S1x3x128_0_0_0 : S5x3x128.Slices ![0, 0, 0] S1x3x128
  shapeCasts_S1x3x128_S3x128 : S1x3x128.ShapeCasts S3x128
  concatenates_S320000x128_S320000x128_S320000x256_d1 : Shape.Concatenates [S320000x128, S320000x128] S320000x256 1
  bcast_S320000x1_S320000x256_0_1 : S320000x1.BroadcastsInDim S320000x256 (![0, 1] : Fin 2 → Fin S320000x256.rank)
  bcast_S_S50000x256 : S_.BroadcastsInDim S50000x256 (![] : Fin 0 → Fin S50000x256.rank)
  concatenates_S50000x256_S50000x256_S50000x512_d1 : Shape.Concatenates [S50000x256, S50000x256] S50000x512 1
  slices_S5x512x256_S1x512x256_0_0_0 : S5x512x256.Slices ![0, 0, 0] S1x512x256
  shapeCasts_S1x512x256_S512x256 : S1x512x256.ShapeCasts S512x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S5x1x128_S1x1x128_1_0_0 : S5x1x128.Slices ![1, 0, 0] S1x1x128
  slices_S5x3x128_S1x3x128_1_0_0 : S5x3x128.Slices ![1, 0, 0] S1x3x128
  slices_S5x512x256_S1x512x256_1_0_0 : S5x512x256.Slices ![1, 0, 0] S1x512x256
  slices_S5x256_S1x256_1_0 : S5x256.Slices ![1, 0] S1x256
  slices_S5x1x128_S1x1x128_2_0_0 : S5x1x128.Slices ![2, 0, 0] S1x1x128
  slices_S5x3x128_S1x3x128_2_0_0 : S5x3x128.Slices ![2, 0, 0] S1x3x128
  slices_S5x512x256_S1x512x256_2_0_0 : S5x512x256.Slices ![2, 0, 0] S1x512x256
  slices_S5x256_S1x256_2_0 : S5x256.Slices ![2, 0] S1x256
  slices_S5x1x128_S1x1x128_3_0_0 : S5x1x128.Slices ![3, 0, 0] S1x1x128
  slices_S5x3x128_S1x3x128_3_0_0 : S5x3x128.Slices ![3, 0, 0] S1x3x128
  slices_S5x512x256_S1x512x256_3_0_0 : S5x512x256.Slices ![3, 0, 0] S1x512x256
  slices_S5x256_S1x256_3_0 : S5x256.Slices ![3, 0] S1x256
  slices_S5x1x128_S1x1x128_4_0_0 : S5x1x128.Slices ![4, 0, 0] S1x1x128
  slices_S5x3x128_S1x3x128_4_0_0 : S5x3x128.Slices ![4, 0, 0] S1x3x128
  slices_S5x512x256_S1x512x256_4_0_0 : S5x512x256.Slices ![4, 0, 0] S1x512x256
  slices_S5x256_S1x256_4_0 : S5x256.Slices ![4, 0] S1x256
  scatter_S50000_S320000x1_S320000_n_0_0_1_wf : ScatterDims.WF S50000 S320000x1 S320000 [] [0] [0] 1
  gather_S50000_S320000x1_S320000_n_0_n_n_0_1_1_wf : GatherDims.WF S50000 S320000x1 S320000 [] [0] [] [0] [] 1 ![1]
  dot_S320000x1_S1x128_S320000x128_1_0_0_1_n_n_wf : DotDims.WF S320000x1 S1x128 S320000x128 [1] [0] [0] [1] [] []
  dot_S320000x3_S3x128_S320000x128_1_0_0_1_n_n_wf : DotDims.WF S320000x3 S3x128 S320000x128 [1] [0] [0] [1] [] []
  gather_S50000x256_S320000x1_S320000x256_1_0_n_n_0_1_1256_wf : GatherDims.WF S50000x256 S320000x1 S320000x256 [1] [0] [] [0] [] 1 ![1, 256]
  scatter_S50000x256_S320000x1_S320000x256_1_0_0_1_wf : ScatterDims.WF S50000x256 S320000x1 S320000x256 [1] [0] [0] 1
  dot_S50000x512_S512x256_S50000x256_1_0_0_1_n_n_wf : DotDims.WF S50000x512 S512x256 S50000x256 [1] [0] [0] [1] [] []

variable [Facts₀]

def scatter_S50000_S320000x1_S320000_n_0_0_1 : ScatterDims S50000 S320000x1 S320000 where
  updateWindowDims := []
  insertedWindowDims := [0]
  scatterDimsToOperandDims := [0]
  indexVectorDim := 1
  wf := scatter_S50000_S320000x1_S320000_n_0_0_1_wf
def gather_S50000_S320000x1_S320000_n_0_n_n_0_1_1 : GatherDims S50000 S320000x1 S320000 where
  offsetDims := []
  collapsedSliceDims := [0]
  operandBatchingDims := []
  startIndicesBatchingDims := []
  startIndexMap := [0]
  indexVectorDim := 1
  sliceSizes := ![1]
  wf := gather_S50000_S320000x1_S320000_n_0_n_n_0_1_1_wf
def dot_S320000x1_S1x128_S320000x128_1_0_0_1_n_n : DotDims S320000x1 S1x128 S320000x128 where
  lhsContracting := [1]
  rhsContracting := [0]
  lhsNonContracting := [0]
  rhsNonContracting := [1]
  lhsBatch := []
  rhsBatch := []
  wf := dot_S320000x1_S1x128_S320000x128_1_0_0_1_n_n_wf
def dot_S320000x3_S3x128_S320000x128_1_0_0_1_n_n : DotDims S320000x3 S3x128 S320000x128 where
  lhsContracting := [1]
  rhsContracting := [0]
  lhsNonContracting := [0]
  rhsNonContracting := [1]
  lhsBatch := []
  rhsBatch := []
  wf := dot_S320000x3_S3x128_S320000x128_1_0_0_1_n_n_wf
def gather_S50000x256_S320000x1_S320000x256_1_0_n_n_0_1_1256 : GatherDims S50000x256 S320000x1 S320000x256 where
  offsetDims := [1]
  collapsedSliceDims := [0]
  operandBatchingDims := []
  startIndicesBatchingDims := []
  startIndexMap := [0]
  indexVectorDim := 1
  sliceSizes := ![1, 256]
  wf := gather_S50000x256_S320000x1_S320000x256_1_0_n_n_0_1_1256_wf
def scatter_S50000x256_S320000x1_S320000x256_1_0_0_1 : ScatterDims S50000x256 S320000x1 S320000x256 where
  updateWindowDims := [1]
  insertedWindowDims := [0]
  scatterDimsToOperandDims := [0]
  indexVectorDim := 1
  wf := scatter_S50000x256_S320000x1_S320000x256_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf

class Facts : Prop extends Facts₀ where

variable [Facts]
-- ==== Proof.KRun.lean ====
/-
  The idealized kernel program's run with its RESULT named: every weakly fair execution of @main terminates,
  nothing faulting, the result array holding what the last region's write-backs leave (the fold of the host
  stretches and the regions' arrays over the launch memory, read at the result buffer) and the nine argument
  arrays as launched. The launch over the forty-two segments is the one that gives the frame claim; only the
  final state is read at one more buffer.
-/
import proofs.«107720_j79044578115931_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v194) = W42 m ρ c (Proc.devRef .tc main_v194)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W42 m ρ c b)
    (hfin := fun c s' => by
      iintro ⟨⟨Hh, -⟩, HSI⟩
      unfold StableHlo.held
      imodintro
      iapply (pointsTo_read_all (Pipeline.ucRefs τ sig) (fun b => (((c : Thread nD τ)).1, b)) (W42 m ρ c) s')
      isplitl [Hh] <;> iassumption)
    (hQ := fun s h c =>
      ⟨h c _ (mem_uc main_v194 (by decide)),
       (h c _ (mem_uc main_arg0 (by decide))).trans (W42_main_arg0 m ρ c),
       (h c _ (mem_uc main_arg1 (by decide))).trans (W42_main_arg1 m ρ c),
       (h c _ (mem_uc main_arg2 (by decide))).trans (W42_main_arg2 m ρ c),
       (h c _ (mem_uc main_arg3 (by decide))).trans (W42_main_arg3 m ρ c),
       (h c _ (mem_uc main_arg4 (by decide))).trans (W42_main_arg4 m ρ c),
       (h c _ (mem_uc main_arg5 (by decide))).trans (W42_main_arg5 m ρ c),
       (h c _ (mem_uc main_arg6 (by decide))).trans (W42_main_arg6 m ρ c),
       (h c _ (mem_uc main_arg7 (by decide))).trans (W42_main_arg7 m ρ c),
       (h c _ (mem_uc main_arg8 (by decide))).trans (W42_main_arg8 m ρ c)⟩)

end Cert.KernelIdeal.KRun

end
-- ==== Proof.KStages.lean ====
/-
  The host-side stages of the message-passing network as the kernel program computes them, each one pure function
  of whole arrays: the two index rows of the edge table, an index row wrapped into range and made a column, the
  in-degree of every node, its inverse square root (zero at isolated nodes), the per-edge coefficient (the product of
  the two end points' values), the edge table extended by that coefficient as a fifth column, the gather of node
  features along the source row, the sum of the messages into their target nodes, the column mean and the column
  variance of a node array, and the blocks of the stacked parameters that one layer reads.
-/
import proofs.«107720_j79044578115931_2_alg».proof.Proof.Gen.KernelIdeal
import Idealize.ShloMosaic.PureOps.Ideal

noncomputable section

namespace Cert.KernelIdeal.KStages

open Cert.KernelIdeal Idealize.ShloMosaic
open Cert.KernelIdeal.Facts₀

/-- An array of shape `S` and element type `e`, floats read as extended reals. -/
abbrev A (S : Shape) (e : EltTy) : Type := (⟨S, e⟩ : BufTy).Contents (Elt Ideal)

/-- The source node of every edge: row 0 of the edge table. -/
def kRow (a1 : A S2x320000 .i32) : A S320000 .i32 :=
  shapeCast S320000 (extractStridedSlice S1x320000 ![0, 0] a1 slices_S2x320000_S1x320000_0_0) shapeCasts_S1x320000_S320000

/-- The target node of every edge: row 1 of the edge table. -/
def kCol (a1 : A S2x320000 .i32) : A S320000 .i32 :=
  shapeCast S320000 (extractStridedSlice S1x320000 ![1, 0] a1 slices_S2x320000_S1x320000_1_0) shapeCasts_S1x320000_S320000

/-- An index row with negative entries shifted up by the number of nodes, as a one-column table. -/
def kWrap (idx : A S320000 .i32) : A S320000x1 .i32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 50000#32))) idx)

/-- The number of edges into every node: ones summed into their target nodes. -/
def kDeg (col : A S320000 .i32) : A S50000 .f32 :=
  Host.scatterAdd (F := Ideal) (φ := .f32) scatter_S50000_S320000x1_S320000_n_0_0_1
    (broadcastInDim S50000 ![] bcast_S_S50000 (constant (F := Ideal) S_ .f32 0x00000000#32))
    (broadcastInDim S320000x1 ![0] bcast_S320000_S320000x1_0 col)
    (broadcastInDim S320000 ![] bcast_S_S320000 (constant (F := Ideal) S_ .f32 0x3F800000#32))

/-- The degree to the power minus one half where it is positive, zero elsewhere. -/
def kDinv (deg : A S50000 .f32) : A S50000 .f32 :=
  select (cmpf (F := Ideal) (φ := .f32) .ogt deg (broadcastInDim S50000 ![] bcast_S_S50000 (constant (F := Ideal) S_ .f32 0x00000000#32)))
    (Host.powf (F := Ideal) (φ := .f32) deg (broadcastInDim S50000 ![] bcast_S_S50000 (constant (F := Ideal) S_ .f32 0xBF000000#32)))
    (broadcastInDim S50000 ![] bcast_S_S50000 (constant (F := Ideal) S_ .f32 0x00000000#32))

/-- The coefficient of every edge: the product of its two end points' values. -/
def kNorm (dinv : A S50000 .f32) (row col : A S320000 .i32) : A S320000 .f32 :=
  mulf (F := Ideal) (φ := .f32) (Host.gather (α := EReal) gather_S50000_S320000x1_S320000_n_0_n_n_0_1_1 dinv (kWrap row))
    (Host.gather (α := EReal) gather_S50000_S320000x1_S320000_n_0_n_n_0_1_1 dinv (kWrap col))

/-- The edge attributes with the coefficient appended as a fifth column. -/
def kConcat (a2 : A S320000x4 .f32) (norm : A S320000 .f32) : A S320000x5 .f32 :=
  concatenate S320000x5 1 [⟨S320000x4, a2⟩, ⟨S320000x1, shapeCast S320000x1 norm shapeCasts_S320000_S320000x1⟩]
    concatenates_S320000x4_S320000x1_S320000x5_d1

/-- The extended edge table as a function of the edge table and the edge attributes. -/
def kExtra (a1 : A S2x320000 .i32) (a2 : A S320000x4 .f32) : A S320000x5 .f32 :=
  kConcat a2 (kNorm (kDinv (kDeg (kCol a1))) (kRow a1) (kCol a1))

/-- The node features gathered along the source row. -/
def kHrow (h : A S50000x256 .f32) (row : A S320000 .i32) : A S320000x256 .f32 :=
  Host.gather (α := EReal) gather_S50000x256_S320000x1_S320000x256_1_0_n_n_0_1_1256 h (kWrap row)

/-- The messages summed into their target nodes. -/
def kAgg (col : A S320000 .i32) (msg : A S320000x256 .f32) : A S50000x256 .f32 :=
  Host.scatterAdd (F := Ideal) (φ := .f32) scatter_S50000x256_S320000x1_S320000x256_1_0_0_1
    (broadcastInDim S50000x256 ![] bcast_S_S50000x256 (constant (F := Ideal) S_ .f32 0x00000000#32))
    (broadcastInDim S320000x1 ![0] bcast_S320000_S320000x1_0 col) msg

/-- The mean of every column of a node array, as one row. -/
def kMean (y : A S50000x256 .f32) : A S1x256 .f32 :=
  Host.divf (F := Ideal) (φ := .f32)
    (broadcastInDim S1x256 ![1] bcast_S256_S1x256_1
      (Host.reduceAdd (F := Ideal) (φ := .f32) y (constant (F := Ideal) S_ .f32 0x00000000#32) reducesTo_S50000x256_S256_d0 h_S_))
    (broadcastInDim S1x256 ![] bcast_S_S1x256 (constant (F := Ideal) S_ .f32 0x47435000#32))

/-- The divisor of the variance: the number of rows minus the correction `c`. -/
def kVarDen (c : A S_ .i32) : A S_ .f32 :=
  subf (F := Ideal) (φ := .f32) (constant (F := Ideal) S_ .f32 0x47435000#32) (sitofp (F := Ideal) .f32 c)

/-- A node array with its column means subtracted. -/
def kCentered (y : A S50000x256 .f32) : A S50000x256 .f32 :=
  subf (F := Ideal) (φ := .f32) y (broadcastInDim (α := EReal) S50000x256 ![0, 1] bcast_S1x256_S50000x256_0_1 (kMean y))

/-- The variance of every column of a node array with correction `c`, as one row (not a number where the divisor is
    not positive). -/
def kVarC (y : A S50000x256 .f32) (c : A S_ .i32) : A S1x256 .f32 :=
  select (broadcastInDim S1x256 ![] bcast_S_S1x256 (cmpf (F := Ideal) (φ := .f32) .ogt (kVarDen c) (constant (F := Ideal) S_ .f32 0x00000000#32)))
    (Host.divf (F := Ideal) (φ := .f32)
      (broadcastInDim S1x256 ![1] bcast_S256_S1x256_1
        (Host.reduceAdd (F := Ideal) (φ := .f32) (mulf (F := Ideal) (φ := .f32) (kCentered y) (kCentered y)) (constant (F := Ideal) S_ .f32 0x00000000#32)
          reducesTo_S50000x256_S256_d0 h_S_))
      (broadcastInDim S1x256 ![] bcast_S_S1x256 (kVarDen c)))
    (broadcastInDim S1x256 ![] bcast_S_S1x256 (constant (F := Ideal) S_ .f32 0x7FC00000#32))

/-- The variance of every column with no correction. -/
def kVar (y : A S50000x256 .f32) : A S1x256 .f32 := kVarC y (constantI S_ 32 0#32)

/-- One block of the stacked first edge weights. -/
def kEw1 (st : Fin 3 → Nat) (hs : S5x1x128.Slices st S1x1x128) (a5 : A S5x1x128 .f32) : A S1x128 .f32 :=
  shapeCast S1x128 (extractStridedSlice S1x1x128 st a5 hs) shapeCasts_S1x1x128_S1x128

/-- One block of the stacked second edge weights. -/
def kEw2 (st : Fin 3 → Nat) (hs : S5x3x128.Slices st S1x3x128) (a6 : A S5x3x128 .f32) : A S3x128 .f32 :=
  shapeCast S3x128 (extractStridedSlice S1x3x128 st a6 hs) shapeCasts_S1x3x128_S3x128

/-- One block of the stacked dense weights. -/
def kW (st : Fin 3 → Nat) (hs : S5x512x256.Slices st S1x512x256) (a3 : A S5x512x256 .f32) : A S512x256 .f32 :=
  shapeCast S512x256 (extractStridedSlice S1x512x256 st a3 hs) shapeCasts_S1x512x256_S512x256

/-- One row of a stacked table of rows (biases, gains, offsets), flattened and made a row again. -/
def kVecRow (st : Fin 2 → Nat) (hs : S5x256.Slices st S1x256) (a : A S5x256 .f32) : A S1x256 .f32 :=
  shapeCast S1x256 (shapeCast S256 (extractStridedSlice S1x256 st a hs) shapeCasts_S1x256_S256) shapeCasts_S256_S1x256

/-- Layer 0's parameter blocks. -/
def ew1_0 (a5 : A S5x1x128 .f32) : A S1x128 .f32 := kEw1 ![0, 0, 0] slices_S5x1x128_S1x1x128_0_0_0 a5
def ew2_0 (a6 : A S5x3x128 .f32) : A S3x128 .f32 := kEw2 ![0, 0, 0] slices_S5x3x128_S1x3x128_0_0_0 a6
def w_0 (a3 : A S5x512x256 .f32) : A S512x256 .f32 := kW ![0, 0, 0] slices_S5x512x256_S1x512x256_0_0_0 a3
def b_0 (a4 : A S5x256 .f32) : A S1x256 .f32 := kVecRow ![0, 0] slices_S5x256_S1x256_0_0 a4
def g_0 (a7 : A S5x256 .f32) : A S1x256 .f32 := kVecRow ![0, 0] slices_S5x256_S1x256_0_0 a7
def beta_0 (a8 : A S5x256 .f32) : A S1x256 .f32 := kVecRow ![0, 0] slices_S5x256_S1x256_0_0 a8

/-- Layer 1's parameter blocks. -/
def ew1_1 (a5 : A S5x1x128 .f32) : A S1x128 .f32 := kEw1 ![1, 0, 0] slices_S5x1x128_S1x1x128_1_0_0 a5
def ew2_1 (a6 : A S5x3x128 .f32) : A S3x128 .f32 := kEw2 ![1, 0, 0] slices_S5x3x128_S1x3x128_1_0_0 a6
def w_1 (a3 : A S5x512x256 .f32) : A S512x256 .f32 := kW ![1, 0, 0] slices_S5x512x256_S1x512x256_1_0_0 a3
def b_1 (a4 : A S5x256 .f32) : A S1x256 .f32 := kVecRow ![1, 0] slices_S5x256_S1x256_1_0 a4
def g_1 (a7 : A S5x256 .f32) : A S1x256 .f32 := kVecRow ![1, 0] slices_S5x256_S1x256_1_0 a7
def beta_1 (a8 : A S5x256 .f32) : A S1x256 .f32 := kVecRow ![1, 0] slices_S5x256_S1x256_1_0 a8

/-- Layer 2's parameter blocks. -/
def ew1_2 (a5 : A S5x1x128 .f32) : A S1x128 .f32 := kEw1 ![2, 0, 0] slices_S5x1x128_S1x1x128_2_0_0 a5
def ew2_2 (a6 : A S5x3x128 .f32) : A S3x128 .f32 := kEw2 ![2, 0, 0] slices_S5x3x128_S1x3x128_2_0_0 a6
def w_2 (a3 : A S5x512x256 .f32) : A S512x256 .f32 := kW ![2, 0, 0] slices_S5x512x256_S1x512x256_2_0_0 a3
def b_2 (a4 : A S5x256 .f32) : A S1x256 .f32 := kVecRow ![2, 0] slices_S5x256_S1x256_2_0 a4
def g_2 (a7 : A S5x256 .f32) : A S1x256 .f32 := kVecRow ![2, 0] slices_S5x256_S1x256_2_0 a7
def beta_2 (a8 : A S5x256 .f32) : A S1x256 .f32 := kVecRow ![2, 0] slices_S5x256_S1x256_2_0 a8

/-- Layer 3's parameter blocks. -/
def ew1_3 (a5 : A S5x1x128 .f32) : A S1x128 .f32 := kEw1 ![3, 0, 0] slices_S5x1x128_S1x1x128_3_0_0 a5
def ew2_3 (a6 : A S5x3x128 .f32) : A S3x128 .f32 := kEw2 ![3, 0, 0] slices_S5x3x128_S1x3x128_3_0_0 a6
def w_3 (a3 : A S5x512x256 .f32) : A S512x256 .f32 := kW ![3, 0, 0] slices_S5x512x256_S1x512x256_3_0_0 a3
def b_3 (a4 : A S5x256 .f32) : A S1x256 .f32 := kVecRow ![3, 0] slices_S5x256_S1x256_3_0 a4
def g_3 (a7 : A S5x256 .f32) : A S1x256 .f32 := kVecRow ![3, 0] slices_S5x256_S1x256_3_0 a7
def beta_3 (a8 : A S5x256 .f32) : A S1x256 .f32 := kVecRow ![3, 0] slices_S5x256_S1x256_3_0 a8

/-- Layer 4's parameter blocks. -/
def ew1_4 (a5 : A S5x1x128 .f32) : A S1x128 .f32 := kEw1 ![4, 0, 0] slices_S5x1x128_S1x1x128_4_0_0 a5
def ew2_4 (a6 : A S5x3x128 .f32) : A S3x128 .f32 := kEw2 ![4, 0, 0] slices_S5x3x128_S1x3x128_4_0_0 a6
def w_4 (a3 : A S5x512x256 .f32) : A S512x256 .f32 := kW ![4, 0, 0] slices_S5x512x256_S1x512x256_4_0_0 a3
def b_4 (a4 : A S5x256 .f32) : A S1x256 .f32 := kVecRow ![4, 0] slices_S5x256_S1x256_4_0 a4
def g_4 (a7 : A S5x256 .f32) : A S1x256 .f32 := kVecRow ![4, 0] slices_S5x256_S1x256_4_0 a7
def beta_4 (a8 : A S5x256 .f32) : A S1x256 .f32 := kVecRow ![4, 0] slices_S5x256_S1x256_4_0 a8

end Cert.KernelIdeal.KStages

end
-- ==== Proof.KFoldSeg0.lean ====
/-
  Layer 0's host stretches, each at arbitrary entry contents `V`: the buffers a stretch writes that a later step
  reads hold the named stage of the contents it read them from (the stretch's operations composed), and every buffer
  the stretch does not write holds what it held.
-/
import proofs.«107720_j79044578115931_2_alg».proof.Proof.KStages
import proofs.«107720_j79044578115931_2_alg».proof.Proof.Gen.KernelIdeal.Launch
import Idealize.ShloMosaic.Lib.StableHlo.Run

set_option maxRecDepth 16384

noncomputable section

namespace Cert.KernelIdeal.KFold

open Cert.KernelIdeal Cert.KernelIdeal.Gen Cert.KernelIdeal.KStages Idealize.ShloMosaic Idealize.ShloMosaic.StableHlo

variable (V : Valuation τ sig (Elt Ideal))

/-- The buffers `hostOps0` writes, in order. -/
def wr0 : List (Ref sig .tc) := [main_v0, main_v1, main_v2, main_v3, main_cst, main_v4, main_cst_0, main_v5, main_v6, main_v7, main_cst_1, main_v8, main_v9, main_cst_2, main_v10, main_v11, main_cst_3]
/-- Every other buffer is as before the stretch. -/
theorem keep0 {r : Ref sig .tc} (hr : r ∉ wr0) : after (hostOps0 (F := Ideal)) V (Proc.devRef .tc r) = V (Proc.devRef .tc r) :=
  after_of_writes_sub _ V (by
    simp only [hostOps0, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps0_1` writes, in order. -/
def wr0_1 : List (Ref sig .tc) := [main_call0_v0, main_call0_v1, main_v12]
/-- Every other buffer is as before the stretch. -/
theorem keep0_1 {r : Ref sig .tc} (hr : r ∉ wr0_1) : after (hostOps0_1 (F := Ideal)) V (Proc.devRef .tc r) = V (Proc.devRef .tc r) :=
  after_of_writes_sub _ V (by
    simp only [hostOps0_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps0_2` writes, in order. -/
def wr0_2 : List (Ref sig .tc) := [main_c, main_v13, main_v14, main_c_4, main_v15, main_v16, main_v17, main_v18, main_v19, main_c_5, main_v20, main_v21, main_c_6, main_v22, main_v23, main_v24, main_v25, main_v26, main_v27, main_v28, main_v29, main_c_7, main_v30, main_v31, main_c_8, main_v32, main_v33, main_v34, main_v35, main_v36, main_v37, main_v38, main_v39, main_v40]
/-- Every other buffer is as before the stretch. -/
theorem keep0_2 {r : Ref sig .tc} (hr : r ∉ wr0_2) : after (hostOps0_2 (F := Ideal)) V (Proc.devRef .tc r) = V (Proc.devRef .tc r) :=
  after_of_writes_sub _ V (by
    simp only [hostOps0_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps1` writes, in order. -/
def wr1 : List (Ref sig .tc) := [main_cst_9, main_v42, main_v43, main_v44, main_v45, main_v46, main_v47, main_v48, main_v49]
/-- Every other buffer is as before the stretch. -/
theorem keep1 {r : Ref sig .tc} (hr : r ∉ wr1) : after (hostOps1 (F := Ideal)) V (Proc.devRef .tc r) = V (Proc.devRef .tc r) :=
  after_of_writes_sub _ V (by
    simp only [hostOps1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps2` writes, in order. -/
def wr2 : List (Ref sig .tc) := [main_cst_10, main_v51, main_v52, main_cst_11, main_v53, main_v54, main_c_12]
/-- Every other buffer is as before the stretch. -/
theorem keep2 {r : Ref sig .tc} (hr : r ∉ wr2) : after (hostOps2 (F := Ideal)) V (Proc.devRef .tc r) = V (Proc.devRef .tc r) :=
  after_of_writes_sub _ V (by
    simp only [hostOps2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps2_1` writes, in order. -/
def wr2_1 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v55]
/-- Every other buffer is as before the stretch. -/
theorem keep2_1 {r : Ref sig .tc} (hr : r ∉ wr2_1) : after (hostOps2_1 (F := Ideal)) V (Proc.devRef .tc r) = V (Proc.devRef .tc r) :=
  after_of_writes_sub _ V (by
    simp only [hostOps2_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps2_2` writes, in order. -/
def wr2_2 : List (Ref sig .tc) := [main_v56, main_v57, main_v58, main_v59, main_v60, main_v61]
/-- Every other buffer is as before the stretch. -/
theorem keep2_2 {r : Ref sig .tc} (hr : r ∉ wr2_2) : after (hostOps2_2 (F := Ideal)) V (Proc.devRef .tc r) = V (Proc.devRef .tc r) :=
  after_of_writes_sub _ V (by
    simp only [hostOps2_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

theorem val0_v1 : after (hostOps0 (F := Ideal)) V (Proc.devRef .tc main_v1) = kRow (V (Proc.devRef .tc main_arg1)) := by
  after_results_simp <;> rfl

theorem val0_v3 : after (hostOps0 (F := Ideal)) V (Proc.devRef .tc main_v3) = kCol (V (Proc.devRef .tc main_arg1)) := by
  after_results_simp <;> rfl

theorem val0_v9 : after (hostOps0 (F := Ideal)) V (Proc.devRef .tc main_v9) = cmpf (F := Ideal) (φ := .f32) .ogt (kDeg (kCol (V (Proc.devRef .tc main_arg1)))) (broadcastInDim S50000 ![] bcast_S_S50000 (constant (F := Ideal) S_ .f32 0x00000000#32)) := by
  after_results_simp <;> rfl

theorem val0_v11 : after (hostOps0 (F := Ideal)) V (Proc.devRef .tc main_v11) = Host.powf (F := Ideal) (φ := .f32) (kDeg (kCol (V (Proc.devRef .tc main_arg1)))) (broadcastInDim S50000 ![] bcast_S_S50000 (constant (F := Ideal) S_ .f32 0xBF000000#32)) := by
  after_results_simp <;> rfl

theorem val0_cst_3 : after (hostOps0 (F := Ideal)) V (Proc.devRef .tc main_cst_3) = constant (F := Ideal) S_ .f32 0x00000000#32 := by
  after_results_simp <;> rfl

theorem val0_1_v12 : after (hostOps0_1 (F := Ideal)) V (Proc.devRef .tc main_v12) = select (V (Proc.devRef .tc main_v9)) (V (Proc.devRef .tc main_v11)) (broadcastInDim S50000 ![] bcast_S_S50000 (V (Proc.devRef .tc main_cst_3))) := by
  after_results_simp <;> rfl

theorem val0_2_v29 : after (hostOps0_2 (F := Ideal)) V (Proc.devRef .tc main_v29) = kConcat (V (Proc.devRef .tc main_arg2)) (kNorm (V (Proc.devRef .tc main_v12)) (V (Proc.devRef .tc main_v1)) (V (Proc.devRef .tc main_v3))) := by
  after_results_simp <;> rfl

theorem val0_2_v36 : after (hostOps0_2 (F := Ideal)) V (Proc.devRef .tc main_v36) = kHrow (V (Proc.devRef .tc main_arg0)) (V (Proc.devRef .tc main_v1)) := by
  after_results_simp <;> rfl

theorem val0_2_v38 : after (hostOps0_2 (F := Ideal)) V (Proc.devRef .tc main_v38) = ew1_0 (V (Proc.devRef .tc main_arg5)) := by
  after_results_simp <;> rfl

theorem val0_2_v40 : after (hostOps0_2 (F := Ideal)) V (Proc.devRef .tc main_v40) = ew2_0 (V (Proc.devRef .tc main_arg6)) := by
  after_results_simp <;> rfl

theorem val1_v44 : after (hostOps1 (F := Ideal)) V (Proc.devRef .tc main_v44) = kAgg (V (Proc.devRef .tc main_v3)) (V (Proc.devRef .tc main_v41)) := by
  after_results_simp <;> rfl

theorem val1_v46 : after (hostOps1 (F := Ideal)) V (Proc.devRef .tc main_v46) = w_0 (V (Proc.devRef .tc main_arg3)) := by
  after_results_simp <;> rfl

theorem val1_v49 : after (hostOps1 (F := Ideal)) V (Proc.devRef .tc main_v49) = b_0 (V (Proc.devRef .tc main_arg4)) := by
  after_results_simp <;> rfl

theorem val2_v54 : after (hostOps2 (F := Ideal)) V (Proc.devRef .tc main_v54) = kMean (V (Proc.devRef .tc main_v50)) := by
  after_results_simp <;> rfl

theorem val2_c_12 : after (hostOps2 (F := Ideal)) V (Proc.devRef .tc main_c_12) = constantI S_ 32 0#32 := by
  after_results_simp <;> rfl

theorem val2_1_v55 : after (hostOps2_1 (F := Ideal)) V (Proc.devRef .tc main_v55) = kVarC (V (Proc.devRef .tc main_v50)) (V (Proc.devRef .tc main_c_12)) := by
  after_results_simp <;> rfl

theorem val2_2_v58 : after (hostOps2_2 (F := Ideal)) V (Proc.devRef .tc main_v58) = g_0 (V (Proc.devRef .tc main_arg7)) := by
  after_results_simp <;> rfl

theorem val2_2_v61 : after (hostOps2_2 (F := Ideal)) V (Proc.devRef .tc main_v61) = beta_0 (V (Proc.devRef .tc main_arg8)) := by
  after_results_simp <;> rfl

end Cert.KernelIdeal.KFold

end
-- ==== Proof.KSpec.lean ====
/-
  The three dense steps of one message-passing layer, each as ONE function of whole arrays, index by index,
  at the ideal values (a float is an extended real). No program is imported: shapes are literal.

  * `fuseG`   : an edge's message before aggregation. Column `j` of edge `e` is
                 `norm(e) * (h_row(e,j) + edge_term(e,j))`, where the edge term is the single-feature product
                 for the first 128 columns and the three-feature product, summed left to right, for the last 128;
                 `norm` and the four features are columns 4 and 0..3 of the five-column side array.
  * `mlpG`    : `max (h·W_top + agg·W_bottom + b, 0)` with the two 256-term sums kept apart and added in that order.
  * `bnG`     : `(y - mu) * rsqrt (var + eps) * g + b`, with `eps` the f32 word `0x3727C5AC` left unevaluated;
    `bnReluG` : the same followed by `max · 0`.
-/
import Idealize.ShloMosaic.PureOps.Ideal.Laws
import Idealize.ShloMosaic.Lib.ValueIdx

noncomputable section

namespace Cert.KernelIdeal.RV

open Idealize.ShloMosaic Idealize.ShloMosaic.ValueIdx

/-- A two-axis array of extended reals with literal extents. -/
abbrev Arr (n0 n1 : Nat) : Type := (⟨2, ![n0, n1]⟩ : Shape).Idx → EReal

/-! ## The fused edge message -/

/-- The edge message at edge `e`, column `j`. -/
def fuseAt (hrow : Arr 320000 256) (extra : Arr 320000 5) (ew1 : Arr 1 128) (ew2 : Arr 3 128)
    (e : Fin 320000) (j : Fin 256) : EReal :=
  if h : j.val < 128 then
    extra (ix2 e (4 : Fin 5)) * (hrow (ix2 e j)
      + extra (ix2 e (3 : Fin 5)) * ew1 (ix2 (0 : Fin 1) (⟨j.val, h⟩ : Fin 128)))
  else
    extra (ix2 e (4 : Fin 5)) * (hrow (ix2 e j)
      + ((extra (ix2 e (0 : Fin 5)) * ew2 (ix2 (0 : Fin 3) (⟨j.val - 128, by have := j.isLt; omega⟩ : Fin 128))
          + extra (ix2 e (1 : Fin 5)) * ew2 (ix2 (1 : Fin 3) (⟨j.val - 128, by have := j.isLt; omega⟩ : Fin 128)))
        + extra (ix2 e (2 : Fin 5)) * ew2 (ix2 (2 : Fin 3) (⟨j.val - 128, by have := j.isLt; omega⟩ : Fin 128))))

/-- The whole [320000,256] array of edge messages. -/
def fuseG (hrow : Arr 320000 256) (extra : Arr 320000 5) (ew1 : Arr 1 128) (ew2 : Arr 3 128) : Arr 320000 256 :=
  fun i => fuseAt hrow extra ew1 ew2 (i 0) (i 1)

theorem fuseG_ix2 (hrow : Arr 320000 256) (extra : Arr 320000 5) (ew1 : Arr 1 128) (ew2 : Arr 3 128)
    (e : Fin 320000) (j : Fin 256) : fuseG hrow extra ew1 ew2 (ix2 e j) = fuseAt hrow extra ew1 ew2 e j := rfl

/-- First half of the columns. -/
theorem fuseAt_lo (hrow : Arr 320000 256) (extra : Arr 320000 5) (ew1 : Arr 1 128) (ew2 : Arr 3 128)
    (e : Fin 320000) (j : Fin 256) (h : j.val < 128) :
    fuseAt hrow extra ew1 ew2 e j =
      extra (ix2 e (4 : Fin 5)) * (hrow (ix2 e j)
        + extra (ix2 e (3 : Fin 5)) * ew1 (ix2 (0 : Fin 1) (⟨j.val, h⟩ : Fin 128))) := by
  unfold fuseAt; rw [dif_pos h]

/-- Second half of the columns, at column `128 + q`. -/
theorem fuseAt_hi (hrow : Arr 320000 256) (extra : Arr 320000 5) (ew1 : Arr 1 128) (ew2 : Arr 3 128)
    (e : Fin 320000) (j : Fin 256) (q : Fin 128) (h : j.val = 128 + q.val) :
    fuseAt hrow extra ew1 ew2 e j =
      extra (ix2 e (4 : Fin 5)) * (hrow (ix2 e j)
        + ((extra (ix2 e (0 : Fin 5)) * ew2 (ix2 (0 : Fin 3) q)
            + extra (ix2 e (1 : Fin 5)) * ew2 (ix2 (1 : Fin 3) q))
          + extra (ix2 e (2 : Fin 5)) * ew2 (ix2 (2 : Fin 3) q))) := by
  unfold fuseAt
  rw [dif_neg (by omega)]
  have hq : (⟨j.val - 128, by have := j.isLt; omega⟩ : Fin 128) = q := Fin.ext (by show j.val - 128 = q.val; omega)
  rw [hq]

/-! ## The dense layer with its activation -/

/-- The dense layer at node `n`, column `j`: the two halves of the 512-row weight against the node's own
    features and its aggregate, summed apart, then the bias, then `max · 0`. -/
def mlpAt (h agg : Arr 50000 256) (w : Arr 512 256) (b : Arr 1 256) (n : Fin 50000) (j : Fin 256) : EReal :=
  max (((∑ k : Fin 256, h (ix2 n k) * w (ix2 (⟨k.val, by have := k.isLt; omega⟩ : Fin 512) j))
        + (∑ k : Fin 256, agg (ix2 n k) * w (ix2 (⟨256 + k.val, by have := k.isLt; omega⟩ : Fin 512) j)))
      + b (ix2 (0 : Fin 1) j)) 0

def mlpG (h agg : Arr 50000 256) (w : Arr 512 256) (b : Arr 1 256) : Arr 50000 256 :=
  fun i => mlpAt h agg w b (i 0) (i 1)

theorem mlpG_ix2 (h agg : Arr 50000 256) (w : Arr 512 256) (b : Arr 1 256) (n : Fin 50000) (j : Fin 256) :
    mlpG h agg w b (ix2 n j) = mlpAt h agg w b n j := rfl

/-! ## The normalization -/

/-- The variance offset: the f32 word of the program's literal, read at the ideal values and never evaluated. -/
abbrev bnEps : EReal := Ideal.ofBits .f32 0x3727C5AC#32

/-- The normalized value at node `n`, column `j`. -/
def bnAt (y : Arr 50000 256) (mu var g b : Arr 1 256) (n : Fin 50000) (j : Fin 256) : EReal :=
  ((y (ix2 n j) - mu (ix2 (0 : Fin 1) j)) * Ideal.rsqrt (var (ix2 (0 : Fin 1) j) + bnEps)) * g (ix2 (0 : Fin 1) j)
    + b (ix2 (0 : Fin 1) j)

/-- Without the activation (the last layer). -/
def bnG (y : Arr 50000 256) (mu var g b : Arr 1 256) : Arr 50000 256 :=
  fun i => bnAt y mu var g b (i 0) (i 1)

/-- With the activation (every layer but the last). -/
def bnReluG (y : Arr 50000 256) (mu var g b : Arr 1 256) : Arr 50000 256 :=
  fun i => max (bnAt y mu var g b (i 0) (i 1)) 0

theorem bnG_ix2 (y : Arr 50000 256) (mu var g b : Arr 1 256) (n : Fin 50000) (j : Fin 256) :
    bnG y mu var g b (ix2 n j) = bnAt y mu var g b n j := rfl

theorem bnReluG_ix2 (y : Arr 50000 256) (mu var g b : Arr 1 256) (n : Fin 50000) (j : Fin 256) :
    bnReluG y mu var g b (ix2 n j) = max (bnAt y mu var g b n j) 0 := rfl

theorem bnReluG_eq (y : Arr 50000 256) (mu var g b : Arr 1 256) :
    bnReluG y mu var g b = fun i => max (bnG y mu var g b i) 0 := rfl

end Cert.KernelIdeal.RV

end
-- ==== Proof.KLayer.lean ====
/-
  One layer of the message-passing network as a composition of stages, and the network as five layers: the fused
  edge message from the gathered node features and the extended edge table, the messages summed into their target
  nodes, the dense step on the node features beside the sums, and the normalisation of the dense step's result by its
  own column means and variances (cut off below at zero in every layer but the last).
-/
import proofs.«107720_j79044578115931_2_alg».proof.Proof.KStages
import proofs.«107720_j79044578115931_2_alg».proof.Proof.KSpec

noncomputable section

namespace Cert.KernelIdeal.KStages

open Cert.KernelIdeal Idealize.ShloMosaic

/-- The dense step's result: a layer before its normalisation. -/
def kY (h : A S50000x256 .f32) (extra : A S320000x5 .f32) (row col : A S320000 .i32) (ew1 : A S1x128 .f32)
    (ew2 : A S3x128 .f32) (w : A S512x256 .f32) (b : A S1x256 .f32) : A S50000x256 .f32 :=
  RV.mlpG h (kAgg col (RV.fuseG (kHrow h row) extra ew1 ew2)) w b

/-- One layer: the dense step's result normalised by `bn` against its own column means and variances. -/
def kLayer (bn : A S50000x256 .f32 → A S1x256 .f32 → A S1x256 .f32 → A S1x256 .f32 → A S1x256 .f32 → A S50000x256 .f32)
    (h : A S50000x256 .f32) (extra : A S320000x5 .f32) (row col : A S320000 .i32) (ew1 : A S1x128 .f32)
    (ew2 : A S3x128 .f32) (w : A S512x256 .f32) (b g beta : A S1x256 .f32) : A S50000x256 .f32 :=
  bn (kY h extra row col ew1 ew2 w b) (kMean (kY h extra row col ew1 ew2 w b)) (kVar (kY h extra row col ew1 ew2 w b)) g beta

section Net

variable (a0 : A S50000x256 .f32) (a1 : A S2x320000 .i32) (a2 : A S320000x4 .f32) (a3 : A S5x512x256 .f32)
  (a4 : A S5x256 .f32) (a5 : A S5x1x128 .f32) (a6 : A S5x3x128 .f32) (a7 a8 : A S5x256 .f32)

/-- The node features after the first layer. -/
def kH1 : A S50000x256 .f32 :=
  kLayer RV.bnReluG a0 (kExtra a1 a2) (kRow a1) (kCol a1) (ew1_0 a5) (ew2_0 a6) (w_0 a3) (b_0 a4) (g_0 a7) (beta_0 a8)
/-- after the second, -/
def kH2 : A S50000x256 .f32 :=
  kLayer RV.bnReluG (kH1 a0 a1 a2 a3 a4 a5 a6 a7 a8) (kExtra a1 a2) (kRow a1) (kCol a1) (ew1_1 a5) (ew2_1 a6) (w_1 a3) (b_1 a4) (g_1 a7) (beta_1 a8)
/-- the third, -/
def kH3 : A S50000x256 .f32 :=
  kLayer RV.bnReluG (kH2 a0 a1 a2 a3 a4 a5 a6 a7 a8) (kExtra a1 a2) (kRow a1) (kCol a1) (ew1_2 a5) (ew2_2 a6) (w_2 a3) (b_2 a4) (g_2 a7) (beta_2 a8)
/-- and the fourth. -/
def kH4 : A S50000x256 .f32 :=
  kLayer RV.bnReluG (kH3 a0 a1 a2 a3 a4 a5 a6 a7 a8) (kExtra a1 a2) (kRow a1) (kCol a1) (ew1_3 a5) (ew2_3 a6) (w_3 a3) (b_3 a4) (g_3 a7) (beta_3 a8)
/-- The network's result: the fifth layer, normalised without the cut-off. -/
def kOut : A S50000x256 .f32 :=
  kLayer RV.bnG (kH4 a0 a1 a2 a3 a4 a5 a6 a7 a8) (kExtra a1 a2) (kRow a1) (kCol a1) (ew1_4 a5) (ew2_4 a6) (w_4 a3) (b_4 a4) (g_4 a7) (beta_4 a8)

end Net

end Cert.KernelIdeal.KStages

end
-- ==== Proof.KFoldL0.lean ====
/-
  Layer 0 through the run's boundaries: from the contents at the layer's entry boundary to its exit boundary, segment
  by segment — a host stretch leaves in the buffers it writes the named stages of what it read and keeps every other
  buffer, a kernel leaves in its output the kernel's function of its input windows' arrays and keeps every other
  buffer, its input arrays included.
-/
import proofs.«107720_j79044578115931_2_alg».proof.Proof.Gen.KernelIdeal.Frame
import proofs.«107720_j79044578115931_2_alg».proof.Proof.KFoldSeg0
import proofs.«107720_j79044578115931_2_alg».proof.Proof.KLayer

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-- Kernel 0's output array, for whatever contents `V` it is entered at, is its stage function of its input windows' arrays. -/
def Final0 : Prop :=
  ∀ (V : (c : Dev nD) → (b : Ref sig .tc) → Buf (Elt Ideal) ((c : Thread nD τ).loc b)) (c : Dev nD),
      (dat0 (F := Ideal) V c).arrAt 4 cfg0.N = RV.fuseG (V c (Pipeline.arrRef spec0 0)) (V c (Pipeline.arrRef spec0 1)) (V c (Pipeline.arrRef spec0 2)) (V c (Pipeline.arrRef spec0 3))

/-- Kernel 1's output array, for whatever contents `V` it is entered at, is its stage function of its input windows' arrays. -/
def Final1 : Prop :=
  ∀ (V : (c : Dev nD) → (b : Ref sig .tc) → Buf (Elt Ideal) ((c : Thread nD τ).loc b)) (c : Dev nD),
      (dat1 (F := Ideal) V c).arrAt 4 cfg1.N = RV.mlpG (V c (Pipeline.arrRef spec1 0)) (V c (Pipeline.arrRef spec1 1)) (V c (Pipeline.arrRef spec1 2)) (V c (Pipeline.arrRef spec1 3))

/-- Kernel 2's output array, for whatever contents `V` it is entered at, is its stage function of its input windows' arrays. -/
def Final2 : Prop :=
  ∀ (V : (c : Dev nD) → (b : Ref sig .tc) → Buf (Elt Ideal) ((c : Thread nD τ).loc b)) (c : Dev nD),
      (dat2 (F := Ideal) V c).arrAt 5 cfg2.N = RV.bnReluG (V c (Pipeline.arrRef spec2 0)) (V c (Pipeline.arrRef spec2 1)) (V c (Pipeline.arrRef spec2 2)) (V c (Pipeline.arrRef spec2 3)) (V c (Pipeline.arrRef spec2 4))

theorem L0_keep_v1 (c : Dev nD) : W10 m ρ c (Proc.devRef .tc main_v1) = W2 m ρ c (Proc.devRef .tc main_v1) :=
  calc W10 m ρ c (Proc.devRef .tc main_v1)
    _ = W9 m ρ c (Proc.devRef .tc main_v1) := W10_of_ne m ρ c main_v1 (by decide)
    _ = W8 m ρ c (Proc.devRef .tc main_v1) := keep2_2 (W8 m ρ c) (r := main_v1) (by decide)
    _ = W7 m ρ c (Proc.devRef .tc main_v1) := keep2_1 (W7 m ρ c) (r := main_v1) (by decide)
    _ = W6 m ρ c (Proc.devRef .tc main_v1) := keep2 (W6 m ρ c) (r := main_v1) (by decide)
    _ = W5 m ρ c (Proc.devRef .tc main_v1) := W6_of_ne m ρ c main_v1 (by decide)
    _ = W4 m ρ c (Proc.devRef .tc main_v1) := keep1 (W4 m ρ c) (r := main_v1) (by decide)
    _ = W3 m ρ c (Proc.devRef .tc main_v1) := W4_of_ne m ρ c main_v1 (by decide)
    _ = W2 m ρ c (Proc.devRef .tc main_v1) := keep0_2 (W2 m ρ c) (r := main_v1) (by decide)

theorem L0_keep_v3 (c : Dev nD) : W10 m ρ c (Proc.devRef .tc main_v3) = W2 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := keep2_2 (W8 m ρ c) (r := main_v3) (by decide)
    _ = W7 m ρ c (Proc.devRef .tc main_v3) := keep2_1 (W7 m ρ c) (r := main_v3) (by decide)
    _ = W6 m ρ c (Proc.devRef .tc main_v3) := keep2 (W6 m ρ c) (r := main_v3) (by decide)
    _ = W5 m ρ c (Proc.devRef .tc main_v3) := W6_of_ne m ρ c main_v3 (by decide)
    _ = W4 m ρ c (Proc.devRef .tc main_v3) := keep1 (W4 m ρ c) (r := main_v3) (by decide)
    _ = W3 m ρ c (Proc.devRef .tc main_v3) := W4_of_ne m ρ c main_v3 (by decide)
    _ = W2 m ρ c (Proc.devRef .tc main_v3) := keep0_2 (W2 m ρ c) (r := main_v3) (by decide)

theorem L0_keep_arg3 (c : Dev nD) : W10 m ρ c (Proc.devRef .tc main_arg3) = W2 m ρ c (Proc.devRef .tc main_arg3) :=
  calc W10 m ρ c (Proc.devRef .tc main_arg3)
    _ = W9 m ρ c (Proc.devRef .tc main_arg3) := W10_of_ne m ρ c main_arg3 (by decide)
    _ = W8 m ρ c (Proc.devRef .tc main_arg3) := keep2_2 (W8 m ρ c) (r := main_arg3) (by decide)
    _ = W7 m ρ c (Proc.devRef .tc main_arg3) := keep2_1 (W7 m ρ c) (r := main_arg3) (by decide)
    _ = W6 m ρ c (Proc.devRef .tc main_arg3) := keep2 (W6 m ρ c) (r := main_arg3) (by decide)
    _ = W5 m ρ c (Proc.devRef .tc main_arg3) := W6_of_ne m ρ c main_arg3 (by decide)
    _ = W4 m ρ c (Proc.devRef .tc main_arg3) := keep1 (W4 m ρ c) (r := main_arg3) (by decide)
    _ = W3 m ρ c (Proc.devRef .tc main_arg3) := W4_of_ne m ρ c main_arg3 (by decide)
    _ = W2 m ρ c (Proc.devRef .tc main_arg3) := keep0_2 (W2 m ρ c) (r := main_arg3) (by decide)

theorem L0_keep_arg4 (c : Dev nD) : W10 m ρ c (Proc.devRef .tc main_arg4) = W2 m ρ c (Proc.devRef .tc main_arg4) :=
  calc W10 m ρ c (Proc.devRef .tc main_arg4)
    _ = W9 m ρ c (Proc.devRef .tc main_arg4) := W10_of_ne m ρ c main_arg4 (by decide)
    _ = W8 m ρ c (Proc.devRef .tc main_arg4) := keep2_2 (W8 m ρ c) (r := main_arg4) (by decide)
    _ = W7 m ρ c (Proc.devRef .tc main_arg4) := keep2_1 (W7 m ρ c) (r := main_arg4) (by decide)
    _ = W6 m ρ c (Proc.devRef .tc main_arg4) := keep2 (W6 m ρ c) (r := main_arg4) (by decide)
    _ = W5 m ρ c (Proc.devRef .tc main_arg4) := W6_of_ne m ρ c main_arg4 (by decide)
    _ = W4 m ρ c (Proc.devRef .tc main_arg4) := keep1 (W4 m ρ c) (r := main_arg4) (by decide)
    _ = W3 m ρ c (Proc.devRef .tc main_arg4) := W4_of_ne m ρ c main_arg4 (by decide)
    _ = W2 m ρ c (Proc.devRef .tc main_arg4) := keep0_2 (W2 m ρ c) (r := main_arg4) (by decide)

theorem L0_keep_arg5 (c : Dev nD) : W10 m ρ c (Proc.devRef .tc main_arg5) = W2 m ρ c (Proc.devRef .tc main_arg5) :=
  calc W10 m ρ c (Proc.devRef .tc main_arg5)
    _ = W9 m ρ c (Proc.devRef .tc main_arg5) := W10_of_ne m ρ c main_arg5 (by decide)
    _ = W8 m ρ c (Proc.devRef .tc main_arg5) := keep2_2 (W8 m ρ c) (r := main_arg5) (by decide)
    _ = W7 m ρ c (Proc.devRef .tc main_arg5) := keep2_1 (W7 m ρ c) (r := main_arg5) (by decide)
    _ = W6 m ρ c (Proc.devRef .tc main_arg5) := keep2 (W6 m ρ c) (r := main_arg5) (by decide)
    _ = W5 m ρ c (Proc.devRef .tc main_arg5) := W6_of_ne m ρ c main_arg5 (by decide)
    _ = W4 m ρ c (Proc.devRef .tc main_arg5) := keep1 (W4 m ρ c) (r := main_arg5) (by decide)
    _ = W3 m ρ c (Proc.devRef .tc main_arg5) := W4_of_ne m ρ c main_arg5 (by decide)
    _ = W2 m ρ c (Proc.devRef .tc main_arg5) := keep0_2 (W2 m ρ c) (r := main_arg5) (by decide)

theorem L0_keep_arg6 (c : Dev nD) : W10 m ρ c (Proc.devRef .tc main_arg6) = W2 m ρ c (Proc.devRef .tc main_arg6) :=
  calc W10 m ρ c (Proc.devRef .tc main_arg6)
    _ = W9 m ρ c (Proc.devRef .tc main_arg6) := W10_of_ne m ρ c main_arg6 (by decide)
    _ = W8 m ρ c (Proc.devRef .tc main_arg6) := keep2_2 (W8 m ρ c) (r := main_arg6) (by decide)
    _ = W7 m ρ c (Proc.devRef .tc main_arg6) := keep2_1 (W7 m ρ c) (r := main_arg6) (by decide)
    _ = W6 m ρ c (Proc.devRef .tc main_arg6) := keep2 (W6 m ρ c) (r := main_arg6) (by decide)
    _ = W5 m ρ c (Proc.devRef .tc main_arg6) := W6_of_ne m ρ c main_arg6 (by decide)
    _ = W4 m ρ c (Proc.devRef .tc main_arg6) := keep1 (W4 m ρ c) (r := main_arg6) (by decide)
    _ = W3 m ρ c (Proc.devRef .tc main_arg6) := W4_of_ne m ρ c main_arg6 (by decide)
    _ = W2 m ρ c (Proc.devRef .tc main_arg6) := keep0_2 (W2 m ρ c) (r := main_arg6) (by decide)

theorem L0_keep_arg7 (c : Dev nD) : W10 m ρ c (Proc.devRef .tc main_arg7) = W2 m ρ c (Proc.devRef .tc main_arg7) :=
  calc W10 m ρ c (Proc.devRef .tc main_arg7)
    _ = W9 m ρ c (Proc.devRef .tc main_arg7) := W10_of_ne m ρ c main_arg7 (by decide)
    _ = W8 m ρ c (Proc.devRef .tc main_arg7) := keep2_2 (W8 m ρ c) (r := main_arg7) (by decide)
    _ = W7 m ρ c (Proc.devRef .tc main_arg7) := keep2_1 (W7 m ρ c) (r := main_arg7) (by decide)
    _ = W6 m ρ c (Proc.devRef .tc main_arg7) := keep2 (W6 m ρ c) (r := main_arg7) (by decide)
    _ = W5 m ρ c (Proc.devRef .tc main_arg7) := W6_of_ne m ρ c main_arg7 (by decide)
    _ = W4 m ρ c (Proc.devRef .tc main_arg7) := keep1 (W4 m ρ c) (r := main_arg7) (by decide)
    _ = W3 m ρ c (Proc.devRef .tc main_arg7) := W4_of_ne m ρ c main_arg7 (by decide)
    _ = W2 m ρ c (Proc.devRef .tc main_arg7) := keep0_2 (W2 m ρ c) (r := main_arg7) (by decide)

theorem L0_keep_arg8 (c : Dev nD) : W10 m ρ c (Proc.devRef .tc main_arg8) = W2 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := keep2_2 (W8 m ρ c) (r := main_arg8) (by decide)
    _ = W7 m ρ c (Proc.devRef .tc main_arg8) := keep2_1 (W7 m ρ c) (r := main_arg8) (by decide)
    _ = W6 m ρ c (Proc.devRef .tc main_arg8) := keep2 (W6 m ρ c) (r := main_arg8) (by decide)
    _ = W5 m ρ c (Proc.devRef .tc main_arg8) := W6_of_ne m ρ c main_arg8 (by decide)
    _ = W4 m ρ c (Proc.devRef .tc main_arg8) := keep1 (W4 m ρ c) (r := main_arg8) (by decide)
    _ = W3 m ρ c (Proc.devRef .tc main_arg8) := W4_of_ne m ρ c main_arg8 (by decide)
    _ = W2 m ρ c (Proc.devRef .tc main_arg8) := keep0_2 (W2 m ρ c) (r := main_arg8) (by decide)

theorem L0_v29 (c : Dev nD) : W10 m ρ c (Proc.devRef .tc main_v29) = kConcat (W2 m ρ c (Proc.devRef .tc main_arg2)) (kNorm (W2 m ρ c (Proc.devRef .tc main_v12)) (W2 m ρ c (Proc.devRef .tc main_v1)) (W2 m ρ c (Proc.devRef .tc main_v3))) :=
  (calc W10 m ρ c (Proc.devRef .tc main_v29)
    _ = W9 m ρ c (Proc.devRef .tc main_v29) := W10_of_ne m ρ c main_v29 (by decide)
    _ = W8 m ρ c (Proc.devRef .tc main_v29) := keep2_2 (W8 m ρ c) (r := main_v29) (by decide)
    _ = W7 m ρ c (Proc.devRef .tc main_v29) := keep2_1 (W7 m ρ c) (r := main_v29) (by decide)
    _ = W6 m ρ c (Proc.devRef .tc main_v29) := keep2 (W6 m ρ c) (r := main_v29) (by decide)
    _ = W5 m ρ c (Proc.devRef .tc main_v29) := W6_of_ne m ρ c main_v29 (by decide)
    _ = W4 m ρ c (Proc.devRef .tc main_v29) := keep1 (W4 m ρ c) (r := main_v29) (by decide)
    _ = W3 m ρ c (Proc.devRef .tc main_v29) := (W4_arr m ρ c 1).trans (((dat0 (V3 m ρ) c).arrAt_in 1 rfl _).trans (A_eq0 (V3 m ρ) c 1))).trans (val0_2_v29 (W2 m ρ c))

/-- Layer 0: the layer's result at its exit boundary is the layer function of what the layer found at its entry. -/
theorem L0_out
    (hfuse : Final0)
    (hmlp : Final1)
    (hbn : Final2)
    (c : Dev nD) :
    W10 m ρ c (Proc.devRef .tc main_v62) = kLayer RV.bnReluG (W2 m ρ c (Proc.devRef .tc main_arg0)) (kConcat (W2 m ρ c (Proc.devRef .tc main_arg2)) (kNorm (W2 m ρ c (Proc.devRef .tc main_v12)) (W2 m ρ c (Proc.devRef .tc main_v1)) (W2 m ρ c (Proc.devRef .tc main_v3)))) (W2 m ρ c (Proc.devRef .tc main_v1)) (W2 m ρ c (Proc.devRef .tc main_v3)) (ew1_0 (W2 m ρ c (Proc.devRef .tc main_arg5))) (ew2_0 (W2 m ρ c (Proc.devRef .tc main_arg6))) (w_0 (W2 m ρ c (Proc.devRef .tc main_arg3))) (b_0 (W2 m ρ c (Proc.devRef .tc main_arg4))) (g_0 (W2 m ρ c (Proc.devRef .tc main_arg7))) (beta_0 (W2 m ρ c (Proc.devRef .tc main_arg8))) := by
  -- after the first host stretch: the gathered features, the layer's edge weights, the extended edge table
  have a1_hrow : W3 m ρ c (Proc.devRef .tc main_v36) = kHrow (W2 m ρ c (Proc.devRef .tc main_arg0)) (W2 m ρ c (Proc.devRef .tc main_v1)) := val0_2_v36 (W2 m ρ c)
  have a1_ew1 : W3 m ρ c (Proc.devRef .tc main_v38) = ew1_0 (W2 m ρ c (Proc.devRef .tc main_arg5)) := val0_2_v38 (W2 m ρ c)
  have a1_ew2 : W3 m ρ c (Proc.devRef .tc main_v40) = ew2_0 (W2 m ρ c (Proc.devRef .tc main_arg6)) := val0_2_v40 (W2 m ρ c)
  have a1_x : W3 m ρ c (Proc.devRef .tc main_v29) = kConcat (W2 m ρ c (Proc.devRef .tc main_arg2)) (kNorm (W2 m ρ c (Proc.devRef .tc main_v12)) (W2 m ρ c (Proc.devRef .tc main_v1)) (W2 m ρ c (Proc.devRef .tc main_v3))) := val0_2_v29 (W2 m ρ c)
  -- after the fused kernel: the messages
  have a2_msg : W4 m ρ c (Proc.devRef .tc main_v41) = RV.fuseG (W3 m ρ c (Proc.devRef .tc main_v36)) (W3 m ρ c (Proc.devRef .tc main_v29)) (W3 m ρ c (Proc.devRef .tc main_v38)) (W3 m ρ c (Proc.devRef .tc main_v40)) :=
    (W4_arr m ρ c 4).trans (hfuse (V3 m ρ) c)
  rw [a1_hrow, a1_x, a1_ew1, a1_ew2] at a2_msg
  -- after the second host stretch: the summed messages, the layer's dense weight and bias
  have p2_v3 : W4 m ρ c (Proc.devRef .tc main_v3) = W2 m ρ c (Proc.devRef .tc main_v3) :=
    calc W4 m ρ c (Proc.devRef .tc main_v3)
      _ = W3 m ρ c (Proc.devRef .tc main_v3) := W4_of_ne m ρ c main_v3 (by decide)
      _ = W2 m ρ c (Proc.devRef .tc main_v3) := keep0_2 (W2 m ρ c) (r := main_v3) (by decide)
  have p2_arg3 : W4 m ρ c (Proc.devRef .tc main_arg3) = W2 m ρ c (Proc.devRef .tc main_arg3) :=
    calc W4 m ρ c (Proc.devRef .tc main_arg3)
      _ = W3 m ρ c (Proc.devRef .tc main_arg3) := W4_of_ne m ρ c main_arg3 (by decide)
      _ = W2 m ρ c (Proc.devRef .tc main_arg3) := keep0_2 (W2 m ρ c) (r := main_arg3) (by decide)
  have p2_arg4 : W4 m ρ c (Proc.devRef .tc main_arg4) = W2 m ρ c (Proc.devRef .tc main_arg4) :=
    calc W4 m ρ c (Proc.devRef .tc main_arg4)
      _ = W3 m ρ c (Proc.devRef .tc main_arg4) := W4_of_ne m ρ c main_arg4 (by decide)
      _ = W2 m ρ c (Proc.devRef .tc main_arg4) := keep0_2 (W2 m ρ c) (r := main_arg4) (by decide)
  have p3_hin : W5 m ρ c (Proc.devRef .tc main_arg0) = W2 m ρ c (Proc.devRef .tc main_arg0) :=
    calc W5 m ρ c (Proc.devRef .tc main_arg0)
      _ = W4 m ρ c (Proc.devRef .tc main_arg0) := keep1 (W4 m ρ c) (r := main_arg0) (by decide)
      _ = W3 m ρ c (Proc.devRef .tc main_arg0) := W4_of_ne m ρ c main_arg0 (by decide)
      _ = W2 m ρ c (Proc.devRef .tc main_arg0) := keep0_2 (W2 m ρ c) (r := main_arg0) (by decide)
  have a3_agg : W5 m ρ c (Proc.devRef .tc main_v44) = kAgg (W4 m ρ c (Proc.devRef .tc main_v3)) (W4 m ρ c (Proc.devRef .tc main_v41)) := val1_v44 (W4 m ρ c)
  have a3_w : W5 m ρ c (Proc.devRef .tc main_v46) = w_0 (W4 m ρ c (Proc.devRef .tc main_arg3)) := val1_v46 (W4 m ρ c)
  have a3_b : W5 m ρ c (Proc.devRef .tc main_v49) = b_0 (W4 m ρ c (Proc.devRef .tc main_arg4)) := val1_v49 (W4 m ρ c)
  -- after the dense kernel: the layer before its normalisation
  have a4_y : W6 m ρ c (Proc.devRef .tc main_v50) = RV.mlpG (W5 m ρ c (Proc.devRef .tc main_arg0)) (W5 m ρ c (Proc.devRef .tc main_v44)) (W5 m ρ c (Proc.devRef .tc main_v46)) (W5 m ρ c (Proc.devRef .tc main_v49)) :=
    (W6_arr m ρ c 4).trans (hmlp (V5 m ρ) c)
  rw [p3_hin, a3_agg, a3_w, a3_b, p2_v3, a2_msg, p2_arg3, p2_arg4] at a4_y
  -- the column means, the column variances, the layer's gain and offset
  have a5_mu : W7 m ρ c (Proc.devRef .tc main_v54) = kMean (W6 m ρ c (Proc.devRef .tc main_v50)) := val2_v54 (W6 m ρ c)
  have a5_c : W7 m ρ c (Proc.devRef .tc main_c_12) = constantI S_ 32 0#32 := val2_c_12 (W6 m ρ c)
  have p5_y : W7 m ρ c (Proc.devRef .tc main_v50) = W6 m ρ c (Proc.devRef .tc main_v50) := keep2 (W6 m ρ c) (r := main_v50) (by decide)
  have a6_var : W8 m ρ c (Proc.devRef .tc main_v55) = kVarC (W7 m ρ c (Proc.devRef .tc main_v50)) (W7 m ρ c (Proc.devRef .tc main_c_12)) := val2_1_v55 (W7 m ρ c)
  have p6_arg7 : W8 m ρ c (Proc.devRef .tc main_arg7) = W2 m ρ c (Proc.devRef .tc main_arg7) :=
    calc W8 m ρ c (Proc.devRef .tc main_arg7)
      _ = W7 m ρ c (Proc.devRef .tc main_arg7) := keep2_1 (W7 m ρ c) (r := main_arg7) (by decide)
      _ = W6 m ρ c (Proc.devRef .tc main_arg7) := keep2 (W6 m ρ c) (r := main_arg7) (by decide)
      _ = W5 m ρ c (Proc.devRef .tc main_arg7) := W6_of_ne m ρ c main_arg7 (by decide)
      _ = W4 m ρ c (Proc.devRef .tc main_arg7) := keep1 (W4 m ρ c) (r := main_arg7) (by decide)
      _ = W3 m ρ c (Proc.devRef .tc main_arg7) := W4_of_ne m ρ c main_arg7 (by decide)
      _ = W2 m ρ c (Proc.devRef .tc main_arg7) := keep0_2 (W2 m ρ c) (r := main_arg7) (by decide)
  have p6_arg8 : W8 m ρ c (Proc.devRef .tc main_arg8) = W2 m ρ c (Proc.devRef .tc main_arg8) :=
    calc W8 m ρ c (Proc.devRef .tc main_arg8)
      _ = W7 m ρ c (Proc.devRef .tc main_arg8) := keep2_1 (W7 m ρ c) (r := main_arg8) (by decide)
      _ = W6 m ρ c (Proc.devRef .tc main_arg8) := keep2 (W6 m ρ c) (r := main_arg8) (by decide)
      _ = W5 m ρ c (Proc.devRef .tc main_arg8) := W6_of_ne m ρ c main_arg8 (by decide)
      _ = W4 m ρ c (Proc.devRef .tc main_arg8) := keep1 (W4 m ρ c) (r := main_arg8) (by decide)
      _ = W3 m ρ c (Proc.devRef .tc main_arg8) := W4_of_ne m ρ c main_arg8 (by decide)
      _ = W2 m ρ c (Proc.devRef .tc main_arg8) := keep0_2 (W2 m ρ c) (r := main_arg8) (by decide)
  have a7_g : W9 m ρ c (Proc.devRef .tc main_v58) = g_0 (W8 m ρ c (Proc.devRef .tc main_arg7)) := val2_2_v58 (W8 m ρ c)
  have a7_beta : W9 m ρ c (Proc.devRef .tc main_v61) = beta_0 (W8 m ρ c (Proc.devRef .tc main_arg8)) := val2_2_v61 (W8 m ρ c)
  have p7_y : W9 m ρ c (Proc.devRef .tc main_v50) = W6 m ρ c (Proc.devRef .tc main_v50) :=
    calc W9 m ρ c (Proc.devRef .tc main_v50)
      _ = W8 m ρ c (Proc.devRef .tc main_v50) := keep2_2 (W8 m ρ c) (r := main_v50) (by decide)
      _ = W7 m ρ c (Proc.devRef .tc main_v50) := keep2_1 (W7 m ρ c) (r := main_v50) (by decide)
      _ = W6 m ρ c (Proc.devRef .tc main_v50) := keep2 (W6 m ρ c) (r := main_v50) (by decide)
  have p7_mu : W9 m ρ c (Proc.devRef .tc main_v54) = W7 m ρ c (Proc.devRef .tc main_v54) :=
    calc W9 m ρ c (Proc.devRef .tc main_v54)
      _ = W8 m ρ c (Proc.devRef .tc main_v54) := keep2_2 (W8 m ρ c) (r := main_v54) (by decide)
      _ = W7 m ρ c (Proc.devRef .tc main_v54) := keep2_1 (W7 m ρ c) (r := main_v54) (by decide)
  have p7_var : W9 m ρ c (Proc.devRef .tc main_v55) = W8 m ρ c (Proc.devRef .tc main_v55) := keep2_2 (W8 m ρ c) (r := main_v55) (by decide)
  -- after the normalisation kernel
  have a8 : W10 m ρ c (Proc.devRef .tc main_v62) = RV.bnReluG (W9 m ρ c (Proc.devRef .tc main_v50)) (W9 m ρ c (Proc.devRef .tc main_v54)) (W9 m ρ c (Proc.devRef .tc main_v55)) (W9 m ρ c (Proc.devRef .tc main_v58)) (W9 m ρ c (Proc.devRef .tc main_v61)) :=
    (W10_arr m ρ c 5).trans (hbn (V9 m ρ) c)
  rw [p7_y, p7_mu, p7_var, a7_g, a7_beta, a6_var, a5_mu, a5_c, p5_y, p6_arg7, p6_arg8, a4_y] at a8
  exact a8

end Cert.KernelIdeal.KFold

end
-- ==== Proof.KFoldSeg1.lean ====
/-
  Layer 1's host stretches, each at arbitrary entry contents `V`: the buffers a stretch writes that a later step
  reads hold the named stage of the contents it read them from (the stretch's operations composed), and every buffer
  the stretch does not write holds what it held.
-/
import proofs.«107720_j79044578115931_2_alg».proof.Proof.KStages
import proofs.«107720_j79044578115931_2_alg».proof.Proof.Gen.KernelIdeal.Launch
import Idealize.ShloMosaic.Lib.StableHlo.Run

set_option maxRecDepth 16384

noncomputable section

namespace Cert.KernelIdeal.KFold

open Cert.KernelIdeal Cert.KernelIdeal.Gen Cert.KernelIdeal.KStages Idealize.ShloMosaic Idealize.ShloMosaic.StableHlo

variable (V : Valuation τ sig (Elt Ideal))

/-- The buffers `hostOps3` writes, in order. -/
def wr3 : List (Ref sig .tc) := [main_c_13, main_v63, main_v64, main_c_14, main_v65, main_v66, main_v67, main_v68, main_v69, main_v70, main_v71, main_v72, main_v73]
/-- Every other buffer is as before the stretch. -/
theorem keep3 {r : Ref sig .tc} (hr : r ∉ wr3) : after (hostOps3 (F := Ideal)) V (Proc.devRef .tc r) = V (Proc.devRef .tc r) :=
  after_of_writes_sub _ V (by
    simp only [hostOps3, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps4` writes, in order. -/
def wr4 : List (Ref sig .tc) := [main_cst_15, main_v75, main_v76, main_v77, main_v78, main_v79, main_v80, main_v81, main_v82]
/-- Every other buffer is as before the stretch. -/
theorem keep4 {r : Ref sig .tc} (hr : r ∉ wr4) : after (hostOps4 (F := Ideal)) V (Proc.devRef .tc r) = V (Proc.devRef .tc r) :=
  after_of_writes_sub _ V (by
    simp only [hostOps4, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps5` writes, in order. -/
def wr5 : List (Ref sig .tc) := [main_cst_16, main_v84, main_v85, main_cst_17, main_v86, main_v87, main_c_18]
/-- Every other buffer is as before the stretch. -/
theorem keep5 {r : Ref sig .tc} (hr : r ∉ wr5) : after (hostOps5 (F := Ideal)) V (Proc.devRef .tc r) = V (Proc.devRef .tc r) :=
  after_of_writes_sub _ V (by
    simp only [hostOps5, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps5_1` writes, in order. -/
def wr5_1 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v88]
/-- Every other buffer is as before the stretch. -/
theorem keep5_1 {r : Ref sig .tc} (hr : r ∉ wr5_1) : after (hostOps5_1 (F := Ideal)) V (Proc.devRef .tc r) = V (Proc.devRef .tc r) :=
  after_of_writes_sub _ V (by
    simp only [hostOps5_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps5_2` writes, in order. -/
def wr5_2 : List (Ref sig .tc) := [main_v89, main_v90, main_v91, main_v92, main_v93, main_v94]
/-- Every other buffer is as before the stretch. -/
theorem keep5_2 {r : Ref sig .tc} (hr : r ∉ wr5_2) : after (hostOps5_2 (F := Ideal)) V (Proc.devRef .tc r) = V (Proc.devRef .tc r) :=
  after_of_writes_sub _ V (by
    simp only [hostOps5_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

theorem val3_v69 : after (hostOps3 (F := Ideal)) V (Proc.devRef .tc main_v69) = kHrow (V (Proc.devRef .tc main_v62)) (V (Proc.devRef .tc main_v1)) := by
  after_results_simp <;> rfl

theorem val3_v71 : after (hostOps3 (F := Ideal)) V (Proc.devRef .tc main_v71) = ew1_1 (V (Proc.devRef .tc main_arg5)) := by
  after_results_simp <;> rfl

theorem val3_v73 : after (hostOps3 (F := Ideal)) V (Proc.devRef .tc main_v73) = ew2_1 (V (Proc.devRef .tc main_arg6)) := by
  after_results_simp <;> rfl

theorem val4_v77 : after (hostOps4 (F := Ideal)) V (Proc.devRef .tc main_v77) = kAgg (V (Proc.devRef .tc main_v3)) (V (Proc.devRef .tc main_v74)) := by
  after_results_simp <;> rfl

theorem val4_v79 : after (hostOps4 (F := Ideal)) V (Proc.devRef .tc main_v79) = w_1 (V (Proc.devRef .tc main_arg3)) := by
  after_results_simp <;> rfl

theorem val4_v82 : after (hostOps4 (F := Ideal)) V (Proc.devRef .tc main_v82) = b_1 (V (Proc.devRef .tc main_arg4)) := by
  after_results_simp <;> rfl

theorem val5_v87 : after (hostOps5 (F := Ideal)) V (Proc.devRef .tc main_v87) = kMean (V (Proc.devRef .tc main_v83)) := by
  after_results_simp <;> rfl

theorem val5_c_18 : after (hostOps5 (F := Ideal)) V (Proc.devRef .tc main_c_18) = constantI S_ 32 0#32 := by
  after_results_simp <;> rfl

theorem val5_1_v88 : after (hostOps5_1 (F := Ideal)) V (Proc.devRef .tc main_v88) = kVarC (V (Proc.devRef .tc main_v83)) (V (Proc.devRef .tc main_c_18)) := by
  after_results_simp <;> rfl

theorem val5_2_v91 : after (hostOps5_2 (F := Ideal)) V (Proc.devRef .tc main_v91) = g_1 (V (Proc.devRef .tc main_arg7)) := by
  after_results_simp <;> rfl

theorem val5_2_v94 : after (hostOps5_2 (F := Ideal)) V (Proc.devRef .tc main_v94) = beta_1 (V (Proc.devRef .tc main_arg8)) := by
  after_results_simp <;> rfl

end Cert.KernelIdeal.KFold

end
-- ==== Proof.KFoldL1.lean ====
/-
  Layer 1 through the run's boundaries: from the contents at the layer's entry boundary to its exit boundary, segment
  by segment — a host stretch leaves in the buffers it writes the named stages of what it read and keeps every other
  buffer, a kernel leaves in its output the kernel's function of its input windows' arrays and keeps every other
  buffer, its input arrays included.
-/
import proofs.«107720_j79044578115931_2_alg».proof.Proof.Gen.KernelIdeal.Frame
import proofs.«107720_j79044578115931_2_alg».proof.Proof.KFoldSeg1
import proofs.«107720_j79044578115931_2_alg».proof.Proof.KLayer

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-- Kernel 3's output array, for whatever contents `V` it is entered at, is its stage function of its input windows' arrays. -/
def Final3 : Prop :=
  ∀ (V : (c : Dev nD) → (b : Ref sig .tc) → Buf (Elt Ideal) ((c : Thread nD τ).loc b)) (c : Dev nD),
      (dat3 (F := Ideal) V c).arrAt 4 cfg3.N = RV.fuseG (V c (Pipeline.arrRef spec3 0)) (V c (Pipeline.arrRef spec3 1)) (V c (Pipeline.arrRef spec3 2)) (V c (Pipeline.arrRef spec3 3))

/-- Kernel 4's output array, for whatever contents `V` it is entered at, is its stage function of its input windows' arrays. -/
def Final4 : Prop :=
  ∀ (V : (c : Dev nD) → (b : Ref sig .tc) → Buf (Elt Ideal) ((c : Thread nD τ).loc b)) (c : Dev nD),
      (dat4 (F := Ideal) V c).arrAt 4 cfg4.N = RV.mlpG (V c (Pipeline.arrRef spec4 0)) (V c (Pipeline.arrRef spec4 1)) (V c (Pipeline.arrRef spec4 2)) (V c (Pipeline.arrRef spec4 3))

/-- Kernel 5's output array, for whatever contents `V` it is entered at, is its stage function of its input windows' arrays. -/
def Final5 : Prop :=
  ∀ (V : (c : Dev nD) → (b : Ref sig .tc) → Buf (Elt Ideal) ((c : Thread nD τ).loc b)) (c : Dev nD),
      (dat5 (F := Ideal) V c).arrAt 5 cfg5.N = RV.bnReluG (V c (Pipeline.arrRef spec5 0)) (V c (Pipeline.arrRef spec5 1)) (V c (Pipeline.arrRef spec5 2)) (V c (Pipeline.arrRef spec5 3)) (V c (Pipeline.arrRef spec5 4))

theorem L1_keep_v1 (c : Dev nD) : W18 m ρ c (Proc.devRef .tc main_v1) = W10 m ρ c (Proc.devRef .tc main_v1) :=
  calc W18 m ρ c (Proc.devRef .tc main_v1)
    _ = W17 m ρ c (Proc.devRef .tc main_v1) := W18_of_ne m ρ c main_v1 (by decide)
    _ = W16 m ρ c (Proc.devRef .tc main_v1) := keep5_2 (W16 m ρ c) (r := main_v1) (by decide)
    _ = W15 m ρ c (Proc.devRef .tc main_v1) := keep5_1 (W15 m ρ c) (r := main_v1) (by decide)
    _ = W14 m ρ c (Proc.devRef .tc main_v1) := keep5 (W14 m ρ c) (r := main_v1) (by decide)
    _ = W13 m ρ c (Proc.devRef .tc main_v1) := W14_of_ne m ρ c main_v1 (by decide)
    _ = W12 m ρ c (Proc.devRef .tc main_v1) := keep4 (W12 m ρ c) (r := main_v1) (by decide)
    _ = W11 m ρ c (Proc.devRef .tc main_v1) := W12_of_ne m ρ c main_v1 (by decide)
    _ = W10 m ρ c (Proc.devRef .tc main_v1) := keep3 (W10 m ρ c) (r := main_v1) (by decide)

theorem L1_keep_v3 (c : Dev nD) : W18 m ρ c (Proc.devRef .tc main_v3) = W10 m ρ c (Proc.devRef .tc main_v3) :=
  calc W18 m ρ c (Proc.devRef .tc main_v3)
    _ = W17 m ρ c (Proc.devRef .tc main_v3) := W18_of_ne m ρ c main_v3 (by decide)
    _ = W16 m ρ c (Proc.devRef .tc main_v3) := keep5_2 (W16 m ρ c) (r := main_v3) (by decide)
    _ = W15 m ρ c (Proc.devRef .tc main_v3) := keep5_1 (W15 m ρ c) (r := main_v3) (by decide)
    _ = W14 m ρ c (Proc.devRef .tc main_v3) := keep5 (W14 m ρ c) (r := main_v3) (by decide)
    _ = W13 m ρ c (Proc.devRef .tc main_v3) := W14_of_ne m ρ c main_v3 (by decide)
    _ = W12 m ρ c (Proc.devRef .tc main_v3) := keep4 (W12 m ρ c) (r := main_v3) (by decide)
    _ = W11 m ρ c (Proc.devRef .tc main_v3) := W12_of_ne m ρ c main_v3 (by decide)
    _ = W10 m ρ c (Proc.devRef .tc main_v3) := keep3 (W10 m ρ c) (r := main_v3) (by decide)

theorem L1_keep_arg3 (c : Dev nD) : W18 m ρ c (Proc.devRef .tc main_arg3) = W10 m ρ c (Proc.devRef .tc main_arg3) :=
  calc W18 m ρ c (Proc.devRef .tc main_arg3)
    _ = W17 m ρ c (Proc.devRef .tc main_arg3) := W18_of_ne m ρ c main_arg3 (by decide)
    _ = W16 m ρ c (Proc.devRef .tc main_arg3) := keep5_2 (W16 m ρ c) (r := main_arg3) (by decide)
    _ = W15 m ρ c (Proc.devRef .tc main_arg3) := keep5_1 (W15 m ρ c) (r := main_arg3) (by decide)
    _ = W14 m ρ c (Proc.devRef .tc main_arg3) := keep5 (W14 m ρ c) (r := main_arg3) (by decide)
    _ = W13 m ρ c (Proc.devRef .tc main_arg3) := W14_of_ne m ρ c main_arg3 (by decide)
    _ = W12 m ρ c (Proc.devRef .tc main_arg3) := keep4 (W12 m ρ c) (r := main_arg3) (by decide)
    _ = W11 m ρ c (Proc.devRef .tc main_arg3) := W12_of_ne m ρ c main_arg3 (by decide)
    _ = W10 m ρ c (Proc.devRef .tc main_arg3) := keep3 (W10 m ρ c) (r := main_arg3) (by decide)

theorem L1_keep_arg4 (c : Dev nD) : W18 m ρ c (Proc.devRef .tc main_arg4) = W10 m ρ c (Proc.devRef .tc main_arg4) :=
  calc W18 m ρ c (Proc.devRef .tc main_arg4)
    _ = W17 m ρ c (Proc.devRef .tc main_arg4) := W18_of_ne m ρ c main_arg4 (by decide)
    _ = W16 m ρ c (Proc.devRef .tc main_arg4) := keep5_2 (W16 m ρ c) (r := main_arg4) (by decide)
    _ = W15 m ρ c (Proc.devRef .tc main_arg4) := keep5_1 (W15 m ρ c) (r := main_arg4) (by decide)
    _ = W14 m ρ c (Proc.devRef .tc main_arg4) := keep5 (W14 m ρ c) (r := main_arg4) (by decide)
    _ = W13 m ρ c (Proc.devRef .tc main_arg4) := W14_of_ne m ρ c main_arg4 (by decide)
    _ = W12 m ρ c (Proc.devRef .tc main_arg4) := keep4 (W12 m ρ c) (r := main_arg4) (by decide)
    _ = W11 m ρ c (Proc.devRef .tc main_arg4) := W12_of_ne m ρ c main_arg4 (by decide)
    _ = W10 m ρ c (Proc.devRef .tc main_arg4) := keep3 (W10 m ρ c) (r := main_arg4) (by decide)

theorem L1_keep_arg5 (c : Dev nD) : W18 m ρ c (Proc.devRef .tc main_arg5) = W10 m ρ c (Proc.devRef .tc main_arg5) :=
  calc W18 m ρ c (Proc.devRef .tc main_arg5)
    _ = W17 m ρ c (Proc.devRef .tc main_arg5) := W18_of_ne m ρ c main_arg5 (by decide)
    _ = W16 m ρ c (Proc.devRef .tc main_arg5) := keep5_2 (W16 m ρ c) (r := main_arg5) (by decide)
    _ = W15 m ρ c (Proc.devRef .tc main_arg5) := keep5_1 (W15 m ρ c) (r := main_arg5) (by decide)
    _ = W14 m ρ c (Proc.devRef .tc main_arg5) := keep5 (W14 m ρ c) (r := main_arg5) (by decide)
    _ = W13 m ρ c (Proc.devRef .tc main_arg5) := W14_of_ne m ρ c main_arg5 (by decide)
    _ = W12 m ρ c (Proc.devRef .tc main_arg5) := keep4 (W12 m ρ c) (r := main_arg5) (by decide)
    _ = W11 m ρ c (Proc.devRef .tc main_arg5) := W12_of_ne m ρ c main_arg5 (by decide)
    _ = W10 m ρ c (Proc.devRef .tc main_arg5) := keep3 (W10 m ρ c) (r := main_arg5) (by decide)

theorem L1_keep_arg6 (c : Dev nD) : W18 m ρ c (Proc.devRef .tc main_arg6) = W10 m ρ c (Proc.devRef .tc main_arg6) :=
  calc W18 m ρ c (Proc.devRef .tc main_arg6)
    _ = W17 m ρ c (Proc.devRef .tc main_arg6) := W18_of_ne m ρ c main_arg6 (by decide)
    _ = W16 m ρ c (Proc.devRef .tc main_arg6) := keep5_2 (W16 m ρ c) (r := main_arg6) (by decide)
    _ = W15 m ρ c (Proc.devRef .tc main_arg6) := keep5_1 (W15 m ρ c) (r := main_arg6) (by decide)
    _ = W14 m ρ c (Proc.devRef .tc main_arg6) := keep5 (W14 m ρ c) (r := main_arg6) (by decide)
    _ = W13 m ρ c (Proc.devRef .tc main_arg6) := W14_of_ne m ρ c main_arg6 (by decide)
    _ = W12 m ρ c (Proc.devRef .tc main_arg6) := keep4 (W12 m ρ c) (r := main_arg6) (by decide)
    _ = W11 m ρ c (Proc.devRef .tc main_arg6) := W12_of_ne m ρ c main_arg6 (by decide)
    _ = W10 m ρ c (Proc.devRef .tc main_arg6) := keep3 (W10 m ρ c) (r := main_arg6) (by decide)

theorem L1_keep_arg7 (c : Dev nD) : W18 m ρ c (Proc.devRef .tc main_arg7) = W10 m ρ c (Proc.devRef .tc main_arg7) :=
  calc W18 m ρ c (Proc.devRef .tc main_arg7)
    _ = W17 m ρ c (Proc.devRef .tc main_arg7) := W18_of_ne m ρ c main_arg7 (by decide)
    _ = W16 m ρ c (Proc.devRef .tc main_arg7) := keep5_2 (W16 m ρ c) (r := main_arg7) (by decide)
    _ = W15 m ρ c (Proc.devRef .tc main_arg7) := keep5_1 (W15 m ρ c) (r := main_arg7) (by decide)
    _ = W14 m ρ c (Proc.devRef .tc main_arg7) := keep5 (W14 m ρ c) (r := main_arg7) (by decide)
    _ = W13 m ρ c (Proc.devRef .tc main_arg7) := W14_of_ne m ρ c main_arg7 (by decide)
    _ = W12 m ρ c (Proc.devRef .tc main_arg7) := keep4 (W12 m ρ c) (r := main_arg7) (by decide)
    _ = W11 m ρ c (Proc.devRef .tc main_arg7) := W12_of_ne m ρ c main_arg7 (by decide)
    _ = W10 m ρ c (Proc.devRef .tc main_arg7) := keep3 (W10 m ρ c) (r := main_arg7) (by decide)

theorem L1_keep_arg8 (c : Dev nD) : W18 m ρ c (Proc.devRef .tc main_arg8) = W10 m ρ c (Proc.devRef .tc main_arg8) :=
  calc W18 m ρ c (Proc.devRef .tc main_arg8)
    _ = W17 m ρ c (Proc.devRef .tc main_arg8) := W18_of_ne m ρ c main_arg8 (by decide)
    _ = W16 m ρ c (Proc.devRef .tc main_arg8) := keep5_2 (W16 m ρ c) (r := main_arg8) (by decide)
    _ = W15 m ρ c (Proc.devRef .tc main_arg8) := keep5_1 (W15 m ρ c) (r := main_arg8) (by decide)
    _ = W14 m ρ c (Proc.devRef .tc main_arg8) := keep5 (W14 m ρ c) (r := main_arg8) (by decide)
    _ = W13 m ρ c (Proc.devRef .tc main_arg8) := W14_of_ne m ρ c main_arg8 (by decide)
    _ = W12 m ρ c (Proc.devRef .tc main_arg8) := keep4 (W12 m ρ c) (r := main_arg8) (by decide)
    _ = W11 m ρ c (Proc.devRef .tc main_arg8) := W12_of_ne m ρ c main_arg8 (by decide)
    _ = W10 m ρ c (Proc.devRef .tc main_arg8) := keep3 (W10 m ρ c) (r := main_arg8) (by decide)

theorem L1_keep_v29 (c : Dev nD) : W18 m ρ c (Proc.devRef .tc main_v29) = W10 m ρ c (Proc.devRef .tc main_v29) :=
  calc W18 m ρ c (Proc.devRef .tc main_v29)
    _ = W17 m ρ c (Proc.devRef .tc main_v29) := W18_of_ne m ρ c main_v29 (by decide)
    _ = W16 m ρ c (Proc.devRef .tc main_v29) := keep5_2 (W16 m ρ c) (r := main_v29) (by decide)
    _ = W15 m ρ c (Proc.devRef .tc main_v29) := keep5_1 (W15 m ρ c) (r := main_v29) (by decide)
    _ = W14 m ρ c (Proc.devRef .tc main_v29) := keep5 (W14 m ρ c) (r := main_v29) (by decide)
    _ = W13 m ρ c (Proc.devRef .tc main_v29) := W14_of_ne m ρ c main_v29 (by decide)
    _ = W12 m ρ c (Proc.devRef .tc main_v29) := keep4 (W12 m ρ c) (r := main_v29) (by decide)
    _ = W11 m ρ c (Proc.devRef .tc main_v29) := (W12_arr m ρ c 1).trans (((dat3 (V11 m ρ) c).arrAt_in 1 rfl _).trans (A_eq3 (V11 m ρ) c 1))
    _ = W10 m ρ c (Proc.devRef .tc main_v29) := keep3 (W10 m ρ c) (r := main_v29) (by decide)

/-- Layer 1: the layer's result at its exit boundary is the layer function of what the layer found at its entry. -/
theorem L1_out
    (hfuse : Final3)
    (hmlp : Final4)
    (hbn : Final5)
    (c : Dev nD) :
    W18 m ρ c (Proc.devRef .tc main_v95) = kLayer RV.bnReluG (W10 m ρ c (Proc.devRef .tc main_v62)) (W10 m ρ c (Proc.devRef .tc main_v29)) (W10 m ρ c (Proc.devRef .tc main_v1)) (W10 m ρ c (Proc.devRef .tc main_v3)) (ew1_1 (W10 m ρ c (Proc.devRef .tc main_arg5))) (ew2_1 (W10 m ρ c (Proc.devRef .tc main_arg6))) (w_1 (W10 m ρ c (Proc.devRef .tc main_arg3))) (b_1 (W10 m ρ c (Proc.devRef .tc main_arg4))) (g_1 (W10 m ρ c (Proc.devRef .tc main_arg7))) (beta_1 (W10 m ρ c (Proc.devRef .tc main_arg8))) := by
  -- after the first host stretch: the gathered features, the layer's edge weights, the extended edge table
  have a1_hrow : W11 m ρ c (Proc.devRef .tc main_v69) = kHrow (W10 m ρ c (Proc.devRef .tc main_v62)) (W10 m ρ c (Proc.devRef .tc main_v1)) := val3_v69 (W10 m ρ c)
  have a1_ew1 : W11 m ρ c (Proc.devRef .tc main_v71) = ew1_1 (W10 m ρ c (Proc.devRef .tc main_arg5)) := val3_v71 (W10 m ρ c)
  have a1_ew2 : W11 m ρ c (Proc.devRef .tc main_v73) = ew2_1 (W10 m ρ c (Proc.devRef .tc main_arg6)) := val3_v73 (W10 m ρ c)
  have a1_x : W11 m ρ c (Proc.devRef .tc main_v29) = W10 m ρ c (Proc.devRef .tc main_v29) := keep3 (W10 m ρ c) (r := main_v29) (by decide)
  -- after the fused kernel: the messages
  have a2_msg : W12 m ρ c (Proc.devRef .tc main_v74) = RV.fuseG (W11 m ρ c (Proc.devRef .tc main_v69)) (W11 m ρ c (Proc.devRef .tc main_v29)) (W11 m ρ c (Proc.devRef .tc main_v71)) (W11 m ρ c (Proc.devRef .tc main_v73)) :=
    (W12_arr m ρ c 4).trans (hfuse (V11 m ρ) c)
  rw [a1_hrow, a1_x, a1_ew1, a1_ew2] at a2_msg
  -- after the second host stretch: the summed messages, the layer's dense weight and bias
  have p2_v3 : W12 m ρ c (Proc.devRef .tc main_v3) = W10 m ρ c (Proc.devRef .tc main_v3) :=
    calc W12 m ρ c (Proc.devRef .tc main_v3)
      _ = W11 m ρ c (Proc.devRef .tc main_v3) := W12_of_ne m ρ c main_v3 (by decide)
      _ = W10 m ρ c (Proc.devRef .tc main_v3) := keep3 (W10 m ρ c) (r := main_v3) (by decide)
  have p2_arg3 : W12 m ρ c (Proc.devRef .tc main_arg3) = W10 m ρ c (Proc.devRef .tc main_arg3) :=
    calc W12 m ρ c (Proc.devRef .tc main_arg3)
      _ = W11 m ρ c (Proc.devRef .tc main_arg3) := W12_of_ne m ρ c main_arg3 (by decide)
      _ = W10 m ρ c (Proc.devRef .tc main_arg3) := keep3 (W10 m ρ c) (r := main_arg3) (by decide)
  have p2_arg4 : W12 m ρ c (Proc.devRef .tc main_arg4) = W10 m ρ c (Proc.devRef .tc main_arg4) :=
    calc W12 m ρ c (Proc.devRef .tc main_arg4)
      _ = W11 m ρ c (Proc.devRef .tc main_arg4) := W12_of_ne m ρ c main_arg4 (by decide)
      _ = W10 m ρ c (Proc.devRef .tc main_arg4) := keep3 (W10 m ρ c) (r := main_arg4) (by decide)
  have p3_hin : W13 m ρ c (Proc.devRef .tc main_v62) = W10 m ρ c (Proc.devRef .tc main_v62) :=
    calc W13 m ρ c (Proc.devRef .tc main_v62)
      _ = W12 m ρ c (Proc.devRef .tc main_v62) := keep4 (W12 m ρ c) (r := main_v62) (by decide)
      _ = W11 m ρ c (Proc.devRef .tc main_v62) := W12_of_ne m ρ c main_v62 (by decide)
      _ = W10 m ρ c (Proc.devRef .tc main_v62) := keep3 (W10 m ρ c) (r := main_v62) (by decide)
  have a3_agg : W13 m ρ c (Proc.devRef .tc main_v77) = kAgg (W12 m ρ c (Proc.devRef .tc main_v3)) (W12 m ρ c (Proc.devRef .tc main_v74)) := val4_v77 (W12 m ρ c)
  have a3_w : W13 m ρ c (Proc.devRef .tc main_v79) = w_1 (W12 m ρ c (Proc.devRef .tc main_arg3)) := val4_v79 (W12 m ρ c)
  have a3_b : W13 m ρ c (Proc.devRef .tc main_v82) = b_1 (W12 m ρ c (Proc.devRef .tc main_arg4)) := val4_v82 (W12 m ρ c)
  -- after the dense kernel: the layer before its normalisation
  have a4_y : W14 m ρ c (Proc.devRef .tc main_v83) = RV.mlpG (W13 m ρ c (Proc.devRef .tc main_v62)) (W13 m ρ c (Proc.devRef .tc main_v77)) (W13 m ρ c (Proc.devRef .tc main_v79)) (W13 m ρ c (Proc.devRef .tc main_v82)) :=
    (W14_arr m ρ c 4).trans (hmlp (V13 m ρ) c)
  rw [p3_hin, a3_agg, a3_w, a3_b, p2_v3, a2_msg, p2_arg3, p2_arg4] at a4_y
  -- the column means, the column variances, the layer's gain and offset
  have a5_mu : W15 m ρ c (Proc.devRef .tc main_v87) = kMean (W14 m ρ c (Proc.devRef .tc main_v83)) := val5_v87 (W14 m ρ c)
  have a5_c : W15 m ρ c (Proc.devRef .tc main_c_18) = constantI S_ 32 0#32 := val5_c_18 (W14 m ρ c)
  have p5_y : W15 m ρ c (Proc.devRef .tc main_v83) = W14 m ρ c (Proc.devRef .tc main_v83) := keep5 (W14 m ρ c) (r := main_v83) (by decide)
  have a6_var : W16 m ρ c (Proc.devRef .tc main_v88) = kVarC (W15 m ρ c (Proc.devRef .tc main_v83)) (W15 m ρ c (Proc.devRef .tc main_c_18)) := val5_1_v88 (W15 m ρ c)
  have p6_arg7 : W16 m ρ c (Proc.devRef .tc main_arg7) = W10 m ρ c (Proc.devRef .tc main_arg7) :=
    calc W16 m ρ c (Proc.devRef .tc main_arg7)
      _ = W15 m ρ c (Proc.devRef .tc main_arg7) := keep5_1 (W15 m ρ c) (r := main_arg7) (by decide)
      _ = W14 m ρ c (Proc.devRef .tc main_arg7) := keep5 (W14 m ρ c) (r := main_arg7) (by decide)
      _ = W13 m ρ c (Proc.devRef .tc main_arg7) := W14_of_ne m ρ c main_arg7 (by decide)
      _ = W12 m ρ c (Proc.devRef .tc main_arg7) := keep4 (W12 m ρ c) (r := main_arg7) (by decide)
      _ = W11 m ρ c (Proc.devRef .tc main_arg7) := W12_of_ne m ρ c main_arg7 (by decide)
      _ = W10 m ρ c (Proc.devRef .tc main_arg7) := keep3 (W10 m ρ c) (r := main_arg7) (by decide)
  have p6_arg8 : W16 m ρ c (Proc.devRef .tc main_arg8) = W10 m ρ c (Proc.devRef .tc main_arg8) :=
    calc W16 m ρ c (Proc.devRef .tc main_arg8)
      _ = W15 m ρ c (Proc.devRef .tc main_arg8) := keep5_1 (W15 m ρ c) (r := main_arg8) (by decide)
      _ = W14 m ρ c (Proc.devRef .tc main_arg8) := keep5 (W14 m ρ c) (r := main_arg8) (by decide)
      _ = W13 m ρ c (Proc.devRef .tc main_arg8) := W14_of_ne m ρ c main_arg8 (by decide)
      _ = W12 m ρ c (Proc.devRef .tc main_arg8) := keep4 (W12 m ρ c) (r := main_arg8) (by decide)
      _ = W11 m ρ c (Proc.devRef .tc main_arg8) := W12_of_ne m ρ c main_arg8 (by decide)
      _ = W10 m ρ c (Proc.devRef .tc main_arg8) := keep3 (W10 m ρ c) (r := main_arg8) (by decide)
  have a7_g : W17 m ρ c (Proc.devRef .tc main_v91) = g_1 (W16 m ρ c (Proc.devRef .tc main_arg7)) := val5_2_v91 (W16 m ρ c)
  have a7_beta : W17 m ρ c (Proc.devRef .tc main_v94) = beta_1 (W16 m ρ c (Proc.devRef .tc main_arg8)) := val5_2_v94 (W16 m ρ c)
  have p7_y : W17 m ρ c (Proc.devRef .tc main_v83) = W14 m ρ c (Proc.devRef .tc main_v83) :=
    calc W17 m ρ c (Proc.devRef .tc main_v83)
      _ = W16 m ρ c (Proc.devRef .tc main_v83) := keep5_2 (W16 m ρ c) (r := main_v83) (by decide)
      _ = W15 m ρ c (Proc.devRef .tc main_v83) := keep5_1 (W15 m ρ c) (r := main_v83) (by decide)
      _ = W14 m ρ c (Proc.devRef .tc main_v83) := keep5 (W14 m ρ c) (r := main_v83) (by decide)
  have p7_mu : W17 m ρ c (Proc.devRef .tc main_v87) = W15 m ρ c (Proc.devRef .tc main_v87) :=
    calc W17 m ρ c (Proc.devRef .tc main_v87)
      _ = W16 m ρ c (Proc.devRef .tc main_v87) := keep5_2 (W16 m ρ c) (r := main_v87) (by decide)
      _ = W15 m ρ c (Proc.devRef .tc main_v87) := keep5_1 (W15 m ρ c) (r := main_v87) (by decide)
  have p7_var : W17 m ρ c (Proc.devRef .tc main_v88) = W16 m ρ c (Proc.devRef .tc main_v88) := keep5_2 (W16 m ρ c) (r := main_v88) (by decide)
  -- after the normalisation kernel
  have a8 : W18 m ρ c (Proc.devRef .tc main_v95) = RV.bnReluG (W17 m ρ c (Proc.devRef .tc main_v83)) (W17 m ρ c (Proc.devRef .tc main_v87)) (W17 m ρ c (Proc.devRef .tc main_v88)) (W17 m ρ c (Proc.devRef .tc main_v91)) (W17 m ρ c (Proc.devRef .tc main_v94)) :=
    (W18_arr m ρ c 5).trans (hbn (V17 m ρ) c)
  rw [p7_y, p7_mu, p7_var, a7_g, a7_beta, a6_var, a5_mu, a5_c, p5_y, p6_arg7, p6_arg8, a4_y] at a8
  exact a8

end Cert.KernelIdeal.KFold

end
-- ==== Proof.KFoldSeg2.lean ====
/-
  Layer 2's host stretches, each at arbitrary entry contents `V`: the buffers a stretch writes that a later step
  reads hold the named stage of the contents it read them from (the stretch's operations composed), and every buffer
  the stretch does not write holds what it held.
-/
import proofs.«107720_j79044578115931_2_alg».proof.Proof.KStages
import proofs.«107720_j79044578115931_2_alg».proof.Proof.Gen.KernelIdeal.Launch
import Idealize.ShloMosaic.Lib.StableHlo.Run

set_option maxRecDepth 16384

noncomputable section

namespace Cert.KernelIdeal.KFold

open Cert.KernelIdeal Cert.KernelIdeal.Gen Cert.KernelIdeal.KStages Idealize.ShloMosaic Idealize.ShloMosaic.StableHlo

variable (V : Valuation τ sig (Elt Ideal))

/-- The buffers `hostOps6` writes, in order. -/
def wr6 : List (Ref sig .tc) := [main_c_19, main_v96, main_v97, main_c_20, main_v98, main_v99, main_v100, main_v101, main_v102, main_v103, main_v104, main_v105, main_v106]
/-- Every other buffer is as before the stretch. -/
theorem keep6 {r : Ref sig .tc} (hr : r ∉ wr6) : after (hostOps6 (F := Ideal)) V (Proc.devRef .tc r) = V (Proc.devRef .tc r) :=
  after_of_writes_sub _ V (by
    simp only [hostOps6, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps7` writes, in order. -/
def wr7 : List (Ref sig .tc) := [main_cst_21, main_v108, main_v109, main_v110, main_v111, main_v112, main_v113, main_v114, main_v115]
/-- Every other buffer is as before the stretch. -/
theorem keep7 {r : Ref sig .tc} (hr : r ∉ wr7) : after (hostOps7 (F := Ideal)) V (Proc.devRef .tc r) = V (Proc.devRef .tc r) :=
  after_of_writes_sub _ V (by
    simp only [hostOps7, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps8` writes, in order. -/
def wr8 : List (Ref sig .tc) := [main_cst_22, main_v117, main_v118, main_cst_23, main_v119, main_v120, main_c_24]
/-- Every other buffer is as before the stretch. -/
theorem keep8 {r : Ref sig .tc} (hr : r ∉ wr8) : after (hostOps8 (F := Ideal)) V (Proc.devRef .tc r) = V (Proc.devRef .tc r) :=
  after_of_writes_sub _ V (by
    simp only [hostOps8, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps8_1` writes, in order. -/
def wr8_1 : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v121]
/-- Every other buffer is as before the stretch. -/
theorem keep8_1 {r : Ref sig .tc} (hr : r ∉ wr8_1) : after (hostOps8_1 (F := Ideal)) V (Proc.devRef .tc r) = V (Proc.devRef .tc r) :=
  after_of_writes_sub _ V (by
    simp only [hostOps8_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps8_2` writes, in order. -/
def wr8_2 : List (Ref sig .tc) := [main_v122, main_v123, main_v124, main_v125, main_v126, main_v127]
/-- Every other buffer is as before the stretch. -/
theorem keep8_2 {r : Ref sig .tc} (hr : r ∉ wr8_2) : after (hostOps8_2 (F := Ideal)) V (Proc.devRef .tc r) = V (Proc.devRef .tc r) :=
  after_of_writes_sub _ V (by
    simp only [hostOps8_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

theorem val6_v102 : after (hostOps6 (F := Ideal)) V (Proc.devRef .tc main_v102) = kHrow (V (Proc.devRef .tc main_v95)) (V (Proc.devRef .tc main_v1)) := by
  after_results_simp <;> rfl

theorem val6_v104 : after (hostOps6 (F := Ideal)) V (Proc.devRef .tc main_v104) = ew1_2 (V (Proc.devRef .tc main_arg5)) := by
  after_results_simp <;> rfl

theorem val6_v106 : after (hostOps6 (F := Ideal)) V (Proc.devRef .tc main_v106) = ew2_2 (V (Proc.devRef .tc main_arg6)) := by
  after_results_simp <;> rfl

theorem val7_v110 : after (hostOps7 (F := Ideal)) V (Proc.devRef .tc main_v110) = kAgg (V (Proc.devRef .tc main_v3)) (V (Proc.devRef .tc main_v107)) := by
  after_results_simp <;> rfl

theorem val7_v112 : after (hostOps7 (F := Ideal)) V (Proc.devRef .tc main_v112) = w_2 (V (Proc.devRef .tc main_arg3)) := by
  after_results_simp <;> rfl

theorem val7_v115 : after (hostOps7 (F := Ideal)) V (Proc.devRef .tc main_v115) = b_2 (V (Proc.devRef .tc main_arg4)) := by
  after_results_simp <;> rfl

theorem val8_v120 : after (hostOps8 (F := Ideal)) V (Proc.devRef .tc main_v120) = kMean (V (Proc.devRef .tc main_v116)) := by
  after_results_simp <;> rfl

theorem val8_c_24 : after (hostOps8 (F := Ideal)) V (Proc.devRef .tc main_c_24) = constantI S_ 32 0#32 := by
  after_results_simp <;> rfl

theorem val8_1_v121 : after (hostOps8_1 (F := Ideal)) V (Proc.devRef .tc main_v121) = kVarC (V (Proc.devRef .tc main_v116)) (V (Proc.devRef .tc main_c_24)) := by
  after_results_simp <;> rfl

theorem val8_2_v124 : after (hostOps8_2 (F := Ideal)) V (Proc.devRef .tc main_v124) = g_2 (V (Proc.devRef .tc main_arg7)) := by
  after_results_simp <;> rfl

theorem val8_2_v127 : after (hostOps8_2 (F := Ideal)) V (Proc.devRef .tc main_v127) = beta_2 (V (Proc.devRef .tc main_arg8)) := by
  after_results_simp <;> rfl

end Cert.KernelIdeal.KFold

end
-- ==== Proof.KFoldL2.lean ====
/-
  Layer 2 through the run's boundaries: from the contents at the layer's entry boundary to its exit boundary, segment
  by segment — a host stretch leaves in the buffers it writes the named stages of what it read and keeps every other
  buffer, a kernel leaves in its output the kernel's function of its input windows' arrays and keeps every other
  buffer, its input arrays included.
-/
import proofs.«107720_j79044578115931_2_alg».proof.Proof.Gen.KernelIdeal.Frame
import proofs.«107720_j79044578115931_2_alg».proof.Proof.KFoldSeg2
import proofs.«107720_j79044578115931_2_alg».proof.Proof.KLayer

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-- Kernel 6's output array, for whatever contents `V` it is entered at, is its stage function of its input windows' arrays. -/
def Final6 : Prop :=
  ∀ (V : (c : Dev nD) → (b : Ref sig .tc) → Buf (Elt Ideal) ((c : Thread nD τ).loc b)) (c : Dev nD),
      (dat6 (F := Ideal) V c).arrAt 4 cfg6.N = RV.fuseG (V c (Pipeline.arrRef spec6 0)) (V c (Pipeline.arrRef spec6 1)) (V c (Pipeline.arrRef spec6 2)) (V c (Pipeline.arrRef spec6 3))

/-- Kernel 7's output array, for whatever contents `V` it is entered at, is its stage function of its input windows' arrays. -/
def Final7 : Prop :=
  ∀ (V : (c : Dev nD) → (b : Ref sig .tc) → Buf (Elt Ideal) ((c : Thread nD τ).loc b)) (c : Dev nD),
      (dat7 (F := Ideal) V c).arrAt 4 cfg7.N = RV.mlpG (V c (Pipeline.arrRef spec7 0)) (V c (Pipeline.arrRef spec7 1)) (V c (Pipeline.arrRef spec7 2)) (V c (Pipeline.arrRef spec7 3))

/-- Kernel 8's output array, for whatever contents `V` it is entered at, is its stage function of its input windows' arrays. -/
def Final8 : Prop :=
  ∀ (V : (c : Dev nD) → (b : Ref sig .tc) → Buf (Elt Ideal) ((c : Thread nD τ).loc b)) (c : Dev nD),
      (dat8 (F := Ideal) V c).arrAt 5 cfg8.N = RV.bnReluG (V c (Pipeline.arrRef spec8 0)) (V c (Pipeline.arrRef spec8 1)) (V c (Pipeline.arrRef spec8 2)) (V c (Pipeline.arrRef spec8 3)) (V c (Pipeline.arrRef spec8 4))

theorem L2_keep_v1 (c : Dev nD) : W26 m ρ c (Proc.devRef .tc main_v1) = W18 m ρ c (Proc.devRef .tc main_v1) :=
  calc W26 m ρ c (Proc.devRef .tc main_v1)
    _ = W25 m ρ c (Proc.devRef .tc main_v1) := W26_of_ne m ρ c main_v1 (by decide)
    _ = W24 m ρ c (Proc.devRef .tc main_v1) := keep8_2 (W24 m ρ c) (r := main_v1) (by decide)
    _ = W23 m ρ c (Proc.devRef .tc main_v1) := keep8_1 (W23 m ρ c) (r := main_v1) (by decide)
    _ = W22 m ρ c (Proc.devRef .tc main_v1) := keep8 (W22 m ρ c) (r := main_v1) (by decide)
    _ = W21 m ρ c (Proc.devRef .tc main_v1) := W22_of_ne m ρ c main_v1 (by decide)
    _ = W20 m ρ c (Proc.devRef .tc main_v1) := keep7 (W20 m ρ c) (r := main_v1) (by decide)
    _ = W19 m ρ c (Proc.devRef .tc main_v1) := W20_of_ne m ρ c main_v1 (by decide)
    _ = W18 m ρ c (Proc.devRef .tc main_v1) := keep6 (W18 m ρ c) (r := main_v1) (by decide)

theorem L2_keep_v3 (c : Dev nD) : W26 m ρ c (Proc.devRef .tc main_v3) = W18 m ρ c (Proc.devRef .tc main_v3) :=
  calc W26 m ρ c (Proc.devRef .tc main_v3)
    _ = W25 m ρ c (Proc.devRef .tc main_v3) := W26_of_ne m ρ c main_v3 (by decide)
    _ = W24 m ρ c (Proc.devRef .tc main_v3) := keep8_2 (W24 m ρ c) (r := main_v3) (by decide)
    _ = W23 m ρ c (Proc.devRef .tc main_v3) := keep8_1 (W23 m ρ c) (r := main_v3) (by decide)
    _ = W22 m ρ c (Proc.devRef .tc main_v3) := keep8 (W22 m ρ c) (r := main_v3) (by decide)
    _ = W21 m ρ c (Proc.devRef .tc main_v3) := W22_of_ne m ρ c main_v3 (by decide)
    _ = W20 m ρ c (Proc.devRef .tc main_v3) := keep7 (W20 m ρ c) (r := main_v3) (by decide)
    _ = W19 m ρ c (Proc.devRef .tc main_v3) := W20_of_ne m ρ c main_v3 (by decide)
    _ = W18 m ρ c (Proc.devRef .tc main_v3) := keep6 (W18 m ρ c) (r := main_v3) (by decide)

theorem L2_keep_arg3 (c : Dev nD) : W26 m ρ c (Proc.devRef .tc main_arg3) = W18 m ρ c (Proc.devRef .tc main_arg3) :=
  calc W26 m ρ c (Proc.devRef .tc main_arg3)
    _ = W25 m ρ c (Proc.devRef .tc main_arg3) := W26_of_ne m ρ c main_arg3 (by decide)
    _ = W24 m ρ c (Proc.devRef .tc main_arg3) := keep8_2 (W24 m ρ c) (r := main_arg3) (by decide)
    _ = W23 m ρ c (Proc.devRef .tc main_arg3) := keep8_1 (W23 m ρ c) (r := main_arg3) (by decide)
    _ = W22 m ρ c (Proc.devRef .tc main_arg3) := keep8 (W22 m ρ c) (r := main_arg3) (by decide)
    _ = W21 m ρ c (Proc.devRef .tc main_arg3) := W22_of_ne m ρ c main_arg3 (by decide)
    _ = W20 m ρ c (Proc.devRef .tc main_arg3) := keep7 (W20 m ρ c) (r := main_arg3) (by decide)
    _ = W19 m ρ c (Proc.devRef .tc main_arg3) := W20_of_ne m ρ c main_arg3 (by decide)
    _ = W18 m ρ c (Proc.devRef .tc main_arg3) := keep6 (W18 m ρ c) (r := main_arg3) (by decide)

theorem L2_keep_arg4 (c : Dev nD) : W26 m ρ c (Proc.devRef .tc main_arg4) = W18 m ρ c (Proc.devRef .tc main_arg4) :=
  calc W26 m ρ c (Proc.devRef .tc main_arg4)
    _ = W25 m ρ c (Proc.devRef .tc main_arg4) := W26_of_ne m ρ c main_arg4 (by decide)
    _ = W24 m ρ c (Proc.devRef .tc main_arg4) := keep8_2 (W24 m ρ c) (r := main_arg4) (by decide)
    _ = W23 m ρ c (Proc.devRef .tc main_arg4) := keep8_1 (W23 m ρ c) (r := main_arg4) (by decide)
    _ = W22 m ρ c (Proc.devRef .tc main_arg4) := keep8 (W22 m ρ c) (r := main_arg4) (by decide)
    _ = W21 m ρ c (Proc.devRef .tc main_arg4) := W22_of_ne m ρ c main_arg4 (by decide)
    _ = W20 m ρ c (Proc.devRef .tc main_arg4) := keep7 (W20 m ρ c) (r := main_arg4) (by decide)
    _ = W19 m ρ c (Proc.devRef .tc main_arg4) := W20_of_ne m ρ c main_arg4 (by decide)
    _ = W18 m ρ c (Proc.devRef .tc main_arg4) := keep6 (W18 m ρ c) (r := main_arg4) (by decide)

theorem L2_keep_arg5 (c : Dev nD) : W26 m ρ c (Proc.devRef .tc main_arg5) = W18 m ρ c (Proc.devRef .tc main_arg5) :=
  calc W26 m ρ c (Proc.devRef .tc main_arg5)
    _ = W25 m ρ c (Proc.devRef .tc main_arg5) := W26_of_ne m ρ c main_arg5 (by decide)
    _ = W24 m ρ c (Proc.devRef .tc main_arg5) := keep8_2 (W24 m ρ c) (r := main_arg5) (by decide)
    _ = W23 m ρ c (Proc.devRef .tc main_arg5) := keep8_1 (W23 m ρ c) (r := main_arg5) (by decide)
    _ = W22 m ρ c (Proc.devRef .tc main_arg5) := keep8 (W22 m ρ c) (r := main_arg5) (by decide)
    _ = W21 m ρ c (Proc.devRef .tc main_arg5) := W22_of_ne m ρ c main_arg5 (by decide)
    _ = W20 m ρ c (Proc.devRef .tc main_arg5) := keep7 (W20 m ρ c) (r := main_arg5) (by decide)
    _ = W19 m ρ c (Proc.devRef .tc main_arg5) := W20_of_ne m ρ c main_arg5 (by decide)
    _ = W18 m ρ c (Proc.devRef .tc main_arg5) := keep6 (W18 m ρ c) (r := main_arg5) (by decide)

theorem L2_keep_arg6 (c : Dev nD) : W26 m ρ c (Proc.devRef .tc main_arg6) = W18 m ρ c (Proc.devRef .tc main_arg6) :=
  calc W26 m ρ c (Proc.devRef .tc main_arg6)
    _ = W25 m ρ c (Proc.devRef .tc main_arg6) := W26_of_ne m ρ c main_arg6 (by decide)
    _ = W24 m ρ c (Proc.devRef .tc main_arg6) := keep8_2 (W24 m ρ c) (r := main_arg6) (by decide)
    _ = W23 m ρ c (Proc.devRef .tc main_arg6) := keep8_1 (W23 m ρ c) (r := main_arg6) (by decide)
    _ = W22 m ρ c (Proc.devRef .tc main_arg6) := keep8 (W22 m ρ c) (r := main_arg6) (by decide)
    _ = W21 m ρ c (Proc.devRef .tc main_arg6) := W22_of_ne m ρ c main_arg6 (by decide)
    _ = W20 m ρ c (Proc.devRef .tc main_arg6) := keep7 (W20 m ρ c) (r := main_arg6) (by decide)
    _ = W19 m ρ c (Proc.devRef .tc main_arg6) := W20_of_ne m ρ c main_arg6 (by decide)
    _ = W18 m ρ c (Proc.devRef .tc main_arg6) := keep6 (W18 m ρ c) (r := main_arg6) (by decide)

theorem L2_keep_arg7 (c : Dev nD) : W26 m ρ c (Proc.devRef .tc main_arg7) = W18 m ρ c (Proc.devRef .tc main_arg7) :=
  calc W26 m ρ c (Proc.devRef .tc main_arg7)
    _ = W25 m ρ c (Proc.devRef .tc main_arg7) := W26_of_ne m ρ c main_arg7 (by decide)
    _ = W24 m ρ c (Proc.devRef .tc main_arg7) := keep8_2 (W24 m ρ c) (r := main_arg7) (by decide)
    _ = W23 m ρ c (Proc.devRef .tc main_arg7) := keep8_1 (W23 m ρ c) (r := main_arg7) (by decide)
    _ = W22 m ρ c (Proc.devRef .tc main_arg7) := keep8 (W22 m ρ c) (r := main_arg7) (by decide)
    _ = W21 m ρ c (Proc.devRef .tc main_arg7) := W22_of_ne m ρ c main_arg7 (by decide)
    _ = W20 m ρ c (Proc.devRef .tc main_arg7) := keep7 (W20 m ρ c) (r := main_arg7) (by decide)
    _ = W19 m ρ c (Proc.devRef .tc main_arg7) := W20_of_ne m ρ c main_arg7 (by decide)
    _ = W18 m ρ c (Proc.devRef .tc main_arg7) := keep6 (W18 m ρ c) (r := main_arg7) (by decide)

theorem L2_keep_arg8 (c : Dev nD) : W26 m ρ c (Proc.devRef .tc main_arg8) = W18 m ρ c (Proc.devRef .tc main_arg8) :=
  calc W26 m ρ c (Proc.devRef .tc main_arg8)
    _ = W25 m ρ c (Proc.devRef .tc main_arg8) := W26_of_ne m ρ c main_arg8 (by decide)
    _ = W24 m ρ c (Proc.devRef .tc main_arg8) := keep8_2 (W24 m ρ c) (r := main_arg8) (by decide)
    _ = W23 m ρ c (Proc.devRef .tc main_arg8) := keep8_1 (W23 m ρ c) (r := main_arg8) (by decide)
    _ = W22 m ρ c (Proc.devRef .tc main_arg8) := keep8 (W22 m ρ c) (r := main_arg8) (by decide)
    _ = W21 m ρ c (Proc.devRef .tc main_arg8) := W22_of_ne m ρ c main_arg8 (by decide)
    _ = W20 m ρ c (Proc.devRef .tc main_arg8) := keep7 (W20 m ρ c) (r := main_arg8) (by decide)
    _ = W19 m ρ c (Proc.devRef .tc main_arg8) := W20_of_ne m ρ c main_arg8 (by decide)
    _ = W18 m ρ c (Proc.devRef .tc main_arg8) := keep6 (W18 m ρ c) (r := main_arg8) (by decide)

theorem L2_keep_v29 (c : Dev nD) : W26 m ρ c (Proc.devRef .tc main_v29) = W18 m ρ c (Proc.devRef .tc main_v29) :=
  calc W26 m ρ c (Proc.devRef .tc main_v29)
    _ = W25 m ρ c (Proc.devRef .tc main_v29) := W26_of_ne m ρ c main_v29 (by decide)
    _ = W24 m ρ c (Proc.devRef .tc main_v29) := keep8_2 (W24 m ρ c) (r := main_v29) (by decide)
    _ = W23 m ρ c (Proc.devRef .tc main_v29) := keep8_1 (W23 m ρ c) (r := main_v29) (by decide)
    _ = W22 m ρ c (Proc.devRef .tc main_v29) := keep8 (W22 m ρ c) (r := main_v29) (by decide)
    _ = W21 m ρ c (Proc.devRef .tc main_v29) := W22_of_ne m ρ c main_v29 (by decide)
    _ = W20 m ρ c (Proc.devRef .tc main_v29) := keep7 (W20 m ρ c) (r := main_v29) (by decide)
    _ = W19 m ρ c (Proc.devRef .tc main_v29) := (W20_arr m ρ c 1).trans (((dat6 (V19 m ρ) c).arrAt_in 1 rfl _).trans (A_eq6 (V19 m ρ) c 1))
    _ = W18 m ρ c (Proc.devRef .tc main_v29) := keep6 (W18 m ρ c) (r := main_v29) (by decide)

/-- Layer 2: the layer's result at its exit boundary is the layer function of what the layer found at its entry. -/
theorem L2_out
    (hfuse : Final6)
    (hmlp : Final7)
    (hbn : Final8)
    (c : Dev nD) :
    W26 m ρ c (Proc.devRef .tc main_v128) = kLayer RV.bnReluG (W18 m ρ c (Proc.devRef .tc main_v95)) (W18 m ρ c (Proc.devRef .tc main_v29)) (W18 m ρ c (Proc.devRef .tc main_v1)) (W18 m ρ c (Proc.devRef .tc main_v3)) (ew1_2 (W18 m ρ c (Proc.devRef .tc main_arg5))) (ew2_2 (W18 m ρ c (Proc.devRef .tc main_arg6))) (w_2 (W18 m ρ c (Proc.devRef .tc main_arg3))) (b_2 (W18 m ρ c (Proc.devRef .tc main_arg4))) (g_2 (W18 m ρ c (Proc.devRef .tc main_arg7))) (beta_2 (W18 m ρ c (Proc.devRef .tc main_arg8))) := by
  -- after the first host stretch: the gathered features, the layer's edge weights, the extended edge table
  have a1_hrow : W19 m ρ c (Proc.devRef .tc main_v102) = kHrow (W18 m ρ c (Proc.devRef .tc main_v95)) (W18 m ρ c (Proc.devRef .tc main_v1)) := val6_v102 (W18 m ρ c)
  have a1_ew1 : W19 m ρ c (Proc.devRef .tc main_v104) = ew1_2 (W18 m ρ c (Proc.devRef .tc main_arg5)) := val6_v104 (W18 m ρ c)
  have a1_ew2 : W19 m ρ c (Proc.devRef .tc main_v106) = ew2_2 (W18 m ρ c (Proc.devRef .tc main_arg6)) := val6_v106 (W18 m ρ c)
  have a1_x : W19 m ρ c (Proc.devRef .tc main_v29) = W18 m ρ c (Proc.devRef .tc main_v29) := keep6 (W18 m ρ c) (r := main_v29) (by decide)
  -- after the fused kernel: the messages
  have a2_msg : W20 m ρ c (Proc.devRef .tc main_v107) = RV.fuseG (W19 m ρ c (Proc.devRef .tc main_v102)) (W19 m ρ c (Proc.devRef .tc main_v29)) (W19 m ρ c (Proc.devRef .tc main_v104)) (W19 m ρ c (Proc.devRef .tc main_v106)) :=
    (W20_arr m ρ c 4).trans (hfuse (V19 m ρ) c)
  rw [a1_hrow, a1_x, a1_ew1, a1_ew2] at a2_msg
  -- after the second host stretch: the summed messages, the layer's dense weight and bias
  have p2_v3 : W20 m ρ c (Proc.devRef .tc main_v3) = W18 m ρ c (Proc.devRef .tc main_v3) :=
    calc W20 m ρ c (Proc.devRef .tc main_v3)
      _ = W19 m ρ c (Proc.devRef .tc main_v3) := W20_of_ne m ρ c main_v3 (by decide)
      _ = W18 m ρ c (Proc.devRef .tc main_v3) := keep6 (W18 m ρ c) (r := main_v3) (by decide)
  have p2_arg3 : W20 m ρ c (Proc.devRef .tc main_arg3) = W18 m ρ c (Proc.devRef .tc main_arg3) :=
    calc W20 m ρ c (Proc.devRef .tc main_arg3)
      _ = W19 m ρ c (Proc.devRef .tc main_arg3) := W20_of_ne m ρ c main_arg3 (by decide)
      _ = W18 m ρ c (Proc.devRef .tc main_arg3) := keep6 (W18 m ρ c) (r := main_arg3) (by decide)
  have p2_arg4 : W20 m ρ c (Proc.devRef .tc main_arg4) = W18 m ρ c (Proc.devRef .tc main_arg4) :=
    calc W20 m ρ c (Proc.devRef .tc main_arg4)
      _ = W19 m ρ c (Proc.devRef .tc main_arg4) := W20_of_ne m ρ c main_arg4 (by decide)
      _ = W18 m ρ c (Proc.devRef .tc main_arg4) := keep6 (W18 m ρ c) (r := main_arg4) (by decide)
  have p3_hin : W21 m ρ c (Proc.devRef .tc main_v95) = W18 m ρ c (Proc.devRef .tc main_v95) :=
    calc W21 m ρ c (Proc.devRef .tc main_v95)
      _ = W20 m ρ c (Proc.devRef .tc main_v95) := keep7 (W20 m ρ c) (r := main_v95) (by decide)
      _ = W19 m ρ c (Proc.devRef .tc main_v95) := W20_of_ne m ρ c main_v95 (by decide)
      _ = W18 m ρ c (Proc.devRef .tc main_v95) := keep6 (W18 m ρ c) (r := main_v95) (by decide)
  have a3_agg : W21 m ρ c (Proc.devRef .tc main_v110) = kAgg (W20 m ρ c (Proc.devRef .tc main_v3)) (W20 m ρ c (Proc.devRef .tc main_v107)) := val7_v110 (W20 m ρ c)
  have a3_w : W21 m ρ c (Proc.devRef .tc main_v112) = w_2 (W20 m ρ c (Proc.devRef .tc main_arg3)) := val7_v112 (W20 m ρ c)
  have a3_b : W21 m ρ c (Proc.devRef .tc main_v115) = b_2 (W20 m ρ c (Proc.devRef .tc main_arg4)) := val7_v115 (W20 m ρ c)
  -- after the dense kernel: the layer before its normalisation
  have a4_y : W22 m ρ c (Proc.devRef .tc main_v116) = RV.mlpG (W21 m ρ c (Proc.devRef .tc main_v95)) (W21 m ρ c (Proc.devRef .tc main_v110)) (W21 m ρ c (Proc.devRef .tc main_v112)) (W21 m ρ c (Proc.devRef .tc main_v115)) :=
    (W22_arr m ρ c 4).trans (hmlp (V21 m ρ) c)
  rw [p3_hin, a3_agg, a3_w, a3_b, p2_v3, a2_msg, p2_arg3, p2_arg4] at a4_y
  -- the column means, the column variances, the layer's gain and offset
  have a5_mu : W23 m ρ c (Proc.devRef .tc main_v120) = kMean (W22 m ρ c (Proc.devRef .tc main_v116)) := val8_v120 (W22 m ρ c)
  have a5_c : W23 m ρ c (Proc.devRef .tc main_c_24) = constantI S_ 32 0#32 := val8_c_24 (W22 m ρ c)
  have p5_y : W23 m ρ c (Proc.devRef .tc main_v116) = W22 m ρ c (Proc.devRef .tc main_v116) := keep8 (W22 m ρ c) (r := main_v116) (by decide)
  have a6_var : W24 m ρ c (Proc.devRef .tc main_v121) = kVarC (W23 m ρ c (Proc.devRef .tc main_v116)) (W23 m ρ c (Proc.devRef .tc main_c_24)) := val8_1_v121 (W23 m ρ c)
  have p6_arg7 : W24 m ρ c (Proc.devRef .tc main_arg7) = W18 m ρ c (Proc.devRef .tc main_arg7) :=
    calc W24 m ρ c (Proc.devRef .tc main_arg7)
      _ = W23 m ρ c (Proc.devRef .tc main_arg7) := keep8_1 (W23 m ρ c) (r := main_arg7) (by decide)
      _ = W22 m ρ c (Proc.devRef .tc main_arg7) := keep8 (W22 m ρ c) (r := main_arg7) (by decide)
      _ = W21 m ρ c (Proc.devRef .tc main_arg7) := W22_of_ne m ρ c main_arg7 (by decide)
      _ = W20 m ρ c (Proc.devRef .tc main_arg7) := keep7 (W20 m ρ c) (r := main_arg7) (by decide)
      _ = W19 m ρ c (Proc.devRef .tc main_arg7) := W20_of_ne m ρ c main_arg7 (by decide)
      _ = W18 m ρ c (Proc.devRef .tc main_arg7) := keep6 (W18 m ρ c) (r := main_arg7) (by decide)
  have p6_arg8 : W24 m ρ c (Proc.devRef .tc main_arg8) = W18 m ρ c (Proc.devRef .tc main_arg8) :=
    calc W24 m ρ c (Proc.devRef .tc main_arg8)
      _ = W23 m ρ c (Proc.devRef .tc main_arg8) := keep8_1 (W23 m ρ c) (r := main_arg8) (by decide)
      _ = W22 m ρ c (Proc.devRef .tc main_arg8) := keep8 (W22 m ρ c) (r := main_arg8) (by decide)
      _ = W21 m ρ c (Proc.devRef .tc main_arg8) := W22_of_ne m ρ c main_arg8 (by decide)
      _ = W20 m ρ c (Proc.devRef .tc main_arg8) := keep7 (W20 m ρ c) (r := main_arg8) (by decide)
      _ = W19 m ρ c (Proc.devRef .tc main_arg8) := W20_of_ne m ρ c main_arg8 (by decide)
      _ = W18 m ρ c (Proc.devRef .tc main_arg8) := keep6 (W18 m ρ c) (r := main_arg8) (by decide)
  have a7_g : W25 m ρ c (Proc.devRef .tc main_v124) = g_2 (W24 m ρ c (Proc.devRef .tc main_arg7)) := val8_2_v124 (W24 m ρ c)
  have a7_beta : W25 m ρ c (Proc.devRef .tc main_v127) = beta_2 (W24 m ρ c (Proc.devRef .tc main_arg8)) := val8_2_v127 (W24 m ρ c)
  have p7_y : W25 m ρ c (Proc.devRef .tc main_v116) = W22 m ρ c (Proc.devRef .tc main_v116) :=
    calc W25 m ρ c (Proc.devRef .tc main_v116)
      _ = W24 m ρ c (Proc.devRef .tc main_v116) := keep8_2 (W24 m ρ c) (r := main_v116) (by decide)
      _ = W23 m ρ c (Proc.devRef .tc main_v116) := keep8_1 (W23 m ρ c) (r := main_v116) (by decide)
      _ = W22 m ρ c (Proc.devRef .tc main_v116) := keep8 (W22 m ρ c) (r := main_v116) (by decide)
  have p7_mu : W25 m ρ c (Proc.devRef .tc main_v120) = W23 m ρ c (Proc.devRef .tc main_v120) :=
    calc W25 m ρ c (Proc.devRef .tc main_v120)
      _ = W24 m ρ c (Proc.devRef .tc main_v120) := keep8_2 (W24 m ρ c) (r := main_v120) (by decide)
      _ = W23 m ρ c (Proc.devRef .tc main_v120) := keep8_1 (W23 m ρ c) (r := main_v120) (by decide)
  have p7_var : W25 m ρ c (Proc.devRef .tc main_v121) = W24 m ρ c (Proc.devRef .tc main_v121) := keep8_2 (W24 m ρ c) (r := main_v121) (by decide)
  -- after the normalisation kernel
  have a8 : W26 m ρ c (Proc.devRef .tc main_v128) = RV.bnReluG (W25 m ρ c (Proc.devRef .tc main_v116)) (W25 m ρ c (Proc.devRef .tc main_v120)) (W25 m ρ c (Proc.devRef .tc main_v121)) (W25 m ρ c (Proc.devRef .tc main_v124)) (W25 m ρ c (Proc.devRef .tc main_v127)) :=
    (W26_arr m ρ c 5).trans (hbn (V25 m ρ) c)
  rw [p7_y, p7_mu, p7_var, a7_g, a7_beta, a6_var, a5_mu, a5_c, p5_y, p6_arg7, p6_arg8, a4_y] at a8
  exact a8

end Cert.KernelIdeal.KFold

end
-- ==== Proof.KFoldSeg3.lean ====
/-
  Layer 3's host stretches, each at arbitrary entry contents `V`: the buffers a stretch writes that a later step
  reads hold the named stage of the contents it read them from (the stretch's operations composed), and every buffer
  the stretch does not write holds what it held.
-/
import proofs.«107720_j79044578115931_2_alg».proof.Proof.KStages
import proofs.«107720_j79044578115931_2_alg».proof.Proof.Gen.KernelIdeal.Launch
import Idealize.ShloMosaic.Lib.StableHlo.Run

set_option maxRecDepth 16384

noncomputable section

namespace Cert.KernelIdeal.KFold

open Cert.KernelIdeal Cert.KernelIdeal.Gen Cert.KernelIdeal.KStages Idealize.ShloMosaic Idealize.ShloMosaic.StableHlo

variable (V : Valuation τ sig (Elt Ideal))

/-- The buffers `hostOps9` writes, in order. -/
def wr9 : List (Ref sig .tc) := [main_c_25, main_v129, main_v130, main_c_26, main_v131, main_v132, main_v133, main_v134, main_v135, main_v136, main_v137, main_v138, main_v139]
/-- Every other buffer is as before the stretch. -/
theorem keep9 {r : Ref sig .tc} (hr : r ∉ wr9) : after (hostOps9 (F := Ideal)) V (Proc.devRef .tc r) = V (Proc.devRef .tc r) :=
  after_of_writes_sub _ V (by
    simp only [hostOps9, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps10` writes, in order. -/
def wr10 : List (Ref sig .tc) := [main_cst_27, main_v141, main_v142, main_v143, main_v144, main_v145, main_v146, main_v147, main_v148]
/-- Every other buffer is as before the stretch. -/
theorem keep10 {r : Ref sig .tc} (hr : r ∉ wr10) : after (hostOps10 (F := Ideal)) V (Proc.devRef .tc r) = V (Proc.devRef .tc r) :=
  after_of_writes_sub _ V (by
    simp only [hostOps10, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps11` writes, in order. -/
def wr11 : List (Ref sig .tc) := [main_cst_28, main_v150, main_v151, main_cst_29, main_v152, main_v153, main_c_30]
/-- Every other buffer is as before the stretch. -/
theorem keep11 {r : Ref sig .tc} (hr : r ∉ wr11) : after (hostOps11 (F := Ideal)) V (Proc.devRef .tc r) = V (Proc.devRef .tc r) :=
  after_of_writes_sub _ V (by
    simp only [hostOps11, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps11_1` writes, in order. -/
def wr11_1 : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v154]
/-- Every other buffer is as before the stretch. -/
theorem keep11_1 {r : Ref sig .tc} (hr : r ∉ wr11_1) : after (hostOps11_1 (F := Ideal)) V (Proc.devRef .tc r) = V (Proc.devRef .tc r) :=
  after_of_writes_sub _ V (by
    simp only [hostOps11_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps11_2` writes, in order. -/
def wr11_2 : List (Ref sig .tc) := [main_v155, main_v156, main_v157, main_v158, main_v159, main_v160]
/-- Every other buffer is as before the stretch. -/
theorem keep11_2 {r : Ref sig .tc} (hr : r ∉ wr11_2) : after (hostOps11_2 (F := Ideal)) V (Proc.devRef .tc r) = V (Proc.devRef .tc r) :=
  after_of_writes_sub _ V (by
    simp only [hostOps11_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

theorem val9_v135 : after (hostOps9 (F := Ideal)) V (Proc.devRef .tc main_v135) = kHrow (V (Proc.devRef .tc main_v128)) (V (Proc.devRef .tc main_v1)) := by
  after_results_simp <;> rfl

theorem val9_v137 : after (hostOps9 (F := Ideal)) V (Proc.devRef .tc main_v137) = ew1_3 (V (Proc.devRef .tc main_arg5)) := by
  after_results_simp <;> rfl

theorem val9_v139 : after (hostOps9 (F := Ideal)) V (Proc.devRef .tc main_v139) = ew2_3 (V (Proc.devRef .tc main_arg6)) := by
  after_results_simp <;> rfl

theorem val10_v143 : after (hostOps10 (F := Ideal)) V (Proc.devRef .tc main_v143) = kAgg (V (Proc.devRef .tc main_v3)) (V (Proc.devRef .tc main_v140)) := by
  after_results_simp <;> rfl

theorem val10_v145 : after (hostOps10 (F := Ideal)) V (Proc.devRef .tc main_v145) = w_3 (V (Proc.devRef .tc main_arg3)) := by
  after_results_simp <;> rfl

theorem val10_v148 : after (hostOps10 (F := Ideal)) V (Proc.devRef .tc main_v148) = b_3 (V (Proc.devRef .tc main_arg4)) := by
  after_results_simp <;> rfl

theorem val11_v153 : after (hostOps11 (F := Ideal)) V (Proc.devRef .tc main_v153) = kMean (V (Proc.devRef .tc main_v149)) := by
  after_results_simp <;> rfl

theorem val11_c_30 : after (hostOps11 (F := Ideal)) V (Proc.devRef .tc main_c_30) = constantI S_ 32 0#32 := by
  after_results_simp <;> rfl

theorem val11_1_v154 : after (hostOps11_1 (F := Ideal)) V (Proc.devRef .tc main_v154) = kVarC (V (Proc.devRef .tc main_v149)) (V (Proc.devRef .tc main_c_30)) := by
  after_results_simp <;> rfl

theorem val11_2_v157 : after (hostOps11_2 (F := Ideal)) V (Proc.devRef .tc main_v157) = g_3 (V (Proc.devRef .tc main_arg7)) := by
  after_results_simp <;> rfl

theorem val11_2_v160 : after (hostOps11_2 (F := Ideal)) V (Proc.devRef .tc main_v160) = beta_3 (V (Proc.devRef .tc main_arg8)) := by
  after_results_simp <;> rfl

end Cert.KernelIdeal.KFold

end
-- ==== Proof.KFoldL3.lean ====
/-
  Layer 3 through the run's boundaries: from the contents at the layer's entry boundary to its exit boundary, segment
  by segment — a host stretch leaves in the buffers it writes the named stages of what it read and keeps every other
  buffer, a kernel leaves in its output the kernel's function of its input windows' arrays and keeps every other
  buffer, its input arrays included.
-/
import proofs.«107720_j79044578115931_2_alg».proof.Proof.Gen.KernelIdeal.Frame
import proofs.«107720_j79044578115931_2_alg».proof.Proof.KFoldSeg3
import proofs.«107720_j79044578115931_2_alg».proof.Proof.KLayer

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-- Kernel 9's output array, for whatever contents `V` it is entered at, is its stage function of its input windows' arrays. -/
def Final9 : Prop :=
  ∀ (V : (c : Dev nD) → (b : Ref sig .tc) → Buf (Elt Ideal) ((c : Thread nD τ).loc b)) (c : Dev nD),
      (dat9 (F := Ideal) V c).arrAt 4 cfg9.N = RV.fuseG (V c (Pipeline.arrRef spec9 0)) (V c (Pipeline.arrRef spec9 1)) (V c (Pipeline.arrRef spec9 2)) (V c (Pipeline.arrRef spec9 3))

/-- Kernel 10's output array, for whatever contents `V` it is entered at, is its stage function of its input windows' arrays. -/
def Final10 : Prop :=
  ∀ (V : (c : Dev nD) → (b : Ref sig .tc) → Buf (Elt Ideal) ((c : Thread nD τ).loc b)) (c : Dev nD),
      (dat10 (F := Ideal) V c).arrAt 4 cfg10.N = RV.mlpG (V c (Pipeline.arrRef spec10 0)) (V c (Pipeline.arrRef spec10 1)) (V c (Pipeline.arrRef spec10 2)) (V c (Pipeline.arrRef spec10 3))

/-- Kernel 11's output array, for whatever contents `V` it is entered at, is its stage function of its input windows' arrays. -/
def Final11 : Prop :=
  ∀ (V : (c : Dev nD) → (b : Ref sig .tc) → Buf (Elt Ideal) ((c : Thread nD τ).loc b)) (c : Dev nD),
      (dat11 (F := Ideal) V c).arrAt 5 cfg11.N = RV.bnReluG (V c (Pipeline.arrRef spec11 0)) (V c (Pipeline.arrRef spec11 1)) (V c (Pipeline.arrRef spec11 2)) (V c (Pipeline.arrRef spec11 3)) (V c (Pipeline.arrRef spec11 4))

theorem L3_keep_v1 (c : Dev nD) : W34 m ρ c (Proc.devRef .tc main_v1) = W26 m ρ c (Proc.devRef .tc main_v1) :=
  calc W34 m ρ c (Proc.devRef .tc main_v1)
    _ = W33 m ρ c (Proc.devRef .tc main_v1) := W34_of_ne m ρ c main_v1 (by decide)
    _ = W32 m ρ c (Proc.devRef .tc main_v1) := keep11_2 (W32 m ρ c) (r := main_v1) (by decide)
    _ = W31 m ρ c (Proc.devRef .tc main_v1) := keep11_1 (W31 m ρ c) (r := main_v1) (by decide)
    _ = W30 m ρ c (Proc.devRef .tc main_v1) := keep11 (W30 m ρ c) (r := main_v1) (by decide)
    _ = W29 m ρ c (Proc.devRef .tc main_v1) := W30_of_ne m ρ c main_v1 (by decide)
    _ = W28 m ρ c (Proc.devRef .tc main_v1) := keep10 (W28 m ρ c) (r := main_v1) (by decide)
    _ = W27 m ρ c (Proc.devRef .tc main_v1) := W28_of_ne m ρ c main_v1 (by decide)
    _ = W26 m ρ c (Proc.devRef .tc main_v1) := keep9 (W26 m ρ c) (r := main_v1) (by decide)

theorem L3_keep_v3 (c : Dev nD) : W34 m ρ c (Proc.devRef .tc main_v3) = W26 m ρ c (Proc.devRef .tc main_v3) :=
  calc W34 m ρ c (Proc.devRef .tc main_v3)
    _ = W33 m ρ c (Proc.devRef .tc main_v3) := W34_of_ne m ρ c main_v3 (by decide)
    _ = W32 m ρ c (Proc.devRef .tc main_v3) := keep11_2 (W32 m ρ c) (r := main_v3) (by decide)
    _ = W31 m ρ c (Proc.devRef .tc main_v3) := keep11_1 (W31 m ρ c) (r := main_v3) (by decide)
    _ = W30 m ρ c (Proc.devRef .tc main_v3) := keep11 (W30 m ρ c) (r := main_v3) (by decide)
    _ = W29 m ρ c (Proc.devRef .tc main_v3) := W30_of_ne m ρ c main_v3 (by decide)
    _ = W28 m ρ c (Proc.devRef .tc main_v3) := keep10 (W28 m ρ c) (r := main_v3) (by decide)
    _ = W27 m ρ c (Proc.devRef .tc main_v3) := W28_of_ne m ρ c main_v3 (by decide)
    _ = W26 m ρ c (Proc.devRef .tc main_v3) := keep9 (W26 m ρ c) (r := main_v3) (by decide)

theorem L3_keep_arg3 (c : Dev nD) : W34 m ρ c (Proc.devRef .tc main_arg3) = W26 m ρ c (Proc.devRef .tc main_arg3) :=
  calc W34 m ρ c (Proc.devRef .tc main_arg3)
    _ = W33 m ρ c (Proc.devRef .tc main_arg3) := W34_of_ne m ρ c main_arg3 (by decide)
    _ = W32 m ρ c (Proc.devRef .tc main_arg3) := keep11_2 (W32 m ρ c) (r := main_arg3) (by decide)
    _ = W31 m ρ c (Proc.devRef .tc main_arg3) := keep11_1 (W31 m ρ c) (r := main_arg3) (by decide)
    _ = W30 m ρ c (Proc.devRef .tc main_arg3) := keep11 (W30 m ρ c) (r := main_arg3) (by decide)
    _ = W29 m ρ c (Proc.devRef .tc main_arg3) := W30_of_ne m ρ c main_arg3 (by decide)
    _ = W28 m ρ c (Proc.devRef .tc main_arg3) := keep10 (W28 m ρ c) (r := main_arg3) (by decide)
    _ = W27 m ρ c (Proc.devRef .tc main_arg3) := W28_of_ne m ρ c main_arg3 (by decide)
    _ = W26 m ρ c (Proc.devRef .tc main_arg3) := keep9 (W26 m ρ c) (r := main_arg3) (by decide)

theorem L3_keep_arg4 (c : Dev nD) : W34 m ρ c (Proc.devRef .tc main_arg4) = W26 m ρ c (Proc.devRef .tc main_arg4) :=
  calc W34 m ρ c (Proc.devRef .tc main_arg4)
    _ = W33 m ρ c (Proc.devRef .tc main_arg4) := W34_of_ne m ρ c main_arg4 (by decide)
    _ = W32 m ρ c (Proc.devRef .tc main_arg4) := keep11_2 (W32 m ρ c) (r := main_arg4) (by decide)
    _ = W31 m ρ c (Proc.devRef .tc main_arg4) := keep11_1 (W31 m ρ c) (r := main_arg4) (by decide)
    _ = W30 m ρ c (Proc.devRef .tc main_arg4) := keep11 (W30 m ρ c) (r := main_arg4) (by decide)
    _ = W29 m ρ c (Proc.devRef .tc main_arg4) := W30_of_ne m ρ c main_arg4 (by decide)
    _ = W28 m ρ c (Proc.devRef .tc main_arg4) := keep10 (W28 m ρ c) (r := main_arg4) (by decide)
    _ = W27 m ρ c (Proc.devRef .tc main_arg4) := W28_of_ne m ρ c main_arg4 (by decide)
    _ = W26 m ρ c (Proc.devRef .tc main_arg4) := keep9 (W26 m ρ c) (r := main_arg4) (by decide)

theorem L3_keep_arg5 (c : Dev nD) : W34 m ρ c (Proc.devRef .tc main_arg5) = W26 m ρ c (Proc.devRef .tc main_arg5) :=
  calc W34 m ρ c (Proc.devRef .tc main_arg5)
    _ = W33 m ρ c (Proc.devRef .tc main_arg5) := W34_of_ne m ρ c main_arg5 (by decide)
    _ = W32 m ρ c (Proc.devRef .tc main_arg5) := keep11_2 (W32 m ρ c) (r := main_arg5) (by decide)
    _ = W31 m ρ c (Proc.devRef .tc main_arg5) := keep11_1 (W31 m ρ c) (r := main_arg5) (by decide)
    _ = W30 m ρ c (Proc.devRef .tc main_arg5) := keep11 (W30 m ρ c) (r := main_arg5) (by decide)
    _ = W29 m ρ c (Proc.devRef .tc main_arg5) := W30_of_ne m ρ c main_arg5 (by decide)
    _ = W28 m ρ c (Proc.devRef .tc main_arg5) := keep10 (W28 m ρ c) (r := main_arg5) (by decide)
    _ = W27 m ρ c (Proc.devRef .tc main_arg5) := W28_of_ne m ρ c main_arg5 (by decide)
    _ = W26 m ρ c (Proc.devRef .tc main_arg5) := keep9 (W26 m ρ c) (r := main_arg5) (by decide)

theorem L3_keep_arg6 (c : Dev nD) : W34 m ρ c (Proc.devRef .tc main_arg6) = W26 m ρ c (Proc.devRef .tc main_arg6) :=
  calc W34 m ρ c (Proc.devRef .tc main_arg6)
    _ = W33 m ρ c (Proc.devRef .tc main_arg6) := W34_of_ne m ρ c main_arg6 (by decide)
    _ = W32 m ρ c (Proc.devRef .tc main_arg6) := keep11_2 (W32 m ρ c) (r := main_arg6) (by decide)
    _ = W31 m ρ c (Proc.devRef .tc main_arg6) := keep11_1 (W31 m ρ c) (r := main_arg6) (by decide)
    _ = W30 m ρ c (Proc.devRef .tc main_arg6) := keep11 (W30 m ρ c) (r := main_arg6) (by decide)
    _ = W29 m ρ c (Proc.devRef .tc main_arg6) := W30_of_ne m ρ c main_arg6 (by decide)
    _ = W28 m ρ c (Proc.devRef .tc main_arg6) := keep10 (W28 m ρ c) (r := main_arg6) (by decide)
    _ = W27 m ρ c (Proc.devRef .tc main_arg6) := W28_of_ne m ρ c main_arg6 (by decide)
    _ = W26 m ρ c (Proc.devRef .tc main_arg6) := keep9 (W26 m ρ c) (r := main_arg6) (by decide)

theorem L3_keep_arg7 (c : Dev nD) : W34 m ρ c (Proc.devRef .tc main_arg7) = W26 m ρ c (Proc.devRef .tc main_arg7) :=
  calc W34 m ρ c (Proc.devRef .tc main_arg7)
    _ = W33 m ρ c (Proc.devRef .tc main_arg7) := W34_of_ne m ρ c main_arg7 (by decide)
    _ = W32 m ρ c (Proc.devRef .tc main_arg7) := keep11_2 (W32 m ρ c) (r := main_arg7) (by decide)
    _ = W31 m ρ c (Proc.devRef .tc main_arg7) := keep11_1 (W31 m ρ c) (r := main_arg7) (by decide)
    _ = W30 m ρ c (Proc.devRef .tc main_arg7) := keep11 (W30 m ρ c) (r := main_arg7) (by decide)
    _ = W29 m ρ c (Proc.devRef .tc main_arg7) := W30_of_ne m ρ c main_arg7 (by decide)
    _ = W28 m ρ c (Proc.devRef .tc main_arg7) := keep10 (W28 m ρ c) (r := main_arg7) (by decide)
    _ = W27 m ρ c (Proc.devRef .tc main_arg7) := W28_of_ne m ρ c main_arg7 (by decide)
    _ = W26 m ρ c (Proc.devRef .tc main_arg7) := keep9 (W26 m ρ c) (r := main_arg7) (by decide)

theorem L3_keep_arg8 (c : Dev nD) : W34 m ρ c (Proc.devRef .tc main_arg8) = W26 m ρ c (Proc.devRef .tc main_arg8) :=
  calc W34 m ρ c (Proc.devRef .tc main_arg8)
    _ = W33 m ρ c (Proc.devRef .tc main_arg8) := W34_of_ne m ρ c main_arg8 (by decide)
    _ = W32 m ρ c (Proc.devRef .tc main_arg8) := keep11_2 (W32 m ρ c) (r := main_arg8) (by decide)
    _ = W31 m ρ c (Proc.devRef .tc main_arg8) := keep11_1 (W31 m ρ c) (r := main_arg8) (by decide)
    _ = W30 m ρ c (Proc.devRef .tc main_arg8) := keep11 (W30 m ρ c) (r := main_arg8) (by decide)
    _ = W29 m ρ c (Proc.devRef .tc main_arg8) := W30_of_ne m ρ c main_arg8 (by decide)
    _ = W28 m ρ c (Proc.devRef .tc main_arg8) := keep10 (W28 m ρ c) (r := main_arg8) (by decide)
    _ = W27 m ρ c (Proc.devRef .tc main_arg8) := W28_of_ne m ρ c main_arg8 (by decide)
    _ = W26 m ρ c (Proc.devRef .tc main_arg8) := keep9 (W26 m ρ c) (r := main_arg8) (by decide)

theorem L3_keep_v29 (c : Dev nD) : W34 m ρ c (Proc.devRef .tc main_v29) = W26 m ρ c (Proc.devRef .tc main_v29) :=
  calc W34 m ρ c (Proc.devRef .tc main_v29)
    _ = W33 m ρ c (Proc.devRef .tc main_v29) := W34_of_ne m ρ c main_v29 (by decide)
    _ = W32 m ρ c (Proc.devRef .tc main_v29) := keep11_2 (W32 m ρ c) (r := main_v29) (by decide)
    _ = W31 m ρ c (Proc.devRef .tc main_v29) := keep11_1 (W31 m ρ c) (r := main_v29) (by decide)
    _ = W30 m ρ c (Proc.devRef .tc main_v29) := keep11 (W30 m ρ c) (r := main_v29) (by decide)
    _ = W29 m ρ c (Proc.devRef .tc main_v29) := W30_of_ne m ρ c main_v29 (by decide)
    _ = W28 m ρ c (Proc.devRef .tc main_v29) := keep10 (W28 m ρ c) (r := main_v29) (by decide)
    _ = W27 m ρ c (Proc.devRef .tc main_v29) := (W28_arr m ρ c 1).trans (((dat9 (V27 m ρ) c).arrAt_in 1 rfl _).trans (A_eq9 (V27 m ρ) c 1))
    _ = W26 m ρ c (Proc.devRef .tc main_v29) := keep9 (W26 m ρ c) (r := main_v29) (by decide)

/-- Layer 3: the layer's result at its exit boundary is the layer function of what the layer found at its entry. -/
theorem L3_out
    (hfuse : Final9)
    (hmlp : Final10)
    (hbn : Final11)
    (c : Dev nD) :
    W34 m ρ c (Proc.devRef .tc main_v161) = kLayer RV.bnReluG (W26 m ρ c (Proc.devRef .tc main_v128)) (W26 m ρ c (Proc.devRef .tc main_v29)) (W26 m ρ c (Proc.devRef .tc main_v1)) (W26 m ρ c (Proc.devRef .tc main_v3)) (ew1_3 (W26 m ρ c (Proc.devRef .tc main_arg5))) (ew2_3 (W26 m ρ c (Proc.devRef .tc main_arg6))) (w_3 (W26 m ρ c (Proc.devRef .tc main_arg3))) (b_3 (W26 m ρ c (Proc.devRef .tc main_arg4))) (g_3 (W26 m ρ c (Proc.devRef .tc main_arg7))) (beta_3 (W26 m ρ c (Proc.devRef .tc main_arg8))) := by
  -- after the first host stretch: the gathered features, the layer's edge weights, the extended edge table
  have a1_hrow : W27 m ρ c (Proc.devRef .tc main_v135) = kHrow (W26 m ρ c (Proc.devRef .tc main_v128)) (W26 m ρ c (Proc.devRef .tc main_v1)) := val9_v135 (W26 m ρ c)
  have a1_ew1 : W27 m ρ c (Proc.devRef .tc main_v137) = ew1_3 (W26 m ρ c (Proc.devRef .tc main_arg5)) := val9_v137 (W26 m ρ c)
  have a1_ew2 : W27 m ρ c (Proc.devRef .tc main_v139) = ew2_3 (W26 m ρ c (Proc.devRef .tc main_arg6)) := val9_v139 (W26 m ρ c)
  have a1_x : W27 m ρ c (Proc.devRef .tc main_v29) = W26 m ρ c (Proc.devRef .tc main_v29) := keep9 (W26 m ρ c) (r := main_v29) (by decide)
  -- after the fused kernel: the messages
  have a2_msg : W28 m ρ c (Proc.devRef .tc main_v140) = RV.fuseG (W27 m ρ c (Proc.devRef .tc main_v135)) (W27 m ρ c (Proc.devRef .tc main_v29)) (W27 m ρ c (Proc.devRef .tc main_v137)) (W27 m ρ c (Proc.devRef .tc main_v139)) :=
    (W28_arr m ρ c 4).trans (hfuse (V27 m ρ) c)
  rw [a1_hrow, a1_x, a1_ew1, a1_ew2] at a2_msg
  -- after the second host stretch: the summed messages, the layer's dense weight and bias
  have p2_v3 : W28 m ρ c (Proc.devRef .tc main_v3) = W26 m ρ c (Proc.devRef .tc main_v3) :=
    calc W28 m ρ c (Proc.devRef .tc main_v3)
      _ = W27 m ρ c (Proc.devRef .tc main_v3) := W28_of_ne m ρ c main_v3 (by decide)
      _ = W26 m ρ c (Proc.devRef .tc main_v3) := keep9 (W26 m ρ c) (r := main_v3) (by decide)
  have p2_arg3 : W28 m ρ c (Proc.devRef .tc main_arg3) = W26 m ρ c (Proc.devRef .tc main_arg3) :=
    calc W28 m ρ c (Proc.devRef .tc main_arg3)
      _ = W27 m ρ c (Proc.devRef .tc main_arg3) := W28_of_ne m ρ c main_arg3 (by decide)
      _ = W26 m ρ c (Proc.devRef .tc main_arg3) := keep9 (W26 m ρ c) (r := main_arg3) (by decide)
  have p2_arg4 : W28 m ρ c (Proc.devRef .tc main_arg4) = W26 m ρ c (Proc.devRef .tc main_arg4) :=
    calc W28 m ρ c (Proc.devRef .tc main_arg4)
      _ = W27 m ρ c (Proc.devRef .tc main_arg4) := W28_of_ne m ρ c main_arg4 (by decide)
      _ = W26 m ρ c (Proc.devRef .tc main_arg4) := keep9 (W26 m ρ c) (r := main_arg4) (by decide)
  have p3_hin : W29 m ρ c (Proc.devRef .tc main_v128) = W26 m ρ c (Proc.devRef .tc main_v128) :=
    calc W29 m ρ c (Proc.devRef .tc main_v128)
      _ = W28 m ρ c (Proc.devRef .tc main_v128) := keep10 (W28 m ρ c) (r := main_v128) (by decide)
      _ = W27 m ρ c (Proc.devRef .tc main_v128) := W28_of_ne m ρ c main_v128 (by decide)
      _ = W26 m ρ c (Proc.devRef .tc main_v128) := keep9 (W26 m ρ c) (r := main_v128) (by decide)
  have a3_agg : W29 m ρ c (Proc.devRef .tc main_v143) = kAgg (W28 m ρ c (Proc.devRef .tc main_v3)) (W28 m ρ c (Proc.devRef .tc main_v140)) := val10_v143 (W28 m ρ c)
  have a3_w : W29 m ρ c (Proc.devRef .tc main_v145) = w_3 (W28 m ρ c (Proc.devRef .tc main_arg3)) := val10_v145 (W28 m ρ c)
  have a3_b : W29 m ρ c (Proc.devRef .tc main_v148) = b_3 (W28 m ρ c (Proc.devRef .tc main_arg4)) := val10_v148 (W28 m ρ c)
  -- after the dense kernel: the layer before its normalisation
  have a4_y : W30 m ρ c (Proc.devRef .tc main_v149) = RV.mlpG (W29 m ρ c (Proc.devRef .tc main_v128)) (W29 m ρ c (Proc.devRef .tc main_v143)) (W29 m ρ c (Proc.devRef .tc main_v145)) (W29 m ρ c (Proc.devRef .tc main_v148)) :=
    (W30_arr m ρ c 4).trans (hmlp (V29 m ρ) c)
  rw [p3_hin, a3_agg, a3_w, a3_b, p2_v3, a2_msg, p2_arg3, p2_arg4] at a4_y
  -- the column means, the column variances, the layer's gain and offset
  have a5_mu : W31 m ρ c (Proc.devRef .tc main_v153) = kMean (W30 m ρ c (Proc.devRef .tc main_v149)) := val11_v153 (W30 m ρ c)
  have a5_c : W31 m ρ c (Proc.devRef .tc main_c_30) = constantI S_ 32 0#32 := val11_c_30 (W30 m ρ c)
  have p5_y : W31 m ρ c (Proc.devRef .tc main_v149) = W30 m ρ c (Proc.devRef .tc main_v149) := keep11 (W30 m ρ c) (r := main_v149) (by decide)
  have a6_var : W32 m ρ c (Proc.devRef .tc main_v154) = kVarC (W31 m ρ c (Proc.devRef .tc main_v149)) (W31 m ρ c (Proc.devRef .tc main_c_30)) := val11_1_v154 (W31 m ρ c)
  have p6_arg7 : W32 m ρ c (Proc.devRef .tc main_arg7) = W26 m ρ c (Proc.devRef .tc main_arg7) :=
    calc W32 m ρ c (Proc.devRef .tc main_arg7)
      _ = W31 m ρ c (Proc.devRef .tc main_arg7) := keep11_1 (W31 m ρ c) (r := main_arg7) (by decide)
      _ = W30 m ρ c (Proc.devRef .tc main_arg7) := keep11 (W30 m ρ c) (r := main_arg7) (by decide)
      _ = W29 m ρ c (Proc.devRef .tc main_arg7) := W30_of_ne m ρ c main_arg7 (by decide)
      _ = W28 m ρ c (Proc.devRef .tc main_arg7) := keep10 (W28 m ρ c) (r := main_arg7) (by decide)
      _ = W27 m ρ c (Proc.devRef .tc main_arg7) := W28_of_ne m ρ c main_arg7 (by decide)
      _ = W26 m ρ c (Proc.devRef .tc main_arg7) := keep9 (W26 m ρ c) (r := main_arg7) (by decide)
  have p6_arg8 : W32 m ρ c (Proc.devRef .tc main_arg8) = W26 m ρ c (Proc.devRef .tc main_arg8) :=
    calc W32 m ρ c (Proc.devRef .tc main_arg8)
      _ = W31 m ρ c (Proc.devRef .tc main_arg8) := keep11_1 (W31 m ρ c) (r := main_arg8) (by decide)
      _ = W30 m ρ c (Proc.devRef .tc main_arg8) := keep11 (W30 m ρ c) (r := main_arg8) (by decide)
      _ = W29 m ρ c (Proc.devRef .tc main_arg8) := W30_of_ne m ρ c main_arg8 (by decide)
      _ = W28 m ρ c (Proc.devRef .tc main_arg8) := keep10 (W28 m ρ c) (r := main_arg8) (by decide)
      _ = W27 m ρ c (Proc.devRef .tc main_arg8) := W28_of_ne m ρ c main_arg8 (by decide)
      _ = W26 m ρ c (Proc.devRef .tc main_arg8) := keep9 (W26 m ρ c) (r := main_arg8) (by decide)
  have a7_g : W33 m ρ c (Proc.devRef .tc main_v157) = g_3 (W32 m ρ c (Proc.devRef .tc main_arg7)) := val11_2_v157 (W32 m ρ c)
  have a7_beta : W33 m ρ c (Proc.devRef .tc main_v160) = beta_3 (W32 m ρ c (Proc.devRef .tc main_arg8)) := val11_2_v160 (W32 m ρ c)
  have p7_y : W33 m ρ c (Proc.devRef .tc main_v149) = W30 m ρ c (Proc.devRef .tc main_v149) :=
    calc W33 m ρ c (Proc.devRef .tc main_v149)
      _ = W32 m ρ c (Proc.devRef .tc main_v149) := keep11_2 (W32 m ρ c) (r := main_v149) (by decide)
      _ = W31 m ρ c (Proc.devRef .tc main_v149) := keep11_1 (W31 m ρ c) (r := main_v149) (by decide)
      _ = W30 m ρ c (Proc.devRef .tc main_v149) := keep11 (W30 m ρ c) (r := main_v149) (by decide)
  have p7_mu : W33 m ρ c (Proc.devRef .tc main_v153) = W31 m ρ c (Proc.devRef .tc main_v153) :=
    calc W33 m ρ c (Proc.devRef .tc main_v153)
      _ = W32 m ρ c (Proc.devRef .tc main_v153) := keep11_2 (W32 m ρ c) (r := main_v153) (by decide)
      _ = W31 m ρ c (Proc.devRef .tc main_v153) := keep11_1 (W31 m ρ c) (r := main_v153) (by decide)
  have p7_var : W33 m ρ c (Proc.devRef .tc main_v154) = W32 m ρ c (Proc.devRef .tc main_v154) := keep11_2 (W32 m ρ c) (r := main_v154) (by decide)
  -- after the normalisation kernel
  have a8 : W34 m ρ c (Proc.devRef .tc main_v161) = RV.bnReluG (W33 m ρ c (Proc.devRef .tc main_v149)) (W33 m ρ c (Proc.devRef .tc main_v153)) (W33 m ρ c (Proc.devRef .tc main_v154)) (W33 m ρ c (Proc.devRef .tc main_v157)) (W33 m ρ c (Proc.devRef .tc main_v160)) :=
    (W34_arr m ρ c 5).trans (hbn (V33 m ρ) c)
  rw [p7_y, p7_mu, p7_var, a7_g, a7_beta, a6_var, a5_mu, a5_c, p5_y, p6_arg7, p6_arg8, a4_y] at a8
  exact a8

end Cert.KernelIdeal.KFold

end
-- ==== Proof.KFoldSeg4.lean ====
/-
  Layer 4's host stretches, each at arbitrary entry contents `V`: the buffers a stretch writes that a later step
  reads hold the named stage of the contents it read them from (the stretch's operations composed), and every buffer
  the stretch does not write holds what it held.
-/
import proofs.«107720_j79044578115931_2_alg».proof.Proof.KStages
import proofs.«107720_j79044578115931_2_alg».proof.Proof.Gen.KernelIdeal.Launch
import Idealize.ShloMosaic.Lib.StableHlo.Run

set_option maxRecDepth 16384

noncomputable section

namespace Cert.KernelIdeal.KFold

open Cert.KernelIdeal Cert.KernelIdeal.Gen Cert.KernelIdeal.KStages Idealize.ShloMosaic Idealize.ShloMosaic.StableHlo

variable (V : Valuation τ sig (Elt Ideal))

/-- The buffers `hostOps12` writes, in order. -/
def wr12 : List (Ref sig .tc) := [main_c_31, main_v162, main_v163, main_c_32, main_v164, main_v165, main_v166, main_v167, main_v168, main_v169, main_v170, main_v171, main_v172]
/-- Every other buffer is as before the stretch. -/
theorem keep12 {r : Ref sig .tc} (hr : r ∉ wr12) : after (hostOps12 (F := Ideal)) V (Proc.devRef .tc r) = V (Proc.devRef .tc r) :=
  after_of_writes_sub _ V (by
    simp only [hostOps12, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps13` writes, in order. -/
def wr13 : List (Ref sig .tc) := [main_cst_33, main_v174, main_v175, main_v176, main_v177, main_v178, main_v179, main_v180, main_v181]
/-- Every other buffer is as before the stretch. -/
theorem keep13 {r : Ref sig .tc} (hr : r ∉ wr13) : after (hostOps13 (F := Ideal)) V (Proc.devRef .tc r) = V (Proc.devRef .tc r) :=
  after_of_writes_sub _ V (by
    simp only [hostOps13, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps14` writes, in order. -/
def wr14 : List (Ref sig .tc) := [main_cst_34, main_v183, main_v184, main_cst_35, main_v185, main_v186, main_c_36]
/-- Every other buffer is as before the stretch. -/
theorem keep14 {r : Ref sig .tc} (hr : r ∉ wr14) : after (hostOps14 (F := Ideal)) V (Proc.devRef .tc r) = V (Proc.devRef .tc r) :=
  after_of_writes_sub _ V (by
    simp only [hostOps14, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps14_1` writes, in order. -/
def wr14_1 : List (Ref sig .tc) := [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_v12, main_call5_cst_3, main_call5_v13, main_call5_cst_4, main_call5_call0_v0, main_call5_call0_v1, main_v187]
/-- Every other buffer is as before the stretch. -/
theorem keep14_1 {r : Ref sig .tc} (hr : r ∉ wr14_1) : after (hostOps14_1 (F := Ideal)) V (Proc.devRef .tc r) = V (Proc.devRef .tc r) :=
  after_of_writes_sub _ V (by
    simp only [hostOps14_1, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

/-- The buffers `hostOps14_2` writes, in order. -/
def wr14_2 : List (Ref sig .tc) := [main_v188, main_v189, main_v190, main_v191, main_v192, main_v193]
/-- Every other buffer is as before the stretch. -/
theorem keep14_2 {r : Ref sig .tc} (hr : r ∉ wr14_2) : after (hostOps14_2 (F := Ideal)) V (Proc.devRef .tc r) = V (Proc.devRef .tc r) :=
  after_of_writes_sub _ V (by
    simp only [hostOps14_2, List.Forall, nullary_writes, unary_writes, binary_writes, ternary_writes, quaternary_writes, reshape_writes, binaryIndexed_writes]
    repeat' apply And.intro
    all_goals exact Finset.singleton_subset_iff.mpr (List.mem_toFinset.mpr (List.mem_map_of_mem (by decide)))) hr

theorem val12_v168 : after (hostOps12 (F := Ideal)) V (Proc.devRef .tc main_v168) = kHrow (V (Proc.devRef .tc main_v161)) (V (Proc.devRef .tc main_v1)) := by
  after_results_simp <;> rfl

theorem val12_v170 : after (hostOps12 (F := Ideal)) V (Proc.devRef .tc main_v170) = ew1_4 (V (Proc.devRef .tc main_arg5)) := by
  after_results_simp <;> rfl

theorem val12_v172 : after (hostOps12 (F := Ideal)) V (Proc.devRef .tc main_v172) = ew2_4 (V (Proc.devRef .tc main_arg6)) := by
  after_results_simp <;> rfl

theorem val13_v176 : after (hostOps13 (F := Ideal)) V (Proc.devRef .tc main_v176) = kAgg (V (Proc.devRef .tc main_v3)) (V (Proc.devRef .tc main_v173)) := by
  after_results_simp <;> rfl

theorem val13_v178 : after (hostOps13 (F := Ideal)) V (Proc.devRef .tc main_v178) = w_4 (V (Proc.devRef .tc main_arg3)) := by
  after_results_simp <;> rfl

theorem val13_v181 : after (hostOps13 (F := Ideal)) V (Proc.devRef .tc main_v181) = b_4 (V (Proc.devRef .tc main_arg4)) := by
  after_results_simp <;> rfl

theorem val14_v186 : after (hostOps14 (F := Ideal)) V (Proc.devRef .tc main_v186) = kMean (V (Proc.devRef .tc main_v182)) := by
  after_results_simp <;> rfl

theorem val14_c_36 : after (hostOps14 (F := Ideal)) V (Proc.devRef .tc main_c_36) = constantI S_ 32 0#32 := by
  after_results_simp <;> rfl

theorem val14_1_v187 : after (hostOps14_1 (F := Ideal)) V (Proc.devRef .tc main_v187) = kVarC (V (Proc.devRef .tc main_v182)) (V (Proc.devRef .tc main_c_36)) := by
  after_results_simp <;> rfl

theorem val14_2_v190 : after (hostOps14_2 (F := Ideal)) V (Proc.devRef .tc main_v190) = g_4 (V (Proc.devRef .tc main_arg7)) := by
  after_results_simp <;> rfl

theorem val14_2_v193 : after (hostOps14_2 (F := Ideal)) V (Proc.devRef .tc main_v193) = beta_4 (V (Proc.devRef .tc main_arg8)) := by
  after_results_simp <;> rfl

end Cert.KernelIdeal.KFold

end
-- ==== Proof.KFoldL4.lean ====
/-
  Layer 4 through the run's boundaries: from the contents at the layer's entry boundary to its exit boundary, segment
  by segment — a host stretch leaves in the buffers it writes the named stages of what it read and keeps every other
  buffer, a kernel leaves in its output the kernel's function of its input windows' arrays and keeps every other
  buffer, its input arrays included.
-/
import proofs.«107720_j79044578115931_2_alg».proof.Proof.Gen.KernelIdeal.Frame
import proofs.«107720_j79044578115931_2_alg».proof.Proof.KFoldSeg4
import proofs.«107720_j79044578115931_2_alg».proof.Proof.KLayer

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-- Kernel 12's output array, for whatever contents `V` it is entered at, is its stage function of its input windows' arrays. -/
def Final12 : Prop :=
  ∀ (V : (c : Dev nD) → (b : Ref sig .tc) → Buf (Elt Ideal) ((c : Thread nD τ).loc b)) (c : Dev nD),
      (dat12 (F := Ideal) V c).arrAt 4 cfg12.N = RV.fuseG (V c (Pipeline.arrRef spec12 0)) (V c (Pipeline.arrRef spec12 1)) (V c (Pipeline.arrRef spec12 2)) (V c (Pipeline.arrRef spec12 3))

/-- Kernel 13's output array, for whatever contents `V` it is entered at, is its stage function of its input windows' arrays. -/
def Final13 : Prop :=
  ∀ (V : (c : Dev nD) → (b : Ref sig .tc) → Buf (Elt Ideal) ((c : Thread nD τ).loc b)) (c : Dev nD),
      (dat13 (F := Ideal) V c).arrAt 4 cfg13.N = RV.mlpG (V c (Pipeline.arrRef spec13 0)) (V c (Pipeline.arrRef spec13 1)) (V c (Pipeline.arrRef spec13 2)) (V c (Pipeline.arrRef spec13 3))

/-- Kernel 14's output array, for whatever contents `V` it is entered at, is its stage function of its input windows' arrays. -/
def Final14 : Prop :=
  ∀ (V : (c : Dev nD) → (b : Ref sig .tc) → Buf (Elt Ideal) ((c : Thread nD τ).loc b)) (c : Dev nD),
      (dat14 (F := Ideal) V c).arrAt 5 cfg14.N = RV.bnG (V c (Pipeline.arrRef spec14 0)) (V c (Pipeline.arrRef spec14 1)) (V c (Pipeline.arrRef spec14 2)) (V c (Pipeline.arrRef spec14 3)) (V c (Pipeline.arrRef spec14 4))

/-- Layer 4: the layer's result at its exit boundary is the layer function of what the layer found at its entry. -/
theorem L4_out
    (hfuse : Final12)
    (hmlp : Final13)
    (hbn : Final14)
    (c : Dev nD) :
    W42 m ρ c (Proc.devRef .tc main_v194) = kLayer RV.bnG (W34 m ρ c (Proc.devRef .tc main_v161)) (W34 m ρ c (Proc.devRef .tc main_v29)) (W34 m ρ c (Proc.devRef .tc main_v1)) (W34 m ρ c (Proc.devRef .tc main_v3)) (ew1_4 (W34 m ρ c (Proc.devRef .tc main_arg5))) (ew2_4 (W34 m ρ c (Proc.devRef .tc main_arg6))) (w_4 (W34 m ρ c (Proc.devRef .tc main_arg3))) (b_4 (W34 m ρ c (Proc.devRef .tc main_arg4))) (g_4 (W34 m ρ c (Proc.devRef .tc main_arg7))) (beta_4 (W34 m ρ c (Proc.devRef .tc main_arg8))) := by
  -- after the first host stretch: the gathered features, the layer's edge weights, the extended edge table
  have a1_hrow : W35 m ρ c (Proc.devRef .tc main_v168) = kHrow (W34 m ρ c (Proc.devRef .tc main_v161)) (W34 m ρ c (Proc.devRef .tc main_v1)) := val12_v168 (W34 m ρ c)
  have a1_ew1 : W35 m ρ c (Proc.devRef .tc main_v170) = ew1_4 (W34 m ρ c (Proc.devRef .tc main_arg5)) := val12_v170 (W34 m ρ c)
  have a1_ew2 : W35 m ρ c (Proc.devRef .tc main_v172) = ew2_4 (W34 m ρ c (Proc.devRef .tc main_arg6)) := val12_v172 (W34 m ρ c)
  have a1_x : W35 m ρ c (Proc.devRef .tc main_v29) = W34 m ρ c (Proc.devRef .tc main_v29) := keep12 (W34 m ρ c) (r := main_v29) (by decide)
  -- after the fused kernel: the messages
  have a2_msg : W36 m ρ c (Proc.devRef .tc main_v173) = RV.fuseG (W35 m ρ c (Proc.devRef .tc main_v168)) (W35 m ρ c (Proc.devRef .tc main_v29)) (W35 m ρ c (Proc.devRef .tc main_v170)) (W35 m ρ c (Proc.devRef .tc main_v172)) :=
    (W36_arr m ρ c 4).trans (hfuse (V35 m ρ) c)
  rw [a1_hrow, a1_x, a1_ew1, a1_ew2] at a2_msg
  -- after the second host stretch: the summed messages, the layer's dense weight and bias
  have p2_v3 : W36 m ρ c (Proc.devRef .tc main_v3) = W34 m ρ c (Proc.devRef .tc main_v3) :=
    calc W36 m ρ c (Proc.devRef .tc main_v3)
      _ = W35 m ρ c (Proc.devRef .tc main_v3) := W36_of_ne m ρ c main_v3 (by decide)
      _ = W34 m ρ c (Proc.devRef .tc main_v3) := keep12 (W34 m ρ c) (r := main_v3) (by decide)
  have p2_arg3 : W36 m ρ c (Proc.devRef .tc main_arg3) = W34 m ρ c (Proc.devRef .tc main_arg3) :=
    calc W36 m ρ c (Proc.devRef .tc main_arg3)
      _ = W35 m ρ c (Proc.devRef .tc main_arg3) := W36_of_ne m ρ c main_arg3 (by decide)
      _ = W34 m ρ c (Proc.devRef .tc main_arg3) := keep12 (W34 m ρ c) (r := main_arg3) (by decide)
  have p2_arg4 : W36 m ρ c (Proc.devRef .tc main_arg4) = W34 m ρ c (Proc.devRef .tc main_arg4) :=
    calc W36 m ρ c (Proc.devRef .tc main_arg4)
      _ = W35 m ρ c (Proc.devRef .tc main_arg4) := W36_of_ne m ρ c main_arg4 (by decide)
      _ = W34 m ρ c (Proc.devRef .tc main_arg4) := keep12 (W34 m ρ c) (r := main_arg4) (by decide)
  have p3_hin : W37 m ρ c (Proc.devRef .tc main_v161) = W34 m ρ c (Proc.devRef .tc main_v161) :=
    calc W37 m ρ c (Proc.devRef .tc main_v161)
      _ = W36 m ρ c (Proc.devRef .tc main_v161) := keep13 (W36 m ρ c) (r := main_v161) (by decide)
      _ = W35 m ρ c (Proc.devRef .tc main_v161) := W36_of_ne m ρ c main_v161 (by decide)
      _ = W34 m ρ c (Proc.devRef .tc main_v161) := keep12 (W34 m ρ c) (r := main_v161) (by decide)
  have a3_agg : W37 m ρ c (Proc.devRef .tc main_v176) = kAgg (W36 m ρ c (Proc.devRef .tc main_v3)) (W36 m ρ c (Proc.devRef .tc main_v173)) := val13_v176 (W36 m ρ c)
  have a3_w : W37 m ρ c (Proc.devRef .tc main_v178) = w_4 (W36 m ρ c (Proc.devRef .tc main_arg3)) := val13_v178 (W36 m ρ c)
  have a3_b : W37 m ρ c (Proc.devRef .tc main_v181) = b_4 (W36 m ρ c (Proc.devRef .tc main_arg4)) := val13_v181 (W36 m ρ c)
  -- after the dense kernel: the layer before its normalisation
  have a4_y : W38 m ρ c (Proc.devRef .tc main_v182) = RV.mlpG (W37 m ρ c (Proc.devRef .tc main_v161)) (W37 m ρ c (Proc.devRef .tc main_v176)) (W37 m ρ c (Proc.devRef .tc main_v178)) (W37 m ρ c (Proc.devRef .tc main_v181)) :=
    (W38_arr m ρ c 4).trans (hmlp (V37 m ρ) c)
  rw [p3_hin, a3_agg, a3_w, a3_b, p2_v3, a2_msg, p2_arg3, p2_arg4] at a4_y
  -- the column means, the column variances, the layer's gain and offset
  have a5_mu : W39 m ρ c (Proc.devRef .tc main_v186) = kMean (W38 m ρ c (Proc.devRef .tc main_v182)) := val14_v186 (W38 m ρ c)
  have a5_c : W39 m ρ c (Proc.devRef .tc main_c_36) = constantI S_ 32 0#32 := val14_c_36 (W38 m ρ c)
  have p5_y : W39 m ρ c (Proc.devRef .tc main_v182) = W38 m ρ c (Proc.devRef .tc main_v182) := keep14 (W38 m ρ c) (r := main_v182) (by decide)
  have a6_var : W40 m ρ c (Proc.devRef .tc main_v187) = kVarC (W39 m ρ c (Proc.devRef .tc main_v182)) (W39 m ρ c (Proc.devRef .tc main_c_36)) := val14_1_v187 (W39 m ρ c)
  have p6_arg7 : W40 m ρ c (Proc.devRef .tc main_arg7) = W34 m ρ c (Proc.devRef .tc main_arg7) :=
    calc W40 m ρ c (Proc.devRef .tc main_arg7)
      _ = W39 m ρ c (Proc.devRef .tc main_arg7) := keep14_1 (W39 m ρ c) (r := main_arg7) (by decide)
      _ = W38 m ρ c (Proc.devRef .tc main_arg7) := keep14 (W38 m ρ c) (r := main_arg7) (by decide)
      _ = W37 m ρ c (Proc.devRef .tc main_arg7) := W38_of_ne m ρ c main_arg7 (by decide)
      _ = W36 m ρ c (Proc.devRef .tc main_arg7) := keep13 (W36 m ρ c) (r := main_arg7) (by decide)
      _ = W35 m ρ c (Proc.devRef .tc main_arg7) := W36_of_ne m ρ c main_arg7 (by decide)
      _ = W34 m ρ c (Proc.devRef .tc main_arg7) := keep12 (W34 m ρ c) (r := main_arg7) (by decide)
  have p6_arg8 : W40 m ρ c (Proc.devRef .tc main_arg8) = W34 m ρ c (Proc.devRef .tc main_arg8) :=
    calc W40 m ρ c (Proc.devRef .tc main_arg8)
      _ = W39 m ρ c (Proc.devRef .tc main_arg8) := keep14_1 (W39 m ρ c) (r := main_arg8) (by decide)
      _ = W38 m ρ c (Proc.devRef .tc main_arg8) := keep14 (W38 m ρ c) (r := main_arg8) (by decide)
      _ = W37 m ρ c (Proc.devRef .tc main_arg8) := W38_of_ne m ρ c main_arg8 (by decide)
      _ = W36 m ρ c (Proc.devRef .tc main_arg8) := keep13 (W36 m ρ c) (r := main_arg8) (by decide)
      _ = W35 m ρ c (Proc.devRef .tc main_arg8) := W36_of_ne m ρ c main_arg8 (by decide)
      _ = W34 m ρ c (Proc.devRef .tc main_arg8) := keep12 (W34 m ρ c) (r := main_arg8) (by decide)
  have a7_g : W41 m ρ c (Proc.devRef .tc main_v190) = g_4 (W40 m ρ c (Proc.devRef .tc main_arg7)) := val14_2_v190 (W40 m ρ c)
  have a7_beta : W41 m ρ c (Proc.devRef .tc main_v193) = beta_4 (W40 m ρ c (Proc.devRef .tc main_arg8)) := val14_2_v193 (W40 m ρ c)
  have p7_y : W41 m ρ c (Proc.devRef .tc main_v182) = W38 m ρ c (Proc.devRef .tc main_v182) :=
    calc W41 m ρ c (Proc.devRef .tc main_v182)
      _ = W40 m ρ c (Proc.devRef .tc main_v182) := keep14_2 (W40 m ρ c) (r := main_v182) (by decide)
      _ = W39 m ρ c (Proc.devRef .tc main_v182) := keep14_1 (W39 m ρ c) (r := main_v182) (by decide)
      _ = W38 m ρ c (Proc.devRef .tc main_v182) := keep14 (W38 m ρ c) (r := main_v182) (by decide)
  have p7_mu : W41 m ρ c (Proc.devRef .tc main_v186) = W39 m ρ c (Proc.devRef .tc main_v186) :=
    calc W41 m ρ c (Proc.devRef .tc main_v186)
      _ = W40 m ρ c (Proc.devRef .tc main_v186) := keep14_2 (W40 m ρ c) (r := main_v186) (by decide)
      _ = W39 m ρ c (Proc.devRef .tc main_v186) := keep14_1 (W39 m ρ c) (r := main_v186) (by decide)
  have p7_var : W41 m ρ c (Proc.devRef .tc main_v187) = W40 m ρ c (Proc.devRef .tc main_v187) := keep14_2 (W40 m ρ c) (r := main_v187) (by decide)
  -- after the normalisation kernel
  have a8 : W42 m ρ c (Proc.devRef .tc main_v194) = RV.bnG (W41 m ρ c (Proc.devRef .tc main_v182)) (W41 m ρ c (Proc.devRef .tc main_v186)) (W41 m ρ c (Proc.devRef .tc main_v187)) (W41 m ρ c (Proc.devRef .tc main_v190)) (W41 m ρ c (Proc.devRef .tc main_v193)) :=
    (W42_arr m ρ c 5).trans (hbn (V41 m ρ) c)
  rw [p7_y, p7_mu, p7_var, a7_g, a7_beta, a6_var, a5_mu, a5_c, p5_y, p6_arg7, p6_arg8, a4_y] at a8
  exact a8

end Cert.KernelIdeal.KFold

end
-- ==== Proof.KFold.lean ====
/-
  The kernel program's result as one function of its nine arguments: the contents before the first layer (the index
  rows, the inverse square roots of the degrees, the arguments as launched), then layer by layer what each layer finds
  at its entry boundary — the previous layer's result, the extended edge table, the index rows, the stacked parameters —
  in terms of the launch arguments, and the last layer's result.
-/
import proofs.«107720_j79044578115931_2_alg».proof.Proof.KFoldL0
import proofs.«107720_j79044578115931_2_alg».proof.Proof.KFoldL1
import proofs.«107720_j79044578115931_2_alg».proof.Proof.KFoldL2
import proofs.«107720_j79044578115931_2_alg».proof.Proof.KFoldL3
import proofs.«107720_j79044578115931_2_alg».proof.Proof.KFoldL4

set_option maxRecDepth 16384

noncomputable section

namespace Cert.KernelIdeal.KFold

open Cert.KernelIdeal Cert.KernelIdeal.Gen Cert.KernelIdeal.KStages
open Idealize.ShloMosaic Idealize.ShloMosaic.TcCoe Idealize.ShloMosaic.StableHlo
open Idealize.ShloMosaic.Pipeline (Dat Cfg Window)

variable (m : (ℓ : Loc nD τ sig) → Buf (Elt Ideal) ℓ) (ρ : Dev nD → PrngReg)

/-! ## Before the first layer: the two index rows, the inverse square roots of the degrees, the arguments -/

theorem P_v1 (c : Dev nD) : W2 m ρ c (Proc.devRef .tc main_v1) = kRow (m ((c : Thread nD τ).loc main_arg1)) :=
  (keep0_1 (W1 m ρ c) (r := main_v1) (by decide)).trans (val0_v1 (W0 m ρ c))

theorem P_v3 (c : Dev nD) : W2 m ρ c (Proc.devRef .tc main_v3) = kCol (m ((c : Thread nD τ).loc main_arg1)) :=
  (keep0_1 (W1 m ρ c) (r := main_v3) (by decide)).trans (val0_v3 (W0 m ρ c))

theorem P_v12 (c : Dev nD) : W2 m ρ c (Proc.devRef .tc main_v12) = kDinv (kDeg (kCol (m ((c : Thread nD τ).loc main_arg1)))) := by
  have h9 : W1 m ρ c (Proc.devRef .tc main_v9) = cmpf (F := Ideal) (φ := .f32) .ogt (kDeg (kCol (m ((c : Thread nD τ).loc main_arg1)))) (broadcastInDim S50000 ![] bcast_S_S50000 (constant (F := Ideal) S_ .f32 0x00000000#32)) := val0_v9 (W0 m ρ c)
  have h11 : W1 m ρ c (Proc.devRef .tc main_v11) = Host.powf (F := Ideal) (φ := .f32) (kDeg (kCol (m ((c : Thread nD τ).loc main_arg1)))) (broadcastInDim S50000 ![] bcast_S_S50000 (constant (F := Ideal) S_ .f32 0xBF000000#32)) := val0_v11 (W0 m ρ c)
  have h3 : W1 m ρ c (Proc.devRef .tc main_cst_3) = constant (F := Ideal) S_ .f32 0x00000000#32 := val0_cst_3 (W0 m ρ c)
  have h : W2 m ρ c (Proc.devRef .tc main_v12) = select (W1 m ρ c (Proc.devRef .tc main_v9)) (W1 m ρ c (Proc.devRef .tc main_v11)) (broadcastInDim S50000 ![] bcast_S_S50000 (W1 m ρ c (Proc.devRef .tc main_cst_3))) := val0_1_v12 (W1 m ρ c)
  rw [h9, h11, h3] at h
  exact h

theorem P_arg0 (c : Dev nD) : W2 m ρ c (Proc.devRef .tc main_arg0) = m ((c : Thread nD τ).loc main_arg0) :=
  (keep0_1 (W1 m ρ c) (r := main_arg0) (by decide)).trans (keep0 (W0 m ρ c) (r := main_arg0) (by decide))

theorem P_arg2 (c : Dev nD) : W2 m ρ c (Proc.devRef .tc main_arg2) = m ((c : Thread nD τ).loc main_arg2) :=
  (keep0_1 (W1 m ρ c) (r := main_arg2) (by decide)).trans (keep0 (W0 m ρ c) (r := main_arg2) (by decide))

theorem P_arg3 (c : Dev nD) : W2 m ρ c (Proc.devRef .tc main_arg3) = m ((c : Thread nD τ).loc main_arg3) :=
  (keep0_1 (W1 m ρ c) (r := main_arg3) (by decide)).trans (keep0 (W0 m ρ c) (r := main_arg3) (by decide))

theorem P_arg4 (c : Dev nD) : W2 m ρ c (Proc.devRef .tc main_arg4) = m ((c : Thread nD τ).loc main_arg4) :=
  (keep0_1 (W1 m ρ c) (r := main_arg4) (by decide)).trans (keep0 (W0 m ρ c) (r := main_arg4) (by decide))

theorem P_arg5 (c : Dev nD) : W2 m ρ c (Proc.devRef .tc main_arg5) = m ((c : Thread nD τ).loc main_arg5) :=
  (keep0_1 (W1 m ρ c) (r := main_arg5) (by decide)).trans (keep0 (W0 m ρ c) (r := main_arg5) (by decide))

theorem P_arg6 (c : Dev nD) : W2 m ρ c (Proc.devRef .tc main_arg6) = m ((c : Thread nD τ).loc main_arg6) :=
  (keep0_1 (W1 m ρ c) (r := main_arg6) (by decide)).trans (keep0 (W0 m ρ c) (r := main_arg6) (by decide))

theorem P_arg7 (c : Dev nD) : W2 m ρ c (Proc.devRef .tc main_arg7) = m ((c : Thread nD τ).loc main_arg7) :=
  (keep0_1 (W1 m ρ c) (r := main_arg7) (by decide)).trans (keep0 (W0 m ρ c) (r := main_arg7) (by decide))

theorem P_arg8 (c : Dev nD) : W2 m ρ c (Proc.devRef .tc main_arg8) = m ((c : Thread nD τ).loc main_arg8) :=
  (keep0_1 (W1 m ρ c) (r := main_arg8) (by decide)).trans (keep0 (W0 m ρ c) (r := main_arg8) (by decide))

/-! ## Layer by layer: what each layer finds at its entry boundary, in terms of the launch arguments -/

theorem E1_v1 (c : Dev nD) : W10 m ρ c (Proc.devRef .tc main_v1) = kRow (m ((c : Thread nD τ).loc main_arg1)) :=
  (L0_keep_v1 m ρ c).trans (P_v1 m ρ c)

theorem E1_v3 (c : Dev nD) : W10 m ρ c (Proc.devRef .tc main_v3) = kCol (m ((c : Thread nD τ).loc main_arg1)) :=
  (L0_keep_v3 m ρ c).trans (P_v3 m ρ c)

theorem E1_arg3 (c : Dev nD) : W10 m ρ c (Proc.devRef .tc main_arg3) = m ((c : Thread nD τ).loc main_arg3) :=
  (L0_keep_arg3 m ρ c).trans (P_arg3 m ρ c)

theorem E1_arg4 (c : Dev nD) : W10 m ρ c (Proc.devRef .tc main_arg4) = m ((c : Thread nD τ).loc main_arg4) :=
  (L0_keep_arg4 m ρ c).trans (P_arg4 m ρ c)

theorem E1_arg5 (c : Dev nD) : W10 m ρ c (Proc.devRef .tc main_arg5) = m ((c : Thread nD τ).loc main_arg5) :=
  (L0_keep_arg5 m ρ c).trans (P_arg5 m ρ c)

theorem E1_arg6 (c : Dev nD) : W10 m ρ c (Proc.devRef .tc main_arg6) = m ((c : Thread nD τ).loc main_arg6) :=
  (L0_keep_arg6 m ρ c).trans (P_arg6 m ρ c)

theorem E1_arg7 (c : Dev nD) : W10 m ρ c (Proc.devRef .tc main_arg7) = m ((c : Thread nD τ).loc main_arg7) :=
  (L0_keep_arg7 m ρ c).trans (P_arg7 m ρ c)

theorem E1_arg8 (c : Dev nD) : W10 m ρ c (Proc.devRef .tc main_arg8) = m ((c : Thread nD τ).loc main_arg8) :=
  (L0_keep_arg8 m ρ c).trans (P_arg8 m ρ c)

theorem E1_v29 (c : Dev nD) : W10 m ρ c (Proc.devRef .tc main_v29) = kExtra (m ((c : Thread nD τ).loc main_arg1)) (m ((c : Thread nD τ).loc main_arg2)) := by
  have h := L0_v29 m ρ c
  rw [P_arg2, P_v12, P_v1, P_v3] at h
  exact h

theorem E1_h
    (hfinal0 : Final0)
    (hfinal1 : Final1)
    (hfinal2 : Final2)
    (c : Dev nD) : W10 m ρ c (Proc.devRef .tc main_v62) = kH1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := L0_out m ρ hfinal0 hfinal1 hfinal2 c
  rw [P_arg0, P_arg2, P_v12, P_v1, P_v3, P_arg3, P_arg4, P_arg5, P_arg6, P_arg7, P_arg8] at h
  exact h

theorem E2_v1 (c : Dev nD) : W18 m ρ c (Proc.devRef .tc main_v1) = kRow (m ((c : Thread nD τ).loc main_arg1)) :=
  (L1_keep_v1 m ρ c).trans (E1_v1 m ρ c)

theorem E2_v3 (c : Dev nD) : W18 m ρ c (Proc.devRef .tc main_v3) = kCol (m ((c : Thread nD τ).loc main_arg1)) :=
  (L1_keep_v3 m ρ c).trans (E1_v3 m ρ c)

theorem E2_arg3 (c : Dev nD) : W18 m ρ c (Proc.devRef .tc main_arg3) = m ((c : Thread nD τ).loc main_arg3) :=
  (L1_keep_arg3 m ρ c).trans (E1_arg3 m ρ c)

theorem E2_arg4 (c : Dev nD) : W18 m ρ c (Proc.devRef .tc main_arg4) = m ((c : Thread nD τ).loc main_arg4) :=
  (L1_keep_arg4 m ρ c).trans (E1_arg4 m ρ c)

theorem E2_arg5 (c : Dev nD) : W18 m ρ c (Proc.devRef .tc main_arg5) = m ((c : Thread nD τ).loc main_arg5) :=
  (L1_keep_arg5 m ρ c).trans (E1_arg5 m ρ c)

theorem E2_arg6 (c : Dev nD) : W18 m ρ c (Proc.devRef .tc main_arg6) = m ((c : Thread nD τ).loc main_arg6) :=
  (L1_keep_arg6 m ρ c).trans (E1_arg6 m ρ c)

theorem E2_arg7 (c : Dev nD) : W18 m ρ c (Proc.devRef .tc main_arg7) = m ((c : Thread nD τ).loc main_arg7) :=
  (L1_keep_arg7 m ρ c).trans (E1_arg7 m ρ c)

theorem E2_arg8 (c : Dev nD) : W18 m ρ c (Proc.devRef .tc main_arg8) = m ((c : Thread nD τ).loc main_arg8) :=
  (L1_keep_arg8 m ρ c).trans (E1_arg8 m ρ c)

theorem E2_v29 (c : Dev nD) : W18 m ρ c (Proc.devRef .tc main_v29) = kExtra (m ((c : Thread nD τ).loc main_arg1)) (m ((c : Thread nD τ).loc main_arg2)) :=
  (L1_keep_v29 m ρ c).trans (E1_v29 m ρ c)

theorem E2_h
    (hfinal0 : Final0)
    (hfinal1 : Final1)
    (hfinal2 : Final2)
    (hfinal3 : Final3)
    (hfinal4 : Final4)
    (hfinal5 : Final5)
    (c : Dev nD) : W18 m ρ c (Proc.devRef .tc main_v95) = kH2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := L1_out m ρ hfinal3 hfinal4 hfinal5 c
  rw [E1_h m ρ hfinal0 hfinal1 hfinal2 c, E1_v29, E1_v1, E1_v3, E1_arg3, E1_arg4, E1_arg5, E1_arg6, E1_arg7, E1_arg8] at h
  exact h

theorem E3_v1 (c : Dev nD) : W26 m ρ c (Proc.devRef .tc main_v1) = kRow (m ((c : Thread nD τ).loc main_arg1)) :=
  (L2_keep_v1 m ρ c).trans (E2_v1 m ρ c)

theorem E3_v3 (c : Dev nD) : W26 m ρ c (Proc.devRef .tc main_v3) = kCol (m ((c : Thread nD τ).loc main_arg1)) :=
  (L2_keep_v3 m ρ c).trans (E2_v3 m ρ c)

theorem E3_arg3 (c : Dev nD) : W26 m ρ c (Proc.devRef .tc main_arg3) = m ((c : Thread nD τ).loc main_arg3) :=
  (L2_keep_arg3 m ρ c).trans (E2_arg3 m ρ c)

theorem E3_arg4 (c : Dev nD) : W26 m ρ c (Proc.devRef .tc main_arg4) = m ((c : Thread nD τ).loc main_arg4) :=
  (L2_keep_arg4 m ρ c).trans (E2_arg4 m ρ c)

theorem E3_arg5 (c : Dev nD) : W26 m ρ c (Proc.devRef .tc main_arg5) = m ((c : Thread nD τ).loc main_arg5) :=
  (L2_keep_arg5 m ρ c).trans (E2_arg5 m ρ c)

theorem E3_arg6 (c : Dev nD) : W26 m ρ c (Proc.devRef .tc main_arg6) = m ((c : Thread nD τ).loc main_arg6) :=
  (L2_keep_arg6 m ρ c).trans (E2_arg6 m ρ c)

theorem E3_arg7 (c : Dev nD) : W26 m ρ c (Proc.devRef .tc main_arg7) = m ((c : Thread nD τ).loc main_arg7) :=
  (L2_keep_arg7 m ρ c).trans (E2_arg7 m ρ c)

theorem E3_arg8 (c : Dev nD) : W26 m ρ c (Proc.devRef .tc main_arg8) = m ((c : Thread nD τ).loc main_arg8) :=
  (L2_keep_arg8 m ρ c).trans (E2_arg8 m ρ c)

theorem E3_v29 (c : Dev nD) : W26 m ρ c (Proc.devRef .tc main_v29) = kExtra (m ((c : Thread nD τ).loc main_arg1)) (m ((c : Thread nD τ).loc main_arg2)) :=
  (L2_keep_v29 m ρ c).trans (E2_v29 m ρ c)

theorem E3_h
    (hfinal0 : Final0)
    (hfinal1 : Final1)
    (hfinal2 : Final2)
    (hfinal3 : Final3)
    (hfinal4 : Final4)
    (hfinal5 : Final5)
    (hfinal6 : Final6)
    (hfinal7 : Final7)
    (hfinal8 : Final8)
    (c : Dev nD) : W26 m ρ c (Proc.devRef .tc main_v128) = kH3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := L2_out m ρ hfinal6 hfinal7 hfinal8 c
  rw [E2_h m ρ hfinal0 hfinal1 hfinal2 hfinal3 hfinal4 hfinal5 c, E2_v29, E2_v1, E2_v3, E2_arg3, E2_arg4, E2_arg5, E2_arg6, E2_arg7, E2_arg8] at h
  exact h

theorem E4_v1 (c : Dev nD) : W34 m ρ c (Proc.devRef .tc main_v1) = kRow (m ((c : Thread nD τ).loc main_arg1)) :=
  (L3_keep_v1 m ρ c).trans (E3_v1 m ρ c)

theorem E4_v3 (c : Dev nD) : W34 m ρ c (Proc.devRef .tc main_v3) = kCol (m ((c : Thread nD τ).loc main_arg1)) :=
  (L3_keep_v3 m ρ c).trans (E3_v3 m ρ c)

theorem E4_arg3 (c : Dev nD) : W34 m ρ c (Proc.devRef .tc main_arg3) = m ((c : Thread nD τ).loc main_arg3) :=
  (L3_keep_arg3 m ρ c).trans (E3_arg3 m ρ c)

theorem E4_arg4 (c : Dev nD) : W34 m ρ c (Proc.devRef .tc main_arg4) = m ((c : Thread nD τ).loc main_arg4) :=
  (L3_keep_arg4 m ρ c).trans (E3_arg4 m ρ c)

theorem E4_arg5 (c : Dev nD) : W34 m ρ c (Proc.devRef .tc main_arg5) = m ((c : Thread nD τ).loc main_arg5) :=
  (L3_keep_arg5 m ρ c).trans (E3_arg5 m ρ c)

theorem E4_arg6 (c : Dev nD) : W34 m ρ c (Proc.devRef .tc main_arg6) = m ((c : Thread nD τ).loc main_arg6) :=
  (L3_keep_arg6 m ρ c).trans (E3_arg6 m ρ c)

theorem E4_arg7 (c : Dev nD) : W34 m ρ c (Proc.devRef .tc main_arg7) = m ((c : Thread nD τ).loc main_arg7) :=
  (L3_keep_arg7 m ρ c).trans (E3_arg7 m ρ c)

theorem E4_arg8 (c : Dev nD) : W34 m ρ c (Proc.devRef .tc main_arg8) = m ((c : Thread nD τ).loc main_arg8) :=
  (L3_keep_arg8 m ρ c).trans (E3_arg8 m ρ c)

theorem E4_v29 (c : Dev nD) : W34 m ρ c (Proc.devRef .tc main_v29) = kExtra (m ((c : Thread nD τ).loc main_arg1)) (m ((c : Thread nD τ).loc main_arg2)) :=
  (L3_keep_v29 m ρ c).trans (E3_v29 m ρ c)

theorem E4_h
    (hfinal0 : Final0)
    (hfinal1 : Final1)
    (hfinal2 : Final2)
    (hfinal3 : Final3)
    (hfinal4 : Final4)
    (hfinal5 : Final5)
    (hfinal6 : Final6)
    (hfinal7 : Final7)
    (hfinal8 : Final8)
    (hfinal9 : Final9)
    (hfinal10 : Final10)
    (hfinal11 : Final11)
    (c : Dev nD) : W34 m ρ c (Proc.devRef .tc main_v161) = kH4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := L3_out m ρ hfinal9 hfinal10 hfinal11 c
  rw [E3_h m ρ hfinal0 hfinal1 hfinal2 hfinal3 hfinal4 hfinal5 hfinal6 hfinal7 hfinal8 c, E3_v29, E3_v1, E3_v3, E3_arg3, E3_arg4, E3_arg5, E3_arg6, E3_arg7, E3_arg8] at h
  exact h

/-! ## The result -/

/-- The result buffer at the run's last boundary is the network function of the nine launch arguments. -/
theorem result_eq
    (hfinal0 : Final0)
    (hfinal1 : Final1)
    (hfinal2 : Final2)
    (hfinal3 : Final3)
    (hfinal4 : Final4)
    (hfinal5 : Final5)
    (hfinal6 : Final6)
    (hfinal7 : Final7)
    (hfinal8 : Final8)
    (hfinal9 : Final9)
    (hfinal10 : Final10)
    (hfinal11 : Final11)
    (hfinal12 : Final12)
    (hfinal13 : Final13)
    (hfinal14 : Final14)
    (c : Dev nD) : W42 m ρ c (Proc.devRef .tc main_v194) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := L4_out m ρ hfinal12 hfinal13 hfinal14 c
  rw [E4_h m ρ hfinal0 hfinal1 hfinal2 hfinal3 hfinal4 hfinal5 hfinal6 hfinal7 hfinal8 hfinal9 hfinal10 hfinal11 c, E4_v29, E4_v1, E4_v3, E4_arg3, E4_arg4, E4_arg5, E4_arg6, E4_arg7, E4_arg8] at h
  exact h

end Cert.KernelIdeal.KFold

end
-- ==== Proof.KFusePay.lean ====
/-
  The fused edge kernel's two stored values read at one index of a row block, at the ideal values: each is the
  edge's coefficient times (the gathered feature plus the edge term), with the edge term the one-attribute product
  for the first half of the columns and the three-attribute sum, left to right, for the second half.
-/
import proofs.«107720_j79044578115931_2_alg».proof.Proof.Gen.KernelIdeal.Skeleton
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

/-! ## Layout operations of the body, read at an index -/

/-- A one-column block laid along 128 columns reads its row's entry. -/
theorem bcast_col (x : S3200x1.Idx → EReal) (h : S3200x1.Broadcasts S3200x128) (r : Fin 3200) (q : Fin 128) :
    broadcastTo S3200x128 x h (ix2 r q) = x (ix2 r (0 : Fin 1)) :=
  broadcastTo_apply x h (ix2 r q) (ix2 r (0 : Fin 1)) (fun a => by
    match a with
    | ⟨0, _⟩ => rfl
    | ⟨1, _⟩ => rfl)

/-- A one-row block laid along 3200 rows reads its column's entry. -/
theorem bcast_row (x : S1x128.Idx → EReal) (h : S1x128.Broadcasts S3200x128) (r : Fin 3200) (q : Fin 128) :
    broadcastTo S3200x128 x h (ix2 r q) = x (ix2 (0 : Fin 1) q) :=
  broadcastTo_apply x h (ix2 r q) (ix2 (0 : Fin 1) q) (fun a => by
    match a with
    | ⟨0, _⟩ => rfl
    | ⟨1, _⟩ => rfl)

/-- Column `c` of the four-column attribute block. -/
theorem slice_col (c : Nat) (x : S3200x4.Idx → EReal) (h : S3200x4.Slices ![0, c] S3200x1) (r : Fin 3200)
    (k : Fin 4) (hk : k.val = c) :
    extractStridedSlice S3200x1 ![0, c] x h (ix2 r (0 : Fin 1)) = x (ix2 r k) :=
  extractStridedSlice_apply _ x h _ _ (fun a => by
    match a with
    | ⟨0, _⟩ => exact (Nat.zero_add _).symm
    | ⟨1, _⟩ => exact hk)

/-- Row `c` of the three-row weight. -/
theorem slice_row (c : Nat) (x : S3x128.Idx → EReal) (h : S3x128.Slices ![c, 0] S1x128) (q : Fin 128)
    (k : Fin 3) (hk : k.val = c) :
    extractStridedSlice S1x128 ![c, 0] x h (ix2 (0 : Fin 1) q) = x (ix2 k q) :=
  extractStridedSlice_apply _ x h _ _ (fun a => by
    match a with
    | ⟨0, _⟩ => exact hk
    | ⟨1, _⟩ => exact (Nat.zero_add _).symm)

/-! ## The two stored values -/

/-- First half of the columns: coefficient times (feature plus last attribute times the weight row). -/
theorem fusePayLo_apply (v0 : Vec Ideal S3200x4 .f32) (v2 : Vec Ideal S3200x1 .f32) (v4 : Vec Ideal S1x128 .f32)
    (v29 : Vec Ideal S3200x128 .f32) (r : Fin 3200) (q : Fin 128) :
    k0_pay3 (F := Ideal) v0 v2 v4 v29 (ix2 r q)
      = v2 (ix2 r (0 : Fin 1)) * (v29 (ix2 r q) + v0 (ix2 r (3 : Fin 4)) * v4 (ix2 (0 : Fin 1) q)) := by
  unfold k0_pay3 k0_pay1 k0_pay2
  simp only [shapeCast_self]
  show broadcastTo S3200x128 v2 _ (ix2 r q)
      * (v29 (ix2 r q)
        + broadcastTo S3200x128 (extractStridedSlice S3200x1 ![0, 3] v0 _) _ (ix2 r q) * broadcastTo S3200x128 v4 _ (ix2 r q)) = _
  rw [bcast_col, bcast_col, bcast_row, slice_col 3 v0 _ r (3 : Fin 4) rfl]

/-- Second half of the columns: coefficient times (feature plus the three attribute products summed left to right). -/
theorem fusePayHi_apply (v0 : Vec Ideal S3200x4 .f32) (v2 : Vec Ideal S3200x1 .f32) (v6 : Vec Ideal S3x128 .f32)
    (v35 : Vec Ideal S3200x128 .f32) (r : Fin 3200) (q : Fin 128) :
    k0_pay4 (F := Ideal) v0 v2 v6 v35 (ix2 r q)
      = v2 (ix2 r (0 : Fin 1)) * (v35 (ix2 r q)
          + ((v0 (ix2 r (0 : Fin 4)) * v6 (ix2 (0 : Fin 3) q) + v0 (ix2 r (1 : Fin 4)) * v6 (ix2 (1 : Fin 3) q))
            + v0 (ix2 r (2 : Fin 4)) * v6 (ix2 (2 : Fin 3) q))) := by
  unfold k0_pay4 k0_pay1 k0_pay2
  simp only [shapeCast_self]
  show broadcastTo S3200x128 v2 _ (ix2 r q)
      * (v35 (ix2 r q)
        + ((broadcastTo S3200x128 (extractStridedSlice S3200x1 ![0, 0] v0 _) _ (ix2 r q)
              * broadcastTo S3200x128 (extractStridedSlice S1x128 ![0, 0] v6 _) _ (ix2 r q)
            + broadcastTo S3200x128 (extractStridedSlice S3200x1 ![0, 1] v0 _) _ (ix2 r q)
              * broadcastTo S3200x128 (extractStridedSlice S1x128 ![1, 0] v6 _) _ (ix2 r q))
          + broadcastTo S3200x128 (extractStridedSlice S3200x1 ![0, 2] v0 _) _ (ix2 r q)
              * broadcastTo S3200x128 (extractStridedSlice S1x128 ![2, 0] v6 _) _ (ix2 r q))) = _
  rw [bcast_col v2, bcast_col, bcast_col, bcast_col, bcast_row, bcast_row, bcast_row,
    slice_col 0 v0 _ r (0 : Fin 4) rfl, slice_col 1 v0 _ r (1 : Fin 4) rfl, slice_col 2 v0 _ r (2 : Fin 4) rfl,
    slice_row 0 v6 _ q (0 : Fin 3) rfl, slice_row 1 v6 _ q (1 : Fin 3) rfl, slice_row 2 v6 _ q (2 : Fin 3) rfl]

end Cert.KernelIdeal.RV

end
-- ==== Proof.KFuse.lean ====
/-
  The fused edge kernel's output block, read at one index, as a function of the row's own 256 gathered features, the
  row's five side entries and the two weights; and the same value stated against the whole-array specification
  when the row block is a block of whole arrays.
-/
import proofs.«107720_j79044578115931_2_alg».proof.Proof.Gen.KernelIdeal.Frame
import proofs.«107720_j79044578115931_2_alg».proof.Proof.KSpec
import proofs.«107720_j79044578115931_2_alg».proof.Proof.KFusePay
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

/-- One edge's message at column `j` from the edge's own feature row `hr` and its five side entries `ex`. -/
def fuseRow (hr : Fin 256 → EReal) (ex : Fin 5 → EReal) (ew1 : Arr 1 128) (ew2 : Arr 3 128) (j : Fin 256) : EReal :=
  if h : j.val < 128 then
    ex 4 * (hr j + ex 3 * ew1 (ix2 (0 : Fin 1) (⟨j.val, h⟩ : Fin 128)))
  else
    ex 4 * (hr j
      + ((ex 0 * ew2 (ix2 (0 : Fin 3) (⟨j.val - 128, by have := j.isLt; omega⟩ : Fin 128))
          + ex 1 * ew2 (ix2 (1 : Fin 3) (⟨j.val - 128, by have := j.isLt; omega⟩ : Fin 128)))
        + ex 2 * ew2 (ix2 (2 : Fin 3) (⟨j.val - 128, by have := j.isLt; omega⟩ : Fin 128))))

/-- The whole-array specification at edge `e` is the row function of that edge's rows. -/
theorem fuseAt_eq_fuseRow (hrow : Arr 320000 256) (extra : Arr 320000 5) (ew1 : Arr 1 128) (ew2 : Arr 3 128)
    (e : Fin 320000) (j : Fin 256) :
    fuseAt hrow extra ew1 ew2 e j = fuseRow (fun j' => hrow (ix2 e j')) (fun c => extra (ix2 e c)) ew1 ew2 j := by
  unfold fuseAt fuseRow
  split <;> rfl

/-! ## The body's loads of a row block, read at an index -/

/-- The four attribute columns are the first four of the five side columns. -/
theorem ld_attr (x1 : Vec Ideal S3200x5 .f32) (r : Fin 3200) (c : Fin 4) (c' : Fin 5) (hc : c'.val = c.val) :
    View.ld x1 r0_0 (ix2 r c) = x1 (ix2 r c') :=
  congrArg x1 (funext fun a => Fin.ext (by
    match a with
    | ⟨0, _⟩ => show 0 + 1 * r.val = r.val; omega
    | ⟨1, _⟩ => show 0 + 1 * c.val = c'.val; omega))

/-- The coefficient column is the fifth side column. -/
theorem ld_coef (x1 : Vec Ideal S3200x5 .f32) (r : Fin 3200) :
    View.ld x1 r0_1 (ix2 r (0 : Fin 1)) = x1 (ix2 r (4 : Fin 5)) :=
  congrArg x1 (funext fun a => Fin.ext (by
    match a with
    | ⟨0, _⟩ => show 0 + 1 * r.val = r.val; omega
    | ⟨1, _⟩ => rfl))

/-- The first 128 feature columns. -/
theorem ld_featLo (x0 : Vec Ideal S3200x256 .f32) (r : Fin 3200) (q : Fin 128) (j : Fin 256) (hj : j.val = q.val) :
    View.ld x0 r0_4 (ix2 r q) = x0 (ix2 r j) :=
  congrArg x0 (funext fun a => Fin.ext (by
    match a with
    | ⟨0, _⟩ => show 0 + 1 * r.val = r.val; omega
    | ⟨1, _⟩ => show 0 + 1 * q.val = j.val; omega))

/-- The last 128 feature columns. -/
theorem ld_featHi (x0 : Vec Ideal S3200x256 .f32) (r : Fin 3200) (q : Fin 128) (j : Fin 256) (hj : j.val = 128 + q.val) :
    View.ld x0 r0_5 (ix2 r q) = x0 (ix2 r j) :=
  congrArg x0 (funext fun a => Fin.ext (by
    match a with
    | ⟨0, _⟩ => show 0 + 1 * r.val = r.val; omega
    | ⟨1, _⟩ => show 128 + 1 * q.val = j.val; omega))

theorem hz : (![0, 0] : Fin 2 → Nat) = fun _ => 0 := funext fun a => by fin_cases a <;> rfl

/-! ## The two stores of the body, as one block -/

/-- The block's two stores (the upper column half stored last) read, in the lower column half, the lower store. -/
theorem canon2_lo (p0 p1 : Vec Ideal S3200x128 .f32) (r : Fin 3200) (j : Fin 256) (h : j.val < 128) :
    View.canon ([⟨r0_5, p0⟩, ⟨r0_4, p1⟩] : List (View.Piece (Elt Ideal) S3200x256 .f32)) (ix2 r j)
      = p1 (ix2 r (⟨j.val, h⟩ : Fin 128)) := by
  have hnot : (ix2 r j : S3200x256.Idx) ∉ r0_5.set := by
    rw [Rect.mem_set_unit]
    intro hm
    have h1 : (128 : Nat) ≤ j.val := (hm 1).1
    omega
  have he : (ix2 r j : S3200x256.Idx) = r0_4.emb (ix2 r (⟨j.val, h⟩ : Fin 128)) :=
    funext fun a => Fin.ext (by
      match a with
      | ⟨0, _⟩ => show r.val = 0 + 1 * r.val; omega
      | ⟨1, _⟩ => show j.val = 0 + 1 * j.val; omega)
  refine (View.canon_cons_of_not_mem (Val := Elt Ideal) (⟨r0_5, p0⟩ : View.Piece (Elt Ideal) S3200x256 .f32)
    [(⟨r0_4, p1⟩ : View.Piece (Elt Ideal) S3200x256 .f32)] hnot).trans ?_
  rw [he]
  exact View.canon_cons_emb (Val := Elt Ideal) r0_4 p1 [] _

/-- and, in the upper column half, the upper store. -/
theorem canon2_hi (p0 p1 : Vec Ideal S3200x128 .f32) (r : Fin 3200) (j : Fin 256) (q : Fin 128) (hq : j.val = 128 + q.val) :
    View.canon ([⟨r0_5, p0⟩, ⟨r0_4, p1⟩] : List (View.Piece (Elt Ideal) S3200x256 .f32)) (ix2 r j) = p0 (ix2 r q) := by
  have he : (ix2 r j : S3200x256.Idx) = r0_5.emb (ix2 r q) :=
    funext fun a => Fin.ext (by
      match a with
      | ⟨0, _⟩ => show r.val = 0 + 1 * r.val; omega
      | ⟨1, _⟩ => show j.val = 128 + 1 * q.val; omega)
  rw [he]
  exact View.canon_cons_emb (Val := Elt Ideal) r0_5 p0 [(⟨r0_4, p1⟩ : View.Piece (Elt Ideal) S3200x256 .f32)] _

/-! ## The output block at an index -/

/-- The block the body leaves, at row `r` and column `j`: the row function of the row's loads. -/
theorem fuseOut_apply (x0 : Vec Ideal S3200x256 .f32) (x1 : Vec Ideal S3200x5 .f32) (x2 : Vec Ideal S1x128 .f32)
    (x3 : Vec Ideal S3x128 .f32) (r : Fin 3200) (j : Fin 256) :
    out0_4 (F := Ideal) x0 x1 x2 x3 (ix2 r j)
      = fuseRow (fun j' => x0 (ix2 r j')) (fun c => x1 (ix2 r c)) x2 x3 j := by
  unfold out0_4
  by_cases h : j.val < 128
  · refine (canon2_lo _ _ r j h).trans ?_
    refine (fusePayLo_apply _ _ _ _ r (⟨j.val, h⟩ : Fin 128)).trans ?_
    rw [ld_coef, ld_featLo x0 r ⟨j.val, h⟩ j rfl, ld_attr x1 r (3 : Fin 4) (3 : Fin 5) rfl,
      View.ld_unit_zero (S := S1x128) hz]
    unfold fuseRow
    rw [dif_pos h]
  · have hq : j.val - 128 < 128 := by have := j.isLt; omega
    have hj : j.val = 128 + (⟨j.val - 128, hq⟩ : Fin 128).val := by show j.val = 128 + (j.val - 128); omega
    refine (canon2_hi _ _ r j (⟨j.val - 128, hq⟩ : Fin 128) hj).trans ?_
    refine (fusePayHi_apply _ _ _ _ r (⟨j.val - 128, hq⟩ : Fin 128)).trans ?_
    rw [ld_coef, ld_featHi x0 r ⟨j.val - 128, hq⟩ j hj,
      ld_attr x1 r (0 : Fin 4) (0 : Fin 5) rfl, ld_attr x1 r (1 : Fin 4) (1 : Fin 5) rfl,
      ld_attr x1 r (2 : Fin 4) (2 : Fin 5) rfl, View.ld_unit_zero (S := S3x128) hz]
    unfold fuseRow
    rw [dif_neg h]

/-- Against the whole arrays: if the row block's rows are rows `e` of whole arrays `H`, `E` and the weight blocks
    read the whole weights entry by entry, the block at `(r, j)` is the specification at `(e, j)`. -/
theorem fuse_point (x0 : Vec Ideal S3200x256 .f32) (x1 : Vec Ideal S3200x5 .f32) (x2 : Vec Ideal S1x128 .f32)
    (x3 : Vec Ideal S3x128 .f32) (H : Arr 320000 256) (E : Arr 320000 5) (W1 : Arr 1 128) (W2 : Arr 3 128)
    (r : Fin 3200) (j : Fin 256) (e : Fin 320000)
    (h0 : ∀ j' : Fin 256, x0 (ix2 r j') = H (ix2 e j'))
    (h1 : ∀ c : Fin 5, x1 (ix2 r c) = E (ix2 e c))
    (h2 : ∀ q : Fin 128, x2 (ix2 (0 : Fin 1) q) = W1 (ix2 (0 : Fin 1) q))
    (h3 : ∀ (k : Fin 3) (q : Fin 128), x3 (ix2 k q) = W2 (ix2 k q)) :
    out0_4 (F := Ideal) x0 x1 x2 x3 (ix2 r j) = fuseG H E W1 W2 (ix2 e j) := by
  have e2 : x2 = W1 := by
    funext y
    obtain ⟨a, q, rfl⟩ : ∃ (a : Fin 1) (q : Fin 128), y = ix2 a q := ⟨y 0, y 1, eq_ix2 y⟩
    have ha : a = 0 := Subsingleton.elim _ _
    subst ha
    exact h2 q
  have e3 : x3 = W2 := by
    funext y
    obtain ⟨k, q, rfl⟩ : ∃ (k : Fin 3) (q : Fin 128), y = ix2 k q := ⟨y 0, y 1, eq_ix2 y⟩
    exact h3 k q
  rw [fuseOut_apply, fuseG_ix2, fuseAt_eq_fuseRow, e2, e3,
    show (fun j' => x0 (ix2 r j')) = fun j' => H (ix2 e j') from funext h0,
    show (fun c => x1 (ix2 r c)) = fun c => E (ix2 e c) from funext h1]

/-- The other layers' fused kernels leave the same block (their bodies are the same text). -/
theorem fuseOut3_eq : @out3_4 Ideal _ = @out0_4 Ideal _ := rfl
theorem fuseOut6_eq : @out6_4 Ideal _ = @out0_4 Ideal _ := rfl
theorem fuseOut9_eq : @out9_4 Ideal _ = @out0_4 Ideal _ := rfl
theorem fuseOut12_eq : @out12_4 Ideal _ = @out0_4 Ideal _ := rfl

end Cert.KernelIdeal.RV

end
-- ==== Proof.KFuse0.lean ====
/-
  Layer 0's fused edge kernel as a whole-array function: what every grid point writes back is its 3200-row block
  of the edge-message array of the four operand arrays as the region finds them; the hundred blocks tile the
  320000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KFuse
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region0

variable (V : (c : Dev nD) → (b : Ref sig .tc) → Buf (Elt Ideal) ((c : Thread nD τ).loc b))

/-- The index maps over the grid: the row-blocked windows sit at block row `t`, the weights at block 0. -/
theorem idxFacts0 : ∀ t : Fin cfg0.N, t.val < 100
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row is some point's. -/
theorem idxOnto0 : ∀ q : Fin 100, ∃ t : Fin cfg0.N, win0_4.index t (0 : Fin 2) = q.val ∧ win0_4.index t (1 : Fin 2) = 0 :=
  (by decide +kernel : ∀ q : Fin 100, ∃ t : Fin grid0.N, win0_4.index t (0 : Fin 2) = q.val ∧ win0_4.index t (1 : Fin 2) = 0)

set_option maxHeartbeats 1000000 in
/-- What point `t` writes back is block `t` of the edge-message array of the operands as the region finds them. -/
theorem flushed0 (c : Dev nD) (t : Fin cfg0.N) :
    (dat0 (F := Ideal) V c).flushed 4 t
      = ((cfg0.win 4).blk t).view.read (Elt Ideal)
          (fuseG (V c (Pipeline.arrRef spec0 0)) (V c (Pipeline.arrRef spec0 1))
            (V c (Pipeline.arrRef spec0 2)) (V c (Pipeline.arrRef spec0 3))) := by
  show (cfg0.win 4).cut (grid0.coords t) ((dat0 V c).after 4 t) = _
  rw [after0_4]
  obtain ⟨ht, e00, e01, e10, e11, e20, e21, e30, e31, e40, e41⟩ := idxFacts0 t
  funext y
  obtain ⟨r, j, rfl⟩ : ∃ (r : Fin 3200) (j : Fin 256), y = ix2 r j := ⟨y 0, y 1, eq_ix2 y⟩
  have hemb : ((cfg0.win 4).blk t).view.emb (ix2 r j)
      = (ix2 (⟨t.val * 3200 + r.val, by have := r.isLt; omega⟩ : Fin 320000) j : S320000x256.Idx) := by
    funext a; apply Fin.ext
    match a with
    | ⟨0, _⟩ => show win0_4.index t (0 : Fin 2) * 3200 + 1 * r.val = t.val * 3200 + r.val; rw [e40]; omega
    | ⟨1, _⟩ => show win0_4.index t (1 : Fin 2) * 256 + 1 * j.val = j.val; rw [e41]; omega
  show out0_4 (iblk0 V c 0 t) (iblk0 V c 1 t) (iblk0 V c 2 t) (iblk0 V c 3 t) (ix2 r j)
      = fuseG _ _ _ _ (((cfg0.win 4).blk t).view.emb (ix2 r j))
  rw [hemb]
  refine fuse_point (iblk0 V c 0 t) (iblk0 V c 1 t) (iblk0 V c 2 t) (iblk0 V c 3 t)
    (V c (Pipeline.arrRef spec0 0)) (V c (Pipeline.arrRef spec0 1)) (V c (Pipeline.arrRef spec0 2)) (V c (Pipeline.arrRef spec0 3))
    r j (⟨t.val * 3200 + r.val, by have := r.isLt; omega⟩ : Fin 320000) (fun j' => ?_) (fun c' => ?_) (fun q => ?_) (fun k q => ?_)
  · show V c (Pipeline.arrRef spec0 0) (((cfg0.win 0).blk t).view.emb (ix2 r j')) = _
    refine congrArg (V c (Pipeline.arrRef spec0 0)) (funext fun a => Fin.ext ?_)
    match a with
    | ⟨0, _⟩ => show win0_0.index t (0 : Fin 2) * 3200 + 1 * r.val = t.val * 3200 + r.val; rw [e00]; omega
    | ⟨1, _⟩ => show win0_0.index t (1 : Fin 2) * 256 + 1 * j'.val = j'.val; rw [e01]; omega
  · show V c (Pipeline.arrRef spec0 1) (((cfg0.win 1).blk t).view.emb (ix2 r c')) = _
    refine congrArg (V c (Pipeline.arrRef spec0 1)) (funext fun a => Fin.ext ?_)
    match a with
    | ⟨0, _⟩ => show win0_1.index t (0 : Fin 2) * 3200 + 1 * r.val = t.val * 3200 + r.val; rw [e10]; omega
    | ⟨1, _⟩ => show win0_1.index t (1 : Fin 2) * 5 + 1 * c'.val = c'.val; rw [e11]; omega
  · show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega
  · show V c (Pipeline.arrRef spec0 3) (((cfg0.win 3).blk t).view.emb (ix2 k q)) = _
    refine congrArg (V c (Pipeline.arrRef spec0 3)) (funext fun a => Fin.ext ?_)
    match a with
    | ⟨0, _⟩ => show win0_3.index t (0 : Fin 2) * 3 + 1 * k.val = k.val; rw [e30]; omega
    | ⟨1, _⟩ => show win0_3.index t (1 : Fin 2) * 128 + 1 * q.val = q.val; rw [e31]; omega

/-- An index of the output array is in point `t`'s block iff each coordinate is in the block's range. -/
theorem memBlk0 (t : Fin cfg0.N) (i : S320000x256.Idx) :
    i ∈ ((cfg0.win 4).blk t).view.set ↔ ∀ a : Fin 2, win0_4.index t a * S3200x256.size a ≤ (i a).val
      ∧ (i a).val < win0_4.index t a * S3200x256.size a + S3200x256.size a := by
  show i ∈ ((View.whole (Pipeline.arrRef spec0 4)).slice (win0_4.rect t)).set ↔ _
  rw [View.set_slice_whole, Rect.mem_set_unit]
  exact Iff.rfl

/-- Row `e` is covered by point `e / 3200`. -/
theorem cover0 (i : S320000x256.Idx) :
    ∃ t : Fin cfg0.N, (cfg0.win 4).flush t = true ∧ i ∈ ((cfg0.win 4).blk t).view.set := by
  have hi0 : (i 0).val < 320000 := (i 0).isLt
  have hi1 : (i 1).val < 256 := (i 1).isLt
  obtain ⟨t, q0, q1⟩ := idxOnto0 ⟨(i 0).val / 3200, by omega⟩
  have q0' : win0_4.index t (0 : Fin 2) = (i 0).val / 3200 := q0
  refine ⟨t, flush0_4 t, ?_⟩
  rw [memBlk0]
  intro a
  match a with
  | ⟨0, _⟩ => show win0_4.index t (0 : Fin 2) * 3200 ≤ (i 0).val ∧ (i 0).val < win0_4.index t (0 : Fin 2) * 3200 + 3200; rw [q0']; omega
  | ⟨1, _⟩ => show win0_4.index t (1 : Fin 2) * 256 ≤ (i 1).val ∧ (i 1).val < win0_4.index t (1 : Fin 2) * 256 + 256; rw [q1]; omega

/-- THE OUTPUT ARRAY after the region: the edge-message array of the four operand arrays as the region finds them. -/
theorem final0 (c : Dev nD) :
    (dat0 (F := Ideal) V c).arrAt 4 cfg0.N
      = fuseG (V c (Pipeline.arrRef spec0 0)) (V c (Pipeline.arrRef spec0 1))
          (V c (Pipeline.arrRef spec0 2)) (V c (Pipeline.arrRef spec0 3)) :=
  (dat0 (F := Ideal) V c).arrAt_eq_of_cover 4 _ (fun t _ => flushed0 V c t) (cover0)

end Region0

end Cert.KernelIdeal.RV

end
-- ==== Proof.KMlpPay.lean ====
/-
  The dense kernel's stored value read at one index of a row block, at the ideal values: the node's features
  against the upper 256 rows of the weight, plus its aggregate against the lower 256 rows, plus the bias, cut off
  below at zero. A change of float format is the identity here, so the two narrowing casts drop out.
-/
import proofs.«107720_j79044578115931_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

/-- A [2000,256] by [256,256] product into the zero accumulator, read at an index: the 256-term sum. -/
theorem matmul256_apply (A : S2000x256.Idx → EReal) (B : S256x256.Idx → EReal) (r : Fin 2000) (j : Fin 256) :
    FloatOps.matmul (F := Ideal) (φ₁ := .bf16) (φ₂ := .bf16) dot_S2000x256_S256x256_S2000x256_1_0_0_1_n_n none A B
        (constant (F := Ideal) S2000x256 .f32 0x00000000#32) (ix2 r j)
      = ∑ k : Fin 256, A (ix2 r k) * B (ix2 k j) := by
  rw [Ideal.matmul_constant_zero_apply, ← Equiv.sum_comp (contrEquiv1 dot_S2000x256_S256x256_S2000x256_1_0_0_1_n_n 256 rfl rfl).symm]
  refine Finset.sum_congr rfl fun k _ => ?_
  have c2 := contrEquiv1_symm_val dot_S2000x256_S256x256_S2000x256_1_0_0_1_n_n 256 rfl rfl k
  have l2 : (dot_S2000x256_S256x256_S2000x256_1_0_0_1_n_n).lhsIdx (ix2 r j) ((contrEquiv1 dot_S2000x256_S256x256_S2000x256_1_0_0_1_n_n 256 rfl rfl).symm k) = ix2 r k := by
    funext ax; apply Fin.ext
    match ax with
    | ⟨0, _⟩ => rfl
    | ⟨1, _⟩ => exact c2
  have r2 : (dot_S2000x256_S256x256_S2000x256_1_0_0_1_n_n).rhsIdx (ix2 r j) ((contrEquiv1 dot_S2000x256_S256x256_S2000x256_1_0_0_1_n_n 256 rfl rfl).symm k) = ix2 k j := by
    funext ax; apply Fin.ext
    match ax with
    | ⟨0, _⟩ => exact c2
    | ⟨1, _⟩ => rfl
  rw [l2, r2]

/-- 256 consecutive rows of the 512-row weight from row `o`. -/
theorem slice_rows (o : Nat) (X : S512x256.Idx → EReal) (h : S512x256.Slices ![o, 0] S256x256) (k j : Fin 256)
    (k' : Fin 512) (hk : k'.val = o + k.val) :
    extractStridedSlice S256x256 ![o, 0] X h (ix2 k j) = X (ix2 k' j) :=
  extractStridedSlice_apply _ X h _ _ (fun a => by
    match a with
    | ⟨0, _⟩ => exact hk
    | ⟨1, _⟩ => exact (Nat.zero_add _).symm)

/-- The one-row bias laid along 2000 rows reads its column's entry. -/
theorem bcast_row256 (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) (fun a => by
    match a with
    | ⟨0, _⟩ => rfl
    | ⟨1, _⟩ => rfl)

/-- The stored value at row `r` of the block, column `j`. -/
theorem mlpPay_apply (v0 v2 : Vec Ideal S2000x256 .f32) (v5 : Vec Ideal S512x256 .f32) (v13 : Vec Ideal S1x256 .f32)
    (r : Fin 2000) (j : Fin 256) :
    k1_pay1 (F := Ideal) v0 v2 v5 v13 (ix2 r j)
      = max (((∑ k : Fin 256, v0 (ix2 r k) * v5 (ix2 (⟨k.val, by have := k.isLt; omega⟩ : Fin 512) j))
            + (∑ k : Fin 256, v2 (ix2 r k) * v5 (ix2 (⟨256 + k.val, by have := k.isLt; omega⟩ : Fin 512) j)))
          + v13 (ix2 (0 : Fin 1) j)) 0 := by
  unfold k1_pay1
  simp only [shapeCast_self]
  show max ((FloatOps.matmul (F := Ideal) (φ₁ := .bf16) (φ₂ := .bf16) dot_S2000x256_S256x256_S2000x256_1_0_0_1_n_n none v0
              (extractStridedSlice S256x256 ![0, 0] v5 slices_S512x256_o0_0_S256x256)
              (constant (F := Ideal) S2000x256 .f32 0x00000000#32) (ix2 r j)
            + FloatOps.matmul (F := Ideal) (φ₁ := .bf16) (φ₂ := .bf16) dot_S2000x256_S256x256_S2000x256_1_0_0_1_n_n none v2
              (extractStridedSlice S256x256 ![256, 0] v5 slices_S512x256_o256_0_S256x256)
              (constant (F := Ideal) S2000x256 .f32 0x00000000#32) (ix2 r j))
          + broadcastTo S2000x256 v13 broadcasts_S1x256_S2000x256 (ix2 r j))
        (Ideal.ofBits .f32 0x00000000#32) = _
  rw [matmul256_apply, matmul256_apply, bcast_row256, Ideal.ofBits_zero_f32]
  refine congrArg (fun s => max (s + v13 (ix2 (0 : Fin 1) j)) 0) ?_
  refine congrArg₂ (· + ·) (Finset.sum_congr rfl fun k _ => ?_) (Finset.sum_congr rfl fun k _ => ?_)
  · rw [slice_rows 0 v5 _ k j (⟨k.val, by have := k.isLt; omega⟩ : Fin 512) (Nat.zero_add _).symm]
  · rw [slice_rows 256 v5 _ k j (⟨256 + k.val, by have := k.isLt; omega⟩ : Fin 512) rfl]

/-- The later layers' dense kernels state the same value (their bodies differ by an identity cast). -/
theorem mlpPay4_eq : @k4_pay1 Ideal _ = @k1_pay1 Ideal _ := by
  funext v0 v3 v6 v14
  unfold k4_pay1 k1_pay1
  simp only [shapeCast_self]

end Cert.KernelIdeal.RV

end
-- ==== Proof.KMlp.lean ====
/-
  The dense kernel's output block is its stored value (one store through the whole block), and that value stated
  against the whole-array specification when the row block is a block of whole arrays.
-/
import proofs.«107720_j79044578115931_2_alg».proof.Proof.Gen.KernelIdeal.Frame
import proofs.«107720_j79044578115931_2_alg».proof.Proof.KSpec
import proofs.«107720_j79044578115931_2_alg».proof.Proof.KMlpPay
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

theorem hz0 : (![0, 0] : Fin 2 → Nat) = fun _ => 0 := funext fun a => by fin_cases a <;> rfl

/-- One store through the whole block, of loads through whole blocks: the block is the stored value. -/
theorem mlpOut_eq (x0 x1 : Vec Ideal S2000x256 .f32) (x2 : Vec Ideal S512x256 .f32) (x3 : Vec Ideal S1x256 .f32) :
    out1_4 (F := Ideal) x0 x1 x2 x3 = k1_pay1 (F := Ideal) x0 x1 x2 x3 := by
  unfold out1_4
  rw [View.canon_unit_zero hz0]
  simp only [View.ld_unit_zero (S := S2000x256) hz0, View.ld_unit_zero (S := S512x256) hz0,
    View.ld_unit_zero (S := S1x256) hz0]

/-- Against the whole arrays: if the row block's rows are rows `n` of whole arrays and the weight and bias blocks
    read the whole weight and bias entry by entry, the block at `(r, j)` is the specification at `(n, j)`. -/
theorem mlp_point (x0 x1 : Vec Ideal S2000x256 .f32) (x2 : Vec Ideal S512x256 .f32) (x3 : Vec Ideal S1x256 .f32)
    (Hh Ag : Arr 50000 256) (W : Arr 512 256) (B : Arr 1 256) (r : Fin 2000) (j : Fin 256) (n : Fin 50000)
    (h0 : ∀ k : Fin 256, x0 (ix2 r k) = Hh (ix2 n k))
    (h1 : ∀ k : Fin 256, x1 (ix2 r k) = Ag (ix2 n k))
    (h2 : ∀ (k : Fin 512) (j' : Fin 256), x2 (ix2 k j') = W (ix2 k j'))
    (h3 : ∀ j' : Fin 256, x3 (ix2 (0 : Fin 1) j') = B (ix2 (0 : Fin 1) j')) :
    out1_4 (F := Ideal) x0 x1 x2 x3 (ix2 r j) = mlpG Hh Ag W B (ix2 n j) := by
  rw [mlpOut_eq, mlpPay_apply, mlpG_ix2]
  unfold mlpAt
  rw [h3 j]
  refine congrArg (fun s => max (s + B (ix2 (0 : Fin 1) j)) 0) ?_
  refine congrArg₂ (· + ·) (Finset.sum_congr rfl fun k _ => ?_) (Finset.sum_congr rfl fun k _ => ?_)
  · rw [h0 k, h2]
  · rw [h1 k, h2]

/-- The later layers' dense kernels: the same stored value (an identity cast apart), hence the same block. -/
theorem mlpPay7_eq : @k7_pay1 Ideal _ = @k1_pay1 Ideal _ := by
  funext v0 v3 v6 v14
  unfold k7_pay1 k1_pay1
  simp only [shapeCast_self]
theorem mlpPay10_eq : @k10_pay1 Ideal _ = @k1_pay1 Ideal _ := by
  funext v0 v3 v6 v14
  unfold k10_pay1 k1_pay1
  simp only [shapeCast_self]
theorem mlpPay13_eq : @k13_pay1 Ideal _ = @k1_pay1 Ideal _ := by
  funext v0 v3 v6 v14
  unfold k13_pay1 k1_pay1
  simp only [shapeCast_self]

theorem mlpOut4_eq : @out4_4 Ideal _ = @out1_4 Ideal _ := by
  funext x0 x1 x2 x3
  unfold out4_4 out1_4
  rw [mlpPay4_eq]
theorem mlpOut7_eq : @out7_4 Ideal _ = @out1_4 Ideal _ := by
  funext x0 x1 x2 x3
  unfold out7_4 out1_4
  rw [mlpPay7_eq]
theorem mlpOut10_eq : @out10_4 Ideal _ = @out1_4 Ideal _ := by
  funext x0 x1 x2 x3
  unfold out10_4 out1_4
  rw [mlpPay10_eq]
theorem mlpOut13_eq : @out13_4 Ideal _ = @out1_4 Ideal _ := by
  funext x0 x1 x2 x3
  unfold out13_4 out1_4
  rw [mlpPay13_eq]

/-- Each dense region's output block as region 1's block function of the same loads (uniform names, one per region). -/
theorem mlpBlk1 (x0 x1 : Vec Ideal S2000x256 .f32) (x2 : Vec Ideal S512x256 .f32) (x3 : Vec Ideal S1x256 .f32) :
    out1_4 (F := Ideal) x0 x1 x2 x3 = out1_4 (F := Ideal) x0 x1 x2 x3 := rfl
theorem mlpBlk4 (x0 x1 : Vec Ideal S2000x256 .f32) (x2 : Vec Ideal S512x256 .f32) (x3 : Vec Ideal S1x256 .f32) :
    out4_4 (F := Ideal) x0 x1 x2 x3 = out1_4 (F := Ideal) x0 x1 x2 x3 :=
  congrFun (congrFun (congrFun (congrFun mlpOut4_eq x0) x1) x2) x3
theorem mlpBlk7 (x0 x1 : Vec Ideal S2000x256 .f32) (x2 : Vec Ideal S512x256 .f32) (x3 : Vec Ideal S1x256 .f32) :
    out7_4 (F := Ideal) x0 x1 x2 x3 = out1_4 (F := Ideal) x0 x1 x2 x3 :=
  congrFun (congrFun (congrFun (congrFun mlpOut7_eq x0) x1) x2) x3
theorem mlpBlk10 (x0 x1 : Vec Ideal S2000x256 .f32) (x2 : Vec Ideal S512x256 .f32) (x3 : Vec Ideal S1x256 .f32) :
    out10_4 (F := Ideal) x0 x1 x2 x3 = out1_4 (F := Ideal) x0 x1 x2 x3 :=
  congrFun (congrFun (congrFun (congrFun mlpOut10_eq x0) x1) x2) x3
theorem mlpBlk13 (x0 x1 : Vec Ideal S2000x256 .f32) (x2 : Vec Ideal S512x256 .f32) (x3 : Vec Ideal S1x256 .f32) :
    out13_4 (F := Ideal) x0 x1 x2 x3 = out1_4 (F := Ideal) x0 x1 x2 x3 :=
  congrFun (congrFun (congrFun (congrFun mlpOut13_eq x0) x1) x2) x3

end Cert.KernelIdeal.RV

end
-- ==== Proof.KMlp1.lean ====
/-
  Layer 0's dense kernel as a whole-array function: what every grid point writes back is its 2000-row block of
  the dense step's array of the four operand arrays as the region finds them; the twenty-five blocks tile the
  50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KMlp
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region1

variable (V : (c : Dev nD) → (b : Ref sig .tc) → Buf (Elt Ideal) ((c : Thread nD τ).loc b))

/-- The index maps over the grid: the row-blocked windows sit at block row `t`, the others at block 0. -/
theorem idxFacts1 : ∀ t : Fin cfg1.N, t.val < 25
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every block row is some point's. -/
theorem idxOnto1 : ∀ q : Fin 25, ∃ t : Fin cfg1.N, win1_4.index t (0 : Fin 2) = q.val ∧ win1_4.index t (1 : Fin 2) = 0 :=
  (by decide +kernel : ∀ q : Fin 25, ∃ t : Fin grid1.N, win1_4.index t (0 : Fin 2) = q.val ∧ win1_4.index t (1 : Fin 2) = 0)

set_option maxHeartbeats 1000000 in
/-- What point `t` writes back is block `t` of the dense step's array of the operands as the region finds them. -/
theorem flushed1 (c : Dev nD) (t : Fin cfg1.N) :
    (dat1 (F := Ideal) V c).flushed 4 t
      = ((cfg1.win 4).blk t).view.read (Elt Ideal)
          (mlpG (V c (Pipeline.arrRef spec1 0)) (V c (Pipeline.arrRef spec1 1))
            (V c (Pipeline.arrRef spec1 2)) (V c (Pipeline.arrRef spec1 3))) := by
  show (cfg1.win 4).cut (grid1.coords t) ((dat1 V c).after 4 t) = _
  rw [after1_4]
  obtain ⟨ht, e00, e01, e10, e11, e20, e21, e30, e31, e40, e41⟩ := idxFacts1 t
  funext y
  obtain ⟨r, j, rfl⟩ : ∃ (r : Fin 2000) (j : Fin 256), y = ix2 r j := ⟨y 0, y 1, eq_ix2 y⟩
  have hemb : ((cfg1.win 4).blk t).view.emb (ix2 r j)
      = (ix2 (⟨t.val * 2000 + r.val, by have := r.isLt; omega⟩ : Fin 50000) j : S50000x256.Idx) := by
    funext a; apply Fin.ext
    match a with
    | ⟨0, _⟩ => show win1_4.index t (0 : Fin 2) * 2000 + 1 * r.val = t.val * 2000 + r.val; rw [e40]; omega
    | ⟨1, _⟩ => show win1_4.index t (1 : Fin 2) * 256 + 1 * j.val = j.val; rw [e41]; omega
  refine (congrFun (mlpBlk1 (iblk1 V c 0 t) (iblk1 V c 1 t) (iblk1 V c 2 t) (iblk1 V c 3 t)) (ix2 r j)).trans ?_
  show out1_4 (iblk1 V c 0 t) (iblk1 V c 1 t) (iblk1 V c 2 t) (iblk1 V c 3 t) (ix2 r j)
      = mlpG _ _ _ _ (((cfg1.win 4).blk t).view.emb (ix2 r j))
  rw [hemb]
  refine mlp_point (iblk1 V c 0 t) (iblk1 V c 1 t) (iblk1 V c 2 t) (iblk1 V c 3 t)
    (V c (Pipeline.arrRef spec1 0)) (V c (Pipeline.arrRef spec1 1)) (V c (Pipeline.arrRef spec1 2)) (V c (Pipeline.arrRef spec1 3))
    r j (⟨t.val * 2000 + r.val, by have := r.isLt; omega⟩ : Fin 50000) (fun k => ?_) (fun k => ?_) (fun k j' => ?_) (fun j' => ?_)
  · show V c (Pipeline.arrRef spec1 0) (((cfg1.win 0).blk t).view.emb (ix2 r k)) = _
    refine congrArg (V c (Pipeline.arrRef spec1 0)) (funext fun a => Fin.ext ?_)
    match a with
    | ⟨0, _⟩ => show win1_0.index t (0 : Fin 2) * 2000 + 1 * r.val = t.val * 2000 + r.val; rw [e00]; omega
    | ⟨1, _⟩ => show win1_0.index t (1 : Fin 2) * 256 + 1 * k.val = k.val; rw [e01]; omega
  · show V c (Pipeline.arrRef spec1 1) (((cfg1.win 1).blk t).view.emb (ix2 r k)) = _
    refine congrArg (V c (Pipeline.arrRef spec1 1)) (funext fun a => Fin.ext ?_)
    match a with
    | ⟨0, _⟩ => show win1_1.index t (0 : Fin 2) * 2000 + 1 * r.val = t.val * 2000 + r.val; rw [e10]; omega
    | ⟨1, _⟩ => show win1_1.index t (1 : Fin 2) * 256 + 1 * k.val = k.val; rw [e11]; omega
  · show V c (Pipeline.arrRef spec1 2) (((cfg1.win 2).blk t).view.emb (ix2 k j')) = _
    refine congrArg (V c (Pipeline.arrRef spec1 2)) (funext fun a => Fin.ext ?_)
    match a with
    | ⟨0, _⟩ => show win1_2.index t (0 : Fin 2) * 512 + 1 * k.val = k.val; rw [e20]; omega
    | ⟨1, _⟩ => show win1_2.index t (1 : Fin 2) * 256 + 1 * j'.val = j'.val; rw [e21]; omega
  · show V c (Pipeline.arrRef spec1 3) (((cfg1.win 3).blk t).view.emb (ix2 (0 : Fin 1) j')) = _
    refine congrArg (V c (Pipeline.arrRef spec1 3)) (funext fun a => Fin.ext ?_)
    match a with
    | ⟨0, _⟩ => show win1_3.index t (0 : Fin 2) * 1 + 1 * 0 = 0; rw [e30]
    | ⟨1, _⟩ => show win1_3.index t (1 : Fin 2) * 256 + 1 * j'.val = j'.val; rw [e31]; omega

/-- An index of the output array is in point `t`'s block iff each coordinate is in the block's range. -/
theorem memBlk1 (t : Fin cfg1.N) (i : S50000x256.Idx) :
    i ∈ ((cfg1.win 4).blk t).view.set ↔ ∀ a : Fin 2, win1_4.index t a * S2000x256.size a ≤ (i a).val
      ∧ (i a).val < win1_4.index t a * S2000x256.size a + S2000x256.size a := by
  show i ∈ ((View.whole (Pipeline.arrRef spec1 4)).slice (win1_4.rect t)).set ↔ _
  rw [View.set_slice_whole, Rect.mem_set_unit]
  exact Iff.rfl

/-- Row `n` is covered by point `n / 2000`. -/
theorem cover1 (i : S50000x256.Idx) :
    ∃ t : Fin cfg1.N, (cfg1.win 4).flush t = true ∧ i ∈ ((cfg1.win 4).blk t).view.set := by
  have hi0 : (i 0).val < 50000 := (i 0).isLt
  have hi1 : (i 1).val < 256 := (i 1).isLt
  obtain ⟨t, q0, q1⟩ := idxOnto1 ⟨(i 0).val / 2000, by omega⟩
  have q0' : win1_4.index t (0 : Fin 2) = (i 0).val / 2000 := q0
  refine ⟨t, flush1_4 t, ?_⟩
  rw [memBlk1]
  intro a
  match a with
  | ⟨0, _⟩ => show win1_4.index t (0 : Fin 2) * 2000 ≤ (i 0).val ∧ (i 0).val < win1_4.index t (0 : Fin 2) * 2000 + 2000; rw [q0']; omega
  | ⟨1, _⟩ => show win1_4.index t (1 : Fin 2) * 256 ≤ (i 1).val ∧ (i 1).val < win1_4.index t (1 : Fin 2) * 256 + 256; rw [q1]; omega

/-- THE OUTPUT ARRAY after the region: the specification's array of the operand arrays as the region finds them. -/
theorem final1 (c : Dev nD) :
    (dat1 (F := Ideal) V c).arrAt 4 cfg1.N
      = mlpG (V c (Pipeline.arrRef spec1 0)) (V c (Pipeline.arrRef spec1 1))
          (V c (Pipeline.arrRef spec1 2)) (V c (Pipeline.arrRef spec1 3)) :=
  (dat1 (F := Ideal) V c).arrAt_eq_of_cover 4 _ (fun t _ => flushed1 V c t) (cover1)

end Region1

end Cert.KernelIdeal.RV

end
-- ==== Proof.KBnPay.lean ====
/-
  The normalization kernel's stored value read at one index of a row block, at the ideal values: the entry centred
  by its column's mean, scaled by the reciprocal square root of the column's variance plus the kernel's small
  constant (its f32 word, never evaluated), then by the column's gain, shifted by the column's offset; every layer
  but the last cuts the result off below at zero.
-/
import proofs.«107720_j79044578115931_2_alg».proof.Proof.Gen.KernelIdeal.Skeleton
import Idealize.ShloMosaic.PureOps.Ideal.Laws
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

/-- A one-row column statistic laid along 2000 rows reads its column's entry. -/
theorem bcast_stat (x : S1x256.Idx → EReal) (h : S1x256.Broadcasts S2000x256) (r : Fin 2000) (j : Fin 256) :
    broadcastTo S2000x256 x h (ix2 r j) = x (ix2 (0 : Fin 1) j) :=
  broadcastTo_apply x h (ix2 r j) (ix2 (0 : Fin 1) j) (fun a => by
    match a with
    | ⟨0, _⟩ => rfl
    | ⟨1, _⟩ => rfl)

/-- The normalized value from a row block's entry and the four column statistics. -/
def bnTerm (y mu var g b : EReal) : EReal :=
  ((y - mu) * Ideal.rsqrt (var + Ideal.ofBits .f32 0x3727C5AC#32)) * g + b

/-- Without the cut-off (the last layer). -/
theorem bnPay_apply (v0 : Vec Ideal S2000x256 .f32) (v2 v4 v6 v8 : Vec Ideal S1x256 .f32) (r : Fin 2000) (j : Fin 256) :
    k14_pay1 (F := Ideal) v0 v2 v4 v6 v8 (ix2 r j)
      = bnTerm (v0 (ix2 r j)) (v2 (ix2 (0 : Fin 1) j)) (v4 (ix2 (0 : Fin 1) j)) (v6 (ix2 (0 : Fin 1) j)) (v8 (ix2 (0 : Fin 1) j)) := by
  unfold k14_pay1
  simp only [shapeCast_self]
  show ((v0 (ix2 r j) - broadcastTo S2000x256 v2 broadcasts_S1x256_S2000x256 (ix2 r j))
          * broadcastTo S2000x256 (fun i => Ideal.rsqrt (v4 i + Ideal.ofBits .f32 0x3727C5AC#32)) broadcasts_S1x256_S2000x256 (ix2 r j))
        * broadcastTo S2000x256 v6 broadcasts_S1x256_S2000x256 (ix2 r j)
      + broadcastTo S2000x256 v8 broadcasts_S1x256_S2000x256 (ix2 r j) = _
  rw [bcast_stat v2, bcast_stat, bcast_stat v6, bcast_stat v8]
  rfl

/-- With the cut-off (every other layer). -/
theorem bnPayRelu_apply (v0 : Vec Ideal S2000x256 .f32) (v2 v4 v6 v8 : Vec Ideal S1x256 .f32) (r : Fin 2000) (j : Fin 256) :
    k2_pay1 (F := Ideal) v0 v2 v4 v6 v8 (ix2 r j)
      = max (bnTerm (v0 (ix2 r j)) (v2 (ix2 (0 : Fin 1) j)) (v4 (ix2 (0 : Fin 1) j)) (v6 (ix2 (0 : Fin 1) j)) (v8 (ix2 (0 : Fin 1) j))) 0 := by
  unfold k2_pay1
  simp only [shapeCast_self]
  show max (((v0 (ix2 r j) - broadcastTo S2000x256 v2 broadcasts_S1x256_S2000x256 (ix2 r j))
          * broadcastTo S2000x256 (fun i => Ideal.rsqrt (v4 i + Ideal.ofBits .f32 0x3727C5AC#32)) broadcasts_S1x256_S2000x256 (ix2 r j))
        * broadcastTo S2000x256 v6 broadcasts_S1x256_S2000x256 (ix2 r j)
      + broadcastTo S2000x256 v8 broadcasts_S1x256_S2000x256 (ix2 r j)) (Ideal.ofBits .f32 0x00000000#32) = _
  rw [bcast_stat v2, bcast_stat, bcast_stat v6, bcast_stat v8, Ideal.ofBits_zero_f32]
  rfl

/-- The other cut-off layers' kernels have the same body. -/
theorem bnPay5_eq : @k5_pay1 Ideal _ = @k2_pay1 Ideal _ := rfl
theorem bnPay8_eq : @k8_pay1 Ideal _ = @k2_pay1 Ideal _ := rfl
theorem bnPay11_eq : @k11_pay1 Ideal _ = @k2_pay1 Ideal _ := rfl

end Cert.KernelIdeal.RV

end
-- ==== Proof.KBn.lean ====
/-
  The normalization kernel's output block is its stored value (one store through the whole block), and that value
  stated against the whole-array specification when the row block is a block of a whole array and the four
  one-row operands are the whole column statistics.
-/
import proofs.«107720_j79044578115931_2_alg».proof.Proof.Gen.KernelIdeal.Frame
import proofs.«107720_j79044578115931_2_alg».proof.Proof.KSpec
import proofs.«107720_j79044578115931_2_alg».proof.Proof.KBnPay
import Idealize.ShloMosaic.Lib.Pipeline.Value
import Idealize.ShloMosaic.Lib.ValueIdx

noncomputable section

namespace Cert.KernelIdeal.RV

open Idealize.ShloMosaic Idealize.ShloMosaic.ValueIdx Cert.KernelIdeal Cert.KernelIdeal.Gen

theorem hz1 : (![0, 0] : Fin 2 → Nat) = fun _ => 0 := funext fun a => by fin_cases a <;> rfl

/-- With the cut-off: the block is the stored value. -/
theorem bnReluOut_eq (x0 : Vec Ideal S2000x256 .f32) (x1 x2 x3 x4 : Vec Ideal S1x256 .f32) :
    out2_5 (F := Ideal) x0 x1 x2 x3 x4 = k2_pay1 (F := Ideal) x0 x1 x2 x3 x4 := by
  unfold out2_5
  rw [View.canon_unit_zero hz1]
  simp only [View.ld_unit_zero (S := S2000x256) hz1, View.ld_unit_zero (S := S1x256) hz1]

/-- Without it (the last layer). -/
theorem bnOut_eq (x0 : Vec Ideal S2000x256 .f32) (x1 x2 x3 x4 : Vec Ideal S1x256 .f32) :
    out14_5 (F := Ideal) x0 x1 x2 x3 x4 = k14_pay1 (F := Ideal) x0 x1 x2 x3 x4 := by
  unfold out14_5
  rw [View.canon_unit_zero hz1]
  simp only [View.ld_unit_zero (S := S2000x256) hz1, View.ld_unit_zero (S := S1x256) hz1]

/-- The normalized value of the specification is the kernel's term of the same five numbers. -/
theorem bnAt_eq_bnTerm (Y : Arr 50000 256) (Mu Var G B : Arr 1 256) (n : Fin 50000) (j : Fin 256) :
    bnAt Y Mu Var G B n j
      = bnTerm (Y (ix2 n j)) (Mu (ix2 (0 : Fin 1) j)) (Var (ix2 (0 : Fin 1) j)) (G (ix2 (0 : Fin 1) j)) (B (ix2 (0 : Fin 1) j)) := rfl

/-- Against the whole arrays, with the cut-off. -/
theorem bnRelu_point (x0 : Vec Ideal S2000x256 .f32) (x1 x2 x3 x4 : Vec Ideal S1x256 .f32)
    (Y : Arr 50000 256) (Mu Var G B : Arr 1 256) (r : Fin 2000) (j : Fin 256) (n : Fin 50000)
    (h0 : x0 (ix2 r j) = Y (ix2 n j))
    (h1 : x1 (ix2 (0 : Fin 1) j) = Mu (ix2 (0 : Fin 1) j)) (h2 : x2 (ix2 (0 : Fin 1) j) = Var (ix2 (0 : Fin 1) j))
    (h3 : x3 (ix2 (0 : Fin 1) j) = G (ix2 (0 : Fin 1) j)) (h4 : x4 (ix2 (0 : Fin 1) j) = B (ix2 (0 : Fin 1) j)) :
    out2_5 (F := Ideal) x0 x1 x2 x3 x4 (ix2 r j) = bnReluG Y Mu Var G B (ix2 n j) := by
  rw [bnReluOut_eq, bnPayRelu_apply, bnReluG_ix2, bnAt_eq_bnTerm, h0, h1, h2, h3, h4]

/-- Against the whole arrays, without it. -/
theorem bn_point (x0 : Vec Ideal S2000x256 .f32) (x1 x2 x3 x4 : Vec Ideal S1x256 .f32)
    (Y : Arr 50000 256) (Mu Var G B : Arr 1 256) (r : Fin 2000) (j : Fin 256) (n : Fin 50000)
    (h0 : x0 (ix2 r j) = Y (ix2 n j))
    (h1 : x1 (ix2 (0 : Fin 1) j) = Mu (ix2 (0 : Fin 1) j)) (h2 : x2 (ix2 (0 : Fin 1) j) = Var (ix2 (0 : Fin 1) j))
    (h3 : x3 (ix2 (0 : Fin 1) j) = G (ix2 (0 : Fin 1) j)) (h4 : x4 (ix2 (0 : Fin 1) j) = B (ix2 (0 : Fin 1) j)) :
    out14_5 (F := Ideal) x0 x1 x2 x3 x4 (ix2 r j) = bnG Y Mu Var G B (ix2 n j) := by
  rw [bnOut_eq, bnPay_apply, bnG_ix2, bnAt_eq_bnTerm, h0, h1, h2, h3, h4]

/-- The other cut-off layers' kernels leave the same block (their bodies are the same text). -/
theorem bnOut5_eq : @out5_5 Ideal _ = @out2_5 Ideal _ := rfl
theorem bnOut8_eq : @out8_5 Ideal _ = @out2_5 Ideal _ := rfl
theorem bnOut11_eq : @out11_5 Ideal _ = @out2_5 Ideal _ := rfl

end Cert.KernelIdeal.RV

end
-- ==== Proof.KBn2.lean ====
/-
  Layer 0's normalization kernel as a whole-array function: what every grid point writes back is its 2000-row
  block of the normalized array of the five operand arrays as the region finds them; the twenty-five blocks tile
  the 50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KBn
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region2

variable (V : (c : Dev nD) → (b : Ref sig .tc) → Buf (Elt Ideal) ((c : Thread nD τ).loc b))

/-- The index maps over the grid: the row-blocked windows sit at block row `t`, the others at block 0. -/
theorem idxFacts2 : ∀ t : Fin cfg2.N, t.val < 25
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row is some point's. -/
theorem idxOnto2 : ∀ q : Fin 25, ∃ t : Fin cfg2.N, win2_5.index t (0 : Fin 2) = q.val ∧ win2_5.index t (1 : Fin 2) = 0 :=
  (by decide +kernel : ∀ q : Fin 25, ∃ t : Fin grid2.N, win2_5.index t (0 : Fin 2) = q.val ∧ win2_5.index t (1 : Fin 2) = 0)

set_option maxHeartbeats 1000000 in
/-- What point `t` writes back is block `t` of the normalized array of the operands as the region finds them. -/
theorem flushed2 (c : Dev nD) (t : Fin cfg2.N) :
    (dat2 (F := Ideal) V c).flushed 5 t
      = ((cfg2.win 5).blk t).view.read (Elt Ideal)
          (bnReluG (V c (Pipeline.arrRef spec2 0)) (V c (Pipeline.arrRef spec2 1))
            (V c (Pipeline.arrRef spec2 2)) (V c (Pipeline.arrRef spec2 3)) (V c (Pipeline.arrRef spec2 4))) := by
  show (cfg2.win 5).cut (grid2.coords t) ((dat2 V c).after 5 t) = _
  rw [after2_5]
  obtain ⟨ht, e00, e01, e10, e11, e20, e21, e30, e31, e40, e41, e50, e51⟩ := idxFacts2 t
  funext y
  obtain ⟨r, j, rfl⟩ : ∃ (r : Fin 2000) (j : Fin 256), y = ix2 r j := ⟨y 0, y 1, eq_ix2 y⟩
  have hemb : ((cfg2.win 5).blk t).view.emb (ix2 r j)
      = (ix2 (⟨t.val * 2000 + r.val, by have := r.isLt; omega⟩ : Fin 50000) j : S50000x256.Idx) := by
    funext a; apply Fin.ext
    match a with
    | ⟨0, _⟩ => show win2_5.index t (0 : Fin 2) * 2000 + 1 * r.val = t.val * 2000 + r.val; rw [e50]; omega
    | ⟨1, _⟩ => show win2_5.index t (1 : Fin 2) * 256 + 1 * j.val = j.val; rw [e51]; omega
  show out2_5 (iblk2 V c 0 t) (iblk2 V c 1 t) (iblk2 V c 2 t) (iblk2 V c 3 t) (iblk2 V c 4 t) (ix2 r j)
      = bnReluG _ _ _ _ _ (((cfg2.win 5).blk t).view.emb (ix2 r j))
  rw [hemb]
  refine bnRelu_point (iblk2 V c 0 t) (iblk2 V c 1 t) (iblk2 V c 2 t) (iblk2 V c 3 t) (iblk2 V c 4 t)
    (V c (Pipeline.arrRef spec2 0)) (V c (Pipeline.arrRef spec2 1)) (V c (Pipeline.arrRef spec2 2)) (V c (Pipeline.arrRef spec2 3)) (V c (Pipeline.arrRef spec2 4))
    r j (⟨t.val * 2000 + r.val, by have := r.isLt; omega⟩ : Fin 50000) ?_ ?_ ?_ ?_ ?_
  · show V c (Pipeline.arrRef spec2 0) (((cfg2.win 0).blk t).view.emb (ix2 r j)) = _
    refine congrArg (V c (Pipeline.arrRef spec2 0)) (funext fun a => Fin.ext ?_)
    match a with
    | ⟨0, _⟩ => show win2_0.index t (0 : Fin 2) * 2000 + 1 * r.val = t.val * 2000 + r.val; rw [e00]; omega
    | ⟨1, _⟩ => show win2_0.index t (1 : Fin 2) * 256 + 1 * j.val = j.val; rw [e01]; omega
  · show V c (Pipeline.arrRef spec2 1) (((cfg2.win 1).blk t).view.emb (ix2 (0 : Fin 1) j)) = _
    refine congrArg (V c (Pipeline.arrRef spec2 1)) (funext fun a => Fin.ext ?_)
    match a with
    | ⟨0, _⟩ => show win2_1.index t (0 : Fin 2) * 1 + 1 * 0 = 0; rw [e10]
    | ⟨1, _⟩ => show win2_1.index t (1 : Fin 2) * 256 + 1 * j.val = j.val; rw [e11]; omega
  · show V c (Pipeline.arrRef spec2 2) (((cfg2.win 2).blk t).view.emb (ix2 (0 : Fin 1) j)) = _
    refine congrArg (V c (Pipeline.arrRef spec2 2)) (funext fun a => Fin.ext ?_)
    match a with
    | ⟨0, _⟩ => show win2_2.index t (0 : Fin 2) * 1 + 1 * 0 = 0; rw [e20]
    | ⟨1, _⟩ => show win2_2.index t (1 : Fin 2) * 256 + 1 * j.val = j.val; rw [e21]; omega
  · show V c (Pipeline.arrRef spec2 3) (((cfg2.win 3).blk t).view.emb (ix2 (0 : Fin 1) j)) = _
    refine congrArg (V c (Pipeline.arrRef spec2 3)) (funext fun a => Fin.ext ?_)
    match a with
    | ⟨0, _⟩ => show win2_3.index t (0 : Fin 2) * 1 + 1 * 0 = 0; rw [e30]
    | ⟨1, _⟩ => show win2_3.index t (1 : Fin 2) * 256 + 1 * j.val = j.val; rw [e31]; omega
  · show V c (Pipeline.arrRef spec2 4) (((cfg2.win 4).blk t).view.emb (ix2 (0 : Fin 1) j)) = _
    refine congrArg (V c (Pipeline.arrRef spec2 4)) (funext fun a => Fin.ext ?_)
    match a with
    | ⟨0, _⟩ => show win2_4.index t (0 : Fin 2) * 1 + 1 * 0 = 0; rw [e40]
    | ⟨1, _⟩ => show win2_4.index t (1 : Fin 2) * 256 + 1 * j.val = j.val; rw [e41]; omega

/-- An index of the output array is in point `t`'s block iff each coordinate is in the block's range. -/
theorem memBlk2 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole (Pipeline.arrRef spec2 5)).slice (win2_5.rect t)).set ↔ _
  rw [View.set_slice_whole, Rect.mem_set_unit]
  exact Iff.rfl

/-- Row `n` is covered by point `n / 2000`. -/
theorem cover2 (i : S50000x256.Idx) :
    ∃ t : Fin cfg2.N, (cfg2.win 5).flush t = true ∧ i ∈ ((cfg2.win 5).blk t).view.set := by
  have hi0 : (i 0).val < 50000 := (i 0).isLt
  have hi1 : (i 1).val < 256 := (i 1).isLt
  obtain ⟨t, q0, q1⟩ := idxOnto2 ⟨(i 0).val / 2000, by omega⟩
  have q0' : win2_5.index t (0 : Fin 2) = (i 0).val / 2000 := q0
  refine ⟨t, flush2_5 t, ?_⟩
  rw [memBlk2]
  intro a
  match a with
  | ⟨0, _⟩ => show win2_5.index t (0 : Fin 2) * 2000 ≤ (i 0).val ∧ (i 0).val < win2_5.index t (0 : Fin 2) * 2000 + 2000; rw [q0']; omega
  | ⟨1, _⟩ => show win2_5.index t (1 : Fin 2) * 256 ≤ (i 1).val ∧ (i 1).val < win2_5.index t (1 : Fin 2) * 256 + 256; rw [q1]; omega

/-- THE OUTPUT ARRAY after the region: the specification's array of the operand arrays as the region finds them. -/
theorem final2 (c : Dev nD) :
    (dat2 (F := Ideal) V c).arrAt 5 cfg2.N
      = bnReluG (V c (Pipeline.arrRef spec2 0)) (V c (Pipeline.arrRef spec2 1))
          (V c (Pipeline.arrRef spec2 2)) (V c (Pipeline.arrRef spec2 3)) (V c (Pipeline.arrRef spec2 4)) :=
  (dat2 (F := Ideal) V c).arrAt_eq_of_cover 5 _ (fun t _ => flushed2 V c t) (cover2)

end Region2

end Cert.KernelIdeal.RV

end
-- ==== Proof.KFuse3.lean ====
/-
  Layer 1's fused edge kernel as a whole-array function: what every grid point writes back is its 3200-row block
  of the edge-message array of the four operand arrays as the region finds them; the hundred blocks tile the
  320000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KFuse
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region3

variable (V : (c : Dev nD) → (b : Ref sig .tc) → Buf (Elt Ideal) ((c : Thread nD τ).loc b))

/-- The index maps over the grid: the row-blocked windows sit at block row `t`, the weights at block 0. -/
theorem idxFacts3 : ∀ t : Fin cfg3.N, t.val < 100
    ∧ win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every block row is some point's. -/
theorem idxOnto3 : ∀ q : Fin 100, ∃ t : Fin cfg3.N, win3_4.index t (0 : Fin 2) = q.val ∧ win3_4.index t (1 : Fin 2) = 0 :=
  (by decide +kernel : ∀ q : Fin 100, ∃ t : Fin grid3.N, win3_4.index t (0 : Fin 2) = q.val ∧ win3_4.index t (1 : Fin 2) = 0)

set_option maxHeartbeats 1000000 in
/-- What point `t` writes back is block `t` of the edge-message array of the operands as the region finds them. -/
theorem flushed3 (c : Dev nD) (t : Fin cfg3.N) :
    (dat3 (F := Ideal) V c).flushed 4 t
      = ((cfg3.win 4).blk t).view.read (Elt Ideal)
          (fuseG (V c (Pipeline.arrRef spec3 0)) (V c (Pipeline.arrRef spec3 1))
            (V c (Pipeline.arrRef spec3 2)) (V c (Pipeline.arrRef spec3 3))) := by
  show (cfg3.win 4).cut (grid3.coords t) ((dat3 V c).after 4 t) = _
  rw [after3_4]
  obtain ⟨ht, e00, e01, e10, e11, e20, e21, e30, e31, e40, e41⟩ := idxFacts3 t
  funext y
  obtain ⟨r, j, rfl⟩ : ∃ (r : Fin 3200) (j : Fin 256), y = ix2 r j := ⟨y 0, y 1, eq_ix2 y⟩
  have hemb : ((cfg3.win 4).blk t).view.emb (ix2 r j)
      = (ix2 (⟨t.val * 3200 + r.val, by have := r.isLt; omega⟩ : Fin 320000) j : S320000x256.Idx) := by
    funext a; apply Fin.ext
    match a with
    | ⟨0, _⟩ => show win3_4.index t (0 : Fin 2) * 3200 + 1 * r.val = t.val * 3200 + r.val; rw [e40]; omega
    | ⟨1, _⟩ => show win3_4.index t (1 : Fin 2) * 256 + 1 * j.val = j.val; rw [e41]; omega
  show out0_4 (iblk3 V c 0 t) (iblk3 V c 1 t) (iblk3 V c 2 t) (iblk3 V c 3 t) (ix2 r j)
      = fuseG _ _ _ _ (((cfg3.win 4).blk t).view.emb (ix2 r j))
  rw [hemb]
  refine fuse_point (iblk3 V c 0 t) (iblk3 V c 1 t) (iblk3 V c 2 t) (iblk3 V c 3 t)
    (V c (Pipeline.arrRef spec3 0)) (V c (Pipeline.arrRef spec3 1)) (V c (Pipeline.arrRef spec3 2)) (V c (Pipeline.arrRef spec3 3))
    r j (⟨t.val * 3200 + r.val, by have := r.isLt; omega⟩ : Fin 320000) (fun j' => ?_) (fun c' => ?_) (fun q => ?_) (fun k q => ?_)
  · show V c (Pipeline.arrRef spec3 0) (((cfg3.win 0).blk t).view.emb (ix2 r j')) = _
    refine congrArg (V c (Pipeline.arrRef spec3 0)) (funext fun a => Fin.ext ?_)
    match a with
    | ⟨0, _⟩ => show win3_0.index t (0 : Fin 2) * 3200 + 1 * r.val = t.val * 3200 + r.val; rw [e00]; omega
    | ⟨1, _⟩ => show win3_0.index t (1 : Fin 2) * 256 + 1 * j'.val = j'.val; rw [e01]; omega
  · show V c (Pipeline.arrRef spec3 1) (((cfg3.win 1).blk t).view.emb (ix2 r c')) = _
    refine congrArg (V c (Pipeline.arrRef spec3 1)) (funext fun a => Fin.ext ?_)
    match a with
    | ⟨0, _⟩ => show win3_1.index t (0 : Fin 2) * 3200 + 1 * r.val = t.val * 3200 + r.val; rw [e10]; omega
    | ⟨1, _⟩ => show win3_1.index t (1 : Fin 2) * 5 + 1 * c'.val = c'.val; rw [e11]; omega
  · show V c (Pipeline.arrRef spec3 2) (((cfg3.win 2).blk t).view.emb (ix2 (0 : Fin 1) q)) = _
    refine congrArg (V c (Pipeline.arrRef spec3 2)) (funext fun a => Fin.ext ?_)
    match a with
    | ⟨0, _⟩ => show win3_2.index t (0 : Fin 2) * 1 + 1 * 0 = 0; rw [e20]
    | ⟨1, _⟩ => show win3_2.index t (1 : Fin 2) * 128 + 1 * q.val = q.val; rw [e21]; omega
  · show V c (Pipeline.arrRef spec3 3) (((cfg3.win 3).blk t).view.emb (ix2 k q)) = _
    refine congrArg (V c (Pipeline.arrRef spec3 3)) (funext fun a => Fin.ext ?_)
    match a with
    | ⟨0, _⟩ => show win3_3.index t (0 : Fin 2) * 3 + 1 * k.val = k.val; rw [e30]; omega
    | ⟨1, _⟩ => show win3_3.index t (1 : Fin 2) * 128 + 1 * q.val = q.val; rw [e31]; omega

/-- An index of the output array is in point `t`'s block iff each coordinate is in the block's range. -/
theorem memBlk3 (t : Fin cfg3.N) (i : S320000x256.Idx) :
    i ∈ ((cfg3.win 4).blk t).view.set ↔ ∀ a : Fin 2, win3_4.index t a * S3200x256.size a ≤ (i a).val
      ∧ (i a).val < win3_4.index t a * S3200x256.size a + S3200x256.size a := by
  show i ∈ ((View.whole (Pipeline.arrRef spec3 4)).slice (win3_4.rect t)).set ↔ _
  rw [View.set_slice_whole, Rect.mem_set_unit]
  exact Iff.rfl

/-- Row `e` is covered by point `e / 3200`. -/
theorem cover3 (i : S320000x256.Idx) :
    ∃ t : Fin cfg3.N, (cfg3.win 4).flush t = true ∧ i ∈ ((cfg3.win 4).blk t).view.set := by
  have hi0 : (i 0).val < 320000 := (i 0).isLt
  have hi1 : (i 1).val < 256 := (i 1).isLt
  obtain ⟨t, q0, q1⟩ := idxOnto3 ⟨(i 0).val / 3200, by omega⟩
  have q0' : win3_4.index t (0 : Fin 2) = (i 0).val / 3200 := q0
  refine ⟨t, flush3_4 t, ?_⟩
  rw [memBlk3]
  intro a
  match a with
  | ⟨0, _⟩ => show win3_4.index t (0 : Fin 2) * 3200 ≤ (i 0).val ∧ (i 0).val < win3_4.index t (0 : Fin 2) * 3200 + 3200; rw [q0']; omega
  | ⟨1, _⟩ => show win3_4.index t (1 : Fin 2) * 256 ≤ (i 1).val ∧ (i 1).val < win3_4.index t (1 : Fin 2) * 256 + 256; rw [q1]; omega

/-- THE OUTPUT ARRAY after the region: the edge-message array of the four operand arrays as the region finds them. -/
theorem final3 (c : Dev nD) :
    (dat3 (F := Ideal) V c).arrAt 4 cfg3.N
      = fuseG (V c (Pipeline.arrRef spec3 0)) (V c (Pipeline.arrRef spec3 1))
          (V c (Pipeline.arrRef spec3 2)) (V c (Pipeline.arrRef spec3 3)) :=
  (dat3 (F := Ideal) V c).arrAt_eq_of_cover 4 _ (fun t _ => flushed3 V c t) (cover3)

end Region3

end Cert.KernelIdeal.RV

end
-- ==== Proof.KMlp4.lean ====
/-
  Layer 1's dense kernel as a whole-array function: what every grid point writes back is its 2000-row block of
  the dense step's array of the four operand arrays as the region finds them; the twenty-five blocks tile the
  50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KMlp
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region4

variable (V : (c : Dev nD) → (b : Ref sig .tc) → Buf (Elt Ideal) ((c : Thread nD τ).loc b))

/-- The index maps over the grid: the row-blocked windows sit at block row `t`, the others at block 0. -/
theorem idxFacts4 : ∀ t : Fin cfg4.N, t.val < 25
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Every block row is some point's. -/
theorem idxOnto4 : ∀ q : Fin 25, ∃ t : Fin cfg4.N, win4_4.index t (0 : Fin 2) = q.val ∧ win4_4.index t (1 : Fin 2) = 0 :=
  (by decide +kernel : ∀ q : Fin 25, ∃ t : Fin grid4.N, win4_4.index t (0 : Fin 2) = q.val ∧ win4_4.index t (1 : Fin 2) = 0)

set_option maxHeartbeats 1000000 in
/-- What point `t` writes back is block `t` of the dense step's array of the operands as the region finds them. -/
theorem flushed4 (c : Dev nD) (t : Fin cfg4.N) :
    (dat4 (F := Ideal) V c).flushed 4 t
      = ((cfg4.win 4).blk t).view.read (Elt Ideal)
          (mlpG (V c (Pipeline.arrRef spec4 0)) (V c (Pipeline.arrRef spec4 1))
            (V c (Pipeline.arrRef spec4 2)) (V c (Pipeline.arrRef spec4 3))) := by
  show (cfg4.win 4).cut (grid4.coords t) ((dat4 V c).after 4 t) = _
  rw [after4_4]
  obtain ⟨ht, e00, e01, e10, e11, e20, e21, e30, e31, e40, e41⟩ := idxFacts4 t
  funext y
  obtain ⟨r, j, rfl⟩ : ∃ (r : Fin 2000) (j : Fin 256), y = ix2 r j := ⟨y 0, y 1, eq_ix2 y⟩
  have hemb : ((cfg4.win 4).blk t).view.emb (ix2 r j)
      = (ix2 (⟨t.val * 2000 + r.val, by have := r.isLt; omega⟩ : Fin 50000) j : S50000x256.Idx) := by
    funext a; apply Fin.ext
    match a with
    | ⟨0, _⟩ => show win4_4.index t (0 : Fin 2) * 2000 + 1 * r.val = t.val * 2000 + r.val; rw [e40]; omega
    | ⟨1, _⟩ => show win4_4.index t (1 : Fin 2) * 256 + 1 * j.val = j.val; rw [e41]; omega
  refine (congrFun (mlpBlk4 (iblk4 V c 0 t) (iblk4 V c 1 t) (iblk4 V c 2 t) (iblk4 V c 3 t)) (ix2 r j)).trans ?_
  show out1_4 (iblk4 V c 0 t) (iblk4 V c 1 t) (iblk4 V c 2 t) (iblk4 V c 3 t) (ix2 r j)
      = mlpG _ _ _ _ (((cfg4.win 4).blk t).view.emb (ix2 r j))
  rw [hemb]
  refine mlp_point (iblk4 V c 0 t) (iblk4 V c 1 t) (iblk4 V c 2 t) (iblk4 V c 3 t)
    (V c (Pipeline.arrRef spec4 0)) (V c (Pipeline.arrRef spec4 1)) (V c (Pipeline.arrRef spec4 2)) (V c (Pipeline.arrRef spec4 3))
    r j (⟨t.val * 2000 + r.val, by have := r.isLt; omega⟩ : Fin 50000) (fun k => ?_) (fun k => ?_) (fun k j' => ?_) (fun j' => ?_)
  · show V c (Pipeline.arrRef spec4 0) (((cfg4.win 0).blk t).view.emb (ix2 r k)) = _
    refine congrArg (V c (Pipeline.arrRef spec4 0)) (funext fun a => Fin.ext ?_)
    match a with
    | ⟨0, _⟩ => show win4_0.index t (0 : Fin 2) * 2000 + 1 * r.val = t.val * 2000 + r.val; rw [e00]; omega
    | ⟨1, _⟩ => show win4_0.index t (1 : Fin 2) * 256 + 1 * k.val = k.val; rw [e01]; omega
  · show V c (Pipeline.arrRef spec4 1) (((cfg4.win 1).blk t).view.emb (ix2 r k)) = _
    refine congrArg (V c (Pipeline.arrRef spec4 1)) (funext fun a => Fin.ext ?_)
    match a with
    | ⟨0, _⟩ => show win4_1.index t (0 : Fin 2) * 2000 + 1 * r.val = t.val * 2000 + r.val; rw [e10]; omega
    | ⟨1, _⟩ => show win4_1.index t (1 : Fin 2) * 256 + 1 * k.val = k.val; rw [e11]; omega
  · show V c (Pipeline.arrRef spec4 2) (((cfg4.win 2).blk t).view.emb (ix2 k j')) = _
    refine congrArg (V c (Pipeline.arrRef spec4 2)) (funext fun a => Fin.ext ?_)
    match a with
    | ⟨0, _⟩ => show win4_2.index t (0 : Fin 2) * 512 + 1 * k.val = k.val; rw [e20]; omega
    | ⟨1, _⟩ => show win4_2.index t (1 : Fin 2) * 256 + 1 * j'.val = j'.val; rw [e21]; omega
  · show V c (Pipeline.arrRef spec4 3) (((cfg4.win 3).blk t).view.emb (ix2 (0 : Fin 1) j')) = _
    refine congrArg (V c (Pipeline.arrRef spec4 3)) (funext fun a => Fin.ext ?_)
    match a with
    | ⟨0, _⟩ => show win4_3.index t (0 : Fin 2) * 1 + 1 * 0 = 0; rw [e30]
    | ⟨1, _⟩ => show win4_3.index t (1 : Fin 2) * 256 + 1 * j'.val = j'.val; rw [e31]; omega

/-- An index of the output array is in point `t`'s block iff each coordinate is in the block's range. -/
theorem memBlk4 (t : Fin cfg4.N) (i : S50000x256.Idx) :
    i ∈ ((cfg4.win 4).blk t).view.set ↔ ∀ a : Fin 2, win4_4.index t a * S2000x256.size a ≤ (i a).val
      ∧ (i a).val < win4_4.index t a * S2000x256.size a + S2000x256.size a := by
  show i ∈ ((View.whole (Pipeline.arrRef spec4 4)).slice (win4_4.rect t)).set ↔ _
  rw [View.set_slice_whole, Rect.mem_set_unit]
  exact Iff.rfl

/-- Row `n` is covered by point `n / 2000`. -/
theorem cover4 (i : S50000x256.Idx) :
    ∃ t : Fin cfg4.N, (cfg4.win 4).flush t = true ∧ i ∈ ((cfg4.win 4).blk t).view.set := by
  have hi0 : (i 0).val < 50000 := (i 0).isLt
  have hi1 : (i 1).val < 256 := (i 1).isLt
  obtain ⟨t, q0, q1⟩ := idxOnto4 ⟨(i 0).val / 2000, by omega⟩
  have q0' : win4_4.index t (0 : Fin 2) = (i 0).val / 2000 := q0
  refine ⟨t, flush4_4 t, ?_⟩
  rw [memBlk4]
  intro a
  match a with
  | ⟨0, _⟩ => show win4_4.index t (0 : Fin 2) * 2000 ≤ (i 0).val ∧ (i 0).val < win4_4.index t (0 : Fin 2) * 2000 + 2000; rw [q0']; omega
  | ⟨1, _⟩ => show win4_4.index t (1 : Fin 2) * 256 ≤ (i 1).val ∧ (i 1).val < win4_4.index t (1 : Fin 2) * 256 + 256; rw [q1]; omega

/-- THE OUTPUT ARRAY after the region: the specification's array of the operand arrays as the region finds them. -/
theorem final4 (c : Dev nD) :
    (dat4 (F := Ideal) V c).arrAt 4 cfg4.N
      = mlpG (V c (Pipeline.arrRef spec4 0)) (V c (Pipeline.arrRef spec4 1))
          (V c (Pipeline.arrRef spec4 2)) (V c (Pipeline.arrRef spec4 3)) :=
  (dat4 (F := Ideal) V c).arrAt_eq_of_cover 4 _ (fun t _ => flushed4 V c t) (cover4)

end Region4

end Cert.KernelIdeal.RV

end
-- ==== Proof.KBn5.lean ====
/-
  Layer 1's normalization kernel as a whole-array function: what every grid point writes back is its 2000-row
  block of the normalized array of the five operand arrays as the region finds them; the twenty-five blocks tile
  the 50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KBn
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region5

variable (V : (c : Dev nD) → (b : Ref sig .tc) → Buf (Elt Ideal) ((c : Thread nD τ).loc b))

/-- The index maps over the grid: the row-blocked windows sit at block row `t`, the others at block 0. -/
theorem idxFacts5 : ∀ t : Fin cfg5.N, t.val < 25
    ∧ win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Every block row is some point's. -/
theorem idxOnto5 : ∀ q : Fin 25, ∃ t : Fin cfg5.N, win5_5.index t (0 : Fin 2) = q.val ∧ win5_5.index t (1 : Fin 2) = 0 :=
  (by decide +kernel : ∀ q : Fin 25, ∃ t : Fin grid5.N, win5_5.index t (0 : Fin 2) = q.val ∧ win5_5.index t (1 : Fin 2) = 0)

set_option maxHeartbeats 1000000 in
/-- What point `t` writes back is block `t` of the normalized array of the operands as the region finds them. -/
theorem flushed5 (c : Dev nD) (t : Fin cfg5.N) :
    (dat5 (F := Ideal) V c).flushed 5 t
      = ((cfg5.win 5).blk t).view.read (Elt Ideal)
          (bnReluG (V c (Pipeline.arrRef spec5 0)) (V c (Pipeline.arrRef spec5 1))
            (V c (Pipeline.arrRef spec5 2)) (V c (Pipeline.arrRef spec5 3)) (V c (Pipeline.arrRef spec5 4))) := by
  show (cfg5.win 5).cut (grid5.coords t) ((dat5 V c).after 5 t) = _
  rw [after5_5]
  obtain ⟨ht, e00, e01, e10, e11, e20, e21, e30, e31, e40, e41, e50, e51⟩ := idxFacts5 t
  funext y
  obtain ⟨r, j, rfl⟩ : ∃ (r : Fin 2000) (j : Fin 256), y = ix2 r j := ⟨y 0, y 1, eq_ix2 y⟩
  have hemb : ((cfg5.win 5).blk t).view.emb (ix2 r j)
      = (ix2 (⟨t.val * 2000 + r.val, by have := r.isLt; omega⟩ : Fin 50000) j : S50000x256.Idx) := by
    funext a; apply Fin.ext
    match a with
    | ⟨0, _⟩ => show win5_5.index t (0 : Fin 2) * 2000 + 1 * r.val = t.val * 2000 + r.val; rw [e50]; omega
    | ⟨1, _⟩ => show win5_5.index t (1 : Fin 2) * 256 + 1 * j.val = j.val; rw [e51]; omega
  show out2_5 (iblk5 V c 0 t) (iblk5 V c 1 t) (iblk5 V c 2 t) (iblk5 V c 3 t) (iblk5 V c 4 t) (ix2 r j)
      = bnReluG _ _ _ _ _ (((cfg5.win 5).blk t).view.emb (ix2 r j))
  rw [hemb]
  refine bnRelu_point (iblk5 V c 0 t) (iblk5 V c 1 t) (iblk5 V c 2 t) (iblk5 V c 3 t) (iblk5 V c 4 t)
    (V c (Pipeline.arrRef spec5 0)) (V c (Pipeline.arrRef spec5 1)) (V c (Pipeline.arrRef spec5 2)) (V c (Pipeline.arrRef spec5 3)) (V c (Pipeline.arrRef spec5 4))
    r j (⟨t.val * 2000 + r.val, by have := r.isLt; omega⟩ : Fin 50000) ?_ ?_ ?_ ?_ ?_
  · show V c (Pipeline.arrRef spec5 0) (((cfg5.win 0).blk t).view.emb (ix2 r j)) = _
    refine congrArg (V c (Pipeline.arrRef spec5 0)) (funext fun a => Fin.ext ?_)
    match a with
    | ⟨0, _⟩ => show win5_0.index t (0 : Fin 2) * 2000 + 1 * r.val = t.val * 2000 + r.val; rw [e00]; omega
    | ⟨1, _⟩ => show win5_0.index t (1 : Fin 2) * 256 + 1 * j.val = j.val; rw [e01]; omega
  · show V c (Pipeline.arrRef spec5 1) (((cfg5.win 1).blk t).view.emb (ix2 (0 : Fin 1) j)) = _
    refine congrArg (V c (Pipeline.arrRef spec5 1)) (funext fun a => Fin.ext ?_)
    match a with
    | ⟨0, _⟩ => show win5_1.index t (0 : Fin 2) * 1 + 1 * 0 = 0; rw [e10]
    | ⟨1, _⟩ => show win5_1.index t (1 : Fin 2) * 256 + 1 * j.val = j.val; rw [e11]; omega
  · show V c (Pipeline.arrRef spec5 2) (((cfg5.win 2).blk t).view.emb (ix2 (0 : Fin 1) j)) = _
    refine congrArg (V c (Pipeline.arrRef spec5 2)) (funext fun a => Fin.ext ?_)
    match a with
    | ⟨0, _⟩ => show win5_2.index t (0 : Fin 2) * 1 + 1 * 0 = 0; rw [e20]
    | ⟨1, _⟩ => show win5_2.index t (1 : Fin 2) * 256 + 1 * j.val = j.val; rw [e21]; omega
  · show V c (Pipeline.arrRef spec5 3) (((cfg5.win 3).blk t).view.emb (ix2 (0 : Fin 1) j)) = _
    refine congrArg (V c (Pipeline.arrRef spec5 3)) (funext fun a => Fin.ext ?_)
    match a with
    | ⟨0, _⟩ => show win5_3.index t (0 : Fin 2) * 1 + 1 * 0 = 0; rw [e30]
    | ⟨1, _⟩ => show win5_3.index t (1 : Fin 2) * 256 + 1 * j.val = j.val; rw [e31]; omega
  · show V c (Pipeline.arrRef spec5 4) (((cfg5.win 4).blk t).view.emb (ix2 (0 : Fin 1) j)) = _
    refine congrArg (V c (Pipeline.arrRef spec5 4)) (funext fun a => Fin.ext ?_)
    match a with
    | ⟨0, _⟩ => show win5_4.index t (0 : Fin 2) * 1 + 1 * 0 = 0; rw [e40]
    | ⟨1, _⟩ => show win5_4.index t (1 : Fin 2) * 256 + 1 * j.val = j.val; rw [e41]; omega

/-- An index of the output array is in point `t`'s block iff each coordinate is in the block's range. -/
theorem memBlk5 (t : Fin cfg5.N) (i : S50000x256.Idx) :
    i ∈ ((cfg5.win 5).blk t).view.set ↔ ∀ a : Fin 2, win5_5.index t a * S2000x256.size a ≤ (i a).val
      ∧ (i a).val < win5_5.index t a * S2000x256.size a + S2000x256.size a := by
  show i ∈ ((View.whole (Pipeline.arrRef spec5 5)).slice (win5_5.rect t)).set ↔ _
  rw [View.set_slice_whole, Rect.mem_set_unit]
  exact Iff.rfl

/-- Row `n` is covered by point `n / 2000`. -/
theorem cover5 (i : S50000x256.Idx) :
    ∃ t : Fin cfg5.N, (cfg5.win 5).flush t = true ∧ i ∈ ((cfg5.win 5).blk t).view.set := by
  have hi0 : (i 0).val < 50000 := (i 0).isLt
  have hi1 : (i 1).val < 256 := (i 1).isLt
  obtain ⟨t, q0, q1⟩ := idxOnto5 ⟨(i 0).val / 2000, by omega⟩
  have q0' : win5_5.index t (0 : Fin 2) = (i 0).val / 2000 := q0
  refine ⟨t, flush5_5 t, ?_⟩
  rw [memBlk5]
  intro a
  match a with
  | ⟨0, _⟩ => show win5_5.index t (0 : Fin 2) * 2000 ≤ (i 0).val ∧ (i 0).val < win5_5.index t (0 : Fin 2) * 2000 + 2000; rw [q0']; omega
  | ⟨1, _⟩ => show win5_5.index t (1 : Fin 2) * 256 ≤ (i 1).val ∧ (i 1).val < win5_5.index t (1 : Fin 2) * 256 + 256; rw [q1]; omega

/-- THE OUTPUT ARRAY after the region: the specification's array of the operand arrays as the region finds them. -/
theorem final5 (c : Dev nD) :
    (dat5 (F := Ideal) V c).arrAt 5 cfg5.N
      = bnReluG (V c (Pipeline.arrRef spec5 0)) (V c (Pipeline.arrRef spec5 1))
          (V c (Pipeline.arrRef spec5 2)) (V c (Pipeline.arrRef spec5 3)) (V c (Pipeline.arrRef spec5 4)) :=
  (dat5 (F := Ideal) V c).arrAt_eq_of_cover 5 _ (fun t _ => flushed5 V c t) (cover5)

end Region5

end Cert.KernelIdeal.RV

end
-- ==== Proof.KFuse6.lean ====
/-
  Layer 2's fused edge kernel as a whole-array function: what every grid point writes back is its 3200-row block
  of the edge-message array of the four operand arrays as the region finds them; the hundred blocks tile the
  320000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KFuse
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region6

variable (V : (c : Dev nD) → (b : Ref sig .tc) → Buf (Elt Ideal) ((c : Thread nD τ).loc b))

/-- The index maps over the grid: the row-blocked windows sit at block row `t`, the weights at block 0. -/
theorem idxFacts6 : ∀ t : Fin cfg6.N, t.val < 100
    ∧ win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Every block row is some point's. -/
theorem idxOnto6 : ∀ q : Fin 100, ∃ t : Fin cfg6.N, win6_4.index t (0 : Fin 2) = q.val ∧ win6_4.index t (1 : Fin 2) = 0 :=
  (by decide +kernel : ∀ q : Fin 100, ∃ t : Fin grid6.N, win6_4.index t (0 : Fin 2) = q.val ∧ win6_4.index t (1 : Fin 2) = 0)

set_option maxHeartbeats 1000000 in
/-- What point `t` writes back is block `t` of the edge-message array of the operands as the region finds them. -/
theorem flushed6 (c : Dev nD) (t : Fin cfg6.N) :
    (dat6 (F := Ideal) V c).flushed 4 t
      = ((cfg6.win 4).blk t).view.read (Elt Ideal)
          (fuseG (V c (Pipeline.arrRef spec6 0)) (V c (Pipeline.arrRef spec6 1))
            (V c (Pipeline.arrRef spec6 2)) (V c (Pipeline.arrRef spec6 3))) := by
  show (cfg6.win 4).cut (grid6.coords t) ((dat6 V c).after 4 t) = _
  rw [after6_4]
  obtain ⟨ht, e00, e01, e10, e11, e20, e21, e30, e31, e40, e41⟩ := idxFacts6 t
  funext y
  obtain ⟨r, j, rfl⟩ : ∃ (r : Fin 3200) (j : Fin 256), y = ix2 r j := ⟨y 0, y 1, eq_ix2 y⟩
  have hemb : ((cfg6.win 4).blk t).view.emb (ix2 r j)
      = (ix2 (⟨t.val * 3200 + r.val, by have := r.isLt; omega⟩ : Fin 320000) j : S320000x256.Idx) := by
    funext a; apply Fin.ext
    match a with
    | ⟨0, _⟩ => show win6_4.index t (0 : Fin 2) * 3200 + 1 * r.val = t.val * 3200 + r.val; rw [e40]; omega
    | ⟨1, _⟩ => show win6_4.index t (1 : Fin 2) * 256 + 1 * j.val = j.val; rw [e41]; omega
  show out0_4 (iblk6 V c 0 t) (iblk6 V c 1 t) (iblk6 V c 2 t) (iblk6 V c 3 t) (ix2 r j)
      = fuseG _ _ _ _ (((cfg6.win 4).blk t).view.emb (ix2 r j))
  rw [hemb]
  refine fuse_point (iblk6 V c 0 t) (iblk6 V c 1 t) (iblk6 V c 2 t) (iblk6 V c 3 t)
    (V c (Pipeline.arrRef spec6 0)) (V c (Pipeline.arrRef spec6 1)) (V c (Pipeline.arrRef spec6 2)) (V c (Pipeline.arrRef spec6 3))
    r j (⟨t.val * 3200 + r.val, by have := r.isLt; omega⟩ : Fin 320000) (fun j' => ?_) (fun c' => ?_) (fun q => ?_) (fun k q => ?_)
  · show V c (Pipeline.arrRef spec6 0) (((cfg6.win 0).blk t).view.emb (ix2 r j')) = _
    refine congrArg (V c (Pipeline.arrRef spec6 0)) (funext fun a => Fin.ext ?_)
    match a with
    | ⟨0, _⟩ => show win6_0.index t (0 : Fin 2) * 3200 + 1 * r.val = t.val * 3200 + r.val; rw [e00]; omega
    | ⟨1, _⟩ => show win6_0.index t (1 : Fin 2) * 256 + 1 * j'.val = j'.val; rw [e01]; omega
  · show V c (Pipeline.arrRef spec6 1) (((cfg6.win 1).blk t).view.emb (ix2 r c')) = _
    refine congrArg (V c (Pipeline.arrRef spec6 1)) (funext fun a => Fin.ext ?_)
    match a with
    | ⟨0, _⟩ => show win6_1.index t (0 : Fin 2) * 3200 + 1 * r.val = t.val * 3200 + r.val; rw [e10]; omega
    | ⟨1, _⟩ => show win6_1.index t (1 : Fin 2) * 5 + 1 * c'.val = c'.val; rw [e11]; omega
  · show V c (Pipeline.arrRef spec6 2) (((cfg6.win 2).blk t).view.emb (ix2 (0 : Fin 1) q)) = _
    refine congrArg (V c (Pipeline.arrRef spec6 2)) (funext fun a => Fin.ext ?_)
    match a with
    | ⟨0, _⟩ => show win6_2.index t (0 : Fin 2) * 1 + 1 * 0 = 0; rw [e20]
    | ⟨1, _⟩ => show win6_2.index t (1 : Fin 2) * 128 + 1 * q.val = q.val; rw [e21]; omega
  · show V c (Pipeline.arrRef spec6 3) (((cfg6.win 3).blk t).view.emb (ix2 k q)) = _
    refine congrArg (V c (Pipeline.arrRef spec6 3)) (funext fun a => Fin.ext ?_)
    match a with
    | ⟨0, _⟩ => show win6_3.index t (0 : Fin 2) * 3 + 1 * k.val = k.val; rw [e30]; omega
    | ⟨1, _⟩ => show win6_3.index t (1 : Fin 2) * 128 + 1 * q.val = q.val; rw [e31]; omega

/-- An index of the output array is in point `t`'s block iff each coordinate is in the block's range. -/
theorem memBlk6 (t : Fin cfg6.N) (i : S320000x256.Idx) :
    i ∈ ((cfg6.win 4).blk t).view.set ↔ ∀ a : Fin 2, win6_4.index t a * S3200x256.size a ≤ (i a).val
      ∧ (i a).val < win6_4.index t a * S3200x256.size a + S3200x256.size a := by
  show i ∈ ((View.whole (Pipeline.arrRef spec6 4)).slice (win6_4.rect t)).set ↔ _
  rw [View.set_slice_whole, Rect.mem_set_unit]
  exact Iff.rfl

/-- Row `e` is covered by point `e / 3200`. -/
theorem cover6 (i : S320000x256.Idx) :
    ∃ t : Fin cfg6.N, (cfg6.win 4).flush t = true ∧ i ∈ ((cfg6.win 4).blk t).view.set := by
  have hi0 : (i 0).val < 320000 := (i 0).isLt
  have hi1 : (i 1).val < 256 := (i 1).isLt
  obtain ⟨t, q0, q1⟩ := idxOnto6 ⟨(i 0).val / 3200, by omega⟩
  have q0' : win6_4.index t (0 : Fin 2) = (i 0).val / 3200 := q0
  refine ⟨t, flush6_4 t, ?_⟩
  rw [memBlk6]
  intro a
  match a with
  | ⟨0, _⟩ => show win6_4.index t (0 : Fin 2) * 3200 ≤ (i 0).val ∧ (i 0).val < win6_4.index t (0 : Fin 2) * 3200 + 3200; rw [q0']; omega
  | ⟨1, _⟩ => show win6_4.index t (1 : Fin 2) * 256 ≤ (i 1).val ∧ (i 1).val < win6_4.index t (1 : Fin 2) * 256 + 256; rw [q1]; omega

/-- THE OUTPUT ARRAY after the region: the edge-message array of the four operand arrays as the region finds them. -/
theorem final6 (c : Dev nD) :
    (dat6 (F := Ideal) V c).arrAt 4 cfg6.N
      = fuseG (V c (Pipeline.arrRef spec6 0)) (V c (Pipeline.arrRef spec6 1))
          (V c (Pipeline.arrRef spec6 2)) (V c (Pipeline.arrRef spec6 3)) :=
  (dat6 (F := Ideal) V c).arrAt_eq_of_cover 4 _ (fun t _ => flushed6 V c t) (cover6)

end Region6

end Cert.KernelIdeal.RV

end
-- ==== Proof.KMlp7.lean ====
/-
  Layer 2's dense kernel as a whole-array function: what every grid point writes back is its 2000-row block of
  the dense step's array of the four operand arrays as the region finds them; the twenty-five blocks tile the
  50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KMlp
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region7

variable (V : (c : Dev nD) → (b : Ref sig .tc) → Buf (Elt Ideal) ((c : Thread nD τ).loc b))

/-- The index maps over the grid: the row-blocked windows sit at block row `t`, the others at block 0. -/
theorem idxFacts7 : ∀ t : Fin cfg7.N, t.val < 25
    ∧ win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

/-- Every block row is some point's. -/
theorem idxOnto7 : ∀ q : Fin 25, ∃ t : Fin cfg7.N, win7_4.index t (0 : Fin 2) = q.val ∧ win7_4.index t (1 : Fin 2) = 0 :=
  (by decide +kernel : ∀ q : Fin 25, ∃ t : Fin grid7.N, win7_4.index t (0 : Fin 2) = q.val ∧ win7_4.index t (1 : Fin 2) = 0)

set_option maxHeartbeats 1000000 in
/-- What point `t` writes back is block `t` of the dense step's array of the operands as the region finds them. -/
theorem flushed7 (c : Dev nD) (t : Fin cfg7.N) :
    (dat7 (F := Ideal) V c).flushed 4 t
      = ((cfg7.win 4).blk t).view.read (Elt Ideal)
          (mlpG (V c (Pipeline.arrRef spec7 0)) (V c (Pipeline.arrRef spec7 1))
            (V c (Pipeline.arrRef spec7 2)) (V c (Pipeline.arrRef spec7 3))) := by
  show (cfg7.win 4).cut (grid7.coords t) ((dat7 V c).after 4 t) = _
  rw [after7_4]
  obtain ⟨ht, e00, e01, e10, e11, e20, e21, e30, e31, e40, e41⟩ := idxFacts7 t
  funext y
  obtain ⟨r, j, rfl⟩ : ∃ (r : Fin 2000) (j : Fin 256), y = ix2 r j := ⟨y 0, y 1, eq_ix2 y⟩
  have hemb : ((cfg7.win 4).blk t).view.emb (ix2 r j)
      = (ix2 (⟨t.val * 2000 + r.val, by have := r.isLt; omega⟩ : Fin 50000) j : S50000x256.Idx) := by
    funext a; apply Fin.ext
    match a with
    | ⟨0, _⟩ => show win7_4.index t (0 : Fin 2) * 2000 + 1 * r.val = t.val * 2000 + r.val; rw [e40]; omega
    | ⟨1, _⟩ => show win7_4.index t (1 : Fin 2) * 256 + 1 * j.val = j.val; rw [e41]; omega
  refine (congrFun (mlpBlk7 (iblk7 V c 0 t) (iblk7 V c 1 t) (iblk7 V c 2 t) (iblk7 V c 3 t)) (ix2 r j)).trans ?_
  show out1_4 (iblk7 V c 0 t) (iblk7 V c 1 t) (iblk7 V c 2 t) (iblk7 V c 3 t) (ix2 r j)
      = mlpG _ _ _ _ (((cfg7.win 4).blk t).view.emb (ix2 r j))
  rw [hemb]
  refine mlp_point (iblk7 V c 0 t) (iblk7 V c 1 t) (iblk7 V c 2 t) (iblk7 V c 3 t)
    (V c (Pipeline.arrRef spec7 0)) (V c (Pipeline.arrRef spec7 1)) (V c (Pipeline.arrRef spec7 2)) (V c (Pipeline.arrRef spec7 3))
    r j (⟨t.val * 2000 + r.val, by have := r.isLt; omega⟩ : Fin 50000) (fun k => ?_) (fun k => ?_) (fun k j' => ?_) (fun j' => ?_)
  · show V c (Pipeline.arrRef spec7 0) (((cfg7.win 0).blk t).view.emb (ix2 r k)) = _
    refine congrArg (V c (Pipeline.arrRef spec7 0)) (funext fun a => Fin.ext ?_)
    match a with
    | ⟨0, _⟩ => show win7_0.index t (0 : Fin 2) * 2000 + 1 * r.val = t.val * 2000 + r.val; rw [e00]; omega
    | ⟨1, _⟩ => show win7_0.index t (1 : Fin 2) * 256 + 1 * k.val = k.val; rw [e01]; omega
  · show V c (Pipeline.arrRef spec7 1) (((cfg7.win 1).blk t).view.emb (ix2 r k)) = _
    refine congrArg (V c (Pipeline.arrRef spec7 1)) (funext fun a => Fin.ext ?_)
    match a with
    | ⟨0, _⟩ => show win7_1.index t (0 : Fin 2) * 2000 + 1 * r.val = t.val * 2000 + r.val; rw [e10]; omega
    | ⟨1, _⟩ => show win7_1.index t (1 : Fin 2) * 256 + 1 * k.val = k.val; rw [e11]; omega
  · show V c (Pipeline.arrRef spec7 2) (((cfg7.win 2).blk t).view.emb (ix2 k j')) = _
    refine congrArg (V c (Pipeline.arrRef spec7 2)) (funext fun a => Fin.ext ?_)
    match a with
    | ⟨0, _⟩ => show win7_2.index t (0 : Fin 2) * 512 + 1 * k.val = k.val; rw [e20]; omega
    | ⟨1, _⟩ => show win7_2.index t (1 : Fin 2) * 256 + 1 * j'.val = j'.val; rw [e21]; omega
  · show V c (Pipeline.arrRef spec7 3) (((cfg7.win 3).blk t).view.emb (ix2 (0 : Fin 1) j')) = _
    refine congrArg (V c (Pipeline.arrRef spec7 3)) (funext fun a => Fin.ext ?_)
    match a with
    | ⟨0, _⟩ => show win7_3.index t (0 : Fin 2) * 1 + 1 * 0 = 0; rw [e30]
    | ⟨1, _⟩ => show win7_3.index t (1 : Fin 2) * 256 + 1 * j'.val = j'.val; rw [e31]; omega

/-- An index of the output array is in point `t`'s block iff each coordinate is in the block's range. -/
theorem memBlk7 (t : Fin cfg7.N) (i : S50000x256.Idx) :
    i ∈ ((cfg7.win 4).blk t).view.set ↔ ∀ a : Fin 2, win7_4.index t a * S2000x256.size a ≤ (i a).val
      ∧ (i a).val < win7_4.index t a * S2000x256.size a + S2000x256.size a := by
  show i ∈ ((View.whole (Pipeline.arrRef spec7 4)).slice (win7_4.rect t)).set ↔ _
  rw [View.set_slice_whole, Rect.mem_set_unit]
  exact Iff.rfl

/-- Row `n` is covered by point `n / 2000`. -/
theorem cover7 (i : S50000x256.Idx) :
    ∃ t : Fin cfg7.N, (cfg7.win 4).flush t = true ∧ i ∈ ((cfg7.win 4).blk t).view.set := by
  have hi0 : (i 0).val < 50000 := (i 0).isLt
  have hi1 : (i 1).val < 256 := (i 1).isLt
  obtain ⟨t, q0, q1⟩ := idxOnto7 ⟨(i 0).val / 2000, by omega⟩
  have q0' : win7_4.index t (0 : Fin 2) = (i 0).val / 2000 := q0
  refine ⟨t, flush7_4 t, ?_⟩
  rw [memBlk7]
  intro a
  match a with
  | ⟨0, _⟩ => show win7_4.index t (0 : Fin 2) * 2000 ≤ (i 0).val ∧ (i 0).val < win7_4.index t (0 : Fin 2) * 2000 + 2000; rw [q0']; omega
  | ⟨1, _⟩ => show win7_4.index t (1 : Fin 2) * 256 ≤ (i 1).val ∧ (i 1).val < win7_4.index t (1 : Fin 2) * 256 + 256; rw [q1]; omega

/-- THE OUTPUT ARRAY after the region: the specification's array of the operand arrays as the region finds them. -/
theorem final7 (c : Dev nD) :
    (dat7 (F := Ideal) V c).arrAt 4 cfg7.N
      = mlpG (V c (Pipeline.arrRef spec7 0)) (V c (Pipeline.arrRef spec7 1))
          (V c (Pipeline.arrRef spec7 2)) (V c (Pipeline.arrRef spec7 3)) :=
  (dat7 (F := Ideal) V c).arrAt_eq_of_cover 4 _ (fun t _ => flushed7 V c t) (cover7)

end Region7

end Cert.KernelIdeal.RV

end
-- ==== Proof.KBn8.lean ====
/-
  Layer 2's normalization kernel as a whole-array function: what every grid point writes back is its 2000-row
  block of the normalized array of the five operand arrays as the region finds them; the twenty-five blocks tile
  the 50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KBn
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region8

variable (V : (c : Dev nD) → (b : Ref sig .tc) → Buf (Elt Ideal) ((c : Thread nD τ).loc b))

/-- The index maps over the grid: the row-blocked windows sit at block row `t`, the others at block 0. -/
theorem idxFacts8 : ∀ t : Fin cfg8.N, t.val < 25
    ∧ win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Every block row is some point's. -/
theorem idxOnto8 : ∀ q : Fin 25, ∃ t : Fin cfg8.N, win8_5.index t (0 : Fin 2) = q.val ∧ win8_5.index t (1 : Fin 2) = 0 :=
  (by decide +kernel : ∀ q : Fin 25, ∃ t : Fin grid8.N, win8_5.index t (0 : Fin 2) = q.val ∧ win8_5.index t (1 : Fin 2) = 0)

set_option maxHeartbeats 1000000 in
/-- What point `t` writes back is block `t` of the normalized array of the operands as the region finds them. -/
theorem flushed8 (c : Dev nD) (t : Fin cfg8.N) :
    (dat8 (F := Ideal) V c).flushed 5 t
      = ((cfg8.win 5).blk t).view.read (Elt Ideal)
          (bnReluG (V c (Pipeline.arrRef spec8 0)) (V c (Pipeline.arrRef spec8 1))
            (V c (Pipeline.arrRef spec8 2)) (V c (Pipeline.arrRef spec8 3)) (V c (Pipeline.arrRef spec8 4))) := by
  show (cfg8.win 5).cut (grid8.coords t) ((dat8 V c).after 5 t) = _
  rw [after8_5]
  obtain ⟨ht, e00, e01, e10, e11, e20, e21, e30, e31, e40, e41, e50, e51⟩ := idxFacts8 t
  funext y
  obtain ⟨r, j, rfl⟩ : ∃ (r : Fin 2000) (j : Fin 256), y = ix2 r j := ⟨y 0, y 1, eq_ix2 y⟩
  have hemb : ((cfg8.win 5).blk t).view.emb (ix2 r j)
      = (ix2 (⟨t.val * 2000 + r.val, by have := r.isLt; omega⟩ : Fin 50000) j : S50000x256.Idx) := by
    funext a; apply Fin.ext
    match a with
    | ⟨0, _⟩ => show win8_5.index t (0 : Fin 2) * 2000 + 1 * r.val = t.val * 2000 + r.val; rw [e50]; omega
    | ⟨1, _⟩ => show win8_5.index t (1 : Fin 2) * 256 + 1 * j.val = j.val; rw [e51]; omega
  show out2_5 (iblk8 V c 0 t) (iblk8 V c 1 t) (iblk8 V c 2 t) (iblk8 V c 3 t) (iblk8 V c 4 t) (ix2 r j)
      = bnReluG _ _ _ _ _ (((cfg8.win 5).blk t).view.emb (ix2 r j))
  rw [hemb]
  refine bnRelu_point (iblk8 V c 0 t) (iblk8 V c 1 t) (iblk8 V c 2 t) (iblk8 V c 3 t) (iblk8 V c 4 t)
    (V c (Pipeline.arrRef spec8 0)) (V c (Pipeline.arrRef spec8 1)) (V c (Pipeline.arrRef spec8 2)) (V c (Pipeline.arrRef spec8 3)) (V c (Pipeline.arrRef spec8 4))
    r j (⟨t.val * 2000 + r.val, by have := r.isLt; omega⟩ : Fin 50000) ?_ ?_ ?_ ?_ ?_
  · show V c (Pipeline.arrRef spec8 0) (((cfg8.win 0).blk t).view.emb (ix2 r j)) = _
    refine congrArg (V c (Pipeline.arrRef spec8 0)) (funext fun a => Fin.ext ?_)
    match a with
    | ⟨0, _⟩ => show win8_0.index t (0 : Fin 2) * 2000 + 1 * r.val = t.val * 2000 + r.val; rw [e00]; omega
    | ⟨1, _⟩ => show win8_0.index t (1 : Fin 2) * 256 + 1 * j.val = j.val; rw [e01]; omega
  · show V c (Pipeline.arrRef spec8 1) (((cfg8.win 1).blk t).view.emb (ix2 (0 : Fin 1) j)) = _
    refine congrArg (V c (Pipeline.arrRef spec8 1)) (funext fun a => Fin.ext ?_)
    match a with
    | ⟨0, _⟩ => show win8_1.index t (0 : Fin 2) * 1 + 1 * 0 = 0; rw [e10]
    | ⟨1, _⟩ => show win8_1.index t (1 : Fin 2) * 256 + 1 * j.val = j.val; rw [e11]; omega
  · show V c (Pipeline.arrRef spec8 2) (((cfg8.win 2).blk t).view.emb (ix2 (0 : Fin 1) j)) = _
    refine congrArg (V c (Pipeline.arrRef spec8 2)) (funext fun a => Fin.ext ?_)
    match a with
    | ⟨0, _⟩ => show win8_2.index t (0 : Fin 2) * 1 + 1 * 0 = 0; rw [e20]
    | ⟨1, _⟩ => show win8_2.index t (1 : Fin 2) * 256 + 1 * j.val = j.val; rw [e21]; omega
  · show V c (Pipeline.arrRef spec8 3) (((cfg8.win 3).blk t).view.emb (ix2 (0 : Fin 1) j)) = _
    refine congrArg (V c (Pipeline.arrRef spec8 3)) (funext fun a => Fin.ext ?_)
    match a with
    | ⟨0, _⟩ => show win8_3.index t (0 : Fin 2) * 1 + 1 * 0 = 0; rw [e30]
    | ⟨1, _⟩ => show win8_3.index t (1 : Fin 2) * 256 + 1 * j.val = j.val; rw [e31]; omega
  · show V c (Pipeline.arrRef spec8 4) (((cfg8.win 4).blk t).view.emb (ix2 (0 : Fin 1) j)) = _
    refine congrArg (V c (Pipeline.arrRef spec8 4)) (funext fun a => Fin.ext ?_)
    match a with
    | ⟨0, _⟩ => show win8_4.index t (0 : Fin 2) * 1 + 1 * 0 = 0; rw [e40]
    | ⟨1, _⟩ => show win8_4.index t (1 : Fin 2) * 256 + 1 * j.val = j.val; rw [e41]; omega

/-- An index of the output array is in point `t`'s block iff each coordinate is in the block's range. -/
theorem memBlk8 (t : Fin cfg8.N) (i : S50000x256.Idx) :
    i ∈ ((cfg8.win 5).blk t).view.set ↔ ∀ a : Fin 2, win8_5.index t a * S2000x256.size a ≤ (i a).val
      ∧ (i a).val < win8_5.index t a * S2000x256.size a + S2000x256.size a := by
  show i ∈ ((View.whole (Pipeline.arrRef spec8 5)).slice (win8_5.rect t)).set ↔ _
  rw [View.set_slice_whole, Rect.mem_set_unit]
  exact Iff.rfl

/-- Row `n` is covered by point `n / 2000`. -/
theorem cover8 (i : S50000x256.Idx) :
    ∃ t : Fin cfg8.N, (cfg8.win 5).flush t = true ∧ i ∈ ((cfg8.win 5).blk t).view.set := by
  have hi0 : (i 0).val < 50000 := (i 0).isLt
  have hi1 : (i 1).val < 256 := (i 1).isLt
  obtain ⟨t, q0, q1⟩ := idxOnto8 ⟨(i 0).val / 2000, by omega⟩
  have q0' : win8_5.index t (0 : Fin 2) = (i 0).val / 2000 := q0
  refine ⟨t, flush8_5 t, ?_⟩
  rw [memBlk8]
  intro a
  match a with
  | ⟨0, _⟩ => show win8_5.index t (0 : Fin 2) * 2000 ≤ (i 0).val ∧ (i 0).val < win8_5.index t (0 : Fin 2) * 2000 + 2000; rw [q0']; omega
  | ⟨1, _⟩ => show win8_5.index t (1 : Fin 2) * 256 ≤ (i 1).val ∧ (i 1).val < win8_5.index t (1 : Fin 2) * 256 + 256; rw [q1]; omega

/-- THE OUTPUT ARRAY after the region: the specification's array of the operand arrays as the region finds them. -/
theorem final8 (c : Dev nD) :
    (dat8 (F := Ideal) V c).arrAt 5 cfg8.N
      = bnReluG (V c (Pipeline.arrRef spec8 0)) (V c (Pipeline.arrRef spec8 1))
          (V c (Pipeline.arrRef spec8 2)) (V c (Pipeline.arrRef spec8 3)) (V c (Pipeline.arrRef spec8 4)) :=
  (dat8 (F := Ideal) V c).arrAt_eq_of_cover 5 _ (fun t _ => flushed8 V c t) (cover8)

end Region8

end Cert.KernelIdeal.RV

end
-- ==== Proof.KFuse9.lean ====
/-
  Layer 3's fused edge kernel as a whole-array function: what every grid point writes back is its 3200-row block
  of the edge-message array of the four operand arrays as the region finds them; the hundred blocks tile the
  320000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KFuse
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region9

variable (V : (c : Dev nD) → (b : Ref sig .tc) → Buf (Elt Ideal) ((c : Thread nD τ).loc b))

/-- The index maps over the grid: the row-blocked windows sit at block row `t`, the weights at block 0. -/
theorem idxFacts9 : ∀ t : Fin cfg9.N, t.val < 100
    ∧ win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- Every block row is some point's. -/
theorem idxOnto9 : ∀ q : Fin 100, ∃ t : Fin cfg9.N, win9_4.index t (0 : Fin 2) = q.val ∧ win9_4.index t (1 : Fin 2) = 0 :=
  (by decide +kernel : ∀ q : Fin 100, ∃ t : Fin grid9.N, win9_4.index t (0 : Fin 2) = q.val ∧ win9_4.index t (1 : Fin 2) = 0)

set_option maxHeartbeats 1000000 in
/-- What point `t` writes back is block `t` of the edge-message array of the operands as the region finds them. -/
theorem flushed9 (c : Dev nD) (t : Fin cfg9.N) :
    (dat9 (F := Ideal) V c).flushed 4 t
      = ((cfg9.win 4).blk t).view.read (Elt Ideal)
          (fuseG (V c (Pipeline.arrRef spec9 0)) (V c (Pipeline.arrRef spec9 1))
            (V c (Pipeline.arrRef spec9 2)) (V c (Pipeline.arrRef spec9 3))) := by
  show (cfg9.win 4).cut (grid9.coords t) ((dat9 V c).after 4 t) = _
  rw [after9_4]
  obtain ⟨ht, e00, e01, e10, e11, e20, e21, e30, e31, e40, e41⟩ := idxFacts9 t
  funext y
  obtain ⟨r, j, rfl⟩ : ∃ (r : Fin 3200) (j : Fin 256), y = ix2 r j := ⟨y 0, y 1, eq_ix2 y⟩
  have hemb : ((cfg9.win 4).blk t).view.emb (ix2 r j)
      = (ix2 (⟨t.val * 3200 + r.val, by have := r.isLt; omega⟩ : Fin 320000) j : S320000x256.Idx) := by
    funext a; apply Fin.ext
    match a with
    | ⟨0, _⟩ => show win9_4.index t (0 : Fin 2) * 3200 + 1 * r.val = t.val * 3200 + r.val; rw [e40]; omega
    | ⟨1, _⟩ => show win9_4.index t (1 : Fin 2) * 256 + 1 * j.val = j.val; rw [e41]; omega
  show out0_4 (iblk9 V c 0 t) (iblk9 V c 1 t) (iblk9 V c 2 t) (iblk9 V c 3 t) (ix2 r j)
      = fuseG _ _ _ _ (((cfg9.win 4).blk t).view.emb (ix2 r j))
  rw [hemb]
  refine fuse_point (iblk9 V c 0 t) (iblk9 V c 1 t) (iblk9 V c 2 t) (iblk9 V c 3 t)
    (V c (Pipeline.arrRef spec9 0)) (V c (Pipeline.arrRef spec9 1)) (V c (Pipeline.arrRef spec9 2)) (V c (Pipeline.arrRef spec9 3))
    r j (⟨t.val * 3200 + r.val, by have := r.isLt; omega⟩ : Fin 320000) (fun j' => ?_) (fun c' => ?_) (fun q => ?_) (fun k q => ?_)
  · show V c (Pipeline.arrRef spec9 0) (((cfg9.win 0).blk t).view.emb (ix2 r j')) = _
    refine congrArg (V c (Pipeline.arrRef spec9 0)) (funext fun a => Fin.ext ?_)
    match a with
    | ⟨0, _⟩ => show win9_0.index t (0 : Fin 2) * 3200 + 1 * r.val = t.val * 3200 + r.val; rw [e00]; omega
    | ⟨1, _⟩ => show win9_0.index t (1 : Fin 2) * 256 + 1 * j'.val = j'.val; rw [e01]; omega
  · show V c (Pipeline.arrRef spec9 1) (((cfg9.win 1).blk t).view.emb (ix2 r c')) = _
    refine congrArg (V c (Pipeline.arrRef spec9 1)) (funext fun a => Fin.ext ?_)
    match a with
    | ⟨0, _⟩ => show win9_1.index t (0 : Fin 2) * 3200 + 1 * r.val = t.val * 3200 + r.val; rw [e10]; omega
    | ⟨1, _⟩ => show win9_1.index t (1 : Fin 2) * 5 + 1 * c'.val = c'.val; rw [e11]; omega
  · show V c (Pipeline.arrRef spec9 2) (((cfg9.win 2).blk t).view.emb (ix2 (0 : Fin 1) q)) = _
    refine congrArg (V c (Pipeline.arrRef spec9 2)) (funext fun a => Fin.ext ?_)
    match a with
    | ⟨0, _⟩ => show win9_2.index t (0 : Fin 2) * 1 + 1 * 0 = 0; rw [e20]
    | ⟨1, _⟩ => show win9_2.index t (1 : Fin 2) * 128 + 1 * q.val = q.val; rw [e21]; omega
  · show V c (Pipeline.arrRef spec9 3) (((cfg9.win 3).blk t).view.emb (ix2 k q)) = _
    refine congrArg (V c (Pipeline.arrRef spec9 3)) (funext fun a => Fin.ext ?_)
    match a with
    | ⟨0, _⟩ => show win9_3.index t (0 : Fin 2) * 3 + 1 * k.val = k.val; rw [e30]; omega
    | ⟨1, _⟩ => show win9_3.index t (1 : Fin 2) * 128 + 1 * q.val = q.val; rw [e31]; omega

/-- An index of the output array is in point `t`'s block iff each coordinate is in the block's range. -/
theorem memBlk9 (t : Fin cfg9.N) (i : S320000x256.Idx) :
    i ∈ ((cfg9.win 4).blk t).view.set ↔ ∀ a : Fin 2, win9_4.index t a * S3200x256.size a ≤ (i a).val
      ∧ (i a).val < win9_4.index t a * S3200x256.size a + S3200x256.size a := by
  show i ∈ ((View.whole (Pipeline.arrRef spec9 4)).slice (win9_4.rect t)).set ↔ _
  rw [View.set_slice_whole, Rect.mem_set_unit]
  exact Iff.rfl

/-- Row `e` is covered by point `e / 3200`. -/
theorem cover9 (i : S320000x256.Idx) :
    ∃ t : Fin cfg9.N, (cfg9.win 4).flush t = true ∧ i ∈ ((cfg9.win 4).blk t).view.set := by
  have hi0 : (i 0).val < 320000 := (i 0).isLt
  have hi1 : (i 1).val < 256 := (i 1).isLt
  obtain ⟨t, q0, q1⟩ := idxOnto9 ⟨(i 0).val / 3200, by omega⟩
  have q0' : win9_4.index t (0 : Fin 2) = (i 0).val / 3200 := q0
  refine ⟨t, flush9_4 t, ?_⟩
  rw [memBlk9]
  intro a
  match a with
  | ⟨0, _⟩ => show win9_4.index t (0 : Fin 2) * 3200 ≤ (i 0).val ∧ (i 0).val < win9_4.index t (0 : Fin 2) * 3200 + 3200; rw [q0']; omega
  | ⟨1, _⟩ => show win9_4.index t (1 : Fin 2) * 256 ≤ (i 1).val ∧ (i 1).val < win9_4.index t (1 : Fin 2) * 256 + 256; rw [q1]; omega

/-- THE OUTPUT ARRAY after the region: the edge-message array of the four operand arrays as the region finds them. -/
theorem final9 (c : Dev nD) :
    (dat9 (F := Ideal) V c).arrAt 4 cfg9.N
      = fuseG (V c (Pipeline.arrRef spec9 0)) (V c (Pipeline.arrRef spec9 1))
          (V c (Pipeline.arrRef spec9 2)) (V c (Pipeline.arrRef spec9 3)) :=
  (dat9 (F := Ideal) V c).arrAt_eq_of_cover 4 _ (fun t _ => flushed9 V c t) (cover9)

end Region9

end Cert.KernelIdeal.RV

end
-- ==== Proof.KMlp10.lean ====
/-
  Layer 3's dense kernel as a whole-array function: what every grid point writes back is its 2000-row block of
  the dense step's array of the four operand arrays as the region finds them; the twenty-five blocks tile the
  50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KMlp
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region10

variable (V : (c : Dev nD) → (b : Ref sig .tc) → Buf (Elt Ideal) ((c : Thread nD τ).loc b))

/-- The index maps over the grid: the row-blocked windows sit at block row `t`, the others at block 0. -/
theorem idxFacts10 : ∀ t : Fin cfg10.N, t.val < 25
    ∧ win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- Every block row is some point's. -/
theorem idxOnto10 : ∀ q : Fin 25, ∃ t : Fin cfg10.N, win10_4.index t (0 : Fin 2) = q.val ∧ win10_4.index t (1 : Fin 2) = 0 :=
  (by decide +kernel : ∀ q : Fin 25, ∃ t : Fin grid10.N, win10_4.index t (0 : Fin 2) = q.val ∧ win10_4.index t (1 : Fin 2) = 0)

set_option maxHeartbeats 1000000 in
/-- What point `t` writes back is block `t` of the dense step's array of the operands as the region finds them. -/
theorem flushed10 (c : Dev nD) (t : Fin cfg10.N) :
    (dat10 (F := Ideal) V c).flushed 4 t
      = ((cfg10.win 4).blk t).view.read (Elt Ideal)
          (mlpG (V c (Pipeline.arrRef spec10 0)) (V c (Pipeline.arrRef spec10 1))
            (V c (Pipeline.arrRef spec10 2)) (V c (Pipeline.arrRef spec10 3))) := by
  show (cfg10.win 4).cut (grid10.coords t) ((dat10 V c).after 4 t) = _
  rw [after10_4]
  obtain ⟨ht, e00, e01, e10, e11, e20, e21, e30, e31, e40, e41⟩ := idxFacts10 t
  funext y
  obtain ⟨r, j, rfl⟩ : ∃ (r : Fin 2000) (j : Fin 256), y = ix2 r j := ⟨y 0, y 1, eq_ix2 y⟩
  have hemb : ((cfg10.win 4).blk t).view.emb (ix2 r j)
      = (ix2 (⟨t.val * 2000 + r.val, by have := r.isLt; omega⟩ : Fin 50000) j : S50000x256.Idx) := by
    funext a; apply Fin.ext
    match a with
    | ⟨0, _⟩ => show win10_4.index t (0 : Fin 2) * 2000 + 1 * r.val = t.val * 2000 + r.val; rw [e40]; omega
    | ⟨1, _⟩ => show win10_4.index t (1 : Fin 2) * 256 + 1 * j.val = j.val; rw [e41]; omega
  refine (congrFun (mlpBlk10 (iblk10 V c 0 t) (iblk10 V c 1 t) (iblk10 V c 2 t) (iblk10 V c 3 t)) (ix2 r j)).trans ?_
  show out1_4 (iblk10 V c 0 t) (iblk10 V c 1 t) (iblk10 V c 2 t) (iblk10 V c 3 t) (ix2 r j)
      = mlpG _ _ _ _ (((cfg10.win 4).blk t).view.emb (ix2 r j))
  rw [hemb]
  refine mlp_point (iblk10 V c 0 t) (iblk10 V c 1 t) (iblk10 V c 2 t) (iblk10 V c 3 t)
    (V c (Pipeline.arrRef spec10 0)) (V c (Pipeline.arrRef spec10 1)) (V c (Pipeline.arrRef spec10 2)) (V c (Pipeline.arrRef spec10 3))
    r j (⟨t.val * 2000 + r.val, by have := r.isLt; omega⟩ : Fin 50000) (fun k => ?_) (fun k => ?_) (fun k j' => ?_) (fun j' => ?_)
  · show V c (Pipeline.arrRef spec10 0) (((cfg10.win 0).blk t).view.emb (ix2 r k)) = _
    refine congrArg (V c (Pipeline.arrRef spec10 0)) (funext fun a => Fin.ext ?_)
    match a with
    | ⟨0, _⟩ => show win10_0.index t (0 : Fin 2) * 2000 + 1 * r.val = t.val * 2000 + r.val; rw [e00]; omega
    | ⟨1, _⟩ => show win10_0.index t (1 : Fin 2) * 256 + 1 * k.val = k.val; rw [e01]; omega
  · show V c (Pipeline.arrRef spec10 1) (((cfg10.win 1).blk t).view.emb (ix2 r k)) = _
    refine congrArg (V c (Pipeline.arrRef spec10 1)) (funext fun a => Fin.ext ?_)
    match a with
    | ⟨0, _⟩ => show win10_1.index t (0 : Fin 2) * 2000 + 1 * r.val = t.val * 2000 + r.val; rw [e10]; omega
    | ⟨1, _⟩ => show win10_1.index t (1 : Fin 2) * 256 + 1 * k.val = k.val; rw [e11]; omega
  · show V c (Pipeline.arrRef spec10 2) (((cfg10.win 2).blk t).view.emb (ix2 k j')) = _
    refine congrArg (V c (Pipeline.arrRef spec10 2)) (funext fun a => Fin.ext ?_)
    match a with
    | ⟨0, _⟩ => show win10_2.index t (0 : Fin 2) * 512 + 1 * k.val = k.val; rw [e20]; omega
    | ⟨1, _⟩ => show win10_2.index t (1 : Fin 2) * 256 + 1 * j'.val = j'.val; rw [e21]; omega
  · show V c (Pipeline.arrRef spec10 3) (((cfg10.win 3).blk t).view.emb (ix2 (0 : Fin 1) j')) = _
    refine congrArg (V c (Pipeline.arrRef spec10 3)) (funext fun a => Fin.ext ?_)
    match a with
    | ⟨0, _⟩ => show win10_3.index t (0 : Fin 2) * 1 + 1 * 0 = 0; rw [e30]
    | ⟨1, _⟩ => show win10_3.index t (1 : Fin 2) * 256 + 1 * j'.val = j'.val; rw [e31]; omega

/-- An index of the output array is in point `t`'s block iff each coordinate is in the block's range. -/
theorem memBlk10 (t : Fin cfg10.N) (i : S50000x256.Idx) :
    i ∈ ((cfg10.win 4).blk t).view.set ↔ ∀ a : Fin 2, win10_4.index t a * S2000x256.size a ≤ (i a).val
      ∧ (i a).val < win10_4.index t a * S2000x256.size a + S2000x256.size a := by
  show i ∈ ((View.whole (Pipeline.arrRef spec10 4)).slice (win10_4.rect t)).set ↔ _
  rw [View.set_slice_whole, Rect.mem_set_unit]
  exact Iff.rfl

/-- Row `n` is covered by point `n / 2000`. -/
theorem cover10 (i : S50000x256.Idx) :
    ∃ t : Fin cfg10.N, (cfg10.win 4).flush t = true ∧ i ∈ ((cfg10.win 4).blk t).view.set := by
  have hi0 : (i 0).val < 50000 := (i 0).isLt
  have hi1 : (i 1).val < 256 := (i 1).isLt
  obtain ⟨t, q0, q1⟩ := idxOnto10 ⟨(i 0).val / 2000, by omega⟩
  have q0' : win10_4.index t (0 : Fin 2) = (i 0).val / 2000 := q0
  refine ⟨t, flush10_4 t, ?_⟩
  rw [memBlk10]
  intro a
  match a with
  | ⟨0, _⟩ => show win10_4.index t (0 : Fin 2) * 2000 ≤ (i 0).val ∧ (i 0).val < win10_4.index t (0 : Fin 2) * 2000 + 2000; rw [q0']; omega
  | ⟨1, _⟩ => show win10_4.index t (1 : Fin 2) * 256 ≤ (i 1).val ∧ (i 1).val < win10_4.index t (1 : Fin 2) * 256 + 256; rw [q1]; omega

/-- THE OUTPUT ARRAY after the region: the specification's array of the operand arrays as the region finds them. -/
theorem final10 (c : Dev nD) :
    (dat10 (F := Ideal) V c).arrAt 4 cfg10.N
      = mlpG (V c (Pipeline.arrRef spec10 0)) (V c (Pipeline.arrRef spec10 1))
          (V c (Pipeline.arrRef spec10 2)) (V c (Pipeline.arrRef spec10 3)) :=
  (dat10 (F := Ideal) V c).arrAt_eq_of_cover 4 _ (fun t _ => flushed10 V c t) (cover10)

end Region10

end Cert.KernelIdeal.RV

end
-- ==== Proof.KBn11.lean ====
/-
  Layer 3's normalization kernel as a whole-array function: what every grid point writes back is its 2000-row
  block of the normalized array of the five operand arrays as the region finds them; the twenty-five blocks tile
  the 50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KBn
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region11

variable (V : (c : Dev nD) → (b : Ref sig .tc) → Buf (Elt Ideal) ((c : Thread nD τ).loc b))

/-- The index maps over the grid: the row-blocked windows sit at block row `t`, the others at block 0. -/
theorem idxFacts11 : ∀ t : Fin cfg11.N, t.val < 25
    ∧ win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = t.val ∧ win11_5.index t (1 : Fin 2) = 0 :=
  (by decide +kernel : ∀ t : Fin grid11.N, _)

/-- Every block row is some point's. -/
theorem idxOnto11 : ∀ q : Fin 25, ∃ t : Fin cfg11.N, win11_5.index t (0 : Fin 2) = q.val ∧ win11_5.index t (1 : Fin 2) = 0 :=
  (by decide +kernel : ∀ q : Fin 25, ∃ t : Fin grid11.N, win11_5.index t (0 : Fin 2) = q.val ∧ win11_5.index t (1 : Fin 2) = 0)

set_option maxHeartbeats 1000000 in
/-- What point `t` writes back is block `t` of the normalized array of the operands as the region finds them. -/
theorem flushed11 (c : Dev nD) (t : Fin cfg11.N) :
    (dat11 (F := Ideal) V c).flushed 5 t
      = ((cfg11.win 5).blk t).view.read (Elt Ideal)
          (bnReluG (V c (Pipeline.arrRef spec11 0)) (V c (Pipeline.arrRef spec11 1))
            (V c (Pipeline.arrRef spec11 2)) (V c (Pipeline.arrRef spec11 3)) (V c (Pipeline.arrRef spec11 4))) := by
  show (cfg11.win 5).cut (grid11.coords t) ((dat11 V c).after 5 t) = _
  rw [after11_5]
  obtain ⟨ht, e00, e01, e10, e11, e20, e21, e30, e31, e40, e41, e50, e51⟩ := idxFacts11 t
  funext y
  obtain ⟨r, j, rfl⟩ : ∃ (r : Fin 2000) (j : Fin 256), y = ix2 r j := ⟨y 0, y 1, eq_ix2 y⟩
  have hemb : ((cfg11.win 5).blk t).view.emb (ix2 r j)
      = (ix2 (⟨t.val * 2000 + r.val, by have := r.isLt; omega⟩ : Fin 50000) j : S50000x256.Idx) := by
    funext a; apply Fin.ext
    match a with
    | ⟨0, _⟩ => show win11_5.index t (0 : Fin 2) * 2000 + 1 * r.val = t.val * 2000 + r.val; rw [e50]; omega
    | ⟨1, _⟩ => show win11_5.index t (1 : Fin 2) * 256 + 1 * j.val = j.val; rw [e51]; omega
  show out2_5 (iblk11 V c 0 t) (iblk11 V c 1 t) (iblk11 V c 2 t) (iblk11 V c 3 t) (iblk11 V c 4 t) (ix2 r j)
      = bnReluG _ _ _ _ _ (((cfg11.win 5).blk t).view.emb (ix2 r j))
  rw [hemb]
  refine bnRelu_point (iblk11 V c 0 t) (iblk11 V c 1 t) (iblk11 V c 2 t) (iblk11 V c 3 t) (iblk11 V c 4 t)
    (V c (Pipeline.arrRef spec11 0)) (V c (Pipeline.arrRef spec11 1)) (V c (Pipeline.arrRef spec11 2)) (V c (Pipeline.arrRef spec11 3)) (V c (Pipeline.arrRef spec11 4))
    r j (⟨t.val * 2000 + r.val, by have := r.isLt; omega⟩ : Fin 50000) ?_ ?_ ?_ ?_ ?_
  · show V c (Pipeline.arrRef spec11 0) (((cfg11.win 0).blk t).view.emb (ix2 r j)) = _
    refine congrArg (V c (Pipeline.arrRef spec11 0)) (funext fun a => Fin.ext ?_)
    match a with
    | ⟨0, _⟩ => show win11_0.index t (0 : Fin 2) * 2000 + 1 * r.val = t.val * 2000 + r.val; rw [e00]; omega
    | ⟨1, _⟩ => show win11_0.index t (1 : Fin 2) * 256 + 1 * j.val = j.val; rw [e01]; omega
  · show V c (Pipeline.arrRef spec11 1) (((cfg11.win 1).blk t).view.emb (ix2 (0 : Fin 1) j)) = _
    refine congrArg (V c (Pipeline.arrRef spec11 1)) (funext fun a => Fin.ext ?_)
    match a with
    | ⟨0, _⟩ => show win11_1.index t (0 : Fin 2) * 1 + 1 * 0 = 0; rw [e10]
    | ⟨1, _⟩ => show win11_1.index t (1 : Fin 2) * 256 + 1 * j.val = j.val; rw [e11]; omega
  · show V c (Pipeline.arrRef spec11 2) (((cfg11.win 2).blk t).view.emb (ix2 (0 : Fin 1) j)) = _
    refine congrArg (V c (Pipeline.arrRef spec11 2)) (funext fun a => Fin.ext ?_)
    match a with
    | ⟨0, _⟩ => show win11_2.index t (0 : Fin 2) * 1 + 1 * 0 = 0; rw [e20]
    | ⟨1, _⟩ => show win11_2.index t (1 : Fin 2) * 256 + 1 * j.val = j.val; rw [e21]; omega
  · show V c (Pipeline.arrRef spec11 3) (((cfg11.win 3).blk t).view.emb (ix2 (0 : Fin 1) j)) = _
    refine congrArg (V c (Pipeline.arrRef spec11 3)) (funext fun a => Fin.ext ?_)
    match a with
    | ⟨0, _⟩ => show win11_3.index t (0 : Fin 2) * 1 + 1 * 0 = 0; rw [e30]
    | ⟨1, _⟩ => show win11_3.index t (1 : Fin 2) * 256 + 1 * j.val = j.val; rw [e31]; omega
  · show V c (Pipeline.arrRef spec11 4) (((cfg11.win 4).blk t).view.emb (ix2 (0 : Fin 1) j)) = _
    refine congrArg (V c (Pipeline.arrRef spec11 4)) (funext fun a => Fin.ext ?_)
    match a with
    | ⟨0, _⟩ => show win11_4.index t (0 : Fin 2) * 1 + 1 * 0 = 0; rw [e40]
    | ⟨1, _⟩ => show win11_4.index t (1 : Fin 2) * 256 + 1 * j.val = j.val; rw [e41]; omega

/-- An index of the output array is in point `t`'s block iff each coordinate is in the block's range. -/
theorem memBlk11 (t : Fin cfg11.N) (i : S50000x256.Idx) :
    i ∈ ((cfg11.win 5).blk t).view.set ↔ ∀ a : Fin 2, win11_5.index t a * S2000x256.size a ≤ (i a).val
      ∧ (i a).val < win11_5.index t a * S2000x256.size a + S2000x256.size a := by
  show i ∈ ((View.whole (Pipeline.arrRef spec11 5)).slice (win11_5.rect t)).set ↔ _
  rw [View.set_slice_whole, Rect.mem_set_unit]
  exact Iff.rfl

/-- Row `n` is covered by point `n / 2000`. -/
theorem cover11 (i : S50000x256.Idx) :
    ∃ t : Fin cfg11.N, (cfg11.win 5).flush t = true ∧ i ∈ ((cfg11.win 5).blk t).view.set := by
  have hi0 : (i 0).val < 50000 := (i 0).isLt
  have hi1 : (i 1).val < 256 := (i 1).isLt
  obtain ⟨t, q0, q1⟩ := idxOnto11 ⟨(i 0).val / 2000, by omega⟩
  have q0' : win11_5.index t (0 : Fin 2) = (i 0).val / 2000 := q0
  refine ⟨t, flush11_5 t, ?_⟩
  rw [memBlk11]
  intro a
  match a with
  | ⟨0, _⟩ => show win11_5.index t (0 : Fin 2) * 2000 ≤ (i 0).val ∧ (i 0).val < win11_5.index t (0 : Fin 2) * 2000 + 2000; rw [q0']; omega
  | ⟨1, _⟩ => show win11_5.index t (1 : Fin 2) * 256 ≤ (i 1).val ∧ (i 1).val < win11_5.index t (1 : Fin 2) * 256 + 256; rw [q1]; omega

/-- THE OUTPUT ARRAY after the region: the specification's array of the operand arrays as the region finds them. -/
theorem final11 (c : Dev nD) :
    (dat11 (F := Ideal) V c).arrAt 5 cfg11.N
      = bnReluG (V c (Pipeline.arrRef spec11 0)) (V c (Pipeline.arrRef spec11 1))
          (V c (Pipeline.arrRef spec11 2)) (V c (Pipeline.arrRef spec11 3)) (V c (Pipeline.arrRef spec11 4)) :=
  (dat11 (F := Ideal) V c).arrAt_eq_of_cover 5 _ (fun t _ => flushed11 V c t) (cover11)

end Region11

end Cert.KernelIdeal.RV

end
-- ==== Proof.KFuse12.lean ====
/-
  Layer 4's fused edge kernel as a whole-array function: what every grid point writes back is its 3200-row block
  of the edge-message array of the four operand arrays as the region finds them; the hundred blocks tile the
  320000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KFuse
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region12

variable (V : (c : Dev nD) → (b : Ref sig .tc) → Buf (Elt Ideal) ((c : Thread nD τ).loc b))

/-- The index maps over the grid: the row-blocked windows sit at block row `t`, the weights at block 0. -/
theorem idxFacts12 : ∀ t : Fin cfg12.N, t.val < 100
    ∧ win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

/-- Every block row is some point's. -/
theorem idxOnto12 : ∀ q : Fin 100, ∃ t : Fin cfg12.N, win12_4.index t (0 : Fin 2) = q.val ∧ win12_4.index t (1 : Fin 2) = 0 :=
  (by decide +kernel : ∀ q : Fin 100, ∃ t : Fin grid12.N, win12_4.index t (0 : Fin 2) = q.val ∧ win12_4.index t (1 : Fin 2) = 0)

set_option maxHeartbeats 1000000 in
/-- What point `t` writes back is block `t` of the edge-message array of the operands as the region finds them. -/
theorem flushed12 (c : Dev nD) (t : Fin cfg12.N) :
    (dat12 (F := Ideal) V c).flushed 4 t
      = ((cfg12.win 4).blk t).view.read (Elt Ideal)
          (fuseG (V c (Pipeline.arrRef spec12 0)) (V c (Pipeline.arrRef spec12 1))
            (V c (Pipeline.arrRef spec12 2)) (V c (Pipeline.arrRef spec12 3))) := by
  show (cfg12.win 4).cut (grid12.coords t) ((dat12 V c).after 4 t) = _
  rw [after12_4]
  obtain ⟨ht, e00, e01, e10, e11, e20, e21, e30, e31, e40, e41⟩ := idxFacts12 t
  funext y
  obtain ⟨r, j, rfl⟩ : ∃ (r : Fin 3200) (j : Fin 256), y = ix2 r j := ⟨y 0, y 1, eq_ix2 y⟩
  have hemb : ((cfg12.win 4).blk t).view.emb (ix2 r j)
      = (ix2 (⟨t.val * 3200 + r.val, by have := r.isLt; omega⟩ : Fin 320000) j : S320000x256.Idx) := by
    funext a; apply Fin.ext
    match a with
    | ⟨0, _⟩ => show win12_4.index t (0 : Fin 2) * 3200 + 1 * r.val = t.val * 3200 + r.val; rw [e40]; omega
    | ⟨1, _⟩ => show win12_4.index t (1 : Fin 2) * 256 + 1 * j.val = j.val; rw [e41]; omega
  show out0_4 (iblk12 V c 0 t) (iblk12 V c 1 t) (iblk12 V c 2 t) (iblk12 V c 3 t) (ix2 r j)
      = fuseG _ _ _ _ (((cfg12.win 4).blk t).view.emb (ix2 r j))
  rw [hemb]
  refine fuse_point (iblk12 V c 0 t) (iblk12 V c 1 t) (iblk12 V c 2 t) (iblk12 V c 3 t)
    (V c (Pipeline.arrRef spec12 0)) (V c (Pipeline.arrRef spec12 1)) (V c (Pipeline.arrRef spec12 2)) (V c (Pipeline.arrRef spec12 3))
    r j (⟨t.val * 3200 + r.val, by have := r.isLt; omega⟩ : Fin 320000) (fun j' => ?_) (fun c' => ?_) (fun q => ?_) (fun k q => ?_)
  · show V c (Pipeline.arrRef spec12 0) (((cfg12.win 0).blk t).view.emb (ix2 r j')) = _
    refine congrArg (V c (Pipeline.arrRef spec12 0)) (funext fun a => Fin.ext ?_)
    match a with
    | ⟨0, _⟩ => show win12_0.index t (0 : Fin 2) * 3200 + 1 * r.val = t.val * 3200 + r.val; rw [e00]; omega
    | ⟨1, _⟩ => show win12_0.index t (1 : Fin 2) * 256 + 1 * j'.val = j'.val; rw [e01]; omega
  · show V c (Pipeline.arrRef spec12 1) (((cfg12.win 1).blk t).view.emb (ix2 r c')) = _
    refine congrArg (V c (Pipeline.arrRef spec12 1)) (funext fun a => Fin.ext ?_)
    match a with
    | ⟨0, _⟩ => show win12_1.index t (0 : Fin 2) * 3200 + 1 * r.val = t.val * 3200 + r.val; rw [e10]; omega
    | ⟨1, _⟩ => show win12_1.index t (1 : Fin 2) * 5 + 1 * c'.val = c'.val; rw [e11]; omega
  · show V c (Pipeline.arrRef spec12 2) (((cfg12.win 2).blk t).view.emb (ix2 (0 : Fin 1) q)) = _
    refine congrArg (V c (Pipeline.arrRef spec12 2)) (funext fun a => Fin.ext ?_)
    match a with
    | ⟨0, _⟩ => show win12_2.index t (0 : Fin 2) * 1 + 1 * 0 = 0; rw [e20]
    | ⟨1, _⟩ => show win12_2.index t (1 : Fin 2) * 128 + 1 * q.val = q.val; rw [e21]; omega
  · show V c (Pipeline.arrRef spec12 3) (((cfg12.win 3).blk t).view.emb (ix2 k q)) = _
    refine congrArg (V c (Pipeline.arrRef spec12 3)) (funext fun a => Fin.ext ?_)
    match a with
    | ⟨0, _⟩ => show win12_3.index t (0 : Fin 2) * 3 + 1 * k.val = k.val; rw [e30]; omega
    | ⟨1, _⟩ => show win12_3.index t (1 : Fin 2) * 128 + 1 * q.val = q.val; rw [e31]; omega

/-- An index of the output array is in point `t`'s block iff each coordinate is in the block's range. -/
theorem memBlk12 (t : Fin cfg12.N) (i : S320000x256.Idx) :
    i ∈ ((cfg12.win 4).blk t).view.set ↔ ∀ a : Fin 2, win12_4.index t a * S3200x256.size a ≤ (i a).val
      ∧ (i a).val < win12_4.index t a * S3200x256.size a + S3200x256.size a := by
  show i ∈ ((View.whole (Pipeline.arrRef spec12 4)).slice (win12_4.rect t)).set ↔ _
  rw [View.set_slice_whole, Rect.mem_set_unit]
  exact Iff.rfl

/-- Row `e` is covered by point `e / 3200`. -/
theorem cover12 (i : S320000x256.Idx) :
    ∃ t : Fin cfg12.N, (cfg12.win 4).flush t = true ∧ i ∈ ((cfg12.win 4).blk t).view.set := by
  have hi0 : (i 0).val < 320000 := (i 0).isLt
  have hi1 : (i 1).val < 256 := (i 1).isLt
  obtain ⟨t, q0, q1⟩ := idxOnto12 ⟨(i 0).val / 3200, by omega⟩
  have q0' : win12_4.index t (0 : Fin 2) = (i 0).val / 3200 := q0
  refine ⟨t, flush12_4 t, ?_⟩
  rw [memBlk12]
  intro a
  match a with
  | ⟨0, _⟩ => show win12_4.index t (0 : Fin 2) * 3200 ≤ (i 0).val ∧ (i 0).val < win12_4.index t (0 : Fin 2) * 3200 + 3200; rw [q0']; omega
  | ⟨1, _⟩ => show win12_4.index t (1 : Fin 2) * 256 ≤ (i 1).val ∧ (i 1).val < win12_4.index t (1 : Fin 2) * 256 + 256; rw [q1]; omega

/-- THE OUTPUT ARRAY after the region: the edge-message array of the four operand arrays as the region finds them. -/
theorem final12 (c : Dev nD) :
    (dat12 (F := Ideal) V c).arrAt 4 cfg12.N
      = fuseG (V c (Pipeline.arrRef spec12 0)) (V c (Pipeline.arrRef spec12 1))
          (V c (Pipeline.arrRef spec12 2)) (V c (Pipeline.arrRef spec12 3)) :=
  (dat12 (F := Ideal) V c).arrAt_eq_of_cover 4 _ (fun t _ => flushed12 V c t) (cover12)

end Region12

end Cert.KernelIdeal.RV

end
-- ==== Proof.KMlp13.lean ====
/-
  Layer 4's dense kernel as a whole-array function: what every grid point writes back is its 2000-row block of
  the dense step's array of the four operand arrays as the region finds them; the twenty-five blocks tile the
  50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KMlp
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region13

variable (V : (c : Dev nD) → (b : Ref sig .tc) → Buf (Elt Ideal) ((c : Thread nD τ).loc b))

/-- The index maps over the grid: the row-blocked windows sit at block row `t`, the others at block 0. -/
theorem idxFacts13 : ∀ t : Fin cfg13.N, t.val < 25
    ∧ win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0 :=
  (by decide +kernel : ∀ t : Fin grid13.N, _)

/-- Every block row is some point's. -/
theorem idxOnto13 : ∀ q : Fin 25, ∃ t : Fin cfg13.N, win13_4.index t (0 : Fin 2) = q.val ∧ win13_4.index t (1 : Fin 2) = 0 :=
  (by decide +kernel : ∀ q : Fin 25, ∃ t : Fin grid13.N, win13_4.index t (0 : Fin 2) = q.val ∧ win13_4.index t (1 : Fin 2) = 0)

set_option maxHeartbeats 1000000 in
/-- What point `t` writes back is block `t` of the dense step's array of the operands as the region finds them. -/
theorem flushed13 (c : Dev nD) (t : Fin cfg13.N) :
    (dat13 (F := Ideal) V c).flushed 4 t
      = ((cfg13.win 4).blk t).view.read (Elt Ideal)
          (mlpG (V c (Pipeline.arrRef spec13 0)) (V c (Pipeline.arrRef spec13 1))
            (V c (Pipeline.arrRef spec13 2)) (V c (Pipeline.arrRef spec13 3))) := by
  show (cfg13.win 4).cut (grid13.coords t) ((dat13 V c).after 4 t) = _
  rw [after13_4]
  obtain ⟨ht, e00, e01, e10, e11, e20, e21, e30, e31, e40, e41⟩ := idxFacts13 t
  funext y
  obtain ⟨r, j, rfl⟩ : ∃ (r : Fin 2000) (j : Fin 256), y = ix2 r j := ⟨y 0, y 1, eq_ix2 y⟩
  have hemb : ((cfg13.win 4).blk t).view.emb (ix2 r j)
      = (ix2 (⟨t.val * 2000 + r.val, by have := r.isLt; omega⟩ : Fin 50000) j : S50000x256.Idx) := by
    funext a; apply Fin.ext
    match a with
    | ⟨0, _⟩ => show win13_4.index t (0 : Fin 2) * 2000 + 1 * r.val = t.val * 2000 + r.val; rw [e40]; omega
    | ⟨1, _⟩ => show win13_4.index t (1 : Fin 2) * 256 + 1 * j.val = j.val; rw [e41]; omega
  refine (congrFun (mlpBlk13 (iblk13 V c 0 t) (iblk13 V c 1 t) (iblk13 V c 2 t) (iblk13 V c 3 t)) (ix2 r j)).trans ?_
  show out1_4 (iblk13 V c 0 t) (iblk13 V c 1 t) (iblk13 V c 2 t) (iblk13 V c 3 t) (ix2 r j)
      = mlpG _ _ _ _ (((cfg13.win 4).blk t).view.emb (ix2 r j))
  rw [hemb]
  refine mlp_point (iblk13 V c 0 t) (iblk13 V c 1 t) (iblk13 V c 2 t) (iblk13 V c 3 t)
    (V c (Pipeline.arrRef spec13 0)) (V c (Pipeline.arrRef spec13 1)) (V c (Pipeline.arrRef spec13 2)) (V c (Pipeline.arrRef spec13 3))
    r j (⟨t.val * 2000 + r.val, by have := r.isLt; omega⟩ : Fin 50000) (fun k => ?_) (fun k => ?_) (fun k j' => ?_) (fun j' => ?_)
  · show V c (Pipeline.arrRef spec13 0) (((cfg13.win 0).blk t).view.emb (ix2 r k)) = _
    refine congrArg (V c (Pipeline.arrRef spec13 0)) (funext fun a => Fin.ext ?_)
    match a with
    | ⟨0, _⟩ => show win13_0.index t (0 : Fin 2) * 2000 + 1 * r.val = t.val * 2000 + r.val; rw [e00]; omega
    | ⟨1, _⟩ => show win13_0.index t (1 : Fin 2) * 256 + 1 * k.val = k.val; rw [e01]; omega
  · show V c (Pipeline.arrRef spec13 1) (((cfg13.win 1).blk t).view.emb (ix2 r k)) = _
    refine congrArg (V c (Pipeline.arrRef spec13 1)) (funext fun a => Fin.ext ?_)
    match a with
    | ⟨0, _⟩ => show win13_1.index t (0 : Fin 2) * 2000 + 1 * r.val = t.val * 2000 + r.val; rw [e10]; omega
    | ⟨1, _⟩ => show win13_1.index t (1 : Fin 2) * 256 + 1 * k.val = k.val; rw [e11]; omega
  · show V c (Pipeline.arrRef spec13 2) (((cfg13.win 2).blk t).view.emb (ix2 k j')) = _
    refine congrArg (V c (Pipeline.arrRef spec13 2)) (funext fun a => Fin.ext ?_)
    match a with
    | ⟨0, _⟩ => show win13_2.index t (0 : Fin 2) * 512 + 1 * k.val = k.val; rw [e20]; omega
    | ⟨1, _⟩ => show win13_2.index t (1 : Fin 2) * 256 + 1 * j'.val = j'.val; rw [e21]; omega
  · show V c (Pipeline.arrRef spec13 3) (((cfg13.win 3).blk t).view.emb (ix2 (0 : Fin 1) j')) = _
    refine congrArg (V c (Pipeline.arrRef spec13 3)) (funext fun a => Fin.ext ?_)
    match a with
    | ⟨0, _⟩ => show win13_3.index t (0 : Fin 2) * 1 + 1 * 0 = 0; rw [e30]
    | ⟨1, _⟩ => show win13_3.index t (1 : Fin 2) * 256 + 1 * j'.val = j'.val; rw [e31]; omega

/-- An index of the output array is in point `t`'s block iff each coordinate is in the block's range. -/
theorem memBlk13 (t : Fin cfg13.N) (i : S50000x256.Idx) :
    i ∈ ((cfg13.win 4).blk t).view.set ↔ ∀ a : Fin 2, win13_4.index t a * S2000x256.size a ≤ (i a).val
      ∧ (i a).val < win13_4.index t a * S2000x256.size a + S2000x256.size a := by
  show i ∈ ((View.whole (Pipeline.arrRef spec13 4)).slice (win13_4.rect t)).set ↔ _
  rw [View.set_slice_whole, Rect.mem_set_unit]
  exact Iff.rfl

/-- Row `n` is covered by point `n / 2000`. -/
theorem cover13 (i : S50000x256.Idx) :
    ∃ t : Fin cfg13.N, (cfg13.win 4).flush t = true ∧ i ∈ ((cfg13.win 4).blk t).view.set := by
  have hi0 : (i 0).val < 50000 := (i 0).isLt
  have hi1 : (i 1).val < 256 := (i 1).isLt
  obtain ⟨t, q0, q1⟩ := idxOnto13 ⟨(i 0).val / 2000, by omega⟩
  have q0' : win13_4.index t (0 : Fin 2) = (i 0).val / 2000 := q0
  refine ⟨t, flush13_4 t, ?_⟩
  rw [memBlk13]
  intro a
  match a with
  | ⟨0, _⟩ => show win13_4.index t (0 : Fin 2) * 2000 ≤ (i 0).val ∧ (i 0).val < win13_4.index t (0 : Fin 2) * 2000 + 2000; rw [q0']; omega
  | ⟨1, _⟩ => show win13_4.index t (1 : Fin 2) * 256 ≤ (i 1).val ∧ (i 1).val < win13_4.index t (1 : Fin 2) * 256 + 256; rw [q1]; omega

/-- THE OUTPUT ARRAY after the region: the specification's array of the operand arrays as the region finds them. -/
theorem final13 (c : Dev nD) :
    (dat13 (F := Ideal) V c).arrAt 4 cfg13.N
      = mlpG (V c (Pipeline.arrRef spec13 0)) (V c (Pipeline.arrRef spec13 1))
          (V c (Pipeline.arrRef spec13 2)) (V c (Pipeline.arrRef spec13 3)) :=
  (dat13 (F := Ideal) V c).arrAt_eq_of_cover 4 _ (fun t _ => flushed13 V c t) (cover13)

end Region13

end Cert.KernelIdeal.RV

end
-- ==== Proof.KBn14.lean ====
/-
  Layer 4's normalization kernel as a whole-array function: what every grid point writes back is its 2000-row
  block of the normalized array of the five operand arrays as the region finds them; the twenty-five blocks tile
  the 50000 rows, so the output array ends holding that array.
-/
import proofs.«107720_j79044578115931_2_alg».proof.Proof.Gen.KernelIdeal.Frame
import proofs.«107720_j79044578115931_2_alg».proof.Proof.KSpec
import proofs.«107720_j79044578115931_2_alg».proof.Proof.KBn
import Idealize.ShloMosaic.Lib.Pipeline.Value
import Idealize.ShloMosaic.Lib.ValueIdx

set_option maxRecDepth 16384

noncomputable section

namespace Cert.KernelIdeal.RV

open Idealize.ShloMosaic Idealize.ShloMosaic.TcCoe Idealize.ShloMosaic.ValueIdx Cert.KernelIdeal Cert.KernelIdeal.Gen
open Idealize.ShloMosaic.Pipeline (Dat)

section Region14

variable (V : (c : Dev nD) → (b : Ref sig .tc) → Buf (Elt Ideal) ((c : Thread nD τ).loc b))

/-- The index maps over the grid: the row-blocked windows sit at block row `t`, the others at block 0. -/
theorem idxFacts14 : ∀ t : Fin cfg14.N, t.val < 25
    ∧ win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = t.val ∧ win14_5.index t (1 : Fin 2) = 0 :=
  (by decide +kernel : ∀ t : Fin grid14.N, _)

/-- Every block row is some point's. -/
theorem idxOnto14 : ∀ q : Fin 25, ∃ t : Fin cfg14.N, win14_5.index t (0 : Fin 2) = q.val ∧ win14_5.index t (1 : Fin 2) = 0 :=
  (by decide +kernel : ∀ q : Fin 25, ∃ t : Fin grid14.N, win14_5.index t (0 : Fin 2) = q.val ∧ win14_5.index t (1 : Fin 2) = 0)

set_option maxHeartbeats 1000000 in
/-- What point `t` writes back is block `t` of the normalized array of the operands as the region finds them. -/
theorem flushed14 (c : Dev nD) (t : Fin cfg14.N) :
    (dat14 (F := Ideal) V c).flushed 5 t
      = ((cfg14.win 5).blk t).view.read (Elt Ideal)
          (bnG (V c (Pipeline.arrRef spec14 0)) (V c (Pipeline.arrRef spec14 1))
            (V c (Pipeline.arrRef spec14 2)) (V c (Pipeline.arrRef spec14 3)) (V c (Pipeline.arrRef spec14 4))) := by
  show (cfg14.win 5).cut (grid14.coords t) ((dat14 V c).after 5 t) = _
  rw [after14_5]
  obtain ⟨ht, e00, e01, e10, e11, e20, e21, e30, e31, e40, e41, e50, e51⟩ := idxFacts14 t
  funext y
  obtain ⟨r, j, rfl⟩ : ∃ (r : Fin 2000) (j : Fin 256), y = ix2 r j := ⟨y 0, y 1, eq_ix2 y⟩
  have hemb : ((cfg14.win 5).blk t).view.emb (ix2 r j)
      = (ix2 (⟨t.val * 2000 + r.val, by have := r.isLt; omega⟩ : Fin 50000) j : S50000x256.Idx) := by
    funext a; apply Fin.ext
    match a with
    | ⟨0, _⟩ => show win14_5.index t (0 : Fin 2) * 2000 + 1 * r.val = t.val * 2000 + r.val; rw [e50]; omega
    | ⟨1, _⟩ => show win14_5.index t (1 : Fin 2) * 256 + 1 * j.val = j.val; rw [e51]; omega
  show out14_5 (iblk14 V c 0 t) (iblk14 V c 1 t) (iblk14 V c 2 t) (iblk14 V c 3 t) (iblk14 V c 4 t) (ix2 r j)
      = bnG _ _ _ _ _ (((cfg14.win 5).blk t).view.emb (ix2 r j))
  rw [hemb]
  refine bn_point (iblk14 V c 0 t) (iblk14 V c 1 t) (iblk14 V c 2 t) (iblk14 V c 3 t) (iblk14 V c 4 t)
    (V c (Pipeline.arrRef spec14 0)) (V c (Pipeline.arrRef spec14 1)) (V c (Pipeline.arrRef spec14 2)) (V c (Pipeline.arrRef spec14 3)) (V c (Pipeline.arrRef spec14 4))
    r j (⟨t.val * 2000 + r.val, by have := r.isLt; omega⟩ : Fin 50000) ?_ ?_ ?_ ?_ ?_
  · show V c (Pipeline.arrRef spec14 0) (((cfg14.win 0).blk t).view.emb (ix2 r j)) = _
    refine congrArg (V c (Pipeline.arrRef spec14 0)) (funext fun a => Fin.ext ?_)
    match a with
    | ⟨0, _⟩ => show win14_0.index t (0 : Fin 2) * 2000 + 1 * r.val = t.val * 2000 + r.val; rw [e00]; omega
    | ⟨1, _⟩ => show win14_0.index t (1 : Fin 2) * 256 + 1 * j.val = j.val; rw [e01]; omega
  · show V c (Pipeline.arrRef spec14 1) (((cfg14.win 1).blk t).view.emb (ix2 (0 : Fin 1) j)) = _
    refine congrArg (V c (Pipeline.arrRef spec14 1)) (funext fun a => Fin.ext ?_)
    match a with
    | ⟨0, _⟩ => show win14_1.index t (0 : Fin 2) * 1 + 1 * 0 = 0; rw [e10]
    | ⟨1, _⟩ => show win14_1.index t (1 : Fin 2) * 256 + 1 * j.val = j.val; rw [e11]; omega
  · show V c (Pipeline.arrRef spec14 2) (((cfg14.win 2).blk t).view.emb (ix2 (0 : Fin 1) j)) = _
    refine congrArg (V c (Pipeline.arrRef spec14 2)) (funext fun a => Fin.ext ?_)
    match a with
    | ⟨0, _⟩ => show win14_2.index t (0 : Fin 2) * 1 + 1 * 0 = 0; rw [e20]
    | ⟨1, _⟩ => show win14_2.index t (1 : Fin 2) * 256 + 1 * j.val = j.val; rw [e21]; omega
  · show V c (Pipeline.arrRef spec14 3) (((cfg14.win 3).blk t).view.emb (ix2 (0 : Fin 1) j)) = _
    refine congrArg (V c (Pipeline.arrRef spec14 3)) (funext fun a => Fin.ext ?_)
    match a with
    | ⟨0, _⟩ => show win14_3.index t (0 : Fin 2) * 1 + 1 * 0 = 0; rw [e30]
    | ⟨1, _⟩ => show win14_3.index t (1 : Fin 2) * 256 + 1 * j.val = j.val; rw [e31]; omega
  · show V c (Pipeline.arrRef spec14 4) (((cfg14.win 4).blk t).view.emb (ix2 (0 : Fin 1) j)) = _
    refine congrArg (V c (Pipeline.arrRef spec14 4)) (funext fun a => Fin.ext ?_)
    match a with
    | ⟨0, _⟩ => show win14_4.index t (0 : Fin 2) * 1 + 1 * 0 = 0; rw [e40]
    | ⟨1, _⟩ => show win14_4.index t (1 : Fin 2) * 256 + 1 * j.val = j.val; rw [e41]; omega

/-- An index of the output array is in point `t`'s block iff each coordinate is in the block's range. -/
theorem memBlk14 (t : Fin cfg14.N) (i : S50000x256.Idx) :
    i ∈ ((cfg14.win 5).blk t).view.set ↔ ∀ a : Fin 2, win14_5.index t a * S2000x256.size a ≤ (i a).val
      ∧ (i a).val < win14_5.index t a * S2000x256.size a + S2000x256.size a := by
  show i ∈ ((View.whole (Pipeline.arrRef spec14 5)).slice (win14_5.rect t)).set ↔ _
  rw [View.set_slice_whole, Rect.mem_set_unit]
  exact Iff.rfl

/-- Row `n` is covered by point `n / 2000`. -/
theorem cover14 (i : S50000x256.Idx) :
    ∃ t : Fin cfg14.N, (cfg14.win 5).flush t = true ∧ i ∈ ((cfg14.win 5).blk t).view.set := by
  have hi0 : (i 0).val < 50000 := (i 0).isLt
  have hi1 : (i 1).val < 256 := (i 1).isLt
  obtain ⟨t, q0, q1⟩ := idxOnto14 ⟨(i 0).val / 2000, by omega⟩
  have q0' : win14_5.index t (0 : Fin 2) = (i 0).val / 2000 := q0
  refine ⟨t, flush14_5 t, ?_⟩
  rw [memBlk14]
  intro a
  match a with
  | ⟨0, _⟩ => show win14_5.index t (0 : Fin 2) * 2000 ≤ (i 0).val ∧ (i 0).val < win14_5.index t (0 : Fin 2) * 2000 + 2000; rw [q0']; omega
  | ⟨1, _⟩ => show win14_5.index t (1 : Fin 2) * 256 ≤ (i 1).val ∧ (i 1).val < win14_5.index t (1 : Fin 2) * 256 + 256; rw [q1]; omega

/-- THE OUTPUT ARRAY after the region: the specification's array of the operand arrays as the region finds them. -/
theorem final14 (c : Dev nD) :
    (dat14 (F := Ideal) V c).arrAt 5 cfg14.N
      = bnG (V c (Pipeline.arrRef spec14 0)) (V c (Pipeline.arrRef spec14 1))
          (V c (Pipeline.arrRef spec14 2)) (V c (Pipeline.arrRef spec14 3)) (V c (Pipeline.arrRef spec14 4)) :=
  (dat14 (F := Ideal) V c).arrAt_eq_of_cover 5 _ (fun t _ => flushed14 V c t) (cover14)

end Region14

end Cert.KernelIdeal.RV

end
-- ==== Proof.KRegions.lean ====
/-
  Every kernel region's output array as a whole-array function of the region's operand arrays: the fifteen
  per-region statements `final0` … `final14`, gathered under one import.
-/
import proofs.«107720_j79044578115931_2_alg».proof.Proof.KFuse0
import proofs.«107720_j79044578115931_2_alg».proof.Proof.KMlp1
import proofs.«107720_j79044578115931_2_alg».proof.Proof.KBn2
import proofs.«107720_j79044578115931_2_alg».proof.Proof.KFuse3
import proofs.«107720_j79044578115931_2_alg».proof.Proof.KMlp4
import proofs.«107720_j79044578115931_2_alg».proof.Proof.KBn5
import proofs.«107720_j79044578115931_2_alg».proof.Proof.KFuse6
import proofs.«107720_j79044578115931_2_alg».proof.Proof.KMlp7
import proofs.«107720_j79044578115931_2_alg».proof.Proof.KBn8
import proofs.«107720_j79044578115931_2_alg».proof.Proof.KFuse9
import proofs.«107720_j79044578115931_2_alg».proof.Proof.KMlp10
import proofs.«107720_j79044578115931_2_alg».proof.Proof.KBn11
import proofs.«107720_j79044578115931_2_alg».proof.Proof.KFuse12
import proofs.«107720_j79044578115931_2_alg».proof.Proof.KMlp13
import proofs.«107720_j79044578115931_2_alg».proof.Proof.KBn14
-- ==== Proof.RefOps.lean ====
/- The reference program's @main as lists of its host operations, in order, a call's operations in the
   place of the call over that call's own buffers. The statements are cut into consecutive segments at the
   printed windows' boundaries (every 60 statements) and at the network's (the prologue up to the edge
   normalization, then one stretch per layer); a window and a layer are each a concatenation of segments. -/
import proofs.«107720_j79044578115931_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- Statements 1 … 37 of @main (39 operations). -/
abbrev seg0 : List (HloOp τ sig (Elt F)) :=
  [ StableHlo.unary main_arg1 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg1 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_cst (constant S_ .f32 0x3F800000#32),
    StableHlo.unary main_cst main_v4 (broadcastInDim S320000 ![] bcast_S_S320000 : (⟨S_, .f32⟩ : BufTy).Contents (Elt F) → (⟨S320000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S320000x1 ![0] bcast_S320000_S320000x1_0 : (⟨S320000, .i32⟩ : BufTy).Contents (Elt F) → (⟨S320000x1, .i32⟩ : BufTy).Contents (Elt F)),
    StableHlo.ternary main_v5 main_v6 main_v4 main_v7 ((fun x i u => Host.scatterAdd scatter_S50000_S320000x1_S320000_n_0_0_1 x i u) : (⟨S50000, .f32⟩ : BufTy).Contents (Elt F) → (⟨S320000x1, .i32⟩ : BufTy).Contents (Elt F) → (⟨S320000, .f32⟩ : BufTy).Contents (Elt F) → (⟨S50000, .f32⟩ : BufTy).Contents (Elt F)),
    StableHlo.nullary main_cst_1 (constant S_ .f32 0x00000000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v10 (broadcastInDim S50000 ![] bcast_S_S50000 : (⟨S_, .f32⟩ : BufTy).Contents (Elt F) → (⟨S50000, .f32⟩ : BufTy).Contents (Elt F)),
    StableHlo.binary main_v7 main_v10 main_v11 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S50000 ![] bcast_S_S50000),
    StableHlo.TRef.ternary (.of main_v9) (.of main_v11) main_call0.v1 main_call0.v2 select,
    StableHlo.nullary main_c (constantI S_ 32 0#32),
    StableHlo.unary main_c main_v13 (broadcastInDim S320000 ![] bcast_S_S320000 : (⟨S_, .i32⟩ : BufTy).Contents (Elt F) → (⟨S320000, .i32⟩ : BufTy).Contents (Elt F)),
    StableHlo.binary main_v1 main_v13 main_v14 (cmpi .slt : (⟨S320000, .i32⟩ : BufTy).Contents (Elt F) → (⟨S320000, .i32⟩ : BufTy).Contents (Elt F) → (⟨S320000, .i1⟩ : BufTy).Contents (Elt F)),
    StableHlo.nullary main_c_4 (constantI S_ 32 50000#32),
    StableHlo.unary main_c_4 main_v15 (broadcastInDim S320000 ![] bcast_S_S320000 : (⟨S_, .i32⟩ : BufTy).Contents (Elt F) → (⟨S320000, .i32⟩ : BufTy).Contents (Elt F)),
    StableHlo.binary main_v1 main_v15 main_v16 (addi : (⟨S320000, .i32⟩ : BufTy).Contents (Elt F) → (⟨S320000, .i32⟩ : BufTy).Contents (Elt F) → (⟨S320000, .i32⟩ : BufTy).Contents (Elt F)),
    StableHlo.ternary main_v14 main_v16 main_v1 main_v17 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v17 main_v18 (broadcastInDim S320000x1 ![0] bcast_S320000_S320000x1_0 : (⟨S320000, .i32⟩ : BufTy).Contents (Elt F) → (⟨S320000x1, .i32⟩ : BufTy).Contents (Elt F)),
    StableHlo.binary main_v12 main_v18 main_v19 ((fun x i => Host.gather gather_S50000_S320000x1_S320000_n_0_n_n_0_1_1 x i) : (⟨S50000, .f32⟩ : BufTy).Contents (Elt F) → (⟨S320000x1, .i32⟩ : BufTy).Contents (Elt F) → (⟨S320000, .f32⟩ : BufTy).Contents (Elt F)),
    StableHlo.nullary main_c_5 (constantI S_ 32 0#32),
    StableHlo.unary main_c_5 main_v20 (broadcastInDim S320000 ![] bcast_S_S320000 : (⟨S_, .i32⟩ : BufTy).Contents (Elt F) → (⟨S320000, .i32⟩ : BufTy).Contents (Elt F)),
    StableHlo.binary main_v3 main_v20 main_v21 (cmpi .slt : (⟨S320000, .i32⟩ : BufTy).Contents (Elt F) → (⟨S320000, .i32⟩ : BufTy).Contents (Elt F) → (⟨S320000, .i1⟩ : BufTy).Contents (Elt F)),
    StableHlo.nullary main_c_6 (constantI S_ 32 50000#32),
    StableHlo.unary main_c_6 main_v22 (broadcastInDim S320000 ![] bcast_S_S320000 : (⟨S_, .i32⟩ : BufTy).Contents (Elt F) → (⟨S320000, .i32⟩ : BufTy).Contents (Elt F)),
    StableHlo.binary main_v3 main_v22 main_v23 (addi : (⟨S320000, .i32⟩ : BufTy).Contents (Elt F) → (⟨S320000, .i32⟩ : BufTy).Contents (Elt F) → (⟨S320000, .i32⟩ : BufTy).Contents (Elt F)),
    StableHlo.ternary main_v21 main_v23 main_v3 main_v24 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v24 main_v25 (broadcastInDim S320000x1 ![0] bcast_S320000_S320000x1_0 : (⟨S320000, .i32⟩ : BufTy).Contents (Elt F) → (⟨S320000x1, .i32⟩ : BufTy).Contents (Elt F)),
    StableHlo.binary main_v12 main_v25 main_v26 ((fun x i => Host.gather gather_S50000_S320000x1_S320000_n_0_n_n_0_1_1 x i) : (⟨S50000, .f32⟩ : BufTy).Contents (Elt F) → (⟨S320000x1, .i32⟩ : BufTy).Contents (Elt F) → (⟨S320000, .f32⟩ : BufTy).Contents (Elt F)),
    StableHlo.binary main_v19 main_v26 main_v27 (mulf : (⟨S320000, .f32⟩ : BufTy).Contents (Elt F) → (⟨S320000, .f32⟩ : BufTy).Contents (Elt F) → (⟨S320000, .f32⟩ : BufTy).Contents (Elt F)) ]

theorem seg0_sub : (seg0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

/-- Statements 38 … 60 of @main (23 operations). -/
abbrev seg1 : List (HloOp τ sig (Elt F)) :=
  [ StableHlo.unary main_arg2 main_v28 ((extractStridedSlice S320000x1 ![0, 3] · slices_S320000x4_S320000x1_0_3) : (⟨S320000x4, .f32⟩ : BufTy).Contents (Elt F) → (⟨S320000x1, .f32⟩ : BufTy).Contents (Elt F)),
    StableHlo.unary main_arg5 main_v29 ((extractStridedSlice S1x1x128 ![0, 0, 0] · slices_S5x1x128_S1x1x128_0_0_0) : (⟨S5x1x128, .f32⟩ : BufTy).Contents (Elt F) → (⟨S1x1x128, .f32⟩ : BufTy).Contents (Elt F)),
    StableHlo.reshape main_v29 main_v30 rfl shapeCasts_S1x1x128_S1x128,
    StableHlo.binary main_v28 main_v30 main_v31 ((fun l r => Host.dotGeneral dot_S320000x1_S1x128_S320000x128_1_0_0_1_n_n none l r) : (⟨S320000x1, .f32⟩ : BufTy).Contents (Elt F) → (⟨S1x128, .f32⟩ : BufTy).Contents (Elt F) → (⟨S320000x128, .f32⟩ : BufTy).Contents (Elt F)),
    StableHlo.unary main_arg2 main_v32 ((extractStridedSlice S320000x3 ![0, 0] · slices_S320000x4_S320000x3_0_0) : (⟨S320000x4, .f32⟩ : BufTy).Contents (Elt F) → (⟨S320000x3, .f32⟩ : BufTy).Contents (Elt F)),
    StableHlo.unary main_arg6 main_v33 ((extractStridedSlice S1x3x128 ![0, 0, 0] · slices_S5x3x128_S1x3x128_0_0_0) : (⟨S5x3x128, .f32⟩ : BufTy).Contents (Elt F) → (⟨S1x3x128, .f32⟩ : BufTy).Contents (Elt F)),
    StableHlo.reshape main_v33 main_v34 rfl shapeCasts_S1x3x128_S3x128,
    StableHlo.binary main_v32 main_v34 main_v35 ((fun l r => Host.dotGeneral dot_S320000x3_S3x128_S320000x128_1_0_0_1_n_n none l r) : (⟨S320000x3, .f32⟩ : BufTy).Contents (Elt F) → (⟨S3x128, .f32⟩ : BufTy).Contents (Elt F) → (⟨S320000x128, .f32⟩ : BufTy).Contents (Elt F)),
    StableHlo.binary main_v31 main_v35 main_v36 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_v27 main_v37 (broadcastInDim S320000x1 ![0] bcast_S320000_S320000x1_0 : (⟨S320000, .f32⟩ : BufTy).Contents (Elt F) → (⟨S320000x1, .f32⟩ : BufTy).Contents (Elt F)),
    StableHlo.nullary main_c_7 (constantI S_ 32 0#32),
    StableHlo.unary main_c_7 main_v38 (broadcastInDim S320000 ![] bcast_S_S320000 : (⟨S_, .i32⟩ : BufTy).Contents (Elt F) → (⟨S320000, .i32⟩ : BufTy).Contents (Elt F)),
    StableHlo.binary main_v1 main_v38 main_v39 (cmpi .slt : (⟨S320000, .i32⟩ : BufTy).Contents (Elt F) → (⟨S320000, .i32⟩ : BufTy).Contents (Elt F) → (⟨S320000, .i1⟩ : BufTy).Contents (Elt F)),
    StableHlo.nullary main_c_8 (constantI S_ 32 50000#32),
    StableHlo.unary main_c_8 main_v40 (broadcastInDim S320000 ![] bcast_S_S320000 : (⟨S_, .i32⟩ : BufTy).Contents (Elt F) → (⟨S320000, .i32⟩ : BufTy).Contents (Elt F)),
    StableHlo.binary main_v1 main_v40 main_v41 (addi : (⟨S320000, .i32⟩ : BufTy).Contents (Elt F) → (⟨S320000, .i32⟩ : BufTy).Contents (Elt F) → (⟨S320000, .i32⟩ : BufTy).Contents (Elt F)),
    StableHlo.ternary main_v39 main_v41 main_v1 main_v42 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v42 main_v43 (broadcastInDim S320000x1 ![0] bcast_S320000_S320000x1_0 : (⟨S320000, .i32⟩ : BufTy).Contents (Elt F) → (⟨S320000x1, .i32⟩ : BufTy).Contents (Elt F)),
    StableHlo.binary main_arg0 main_v43 main_v44 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.binary main_v44 main_v36 main_v45 (addf : (⟨S320000x256, .f32⟩ : BufTy).Contents (Elt F) → (⟨S320000x256, .f32⟩ : BufTy).Contents (Elt F) → (⟨S320000x256, .f32⟩ : BufTy).Contents (Elt F)),
    StableHlo.unary main_v37 main_v46 (broadcastInDim S320000x256 ![0, 1] bcast_S320000x1_S320000x256_0_1 : (⟨S320000x1, .f32⟩ : BufTy).Contents (Elt F) → (⟨S320000x256, .f32⟩ : BufTy).Contents (Elt F)),
    StableHlo.binary main_v46 main_v45 main_v47 (mulf : (⟨S320000x256, .f32⟩ : BufTy).Contents (Elt F) → (⟨S320000x256, .f32⟩ : BufTy).Contents (Elt F) → (⟨S320000x256, .f32⟩ : BufTy).Contents (Elt F)),
    StableHlo.nullary main_cst_9 (constant S_ .f32 0x00000000#32) ]

theorem seg1_sub : (seg1 : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub ..⟩

/-- Statements 61 … 101 of @main (66 operations). -/
abbrev seg2 : List (HloOp τ sig (Elt F)) :=
  [ StableHlo.unary main_cst_9 main_v48 (broadcastInDim S50000x256 ![] bcast_S_S50000x256 : (⟨S_, .f32⟩ : BufTy).Contents (Elt F) → (⟨S50000x256, .f32⟩ : BufTy).Contents (Elt F)),
    StableHlo.unary main_v3 main_v49 (broadcastInDim S320000x1 ![0] bcast_S320000_S320000x1_0 : (⟨S320000, .i32⟩ : BufTy).Contents (Elt F) → (⟨S320000x1, .i32⟩ : BufTy).Contents (Elt F)),
    StableHlo.ternary main_v48 main_v49 main_v47 main_v50 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_arg0 main_v50 main_v51 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg3 main_v52 ((extractStridedSlice S1x512x256 ![0, 0, 0] · slices_S5x512x256_S1x512x256_0_0_0) : (⟨S5x512x256, .f32⟩ : BufTy).Contents (Elt F) → (⟨S1x512x256, .f32⟩ : BufTy).Contents (Elt F)),
    StableHlo.reshape main_v52 main_v53 rfl shapeCasts_S1x512x256_S512x256,
    StableHlo.binary main_v51 main_v53 main_v54 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg4 main_v55 ((extractStridedSlice S1x256 ![0, 0] · slices_S5x256_S1x256_0_0) : (⟨S5x256, .f32⟩ : BufTy).Contents (Elt F) → (⟨S1x256, .f32⟩ : BufTy).Contents (Elt F)),
    StableHlo.reshape main_v55 main_v56 rfl shapeCasts_S1x256_S256,
    StableHlo.unary main_v56 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S50000x256 ![0, 1] bcast_S1x256_S50000x256_0_1 : (⟨S1x256, .f32⟩ : BufTy).Contents (Elt F) → (⟨S50000x256, .f32⟩ : BufTy).Contents (Elt F)),
    StableHlo.binary main_v54 main_v58 main_v59 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v59) main_call1.v0 main_call1.v1 maximumf,
    StableHlo.nullary main_cst_10 (constant S_ .f32 0x00000000#32),
    StableHlo.binary main_v60 main_cst_10 main_v61 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_11 (constant S_ .f32 0x47435000#32),
    StableHlo.unary main_cst_11 main_v62 (broadcastInDim S256 ![] bcast_S_S256 : (⟨S_, .f32⟩ : BufTy).Contents (Elt F) → (⟨S256, .f32⟩ : BufTy).Contents (Elt F)),
    StableHlo.binary main_v61 main_v62 main_v63 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary main_call2.cst (constant S_ .f32 0x00000000#32),
    StableHlo.TRef.binary (.of main_v60) main_call2.cst main_call2.v0 (fun x v => Host.reduceAdd x v reducesTo_S50000x256_S256_d0 h_S_),
    StableHlo.TRef.unary main_call2.v0 main_call2.v1 (broadcastInDim S1x256 ![1] bcast_S256_S1x256_1),
    StableHlo.TRef.nullary main_call2.cst_0 (constant S_ .f32 0x47435000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S50000x256 ![0, 1] bcast_S1x256_S50000x256_0_1),
    StableHlo.TRef.binary (.of main_v60) main_call2.v4 main_call2.v5 subf,
    StableHlo.TRef.binary main_call2.v5 main_call2.v5 main_call2.v6 mulf,
    StableHlo.TRef.unary (.of main_c_12) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v63 main_v65 (broadcastInDim S1x256 ![1] bcast_S256_S1x256_1 : (⟨S256, .f32⟩ : BufTy).Contents (Elt F) → (⟨S1x256, .f32⟩ : BufTy).Contents (Elt F)),
    StableHlo.unary main_v65 main_v66 (broadcastInDim S50000x256 ![0, 1] bcast_S1x256_S50000x256_0_1 : (⟨S1x256, .f32⟩ : BufTy).Contents (Elt F) → (⟨S50000x256, .f32⟩ : BufTy).Contents (Elt F)),
    StableHlo.binary main_v60 main_v66 main_v67 (subf : (⟨S50000x256, .f32⟩ : BufTy).Contents (Elt F) → (⟨S50000x256, .f32⟩ : BufTy).Contents (Elt F) → (⟨S50000x256, .f32⟩ : BufTy).Contents (Elt F)),
    StableHlo.nullary main_cst_13 (constant S_ .f32 0x3727C5AC#32),
    StableHlo.unary main_cst_13 main_v68 (broadcastInDim S256 ![] bcast_S_S256 : (⟨S_, .f32⟩ : BufTy).Contents (Elt F) → (⟨S256, .f32⟩ : BufTy).Contents (Elt F)),
    StableHlo.binary main_v64 main_v68 main_v69 (addf : (⟨S256, .f32⟩ : BufTy).Contents (Elt F) → (⟨S256, .f32⟩ : BufTy).Contents (Elt F) → (⟨S256, .f32⟩ : BufTy).Contents (Elt F)),
    StableHlo.unary main_v69 main_v70 (Host.rsqrt : (⟨S256, .f32⟩ : BufTy).Contents (Elt F) → (⟨S256, .f32⟩ : BufTy).Contents (Elt F)),
    StableHlo.unary main_v70 main_v71 (broadcastInDim S1x256 ![1] bcast_S256_S1x256_1 : (⟨S256, .f32⟩ : BufTy).Contents (Elt F) → (⟨S1x256, .f32⟩ : BufTy).Contents (Elt F)),
    StableHlo.unary main_v71 main_v72 (broadcastInDim S50000x256 ![0, 1] bcast_S1x256_S50000x256_0_1 : (⟨S1x256, .f32⟩ : BufTy).Contents (Elt F) → (⟨S50000x256, .f32⟩ : BufTy).Contents (Elt F)),
    StableHlo.binary main_v67 main_v72 main_v73 (mulf : (⟨S50000x256, .f32⟩ : BufTy).Contents (Elt F) → (⟨S50000x256, .f32⟩ : BufTy).Contents (Elt F) → (⟨S50000x256, .f32⟩ : BufTy).Contents (Elt F)),
    StableHlo.unary main_arg7 main_v74 ((extractStridedSlice S1x256 ![0, 0] · slices_S5x256_S1x256_0_0) : (⟨S5x256, .f32⟩ : BufTy).Contents (Elt F) → (⟨S1x256, .f32⟩ : BufTy).Contents (Elt F)),
    StableHlo.reshape main_v74 main_v75 rfl shapeCasts_S1x256_S256,
    StableHlo.unary main_v75 main_v76 (broadcastInDim S1x256 ![1] bcast_S256_S1x256_1 : (⟨S256, .f32⟩ : BufTy).Contents (Elt F) → (⟨S1x256, .f32⟩ : BufTy).Contents (Elt F)),
    StableHlo.unary main_v76 main_v77 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v77 main_v78 (mulf : (⟨S50000x256, .f32⟩ : BufTy).Contents (Elt F) → (⟨S50000x256, .f32⟩ : BufTy).Contents (Elt F) → (⟨S50000x256, .f32⟩ : BufTy).Contents (Elt F)),
    StableHlo.unary main_arg8 main_v79 ((extractStridedSlice S1x256 ![0, 0] · slices_S5x256_S1x256_0_0) : (⟨S5x256, .f32⟩ : BufTy).Contents (Elt F) → (⟨S1x256, .f32⟩ : BufTy).Contents (Elt F)),
    StableHlo.reshape main_v79 main_v80 rfl shapeCasts_S1x256_S256,
    StableHlo.unary main_v80 main_v81 (broadcastInDim S1x256 ![1] bcast_S256_S1x256_1 : (⟨S256, .f32⟩ : BufTy).Contents (Elt F) → (⟨S1x256, .f32⟩ : BufTy).Contents (Elt F)),
    StableHlo.unary main_v81 main_v82 (broadcastInDim S50000x256 ![0, 1] bcast_S1x256_S50000x256_0_1 : (⟨S1x256, .f32⟩ : BufTy).Contents (Elt F) → (⟨S50000x256, .f32⟩ : BufTy).Contents (Elt F)),
    StableHlo.binary main_v78 main_v82 main_v83 (addf : (⟨S50000x256, .f32⟩ : BufTy).Contents (Elt F) → (⟨S50000x256, .f32⟩ : BufTy).Contents (Elt F) → (⟨S50000x256, .f32⟩ : BufTy).Contents (Elt F)),
    StableHlo.TRef.nullary main_call3.cst (constant S_ .f32 0x00000000#32),
    StableHlo.TRef.unary main_call3.cst main_call3.v0 (broadcastInDim S50000x256 ![] bcast_S_S50000x256),
    StableHlo.TRef.binary (.of main_v83) main_call3.v0 main_call3.v1 maximumf ]

theorem seg2_sub : (seg2 : List (HloOp τ sig (Elt F))).Forall fun op => op.bufs ⊆ tcRefs τ sig :=
  ⟨unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Statements 102 … 120 of @main (19 operations). -/
abbrev seg3 : List (HloOp τ sig (Elt F)) :=
  [ StableHlo.unary main_arg2 main_v85 ((extractStridedSlice S320000x1 ![0, 3] · slices_S320000x4_S320000x1_0_3) : (⟨S320000x4, .f32⟩ : BufTy).Contents (Elt F) → (⟨S320000x1, .f32⟩ : BufTy).Contents (Elt F)),
    StableHlo.unary main_arg5 main_v86 ((extractStridedSlice S1x1x128 ![1, 0, 0] · slices_S5x1x128_S1x1x128_1_0_0) : (⟨S5x1x128, .f32⟩ : BufTy).Contents (Elt F) → (⟨S1x1x128, .f32⟩ : BufTy).Contents (Elt F)),
    StableHlo.reshape main_v86 main_v87 rfl shapeCasts_S1x1x128_S1x128,
    StableHlo.binary main_v85 main_v87 main_v88 ((fun l r => Host.dotGeneral dot_S320000x1_S1x128_S320000x128_1_0_0_1_n_n none l r) : (⟨S320000x1, .f32⟩ : BufTy).Contents (Elt F) → (⟨S1x128, .f32⟩ : BufTy).Contents (Elt F) → (⟨S320000x128, .f32⟩ : BufTy).Contents (Elt F)),
    StableHlo.unary main_arg2 main_v89 ((extractStridedSlice S320000x3 ![0, 0] · slices_S320000x4_S320000x3_0_0) : (⟨S320000x4, .f32⟩ : BufTy).Contents (Elt F) → (⟨S320000x3, .f32⟩ : BufTy).Contents (Elt F)),
    StableHlo.unary main_arg6 main_v90 ((extractStridedSlice S1x3x128 ![1, 0, 0] · slices_S5x3x128_S1x3x128_1_0_0) : (⟨S5x3x128, .f32⟩ : BufTy).Contents (Elt F) → (⟨S1x3x128, .f32⟩ : BufTy).Contents (Elt F)),
    StableHlo.reshape main_v90 main_v91 rfl shapeCasts_S1x3x128_S3x128,
    StableHlo.binary main_v89 main_v91 main_v92 ((fun l r => Host.dotGeneral dot_S320000x3_S3x128_S320000x128_1_0_0_1_n_n none l r) : (⟨S320000x3, .f32⟩ : BufTy).Contents (Elt F) → (⟨S3x128, .f32⟩ : BufTy).Contents (Elt F) → (⟨S320000x128, .f32⟩ : BufTy).Contents (Elt F)),
    StableHlo.binary main_v88 main_v92 main_v93 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_v27 main_v94 (broadcastInDim S320000x1 ![0] bcast_S320000_S320000x1_0 : (⟨S320000, .f32⟩ : BufTy).Contents (Elt F) → (⟨S320000x1, .f32⟩ : BufTy).Contents (Elt F)),
    StableHlo.nullary main_c_14 (constantI S_ 32 0#32),
    StableHlo.unary main_c_14 main_v95 (broadcastInDim S320000 ![] bcast_S_S320000 : (⟨S_, .i32⟩ : BufTy).Contents (Elt F) → (⟨S320000, .i32⟩ : BufTy).Contents (Elt F)),
    StableHlo.binary main_v1 main_v95 main_v96 (cmpi .slt : (⟨S320000, .i32⟩ : BufTy).Contents (Elt F) → (⟨S320000, .i32⟩ : BufTy).Contents (Elt F) → (⟨S320000, .i1⟩ : BufTy).Contents (Elt F)),
    StableHlo.nullary main_c_15 (constantI S_ 32 50000#32),
    StableHlo.unary main_c_15 main_v97 (broadcastInDim S320000 ![] bcast_S_S320000 : (⟨S_, .i32⟩ : BufTy).Contents (Elt F) → (⟨S320000, .i32⟩ : BufTy).Contents (Elt F)),
    StableHlo.binary main_v1 main_v97 main_v98 (addi : (⟨S320000, .i32⟩ : BufTy).Contents (Elt F) → (⟨S320000, .i32⟩ : BufTy).Contents (Elt F) → (⟨S320000, .i32⟩ : BufTy).Contents (Elt F)),
    StableHlo.ternary main_v96 main_v98 main_v1 main_v99 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v99 main_v100 (broadcastInDim S320000x1 ![0] bcast_S320000_S320000x1_0 : (⟨S320000, .i32⟩ : BufTy).Contents (Elt F) → (⟨S320000x1, .i32⟩ : BufTy).Contents (Elt F)),
    StableHlo.binary main_v84 main_v100 main_v101 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)) ]

theorem seg3_sub : (seg3 : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

/-- Statements 121 … 165 of @main (70 operations). -/
abbrev seg4 : List (HloOp τ sig (Elt F)) :=
  [ StableHlo.binary main_v101 main_v93 main_v102 (addf : (⟨S320000x256, .f32⟩ : BufTy).Contents (Elt F) → (⟨S320000x256, .f32⟩ : BufTy).Contents (Elt F) → (⟨S320000x256, .f32⟩ : BufTy).Contents (Elt F)),
    StableHlo.unary main_v94 main_v103 (broadcastInDim S320000x256 ![0, 1] bcast_S320000x1_S320000x256_0_1 : (⟨S320000x1, .f32⟩ : BufTy).Contents (Elt F) → (⟨S320000x256, .f32⟩ : BufTy).Contents (Elt F)),
    StableHlo.binary main_v103 main_v102 main_v104 (mulf : (⟨S320000x256, .f32⟩ : BufTy).Contents (Elt F) → (⟨S320000x256, .f32⟩ : BufTy).Contents (Elt F) → (⟨S320000x256, .f32⟩ : BufTy).Contents (Elt F)),
    StableHlo.nullary main_cst_16 (constant S_ .f32 0x00000000#32),
    StableHlo.unary main_cst_16 main_v105 (broadcastInDim S50000x256 ![] bcast_S_S50000x256 : (⟨S_, .f32⟩ : BufTy).Contents (Elt F) → (⟨S50000x256, .f32⟩ : BufTy).Contents (Elt F)),
    StableHlo.unary main_v3 main_v106 (broadcastInDim S320000x1 ![0] bcast_S320000_S320000x1_0 : (⟨S320000, .i32⟩ : BufTy).Contents (Elt F) → (⟨S320000x1, .i32⟩ : BufTy).Contents (Elt F)),
    StableHlo.ternary main_v105 main_v106 main_v104 main_v107 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v84 main_v107 main_v108 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg3 main_v109 ((extractStridedSlice S1x512x256 ![1, 0, 0] · slices_S5x512x256_S1x512x256_1_0_0) : (⟨S5x512x256, .f32⟩ : BufTy).Contents (Elt F) → (⟨S1x512x256, .f32⟩ : BufTy).Contents (Elt F)),
    StableHlo.reshape main_v109 main_v110 rfl shapeCasts_S1x512x256_S512x256,
    StableHlo.binary main_v108 main_v110 main_v111 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg4 main_v112 ((extractStridedSlice S1x256 ![1, 0] · slices_S5x256_S1x256_1_0) : (⟨S5x256, .f32⟩ : BufTy).Contents (Elt F) → (⟨S1x256, .f32⟩ : BufTy).Contents (Elt F)),
    StableHlo.reshape main_v112 main_v113 rfl shapeCasts_S1x256_S256,
    StableHlo.unary main_v113 main_v114 (broadcastInDim S1x256 ![1] bcast_S256_S1x256_1 : (⟨S256, .f32⟩ : BufTy).Contents (Elt F) → (⟨S1x256, .f32⟩ : BufTy).Contents (Elt F)),
    StableHlo.unary main_v114 main_v115 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v115 main_v116 (addf : (⟨S50000x256, .f32⟩ : BufTy).Contents (Elt F) → (⟨S50000x256, .f32⟩ : BufTy).Contents (Elt F) → (⟨S50000x256, .f32⟩ : BufTy).Contents (Elt F)),
    StableHlo.TRef.nullary main_call4.cst (constant S_ .f32 0x00000000#32),
    StableHlo.TRef.unary main_call4.cst main_call4.v0 (broadcastInDim S50000x256 ![] bcast_S_S50000x256),
    StableHlo.TRef.binary (.of main_v116) main_call4.v0 main_call4.v1 maximumf,
    StableHlo.nullary main_cst_17 (constant S_ .f32 0x00000000#32),
    StableHlo.binary main_v117 main_cst_17 main_v118 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_18 (constant S_ .f32 0x47435000#32),
    StableHlo.unary main_cst_18 main_v119 (broadcastInDim S256 ![] bcast_S_S256 : (⟨S_, .f32⟩ : BufTy).Contents (Elt F) → (⟨S256, .f32⟩ : BufTy).Contents (Elt F)),
    StableHlo.binary main_v118 main_v119 main_v120 (Host.divf : (⟨S256, .f32⟩ : BufTy).Contents (Elt F) → (⟨S256, .f32⟩ : BufTy).Contents (Elt F) → (⟨S256, .f32⟩ : BufTy).Contents (Elt F)),
    StableHlo.nullary main_c_19 (constantI S_ 32 0#32),
    StableHlo.TRef.nullary main_call5.cst (constant S_ .f32 0x00000000#32),
    StableHlo.TRef.binary (.of main_v117) main_call5.cst main_call5.v0 (fun x v => Host.reduceAdd x v reducesTo_S50000x256_S256_d0 h_S_),
    StableHlo.TRef.unary main_call5.v0 main_call5.v1 (broadcastInDim S1x256 ![1] bcast_S256_S1x256_1),
    StableHlo.TRef.nullary main_call5.cst_0 (constant S_ .f32 0x47435000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S50000x256 ![0, 1] bcast_S1x256_S50000x256_0_1),
    StableHlo.TRef.binary (.of main_v117) main_call5.v4 main_call5.v5 subf,
    StableHlo.TRef.binary main_call5.v5 main_call5.v5 main_call5.v6 mulf,
    StableHlo.TRef.unary (.of main_c_19) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v120 main_v122 (broadcastInDim S1x256 ![1] bcast_S256_S1x256_1 : (⟨S256, .f32⟩ : BufTy).Contents (Elt F) → (⟨S1x256, .f32⟩ : BufTy).Contents (Elt F)),
    StableHlo.unary main_v122 main_v123 (broadcastInDim S50000x256 ![0, 1] bcast_S1x256_S50000x256_0_1 : (⟨S1x256, .f32⟩ : BufTy).Contents (Elt F) → (⟨S50000x256, .f32⟩ : BufTy).Contents (Elt F)),
    StableHlo.binary main_v117 main_v123 main_v124 (subf : (⟨S50000x256, .f32⟩ : BufTy).Contents (Elt F) → (⟨S50000x256, .f32⟩ : BufTy).Contents (Elt F) → (⟨S50000x256, .f32⟩ : BufTy).Contents (Elt F)),
    StableHlo.nullary main_cst_20 (constant S_ .f32 0x3727C5AC#32),
    StableHlo.unary main_cst_20 main_v125 (broadcastInDim S256 ![] bcast_S_S256 : (⟨S_, .f32⟩ : BufTy).Contents (Elt F) → (⟨S256, .f32⟩ : BufTy).Contents (Elt F)),
    StableHlo.binary main_v121 main_v125 main_v126 (addf : (⟨S256, .f32⟩ : BufTy).Contents (Elt F) → (⟨S256, .f32⟩ : BufTy).Contents (Elt F) → (⟨S256, .f32⟩ : BufTy).Contents (Elt F)),
    StableHlo.unary main_v126 main_v127 (Host.rsqrt : (⟨S256, .f32⟩ : BufTy).Contents (Elt F) → (⟨S256, .f32⟩ : BufTy).Contents (Elt F)),
    StableHlo.unary main_v127 main_v128 (broadcastInDim S1x256 ![1] bcast_S256_S1x256_1 : (⟨S256, .f32⟩ : BufTy).Contents (Elt F) → (⟨S1x256, .f32⟩ : BufTy).Contents (Elt F)),
    StableHlo.unary main_v128 main_v129 (broadcastInDim S50000x256 ![0, 1] bcast_S1x256_S50000x256_0_1 : (⟨S1x256, .f32⟩ : BufTy).Contents (Elt F) → (⟨S50000x256, .f32⟩ : BufTy).Contents (Elt F)),
    StableHlo.binary main_v124 main_v129 main_v130 (mulf : (⟨S50000x256, .f32⟩ : BufTy).Contents (Elt F) → (⟨S50000x256, .f32⟩ : BufTy).Contents (Elt F) → (⟨S50000x256, .f32⟩ : BufTy).Contents (Elt F)),
    StableHlo.unary main_arg7 main_v131 ((extractStridedSlice S1x256 ![1, 0] · slices_S5x256_S1x256_1_0) : (⟨S5x256, .f32⟩ : BufTy).Contents (Elt F) → (⟨S1x256, .f32⟩ : BufTy).Contents (Elt F)),
    StableHlo.reshape main_v131 main_v132 rfl shapeCasts_S1x256_S256,
    StableHlo.unary main_v132 main_v133 (broadcastInDim S1x256 ![1] bcast_S256_S1x256_1 : (⟨S256, .f32⟩ : BufTy).Contents (Elt F) → (⟨S1x256, .f32⟩ : BufTy).Contents (Elt F)),
    StableHlo.unary main_v133 main_v134 (broadcastInDim S50000x256 ![0, 1] bcast_S1x256_S50000x256_0_1 : (⟨S1x256, .f32⟩ : BufTy).Contents (Elt F) → (⟨S50000x256, .f32⟩ : BufTy).Contents (Elt F)),
    StableHlo.binary main_v130 main_v134 main_v135 (mulf : (⟨S50000x256, .f32⟩ : BufTy).Contents (Elt F) → (⟨S50000x256, .f32⟩ : BufTy).Contents (Elt F) → (⟨S50000x256, .f32⟩ : BufTy).Contents (Elt F)),
    StableHlo.unary main_arg8 main_v136 ((extractStridedSlice S1x256 ![1, 0] · slices_S5x256_S1x256_1_0) : (⟨S5x256, .f32⟩ : BufTy).Contents (Elt F) → (⟨S1x256, .f32⟩ : BufTy).Contents (Elt F)),
    StableHlo.reshape main_v136 main_v137 rfl shapeCasts_S1x256_S256,
    StableHlo.unary main_v137 main_v138 (broadcastInDim S1x256 ![1] bcast_S256_S1x256_1 : (⟨S256, .f32⟩ : BufTy).Contents (Elt F) → (⟨S1x256, .f32⟩ : BufTy).Contents (Elt F)),
    StableHlo.unary main_v138 main_v139 (broadcastInDim S50000x256 ![0, 1] bcast_S1x256_S50000x256_0_1 : (⟨S1x256, .f32⟩ : BufTy).Contents (Elt F) → (⟨S50000x256, .f32⟩ : BufTy).Contents (Elt F)),
    StableHlo.binary main_v135 main_v139 main_v140 (addf : (⟨S50000x256, .f32⟩ : BufTy).Contents (Elt F) → (⟨S50000x256, .f32⟩ : BufTy).Contents (Elt F) → (⟨S50000x256, .f32⟩ : BufTy).Contents (Elt F)),
    StableHlo.TRef.nullary main_call6.cst (constant S_ .f32 0x00000000#32),
    StableHlo.TRef.unary main_call6.cst main_call6.v0 (broadcastInDim S50000x256 ![] bcast_S_S50000x256),
    StableHlo.TRef.binary (.of main_v140) main_call6.v0 main_call6.v1 maximumf ]

theorem seg4_sub : (seg4 : List (HloOp τ sig (Elt F))).Forall fun op => op.bufs ⊆ tcRefs τ sig :=
  ⟨binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Statements 166 … 180 of @main (15 operations). -/
abbrev seg5 : List (HloOp τ sig (Elt F)) :=
  [ StableHlo.unary main_arg2 main_v142 ((extractStridedSlice S320000x1 ![0, 3] · slices_S320000x4_S320000x1_0_3) : (⟨S320000x4, .f32⟩ : BufTy).Contents (Elt F) → (⟨S320000x1, .f32⟩ : BufTy).Contents (Elt F)),
    StableHlo.unary main_arg5 main_v143 ((extractStridedSlice S1x1x128 ![2, 0, 0] · slices_S5x1x128_S1x1x128_2_0_0) : (⟨S5x1x128, .f32⟩ : BufTy).Contents (Elt F) → (⟨S1x1x128, .f32⟩ : BufTy).Contents (Elt F)),
    StableHlo.reshape main_v143 main_v144 rfl shapeCasts_S1x1x128_S1x128,
    StableHlo.binary main_v142 main_v144 main_v145 ((fun l r => Host.dotGeneral dot_S320000x1_S1x128_S320000x128_1_0_0_1_n_n none l r) : (⟨S320000x1, .f32⟩ : BufTy).Contents (Elt F) → (⟨S1x128, .f32⟩ : BufTy).Contents (Elt F) → (⟨S320000x128, .f32⟩ : BufTy).Contents (Elt F)),
    StableHlo.unary main_arg2 main_v146 ((extractStridedSlice S320000x3 ![0, 0] · slices_S320000x4_S320000x3_0_0) : (⟨S320000x4, .f32⟩ : BufTy).Contents (Elt F) → (⟨S320000x3, .f32⟩ : BufTy).Contents (Elt F)),
    StableHlo.unary main_arg6 main_v147 ((extractStridedSlice S1x3x128 ![2, 0, 0] · slices_S5x3x128_S1x3x128_2_0_0) : (⟨S5x3x128, .f32⟩ : BufTy).Contents (Elt F) → (⟨S1x3x128, .f32⟩ : BufTy).Contents (Elt F)),
    StableHlo.reshape main_v147 main_v148 rfl shapeCasts_S1x3x128_S3x128,
    StableHlo.binary main_v146 main_v148 main_v149 ((fun l r => Host.dotGeneral dot_S320000x3_S3x128_S320000x128_1_0_0_1_n_n none l r) : (⟨S320000x3, .f32⟩ : BufTy).Contents (Elt F) → (⟨S3x128, .f32⟩ : BufTy).Contents (Elt F) → (⟨S320000x128, .f32⟩ : BufTy).Contents (Elt F)),
    StableHlo.binary main_v145 main_v149 main_v150 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_v27 main_v151 (broadcastInDim S320000x1 ![0] bcast_S320000_S320000x1_0 : (⟨S320000, .f32⟩ : BufTy).Contents (Elt F) → (⟨S320000x1, .f32⟩ : BufTy).Contents (Elt F)),
    StableHlo.nullary main_c_21 (constantI S_ 32 0#32),
    StableHlo.unary main_c_21 main_v152 (broadcastInDim S320000 ![] bcast_S_S320000 : (⟨S_, .i32⟩ : BufTy).Contents (Elt F) → (⟨S320000, .i32⟩ : BufTy).Contents (Elt F)),
    StableHlo.binary main_v1 main_v152 main_v153 (cmpi .slt : (⟨S320000, .i32⟩ : BufTy).Contents (Elt F) → (⟨S320000, .i32⟩ : BufTy).Contents (Elt F) → (⟨S320000, .i1⟩ : BufTy).Contents (Elt F)),
    StableHlo.nullary main_c_22 (constantI S_ 32 50000#32),
    StableHlo.unary main_c_22 main_v154 (broadcastInDim S320000 ![] bcast_S_S320000 : (⟨S_, .i32⟩ : BufTy).Contents (Elt F) → (⟨S320000, .i32⟩ : BufTy).Contents (Elt F)) ]

theorem seg5_sub : (seg5 : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., binary_bufs_sub .., unary_bufs_sub .., nullary_bufs_sub .., unary_bufs_sub .., binary_bufs_sub .., nullary_bufs_sub .., unary_bufs_sub ..⟩

/-- Statements 181 … 229 of @main (74 operations). -/
abbrev seg6 : List (HloOp τ sig (Elt F)) :=
  [ StableHlo.binary main_v1 main_v154 main_v155 (addi : (⟨S320000, .i32⟩ : BufTy).Contents (Elt F) → (⟨S320000, .i32⟩ : BufTy).Contents (Elt F) → (⟨S320000, .i32⟩ : BufTy).Contents (Elt F)),
    StableHlo.ternary main_v153 main_v155 main_v1 main_v156 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v156 main_v157 (broadcastInDim S320000x1 ![0] bcast_S320000_S320000x1_0 : (⟨S320000, .i32⟩ : BufTy).Contents (Elt F) → (⟨S320000x1, .i32⟩ : BufTy).Contents (Elt F)),
    StableHlo.binary main_v141 main_v157 main_v158 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.binary main_v158 main_v150 main_v159 (addf : (⟨S320000x256, .f32⟩ : BufTy).Contents (Elt F) → (⟨S320000x256, .f32⟩ : BufTy).Contents (Elt F) → (⟨S320000x256, .f32⟩ : BufTy).Contents (Elt F)),
    StableHlo.unary main_v151 main_v160 (broadcastInDim S320000x256 ![0, 1] bcast_S320000x1_S320000x256_0_1 : (⟨S320000x1, .f32⟩ : BufTy).Contents (Elt F) → (⟨S320000x256, .f32⟩ : BufTy).Contents (Elt F)),
    StableHlo.binary main_v160 main_v159 main_v161 (mulf : (⟨S320000x256, .f32⟩ : BufTy).Contents (Elt F) → (⟨S320000x256, .f32⟩ : BufTy).Contents (Elt F) → (⟨S320000x256, .f32⟩ : BufTy).Contents (Elt F)),
    StableHlo.nullary main_cst_23 (constant S_ .f32 0x00000000#32),
    StableHlo.unary main_cst_23 main_v162 (broadcastInDim S50000x256 ![] bcast_S_S50000x256 : (⟨S_, .f32⟩ : BufTy).Contents (Elt F) → (⟨S50000x256, .f32⟩ : BufTy).Contents (Elt F)),
    StableHlo.unary main_v3 main_v163 (broadcastInDim S320000x1 ![0] bcast_S320000_S320000x1_0 : (⟨S320000, .i32⟩ : BufTy).Contents (Elt F) → (⟨S320000x1, .i32⟩ : BufTy).Contents (Elt F)),
    StableHlo.ternary main_v162 main_v163 main_v161 main_v164 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v141 main_v164 main_v165 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg3 main_v166 ((extractStridedSlice S1x512x256 ![2, 0, 0] · slices_S5x512x256_S1x512x256_2_0_0) : (⟨S5x512x256, .f32⟩ : BufTy).Contents (Elt F) → (⟨S1x512x256, .f32⟩ : BufTy).Contents (Elt F)),
    StableHlo.reshape main_v166 main_v167 rfl shapeCasts_S1x512x256_S512x256,
    StableHlo.binary main_v165 main_v167 main_v168 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg4 main_v169 ((extractStridedSlice S1x256 ![2, 0] · slices_S5x256_S1x256_2_0) : (⟨S5x256, .f32⟩ : BufTy).Contents (Elt F) → (⟨S1x256, .f32⟩ : BufTy).Contents (Elt F)),
    StableHlo.reshape main_v169 main_v170 rfl shapeCasts_S1x256_S256,
    StableHlo.unary main_v170 main_v171 (broadcastInDim S1x256 ![1] bcast_S256_S1x256_1 : (⟨S256, .f32⟩ : BufTy).Contents (Elt F) → (⟨S1x256, .f32⟩ : BufTy).Contents (Elt F)),
    StableHlo.unary main_v171 main_v172 (broadcastInDim S50000x256 ![0, 1] bcast_S1x256_S50000x256_0_1 : (⟨S1x256, .f32⟩ : BufTy).Contents (Elt F) → (⟨S50000x256, .f32⟩ : BufTy).Contents (Elt F)),
    StableHlo.binary main_v168 main_v172 main_v173 (addf : (⟨S50000x256, .f32⟩ : BufTy).Contents (Elt F) → (⟨S50000x256, .f32⟩ : BufTy).Contents (Elt F) → (⟨S50000x256, .f32⟩ : BufTy).Contents (Elt F)),
    StableHlo.TRef.nullary main_call7.cst (constant S_ .f32 0x00000000#32),
    StableHlo.TRef.unary main_call7.cst main_call7.v0 (broadcastInDim S50000x256 ![] bcast_S_S50000x256),
    StableHlo.TRef.binary (.of main_v173) main_call7.v0 main_call7.v1 maximumf,
    StableHlo.nullary main_cst_24 (constant S_ .f32 0x00000000#32),
    StableHlo.binary main_v174 main_cst_24 main_v175 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_25 (constant S_ .f32 0x47435000#32),
    StableHlo.unary main_cst_25 main_v176 (broadcastInDim S256 ![] bcast_S_S256 : (⟨S_, .f32⟩ : BufTy).Contents (Elt F) → (⟨S256, .f32⟩ : BufTy).Contents (Elt F)),
    StableHlo.binary main_v175 main_v176 main_v177 (Host.divf : (⟨S256, .f32⟩ : BufTy).Contents (Elt F) → (⟨S256, .f32⟩ : BufTy).Contents (Elt F) → (⟨S256, .f32⟩ : BufTy).Contents (Elt F)),
    StableHlo.nullary main_c_26 (constantI S_ 32 0#32),
    StableHlo.TRef.nullary main_call8.cst (constant S_ .f32 0x00000000#32),
    StableHlo.TRef.binary (.of main_v174) main_call8.cst main_call8.v0 (fun x v => Host.reduceAdd x v reducesTo_S50000x256_S256_d0 h_S_),
    StableHlo.TRef.unary main_call8.v0 main_call8.v1 (broadcastInDim S1x256 ![1] bcast_S256_S1x256_1),
    StableHlo.TRef.nullary main_call8.cst_0 (constant S_ .f32 0x47435000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S50000x256 ![0, 1] bcast_S1x256_S50000x256_0_1),
    StableHlo.TRef.binary (.of main_v174) main_call8.v4 main_call8.v5 subf,
    StableHlo.TRef.binary main_call8.v5 main_call8.v5 main_call8.v6 mulf,
    StableHlo.TRef.unary (.of main_c_26) main_call8.v7 (sitofp .f32),
    StableHlo.TRef.nullary main_call8.cst_1 (constant S_ .f32 0x47435000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S50000x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v177 main_v179 (broadcastInDim S1x256 ![1] bcast_S256_S1x256_1 : (⟨S256, .f32⟩ : BufTy).Contents (Elt F) → (⟨S1x256, .f32⟩ : BufTy).Contents (Elt F)),
    StableHlo.unary main_v179 main_v180 (broadcastInDim S50000x256 ![0, 1] bcast_S1x256_S50000x256_0_1 : (⟨S1x256, .f32⟩ : BufTy).Contents (Elt F) → (⟨S50000x256, .f32⟩ : BufTy).Contents (Elt F)),
    StableHlo.binary main_v174 main_v180 main_v181 (subf : (⟨S50000x256, .f32⟩ : BufTy).Contents (Elt F) → (⟨S50000x256, .f32⟩ : BufTy).Contents (Elt F) → (⟨S50000x256, .f32⟩ : BufTy).Contents (Elt F)),
    StableHlo.nullary main_cst_27 (constant S_ .f32 0x3727C5AC#32),
    StableHlo.unary main_cst_27 main_v182 (broadcastInDim S256 ![] bcast_S_S256 : (⟨S_, .f32⟩ : BufTy).Contents (Elt F) → (⟨S256, .f32⟩ : BufTy).Contents (Elt F)),
    StableHlo.binary main_v178 main_v182 main_v183 (addf : (⟨S256, .f32⟩ : BufTy).Contents (Elt F) → (⟨S256, .f32⟩ : BufTy).Contents (Elt F) → (⟨S256, .f32⟩ : BufTy).Contents (Elt F)),
    StableHlo.unary main_v183 main_v184 (Host.rsqrt : (⟨S256, .f32⟩ : BufTy).Contents (Elt F) → (⟨S256, .f32⟩ : BufTy).Contents (Elt F)),
    StableHlo.unary main_v184 main_v185 (broadcastInDim S1x256 ![1] bcast_S256_S1x256_1 : (⟨S256, .f32⟩ : BufTy).Contents (Elt F) → (⟨S1x256, .f32⟩ : BufTy).Contents (Elt F)),
    StableHlo.unary main_v185 main_v186 (broadcastInDim S50000x256 ![0, 1] bcast_S1x256_S50000x256_0_1 : (⟨S1x256, .f32⟩ : BufTy).Contents (Elt F) → (⟨S50000x256, .f32⟩ : BufTy).Contents (Elt F)),
    StableHlo.binary main_v181 main_v186 main_v187 (mulf : (⟨S50000x256, .f32⟩ : BufTy).Contents (Elt F) → (⟨S50000x256, .f32⟩ : BufTy).Contents (Elt F) → (⟨S50000x256, .f32⟩ : BufTy).Contents (Elt F)),
    StableHlo.unary main_arg7 main_v188 ((extractStridedSlice S1x256 ![2, 0] · slices_S5x256_S1x256_2_0) : (⟨S5x256, .f32⟩ : BufTy).Contents (Elt F) → (⟨S1x256, .f32⟩ : BufTy).Contents (Elt F)),
    StableHlo.reshape main_v188 main_v189 rfl shapeCasts_S1x256_S256,
    StableHlo.unary main_v189 main_v190 (broadcastInDim S1x256 ![1] bcast_S256_S1x256_1 : (⟨S256, .f32⟩ : BufTy).Contents (Elt F) → (⟨S1x256, .f32⟩ : BufTy).Contents (Elt F)),
    StableHlo.unary main_v190 main_v191 (broadcastInDim S50000x256 ![0, 1] bcast_S1x256_S50000x256_0_1 : (⟨S1x256, .f32⟩ : BufTy).Contents (Elt F) → (⟨S50000x256, .f32⟩ : BufTy).Contents (Elt F)),
    StableHlo.binary main_v187 main_v191 main_v192 (mulf : (⟨S50000x256, .f32⟩ : BufTy).Contents (Elt F) → (⟨S50000x256, .f32⟩ : BufTy).Contents (Elt F) → (⟨S50000x256, .f32⟩ : BufTy).Contents (Elt F)),
    StableHlo.unary main_arg8 main_v193 ((extractStridedSlice S1x256 ![2, 0] · slices_S5x256_S1x256_2_0) : (⟨S5x256, .f32⟩ : BufTy).Contents (Elt F) → (⟨S1x256, .f32⟩ : BufTy).Contents (Elt F)),
    StableHlo.reshape main_v193 main_v194 rfl shapeCasts_S1x256_S256,
    StableHlo.unary main_v194 main_v195 (broadcastInDim S1x256 ![1] bcast_S256_S1x256_1 : (⟨S256, .f32⟩ : BufTy).Contents (Elt F) → (⟨S1x256, .f32⟩ : BufTy).Contents (Elt F)),
    StableHlo.unary main_v195 main_v196 (broadcastInDim S50000x256 ![0, 1] bcast_S1x256_S50000x256_0_1 : (⟨S1x256, .f32⟩ : BufTy).Contents (Elt F) → (⟨S50000x256, .f32⟩ : BufTy).Contents (Elt F)),
    StableHlo.binary main_v192 main_v196 main_v197 (addf : (⟨S50000x256, .f32⟩ : BufTy).Contents (Elt F) → (⟨S50000x256, .f32⟩ : BufTy).Contents (Elt F) → (⟨S50000x256, .f32⟩ : BufTy).Contents (Elt F)),
    StableHlo.TRef.nullary main_call9.cst (constant S_ .f32 0x00000000#32),
    StableHlo.TRef.unary main_call9.cst main_call9.v0 (broadcastInDim S50000x256 ![] bcast_S_S50000x256),
    StableHlo.TRef.binary (.of main_v197) main_call9.v0 main_call9.v1 maximumf ]

theorem seg6_sub : (seg6 : List (HloOp τ sig (Elt F))).Forall fun op => op.bufs ⊆ tcRefs τ sig :=
  ⟨binary_bufs_sub .., ternary_bufs_sub .., unary_bufs_sub .., binary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Statements 230 … 240 of @main (11 operations). -/
abbrev seg7 : List (HloOp τ sig (Elt F)) :=
  [ StableHlo.unary main_arg2 main_v199 ((extractStridedSlice S320000x1 ![0, 3] · slices_S320000x4_S320000x1_0_3) : (⟨S320000x4, .f32⟩ : BufTy).Contents (Elt F) → (⟨S320000x1, .f32⟩ : BufTy).Contents (Elt F)),
    StableHlo.unary main_arg5 main_v200 ((extractStridedSlice S1x1x128 ![3, 0, 0] · slices_S5x1x128_S1x1x128_3_0_0) : (⟨S5x1x128, .f32⟩ : BufTy).Contents (Elt F) → (⟨S1x1x128, .f32⟩ : BufTy).Contents (Elt F)),
    StableHlo.reshape main_v200 main_v201 rfl shapeCasts_S1x1x128_S1x128,
    StableHlo.binary main_v199 main_v201 main_v202 ((fun l r => Host.dotGeneral dot_S320000x1_S1x128_S320000x128_1_0_0_1_n_n none l r) : (⟨S320000x1, .f32⟩ : BufTy).Contents (Elt F) → (⟨S1x128, .f32⟩ : BufTy).Contents (Elt F) → (⟨S320000x128, .f32⟩ : BufTy).Contents (Elt F)),
    StableHlo.unary main_arg2 main_v203 ((extractStridedSlice S320000x3 ![0, 0] · slices_S320000x4_S320000x3_0_0) : (⟨S320000x4, .f32⟩ : BufTy).Contents (Elt F) → (⟨S320000x3, .f32⟩ : BufTy).Contents (Elt F)),
    StableHlo.unary main_arg6 main_v204 ((extractStridedSlice S1x3x128 ![3, 0, 0] · slices_S5x3x128_S1x3x128_3_0_0) : (⟨S5x3x128, .f32⟩ : BufTy).Contents (Elt F) → (⟨S1x3x128, .f32⟩ : BufTy).Contents (Elt F)),
    StableHlo.reshape main_v204 main_v205 rfl shapeCasts_S1x3x128_S3x128,
    StableHlo.binary main_v203 main_v205 main_v206 ((fun l r => Host.dotGeneral dot_S320000x3_S3x128_S320000x128_1_0_0_1_n_n none l r) : (⟨S320000x3, .f32⟩ : BufTy).Contents (Elt F) → (⟨S3x128, .f32⟩ : BufTy).Contents (Elt F) → (⟨S320000x128, .f32⟩ : BufTy).Contents (Elt F)),
    StableHlo.binary main_v202 main_v206 main_v207 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_v27 main_v208 (broadcastInDim S320000x1 ![0] bcast_S320000_S320000x1_0 : (⟨S320000, .f32⟩ : BufTy).Contents (Elt F) → (⟨S320000x1, .f32⟩ : BufTy).Contents (Elt F)),
    StableHlo.nullary main_c_28 (constantI S_ 32 0#32) ]

theorem seg7_sub : (seg7 : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub .., binary_bufs_sub .., binary_bufs_sub .., unary_bufs_sub .., nullary_bufs_sub ..⟩

/-- Statements 241 … 293 of @main (78 operations). -/
abbrev seg8 : List (HloOp τ sig (Elt F)) :=
  [ StableHlo.unary main_c_28 main_v209 (broadcastInDim S320000 ![] bcast_S_S320000 : (⟨S_, .i32⟩ : BufTy).Contents (Elt F) → (⟨S320000, .i32⟩ : BufTy).Contents (Elt F)),
    StableHlo.binary main_v1 main_v209 main_v210 (cmpi .slt : (⟨S320000, .i32⟩ : BufTy).Contents (Elt F) → (⟨S320000, .i32⟩ : BufTy).Contents (Elt F) → (⟨S320000, .i1⟩ : BufTy).Contents (Elt F)),
    StableHlo.nullary main_c_29 (constantI S_ 32 50000#32),
    StableHlo.unary main_c_29 main_v211 (broadcastInDim S320000 ![] bcast_S_S320000 : (⟨S_, .i32⟩ : BufTy).Contents (Elt F) → (⟨S320000, .i32⟩ : BufTy).Contents (Elt F)),
    StableHlo.binary main_v1 main_v211 main_v212 (addi : (⟨S320000, .i32⟩ : BufTy).Contents (Elt F) → (⟨S320000, .i32⟩ : BufTy).Contents (Elt F) → (⟨S320000, .i32⟩ : BufTy).Contents (Elt F)),
    StableHlo.ternary main_v210 main_v212 main_v1 main_v213 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v213 main_v214 (broadcastInDim S320000x1 ![0] bcast_S320000_S320000x1_0 : (⟨S320000, .i32⟩ : BufTy).Contents (Elt F) → (⟨S320000x1, .i32⟩ : BufTy).Contents (Elt F)),
    StableHlo.binary main_v198 main_v214 main_v215 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.binary main_v215 main_v207 main_v216 (addf : (⟨S320000x256, .f32⟩ : BufTy).Contents (Elt F) → (⟨S320000x256, .f32⟩ : BufTy).Contents (Elt F) → (⟨S320000x256, .f32⟩ : BufTy).Contents (Elt F)),
    StableHlo.unary main_v208 main_v217 (broadcastInDim S320000x256 ![0, 1] bcast_S320000x1_S320000x256_0_1 : (⟨S320000x1, .f32⟩ : BufTy).Contents (Elt F) → (⟨S320000x256, .f32⟩ : BufTy).Contents (Elt F)),
    StableHlo.binary main_v217 main_v216 main_v218 (mulf : (⟨S320000x256, .f32⟩ : BufTy).Contents (Elt F) → (⟨S320000x256, .f32⟩ : BufTy).Contents (Elt F) → (⟨S320000x256, .f32⟩ : BufTy).Contents (Elt F)),
    StableHlo.nullary main_cst_30 (constant S_ .f32 0x00000000#32),
    StableHlo.unary main_cst_30 main_v219 (broadcastInDim S50000x256 ![] bcast_S_S50000x256 : (⟨S_, .f32⟩ : BufTy).Contents (Elt F) → (⟨S50000x256, .f32⟩ : BufTy).Contents (Elt F)),
    StableHlo.unary main_v3 main_v220 (broadcastInDim S320000x1 ![0] bcast_S320000_S320000x1_0 : (⟨S320000, .i32⟩ : BufTy).Contents (Elt F) → (⟨S320000x1, .i32⟩ : BufTy).Contents (Elt F)),
    StableHlo.ternary main_v219 main_v220 main_v218 main_v221 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v198 main_v221 main_v222 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg3 main_v223 ((extractStridedSlice S1x512x256 ![3, 0, 0] · slices_S5x512x256_S1x512x256_3_0_0) : (⟨S5x512x256, .f32⟩ : BufTy).Contents (Elt F) → (⟨S1x512x256, .f32⟩ : BufTy).Contents (Elt F)),
    StableHlo.reshape main_v223 main_v224 rfl shapeCasts_S1x512x256_S512x256,
    StableHlo.binary main_v222 main_v224 main_v225 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg4 main_v226 ((extractStridedSlice S1x256 ![3, 0] · slices_S5x256_S1x256_3_0) : (⟨S5x256, .f32⟩ : BufTy).Contents (Elt F) → (⟨S1x256, .f32⟩ : BufTy).Contents (Elt F)),
    StableHlo.reshape main_v226 main_v227 rfl shapeCasts_S1x256_S256,
    StableHlo.unary main_v227 main_v228 (broadcastInDim S1x256 ![1] bcast_S256_S1x256_1 : (⟨S256, .f32⟩ : BufTy).Contents (Elt F) → (⟨S1x256, .f32⟩ : BufTy).Contents (Elt F)),
    StableHlo.unary main_v228 main_v229 (broadcastInDim S50000x256 ![0, 1] bcast_S1x256_S50000x256_0_1 : (⟨S1x256, .f32⟩ : BufTy).Contents (Elt F) → (⟨S50000x256, .f32⟩ : BufTy).Contents (Elt F)),
    StableHlo.binary main_v225 main_v229 main_v230 (addf : (⟨S50000x256, .f32⟩ : BufTy).Contents (Elt F) → (⟨S50000x256, .f32⟩ : BufTy).Contents (Elt F) → (⟨S50000x256, .f32⟩ : BufTy).Contents (Elt F)),
    StableHlo.TRef.nullary main_call10.cst (constant S_ .f32 0x00000000#32),
    StableHlo.TRef.unary main_call10.cst main_call10.v0 (broadcastInDim S50000x256 ![] bcast_S_S50000x256),
    StableHlo.TRef.binary (.of main_v230) main_call10.v0 main_call10.v1 maximumf,
    StableHlo.nullary main_cst_31 (constant S_ .f32 0x00000000#32),
    StableHlo.binary main_v231 main_cst_31 main_v232 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_32 (constant S_ .f32 0x47435000#32),
    StableHlo.unary main_cst_32 main_v233 (broadcastInDim S256 ![] bcast_S_S256 : (⟨S_, .f32⟩ : BufTy).Contents (Elt F) → (⟨S256, .f32⟩ : BufTy).Contents (Elt F)),
    StableHlo.binary main_v232 main_v233 main_v234 (Host.divf : (⟨S256, .f32⟩ : BufTy).Contents (Elt F) → (⟨S256, .f32⟩ : BufTy).Contents (Elt F) → (⟨S256, .f32⟩ : BufTy).Contents (Elt F)),
    StableHlo.nullary main_c_33 (constantI S_ 32 0#32),
    StableHlo.TRef.nullary main_call11.cst (constant S_ .f32 0x00000000#32),
    StableHlo.TRef.binary (.of main_v231) main_call11.cst main_call11.v0 (fun x v => Host.reduceAdd x v reducesTo_S50000x256_S256_d0 h_S_),
    StableHlo.TRef.unary main_call11.v0 main_call11.v1 (broadcastInDim S1x256 ![1] bcast_S256_S1x256_1),
    StableHlo.TRef.nullary main_call11.cst_0 (constant S_ .f32 0x47435000#32),
    StableHlo.TRef.unary main_call11.cst_0 main_call11.v2 (broadcastInDim S1x256 ![] bcast_S_S1x256),
    StableHlo.TRef.binary main_call11.v1 main_call11.v2 main_call11.v3 Host.divf,
    StableHlo.TRef.unary main_call11.v3 main_call11.v4 (broadcastInDim S50000x256 ![0, 1] bcast_S1x256_S50000x256_0_1),
    StableHlo.TRef.binary (.of main_v231) main_call11.v4 main_call11.v5 subf,
    StableHlo.TRef.binary main_call11.v5 main_call11.v5 main_call11.v6 mulf,
    StableHlo.TRef.unary (.of main_c_33) main_call11.v7 (sitofp .f32),
    StableHlo.TRef.nullary main_call11.cst_1 (constant S_ .f32 0x47435000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S50000x256_S256_d0 h_S_),
    StableHlo.TRef.unary main_call11.v8 main_call11.v10 (broadcastInDim S256 ![] bcast_S_S256),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S256 ![] bcast_S_S256),
    StableHlo.TRef.ternary main_call11.v12 main_call11.v11 main_call11.call0.v1 main_call11.call0.v2 (fun p a b => select (broadcastInDim S256 ![] bcast_S_S256 p) a b),
    StableHlo.unary main_v234 main_v236 (broadcastInDim S1x256 ![1] bcast_S256_S1x256_1 : (⟨S256, .f32⟩ : BufTy).Contents (Elt F) → (⟨S1x256, .f32⟩ : BufTy).Contents (Elt F)),
    StableHlo.unary main_v236 main_v237 (broadcastInDim S50000x256 ![0, 1] bcast_S1x256_S50000x256_0_1 : (⟨S1x256, .f32⟩ : BufTy).Contents (Elt F) → (⟨S50000x256, .f32⟩ : BufTy).Contents (Elt F)),
    StableHlo.binary main_v231 main_v237 main_v238 (subf : (⟨S50000x256, .f32⟩ : BufTy).Contents (Elt F) → (⟨S50000x256, .f32⟩ : BufTy).Contents (Elt F) → (⟨S50000x256, .f32⟩ : BufTy).Contents (Elt F)),
    StableHlo.nullary main_cst_34 (constant S_ .f32 0x3727C5AC#32),
    StableHlo.unary main_cst_34 main_v239 (broadcastInDim S256 ![] bcast_S_S256 : (⟨S_, .f32⟩ : BufTy).Contents (Elt F) → (⟨S256, .f32⟩ : BufTy).Contents (Elt F)),
    StableHlo.binary main_v235 main_v239 main_v240 (addf : (⟨S256, .f32⟩ : BufTy).Contents (Elt F) → (⟨S256, .f32⟩ : BufTy).Contents (Elt F) → (⟨S256, .f32⟩ : BufTy).Contents (Elt F)),
    StableHlo.unary main_v240 main_v241 (Host.rsqrt : (⟨S256, .f32⟩ : BufTy).Contents (Elt F) → (⟨S256, .f32⟩ : BufTy).Contents (Elt F)),
    StableHlo.unary main_v241 main_v242 (broadcastInDim S1x256 ![1] bcast_S256_S1x256_1 : (⟨S256, .f32⟩ : BufTy).Contents (Elt F) → (⟨S1x256, .f32⟩ : BufTy).Contents (Elt F)),
    StableHlo.unary main_v242 main_v243 (broadcastInDim S50000x256 ![0, 1] bcast_S1x256_S50000x256_0_1 : (⟨S1x256, .f32⟩ : BufTy).Contents (Elt F) → (⟨S50000x256, .f32⟩ : BufTy).Contents (Elt F)),
    StableHlo.binary main_v238 main_v243 main_v244 (mulf : (⟨S50000x256, .f32⟩ : BufTy).Contents (Elt F) → (⟨S50000x256, .f32⟩ : BufTy).Contents (Elt F) → (⟨S50000x256, .f32⟩ : BufTy).Contents (Elt F)),
    StableHlo.unary main_arg7 main_v245 ((extractStridedSlice S1x256 ![3, 0] · slices_S5x256_S1x256_3_0) : (⟨S5x256, .f32⟩ : BufTy).Contents (Elt F) → (⟨S1x256, .f32⟩ : BufTy).Contents (Elt F)),
    StableHlo.reshape main_v245 main_v246 rfl shapeCasts_S1x256_S256,
    StableHlo.unary main_v246 main_v247 (broadcastInDim S1x256 ![1] bcast_S256_S1x256_1 : (⟨S256, .f32⟩ : BufTy).Contents (Elt F) → (⟨S1x256, .f32⟩ : BufTy).Contents (Elt F)),
    StableHlo.unary main_v247 main_v248 (broadcastInDim S50000x256 ![0, 1] bcast_S1x256_S50000x256_0_1 : (⟨S1x256, .f32⟩ : BufTy).Contents (Elt F) → (⟨S50000x256, .f32⟩ : BufTy).Contents (Elt F)),
    StableHlo.binary main_v244 main_v248 main_v249 (mulf : (⟨S50000x256, .f32⟩ : BufTy).Contents (Elt F) → (⟨S50000x256, .f32⟩ : BufTy).Contents (Elt F) → (⟨S50000x256, .f32⟩ : BufTy).Contents (Elt F)),
    StableHlo.unary main_arg8 main_v250 ((extractStridedSlice S1x256 ![3, 0] · slices_S5x256_S1x256_3_0) : (⟨S5x256, .f32⟩ : BufTy).Contents (Elt F) → (⟨S1x256, .f32⟩ : BufTy).Contents (Elt F)),
    StableHlo.reshape main_v250 main_v251 rfl shapeCasts_S1x256_S256,
    StableHlo.unary main_v251 main_v252 (broadcastInDim S1x256 ![1] bcast_S256_S1x256_1 : (⟨S256, .f32⟩ : BufTy).Contents (Elt F) → (⟨S1x256, .f32⟩ : BufTy).Contents (Elt F)),
    StableHlo.unary main_v252 main_v253 (broadcastInDim S50000x256 ![0, 1] bcast_S1x256_S50000x256_0_1 : (⟨S1x256, .f32⟩ : BufTy).Contents (Elt F) → (⟨S50000x256, .f32⟩ : BufTy).Contents (Elt F)),
    StableHlo.binary main_v249 main_v253 main_v254 (addf : (⟨S50000x256, .f32⟩ : BufTy).Contents (Elt F) → (⟨S50000x256, .f32⟩ : BufTy).Contents (Elt F) → (⟨S50000x256, .f32⟩ : BufTy).Contents (Elt F)),
    StableHlo.TRef.nullary main_call12.cst (constant S_ .f32 0x00000000#32),
    StableHlo.TRef.unary main_call12.cst main_call12.v0 (broadcastInDim S50000x256 ![] bcast_S_S50000x256),
    StableHlo.TRef.binary (.of main_v254) main_call12.v0 main_call12.v1 maximumf ]

theorem seg8_sub : (seg8 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩

/-- Statements 294 … 300 of @main (7 operations). -/
abbrev seg9 : List (HloOp τ sig (Elt F)) :=
  [ StableHlo.unary main_arg2 main_v256 ((extractStridedSlice S320000x1 ![0, 3] · slices_S320000x4_S320000x1_0_3) : (⟨S320000x4, .f32⟩ : BufTy).Contents (Elt F) → (⟨S320000x1, .f32⟩ : BufTy).Contents (Elt F)),
    StableHlo.unary main_arg5 main_v257 ((extractStridedSlice S1x1x128 ![4, 0, 0] · slices_S5x1x128_S1x1x128_4_0_0) : (⟨S5x1x128, .f32⟩ : BufTy).Contents (Elt F) → (⟨S1x1x128, .f32⟩ : BufTy).Contents (Elt F)),
    StableHlo.reshape main_v257 main_v258 rfl shapeCasts_S1x1x128_S1x128,
    StableHlo.binary main_v256 main_v258 main_v259 ((fun l r => Host.dotGeneral dot_S320000x1_S1x128_S320000x128_1_0_0_1_n_n none l r) : (⟨S320000x1, .f32⟩ : BufTy).Contents (Elt F) → (⟨S1x128, .f32⟩ : BufTy).Contents (Elt F) → (⟨S320000x128, .f32⟩ : BufTy).Contents (Elt F)),
    StableHlo.unary main_arg2 main_v260 ((extractStridedSlice S320000x3 ![0, 0] · slices_S320000x4_S320000x3_0_0) : (⟨S320000x4, .f32⟩ : BufTy).Contents (Elt F) → (⟨S320000x3, .f32⟩ : BufTy).Contents (Elt F)),
    StableHlo.unary main_arg6 main_v261 ((extractStridedSlice S1x3x128 ![4, 0, 0] · slices_S5x3x128_S1x3x128_4_0_0) : (⟨S5x3x128, .f32⟩ : BufTy).Contents (Elt F) → (⟨S1x3x128, .f32⟩ : BufTy).Contents (Elt F)),
    StableHlo.reshape main_v261 main_v262 rfl shapeCasts_S1x3x128_S3x128 ]

theorem seg9_sub : (seg9 : List (HloOp τ sig (Elt F))).Forall fun op => op.bufs ⊆ tcRefs τ sig :=
  ⟨unary_bufs_sub .., unary_bufs_sub .., reshape_bufs_sub .., binary_bufs_sub .., unary_bufs_sub .., unary_bufs_sub .., reshape_bufs_sub ..⟩

/-- Statements 301 … 356 of @main (79 operations). -/
abbrev seg10 : List (HloOp τ sig (Elt F)) :=
  [ StableHlo.binary main_v260 main_v262 main_v263 ((fun l r => Host.dotGeneral dot_S320000x3_S3x128_S320000x128_1_0_0_1_n_n none l r) : (⟨S320000x3, .f32⟩ : BufTy).Contents (Elt F) → (⟨S3x128, .f32⟩ : BufTy).Contents (Elt F) → (⟨S320000x128, .f32⟩ : BufTy).Contents (Elt F)),
    StableHlo.binary main_v259 main_v263 main_v264 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.unary main_v27 main_v265 (broadcastInDim S320000x1 ![0] bcast_S320000_S320000x1_0 : (⟨S320000, .f32⟩ : BufTy).Contents (Elt F) → (⟨S320000x1, .f32⟩ : BufTy).Contents (Elt F)),
    StableHlo.nullary main_c_35 (constantI S_ 32 0#32),
    StableHlo.unary main_c_35 main_v266 (broadcastInDim S320000 ![] bcast_S_S320000 : (⟨S_, .i32⟩ : BufTy).Contents (Elt F) → (⟨S320000, .i32⟩ : BufTy).Contents (Elt F)),
    StableHlo.binary main_v1 main_v266 main_v267 (cmpi .slt : (⟨S320000, .i32⟩ : BufTy).Contents (Elt F) → (⟨S320000, .i32⟩ : BufTy).Contents (Elt F) → (⟨S320000, .i1⟩ : BufTy).Contents (Elt F)),
    StableHlo.nullary main_c_36 (constantI S_ 32 50000#32),
    StableHlo.unary main_c_36 main_v268 (broadcastInDim S320000 ![] bcast_S_S320000 : (⟨S_, .i32⟩ : BufTy).Contents (Elt F) → (⟨S320000, .i32⟩ : BufTy).Contents (Elt F)),
    StableHlo.binary main_v1 main_v268 main_v269 (addi : (⟨S320000, .i32⟩ : BufTy).Contents (Elt F) → (⟨S320000, .i32⟩ : BufTy).Contents (Elt F) → (⟨S320000, .i32⟩ : BufTy).Contents (Elt F)),
    StableHlo.ternary main_v267 main_v269 main_v1 main_v270 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v270 main_v271 (broadcastInDim S320000x1 ![0] bcast_S320000_S320000x1_0 : (⟨S320000, .i32⟩ : BufTy).Contents (Elt F) → (⟨S320000x1, .i32⟩ : BufTy).Contents (Elt F)),
    StableHlo.binary main_v255 main_v271 main_v272 ((fun x i => Host.gather gather_S50000x256_S320000x1_S320000x256_1_0_n_n_0_1_1256 x i) : (⟨S50000x256, .f32⟩ : BufTy).Contents (Elt F) → (⟨S320000x1, .i32⟩ : BufTy).Contents (Elt F) → (⟨S320000x256, .f32⟩ : BufTy).Contents (Elt F)),
    StableHlo.binary main_v272 main_v264 main_v273 (addf : (⟨S320000x256, .f32⟩ : BufTy).Contents (Elt F) → (⟨S320000x256, .f32⟩ : BufTy).Contents (Elt F) → (⟨S320000x256, .f32⟩ : BufTy).Contents (Elt F)),
    StableHlo.unary main_v265 main_v274 (broadcastInDim S320000x256 ![0, 1] bcast_S320000x1_S320000x256_0_1 : (⟨S320000x1, .f32⟩ : BufTy).Contents (Elt F) → (⟨S320000x256, .f32⟩ : BufTy).Contents (Elt F)),
    StableHlo.binary main_v274 main_v273 main_v275 (mulf : (⟨S320000x256, .f32⟩ : BufTy).Contents (Elt F) → (⟨S320000x256, .f32⟩ : BufTy).Contents (Elt F) → (⟨S320000x256, .f32⟩ : BufTy).Contents (Elt F)),
    StableHlo.nullary main_cst_37 (constant S_ .f32 0x00000000#32),
    StableHlo.unary main_cst_37 main_v276 (broadcastInDim S50000x256 ![] bcast_S_S50000x256 : (⟨S_, .f32⟩ : BufTy).Contents (Elt F) → (⟨S50000x256, .f32⟩ : BufTy).Contents (Elt F)),
    StableHlo.unary main_v3 main_v277 (broadcastInDim S320000x1 ![0] bcast_S320000_S320000x1_0 : (⟨S320000, .i32⟩ : BufTy).Contents (Elt F) → (⟨S320000x1, .i32⟩ : BufTy).Contents (Elt F)),
    StableHlo.ternary main_v276 main_v277 main_v275 main_v278 ((fun x i u => Host.scatterAdd scatter_S50000x256_S320000x1_S320000x256_1_0_0_1 x i u) : (⟨S50000x256, .f32⟩ : BufTy).Contents (Elt F) → (⟨S320000x1, .i32⟩ : BufTy).Contents (Elt F) → (⟨S320000x256, .f32⟩ : BufTy).Contents (Elt F) → (⟨S50000x256, .f32⟩ : BufTy).Contents (Elt F)),
    StableHlo.binary main_v255 main_v278 main_v279 ((fun a b => concatenate S50000x512 1 [⟨S50000x256, a⟩, ⟨S50000x256, b⟩] concatenates_S50000x256_S50000x256_S50000x512_d1) : (⟨S50000x256, .f32⟩ : BufTy).Contents (Elt F) → (⟨S50000x256, .f32⟩ : BufTy).Contents (Elt F) → (⟨S50000x512, .f32⟩ : BufTy).Contents (Elt F)),
    StableHlo.unary main_arg3 main_v280 ((extractStridedSlice S1x512x256 ![4, 0, 0] · slices_S5x512x256_S1x512x256_4_0_0) : (⟨S5x512x256, .f32⟩ : BufTy).Contents (Elt F) → (⟨S1x512x256, .f32⟩ : BufTy).Contents (Elt F)),
    StableHlo.reshape main_v280 main_v281 rfl shapeCasts_S1x512x256_S512x256,
    StableHlo.binary main_v279 main_v281 main_v282 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    StableHlo.unary main_arg4 main_v283 ((extractStridedSlice S1x256 ![4, 0] · slices_S5x256_S1x256_4_0) : (⟨S5x256, .f32⟩ : BufTy).Contents (Elt F) → (⟨S1x256, .f32⟩ : BufTy).Contents (Elt F)),
    StableHlo.reshape main_v283 main_v284 rfl shapeCasts_S1x256_S256,
    StableHlo.unary main_v284 main_v285 (broadcastInDim S1x256 ![1] bcast_S256_S1x256_1 : (⟨S256, .f32⟩ : BufTy).Contents (Elt F) → (⟨S1x256, .f32⟩ : BufTy).Contents (Elt F)),
    StableHlo.unary main_v285 main_v286 (broadcastInDim S50000x256 ![0, 1] bcast_S1x256_S50000x256_0_1 : (⟨S1x256, .f32⟩ : BufTy).Contents (Elt F) → (⟨S50000x256, .f32⟩ : BufTy).Contents (Elt F)),
    StableHlo.binary main_v282 main_v286 main_v287 (addf : (⟨S50000x256, .f32⟩ : BufTy).Contents (Elt F) → (⟨S50000x256, .f32⟩ : BufTy).Contents (Elt F) → (⟨S50000x256, .f32⟩ : BufTy).Contents (Elt F)),
    StableHlo.TRef.nullary main_call13.cst (constant S_ .f32 0x00000000#32),
    StableHlo.TRef.unary main_call13.cst main_call13.v0 (broadcastInDim S50000x256 ![] bcast_S_S50000x256),
    StableHlo.TRef.binary (.of main_v287) main_call13.v0 main_call13.v1 maximumf,
    StableHlo.nullary main_cst_38 (constant S_ .f32 0x00000000#32),
    StableHlo.binary main_v288 main_cst_38 main_v289 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_39 (constant S_ .f32 0x47435000#32),
    StableHlo.unary main_cst_39 main_v290 (broadcastInDim S256 ![] bcast_S_S256 : (⟨S_, .f32⟩ : BufTy).Contents (Elt F) → (⟨S256, .f32⟩ : BufTy).Contents (Elt F)),
    StableHlo.binary main_v289 main_v290 main_v291 (Host.divf : (⟨S256, .f32⟩ : BufTy).Contents (Elt F) → (⟨S256, .f32⟩ : BufTy).Contents (Elt F) → (⟨S256, .f32⟩ : BufTy).Contents (Elt F)),
    StableHlo.nullary main_c_40 (constantI S_ 32 0#32),
    StableHlo.TRef.nullary main_call14.cst (constant S_ .f32 0x00000000#32),
    StableHlo.TRef.binary (.of main_v288) main_call14.cst main_call14.v0 (fun x v => Host.reduceAdd x v reducesTo_S50000x256_S256_d0 h_S_),
    StableHlo.TRef.unary main_call14.v0 main_call14.v1 (broadcastInDim S1x256 ![1] bcast_S256_S1x256_1),
    StableHlo.TRef.nullary main_call14.cst_0 (constant S_ .f32 0x47435000#32),
    StableHlo.TRef.unary main_call14.cst_0 main_call14.v2 (broadcastInDim S1x256 ![] bcast_S_S1x256),
    StableHlo.TRef.binary main_call14.v1 main_call14.v2 main_call14.v3 Host.divf,
    StableHlo.TRef.unary main_call14.v3 main_call14.v4 (broadcastInDim S50000x256 ![0, 1] bcast_S1x256_S50000x256_0_1),
    StableHlo.TRef.binary (.of main_v288) main_call14.v4 main_call14.v5 subf,
    StableHlo.TRef.binary main_call14.v5 main_call14.v5 main_call14.v6 mulf,
    StableHlo.TRef.unary (.of main_c_40) main_call14.v7 (sitofp .f32),
    StableHlo.TRef.nullary main_call14.cst_1 (constant S_ .f32 0x47435000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S50000x256_S256_d0 h_S_),
    StableHlo.TRef.unary main_call14.v8 main_call14.v10 (broadcastInDim S256 ![] bcast_S_S256),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S256 ![] bcast_S_S256),
    StableHlo.TRef.ternary main_call14.v12 main_call14.v11 main_call14.call0.v1 main_call14.call0.v2 (fun p a b => select (broadcastInDim S256 ![] bcast_S_S256 p) a b),
    StableHlo.unary main_v291 main_v293 (broadcastInDim S1x256 ![1] bcast_S256_S1x256_1 : (⟨S256, .f32⟩ : BufTy).Contents (Elt F) → (⟨S1x256, .f32⟩ : BufTy).Contents (Elt F)),
    StableHlo.unary main_v293 main_v294 (broadcastInDim S50000x256 ![0, 1] bcast_S1x256_S50000x256_0_1 : (⟨S1x256, .f32⟩ : BufTy).Contents (Elt F) → (⟨S50000x256, .f32⟩ : BufTy).Contents (Elt F)),
    StableHlo.binary main_v288 main_v294 main_v295 (subf : (⟨S50000x256, .f32⟩ : BufTy).Contents (Elt F) → (⟨S50000x256, .f32⟩ : BufTy).Contents (Elt F) → (⟨S50000x256, .f32⟩ : BufTy).Contents (Elt F)),
    StableHlo.nullary main_cst_41 (constant S_ .f32 0x3727C5AC#32),
    StableHlo.unary main_cst_41 main_v296 (broadcastInDim S256 ![] bcast_S_S256 : (⟨S_, .f32⟩ : BufTy).Contents (Elt F) → (⟨S256, .f32⟩ : BufTy).Contents (Elt F)),
    StableHlo.binary main_v292 main_v296 main_v297 (addf : (⟨S256, .f32⟩ : BufTy).Contents (Elt F) → (⟨S256, .f32⟩ : BufTy).Contents (Elt F) → (⟨S256, .f32⟩ : BufTy).Contents (Elt F)),
    StableHlo.unary main_v297 main_v298 (Host.rsqrt : (⟨S256, .f32⟩ : BufTy).Contents (Elt F) → (⟨S256, .f32⟩ : BufTy).Contents (Elt F)),
    StableHlo.unary main_v298 main_v299 (broadcastInDim S1x256 ![1] bcast_S256_S1x256_1 : (⟨S256, .f32⟩ : BufTy).Contents (Elt F) → (⟨S1x256, .f32⟩ : BufTy).Contents (Elt F)),
    StableHlo.unary main_v299 main_v300 (broadcastInDim S50000x256 ![0, 1] bcast_S1x256_S50000x256_0_1 : (⟨S1x256, .f32⟩ : BufTy).Contents (Elt F) → (⟨S50000x256, .f32⟩ : BufTy).Contents (Elt F)),
    StableHlo.binary main_v295 main_v300 main_v301 (mulf : (⟨S50000x256, .f32⟩ : BufTy).Contents (Elt F) → (⟨S50000x256, .f32⟩ : BufTy).Contents (Elt F) → (⟨S50000x256, .f32⟩ : BufTy).Contents (Elt F)),
    StableHlo.unary main_arg7 main_v302 ((extractStridedSlice S1x256 ![4, 0] · slices_S5x256_S1x256_4_0) : (⟨S5x256, .f32⟩ : BufTy).Contents (Elt F) → (⟨S1x256, .f32⟩ : BufTy).Contents (Elt F)),
    StableHlo.reshape main_v302 main_v303 rfl shapeCasts_S1x256_S256,
    StableHlo.unary main_v303 main_v304 (broadcastInDim S1x256 ![1] bcast_S256_S1x256_1 : (⟨S256, .f32⟩ : BufTy).Contents (Elt F) → (⟨S1x256, .f32⟩ : BufTy).Contents (Elt F)),
    StableHlo.unary main_v304 main_v305 (broadcastInDim S50000x256 ![0, 1] bcast_S1x256_S50000x256_0_1 : (⟨S1x256, .f32⟩ : BufTy).Contents (Elt F) → (⟨S50000x256, .f32⟩ : BufTy).Contents (Elt F)),
    StableHlo.binary main_v301 main_v305 main_v306 (mulf : (⟨S50000x256, .f32⟩ : BufTy).Contents (Elt F) → (⟨S50000x256, .f32⟩ : BufTy).Contents (Elt F) → (⟨S50000x256, .f32⟩ : BufTy).Contents (Elt F)),
    StableHlo.unary main_arg8 main_v307 ((extractStridedSlice S1x256 ![4, 0] · slices_S5x256_S1x256_4_0) : (⟨S5x256, .f32⟩ : BufTy).Contents (Elt F) → (⟨S1x256, .f32⟩ : BufTy).Contents (Elt F)),
    StableHlo.reshape main_v307 main_v308 rfl shapeCasts_S1x256_S256,
    StableHlo.unary main_v308 main_v309 (broadcastInDim S1x256 ![1] bcast_S256_S1x256_1 : (⟨S256, .f32⟩ : BufTy).Contents (Elt F) → (⟨S1x256, .f32⟩ : BufTy).Contents (Elt F)),
    StableHlo.unary main_v309 main_v310 (broadcastInDim S50000x256 ![0, 1] bcast_S1x256_S50000x256_0_1 : (⟨S1x256, .f32⟩ : BufTy).Contents (Elt F) → (⟨S50000x256, .f32⟩ : BufTy).Contents (Elt F)),
    StableHlo.binary main_v306 main_v310 main_v311 (addf : (⟨S50000x256, .f32⟩ : BufTy).Contents (Elt F) → (⟨S50000x256, .f32⟩ : BufTy).Contents (Elt F) → (⟨S50000x256, .f32⟩ : BufTy).Contents (Elt F)) ]

theorem seg10_sub : (seg10 : List (HloOp τ sig (Elt F))).Forall fun op => op.bufs ⊆ tcRefs τ sig :=
  ⟨binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub ..⟩

/-- The prologue: the two index vectors and the edge normalization. -/
abbrev pro : List (HloOp τ sig (Elt F)) := seg0

/-- Layer 0. -/
abbrev L0 : List (HloOp τ sig (Elt F)) := seg1 ++ seg2

/-- Layer 1. -/
abbrev L1 : List (HloOp τ sig (Elt F)) := seg3 ++ seg4

/-- Layer 2. -/
abbrev L2 : List (HloOp τ sig (Elt F)) := seg5 ++ seg6

/-- Layer 3. -/
abbrev L3 : List (HloOp τ sig (Elt F)) := seg7 ++ seg8

/-- Layer 4. -/
abbrev L4 : List (HloOp τ sig (Elt F)) := seg9 ++ seg10

/-- The printed window 0. -/
abbrev P0 : List (HloOp τ sig (Elt F)) := seg0 ++ seg1

/-- The printed window 1. -/
abbrev P1 : List (HloOp τ sig (Elt F)) := seg2 ++ seg3

/-- The printed window 2. -/
abbrev P2 : List (HloOp τ sig (Elt F)) := seg4 ++ seg5

/-- The printed window 3. -/
abbrev P3 : List (HloOp τ sig (Elt F)) := seg6 ++ seg7

/-- The printed window 4. -/
abbrev P4 : List (HloOp τ sig (Elt F)) := seg8 ++ seg9

/-- The printed window 5. -/
abbrev P5 : List (HloOp τ sig (Elt F)) := seg10

/-- @main's operations, in order. -/
abbrev ops : List (HloOp τ sig (Elt F)) := pro ++ L0 ++ L1 ++ L2 ++ L3 ++ L4

end Cert.ReferenceIdeal.RefRun

end
-- ==== Proof.RefMain.lean ====
/- The reference program's @main is the straight line of its host operations: each printed window is the
   line of its own operations (the calls unfolded at their call sites), the windows in order are the whole
   list, and the list regrouped is the prologue followed by the five layers. The run of such a line from any
   memory ends with every buffer at the fold of the operations' results over the launch contents. -/
import proofs.«107720_j79044578115931_2_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

set_option maxRecDepth 8192 in
theorem main_part0_eq (c : Dev nD) : main_part0 (F := F) c = seq P0 := rfl
set_option maxRecDepth 8192 in
theorem main_part1_eq (c : Dev nD) : main_part1 (F := F) c = seq P1 := rfl
set_option maxRecDepth 8192 in
theorem main_part2_eq (c : Dev nD) : main_part2 (F := F) c = seq P2 := rfl
set_option maxRecDepth 8192 in
theorem main_part3_eq (c : Dev nD) : main_part3 (F := F) c = seq P3 := rfl
set_option maxRecDepth 8192 in
theorem main_part4_eq (c : Dev nD) : main_part4 (F := F) c = seq P4 := rfl
set_option maxRecDepth 8192 in
theorem main_part5_eq (c : Dev nD) : main_part5 (F := F) c = seq P5 := rfl

/-- The list by layers is the list by windows: both are the eleven segments in order. -/
theorem ops_eq : (ops : List (HloOp τ sig (Elt F))) = P0 ++ (P1 ++ (P2 ++ (P3 ++ (P4 ++ P5)))) := by
  simp only [ops, pro, L0, L1, L2, L3, L4, P0, P1, P2, P3, P4, P5, List.append_assoc]

/-- @main is the straight line of its operations. -/
theorem main_eq (c : Dev nD) : main (F := F) c = seq ops := by
  rw [ops_eq]
  simp only [seq_append, ← main_part0_eq c, ← main_part1_eq c, ← main_part2_eq c, ← main_part3_eq c, ← main_part4_eq c,
    ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem forall_append {α : Type} {p : α → Prop} : ∀ {l₁ l₂ : List α}, l₁.Forall p → l₂.Forall p → (l₁ ++ l₂).Forall p := by
  intro l₁ l₂ h₁ h₂
  rw [List.forall_iff_forall_mem] at *
  intro x hx
  rcases List.mem_append.mp hx with h | h
  · exact h₁ x h
  · exact h₂ x h

theorem ops_sub : (ops : List (HloOp τ sig (Elt F))).Forall fun op => op.bufs ⊆ tcRefs τ sig :=
  forall_append (forall_append (forall_append (forall_append (forall_append seg0_sub (forall_append seg1_sub seg2_sub))
    (forall_append seg3_sub seg4_sub)) (forall_append seg5_sub seg6_sub)) (forall_append seg7_sub seg8_sub))
    (forall_append seg9_sub seg10_sub)

/-! No operation of the line leaves a result undetermined. -/
theorem seg0_fresh : (seg0 : List (HloOp τ sig (Elt F))).Forall fun op => op.fresh = ∅ := by
  unfold seg0; repeat (first | exact rfl | refine ⟨rfl, ?_⟩)
theorem seg1_fresh : (seg1 : List (HloOp τ sig (Elt F))).Forall fun op => op.fresh = ∅ := by
  unfold seg1; repeat (first | exact rfl | refine ⟨rfl, ?_⟩)
theorem seg2_fresh : (seg2 : List (HloOp τ sig (Elt F))).Forall fun op => op.fresh = ∅ := by
  unfold seg2; repeat (first | exact rfl | refine ⟨rfl, ?_⟩)
theorem seg3_fresh : (seg3 : List (HloOp τ sig (Elt F))).Forall fun op => op.fresh = ∅ := by
  unfold seg3; repeat (first | exact rfl | refine ⟨rfl, ?_⟩)
theorem seg4_fresh : (seg4 : List (HloOp τ sig (Elt F))).Forall fun op => op.fresh = ∅ := by
  unfold seg4; repeat (first | exact rfl | refine ⟨rfl, ?_⟩)
theorem seg5_fresh : (seg5 : List (HloOp τ sig (Elt F))).Forall fun op => op.fresh = ∅ := by
  unfold seg5; repeat (first | exact rfl | refine ⟨rfl, ?_⟩)
theorem seg6_fresh : (seg6 : List (HloOp τ sig (Elt F))).Forall fun op => op.fresh = ∅ := by
  unfold seg6; repeat (first | exact rfl | refine ⟨rfl, ?_⟩)
theorem seg7_fresh : (seg7 : List (HloOp τ sig (Elt F))).Forall fun op => op.fresh = ∅ := by
  unfold seg7; repeat (first | exact rfl | refine ⟨rfl, ?_⟩)
theorem seg8_fresh : (seg8 : List (HloOp τ sig (Elt F))).Forall fun op => op.fresh = ∅ := by
  unfold seg8; repeat (first | exact rfl | refine ⟨rfl, ?_⟩)
theorem seg9_fresh : (seg9 : List (HloOp τ sig (Elt F))).Forall fun op => op.fresh = ∅ := by
  unfold seg9; repeat (first | exact rfl | refine ⟨rfl, ?_⟩)
theorem seg10_fresh : (seg10 : List (HloOp τ sig (Elt F))).Forall fun op => op.fresh = ∅ := by
  unfold seg10; repeat (first | exact rfl | refine ⟨rfl, ?_⟩)

theorem ops_fresh : ∀ op ∈ (ops : List (HloOp τ sig (Elt F))), op.fresh = ∅ :=
  List.forall_iff_forall_mem.mp
    (forall_append (forall_append (forall_append (forall_append (forall_append seg0_fresh (forall_append seg1_fresh seg2_fresh))
      (forall_append seg3_fresh seg4_fresh)) (forall_append seg5_fresh seg6_fresh)) (forall_append seg7_fresh seg8_fresh))
      (forall_append seg9_fresh seg10_fresh))

/-- From any memory with zero counters, for any float values: every weakly fair execution of @main terminates, and
    every buffer ends at the fold of the operations' results over the device's launch contents. -/
theorem run_fold (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefWrites.lean ====
/- Which buffers each segment of the reference program's operations writes: every operation writes its one
   result buffer, so a segment writes the buffers listed here and leaves every other buffer as it was. -/
import proofs.«107720_j79044578115931_2_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The buffers that statements 1 … 37 of @main write. -/
abbrev seg0_W : List (Ref sig .tc) :=
  [main_v0, main_v1, main_v2, main_v3, main_cst, main_v4, main_cst_0, main_v5, main_v6, main_v7, main_cst_1, main_v8, main_v9, main_cst_2, main_v10, main_v11, main_cst_3, main_call0.v0.ref, main_call0.v1.ref, main_call0.v2.ref, main_c, main_v13, main_v14, main_c_4, main_v15, main_v16, main_v17, main_v18, main_v19, main_c_5, main_v20, main_v21, main_c_6, main_v22, main_v23, main_v24, main_v25, main_v26, main_v27]

set_option maxRecDepth 8192 in
theorem seg0_writes : (seg0 : List (HloOp τ sig (Elt F))).Forall fun op =>
    op.writes ⊆ (seg0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg0_keep (V : Valuation τ sig (Elt F)) (r : Ref sig .tc) (h : r ∉ seg0_W) :
    after seg0 V (Proc.devRef .tc r) = V (Proc.devRef .tc r) :=
  after_of_writes_sub seg0 V seg0_writes h

/-- The buffers that statements 38 … 60 of @main write. -/
abbrev seg1_W : List (Ref sig .tc) :=
  [main_v28, main_v29, main_v30, main_v31, main_v32, main_v33, main_v34, main_v35, main_v36, main_v37, main_c_7, main_v38, main_v39, main_c_8, main_v40, main_v41, main_v42, main_v43, main_v44, main_v45, main_v46, main_v47, main_cst_9]

set_option maxRecDepth 8192 in
theorem seg1_writes : (seg1 : List (HloOp τ sig (Elt F))).Forall fun op =>
    op.writes ⊆ (seg1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg1_keep (V : Valuation τ sig (Elt F)) (r : Ref sig .tc) (h : r ∉ seg1_W) :
    after seg1 V (Proc.devRef .tc r) = V (Proc.devRef .tc r) :=
  after_of_writes_sub seg1 V seg1_writes h

/-- The buffers that statements 61 … 101 of @main write. -/
abbrev seg2_W : List (Ref sig .tc) :=
  [main_v48, main_v49, main_v50, main_v51, main_v52, main_v53, main_v54, main_v55, main_v56, main_v57, main_v58, main_v59, main_call1.cst.ref, main_call1.v0.ref, main_call1.v1.ref, main_cst_10, main_v61, main_cst_11, main_v62, main_v63, main_c_12, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.cst_3.ref, main_call2.v12.ref, main_call2.cst_4.ref, main_call2.call0.v0.ref, main_call2.call0.v1.ref, main_call2.call0.v2.ref, main_v65, main_v66, main_v67, main_cst_13, main_v68, main_v69, main_v70, main_v71, main_v72, main_v73, main_v74, main_v75, main_v76, main_v77, main_v78, main_v79, main_v80, main_v81, main_v82, main_v83, main_call3.cst.ref, main_call3.v0.ref, main_call3.v1.ref]

set_option maxRecDepth 8192 in
theorem seg2_writes : (seg2 : List (HloOp τ sig (Elt F))).Forall fun op =>
    op.writes ⊆ (seg2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg2_keep (V : Valuation τ sig (Elt F)) (r : Ref sig .tc) (h : r ∉ seg2_W) :
    after seg2 V (Proc.devRef .tc r) = V (Proc.devRef .tc r) :=
  after_of_writes_sub seg2 V seg2_writes h

/-- The buffers that statements 102 … 120 of @main write. -/
abbrev seg3_W : List (Ref sig .tc) :=
  [main_v85, main_v86, main_v87, main_v88, main_v89, main_v90, main_v91, main_v92, main_v93, main_v94, main_c_14, main_v95, main_v96, main_c_15, main_v97, main_v98, main_v99, main_v100, main_v101]

set_option maxRecDepth 8192 in
theorem seg3_writes : (seg3 : List (HloOp τ sig (Elt F))).Forall fun op =>
    op.writes ⊆ (seg3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg3_keep (V : Valuation τ sig (Elt F)) (r : Ref sig .tc) (h : r ∉ seg3_W) :
    after seg3 V (Proc.devRef .tc r) = V (Proc.devRef .tc r) :=
  after_of_writes_sub seg3 V seg3_writes h

/-- The buffers that statements 121 … 165 of @main write. -/
abbrev seg4_W : List (Ref sig .tc) :=
  [main_v102, main_v103, main_v104, main_cst_16, main_v105, main_v106, main_v107, main_v108, main_v109, main_v110, main_v111, main_v112, main_v113, main_v114, main_v115, main_v116, main_call4.cst.ref, main_call4.v0.ref, main_call4.v1.ref, main_cst_17, main_v118, main_cst_18, main_v119, main_v120, main_c_19, main_call5.cst.ref, main_call5.v0.ref, main_call5.v1.ref, main_call5.cst_0.ref, main_call5.v2.ref, main_call5.v3.ref, main_call5.v4.ref, main_call5.v5.ref, main_call5.v6.ref, main_call5.v7.ref, main_call5.cst_1.ref, main_call5.v8.ref, main_call5.cst_2.ref, main_call5.v9.ref, main_call5.v10.ref, main_call5.v11.ref, main_call5.cst_3.ref, main_call5.v12.ref, main_call5.cst_4.ref, main_call5.call0.v0.ref, main_call5.call0.v1.ref, main_call5.call0.v2.ref, main_v122, main_v123, main_v124, main_cst_20, main_v125, main_v126, main_v127, main_v128, main_v129, main_v130, main_v131, main_v132, main_v133, main_v134, main_v135, main_v136, main_v137, main_v138, main_v139, main_v140, main_call6.cst.ref, main_call6.v0.ref, main_call6.v1.ref]

set_option maxRecDepth 8192 in
theorem seg4_writes : (seg4 : List (HloOp τ sig (Elt F))).Forall fun op =>
    op.writes ⊆ (seg4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg4_keep (V : Valuation τ sig (Elt F)) (r : Ref sig .tc) (h : r ∉ seg4_W) :
    after seg4 V (Proc.devRef .tc r) = V (Proc.devRef .tc r) :=
  after_of_writes_sub seg4 V seg4_writes h

/-- The buffers that statements 166 … 180 of @main write. -/
abbrev seg5_W : List (Ref sig .tc) :=
  [main_v142, main_v143, main_v144, main_v145, main_v146, main_v147, main_v148, main_v149, main_v150, main_v151, main_c_21, main_v152, main_v153, main_c_22, main_v154]

set_option maxRecDepth 8192 in
theorem seg5_writes : (seg5 : List (HloOp τ sig (Elt F))).Forall fun op =>
    op.writes ⊆ (seg5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg5_keep (V : Valuation τ sig (Elt F)) (r : Ref sig .tc) (h : r ∉ seg5_W) :
    after seg5 V (Proc.devRef .tc r) = V (Proc.devRef .tc r) :=
  after_of_writes_sub seg5 V seg5_writes h

/-- The buffers that statements 181 … 229 of @main write. -/
abbrev seg6_W : List (Ref sig .tc) :=
  [main_v155, main_v156, main_v157, main_v158, main_v159, main_v160, main_v161, main_cst_23, main_v162, main_v163, main_v164, main_v165, main_v166, main_v167, main_v168, main_v169, main_v170, main_v171, main_v172, main_v173, main_call7.cst.ref, main_call7.v0.ref, main_call7.v1.ref, main_cst_24, main_v175, main_cst_25, main_v176, main_v177, main_c_26, main_call8.cst.ref, main_call8.v0.ref, main_call8.v1.ref, main_call8.cst_0.ref, main_call8.v2.ref, main_call8.v3.ref, main_call8.v4.ref, main_call8.v5.ref, main_call8.v6.ref, main_call8.v7.ref, main_call8.cst_1.ref, main_call8.v8.ref, main_call8.cst_2.ref, main_call8.v9.ref, main_call8.v10.ref, main_call8.v11.ref, main_call8.cst_3.ref, main_call8.v12.ref, main_call8.cst_4.ref, main_call8.call0.v0.ref, main_call8.call0.v1.ref, main_call8.call0.v2.ref, main_v179, main_v180, main_v181, main_cst_27, main_v182, main_v183, main_v184, main_v185, main_v186, main_v187, main_v188, main_v189, main_v190, main_v191, main_v192, main_v193, main_v194, main_v195, main_v196, main_v197, main_call9.cst.ref, main_call9.v0.ref, main_call9.v1.ref]

set_option maxRecDepth 8192 in
theorem seg6_writes : (seg6 : List (HloOp τ sig (Elt F))).Forall fun op =>
    op.writes ⊆ (seg6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg6_keep (V : Valuation τ sig (Elt F)) (r : Ref sig .tc) (h : r ∉ seg6_W) :
    after seg6 V (Proc.devRef .tc r) = V (Proc.devRef .tc r) :=
  after_of_writes_sub seg6 V seg6_writes h

/-- The buffers that statements 230 … 240 of @main write. -/
abbrev seg7_W : List (Ref sig .tc) :=
  [main_v199, main_v200, main_v201, main_v202, main_v203, main_v204, main_v205, main_v206, main_v207, main_v208, main_c_28]

set_option maxRecDepth 8192 in
theorem seg7_writes : (seg7 : List (HloOp τ sig (Elt F))).Forall fun op =>
    op.writes ⊆ (seg7_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg7_keep (V : Valuation τ sig (Elt F)) (r : Ref sig .tc) (h : r ∉ seg7_W) :
    after seg7 V (Proc.devRef .tc r) = V (Proc.devRef .tc r) :=
  after_of_writes_sub seg7 V seg7_writes h

/-- The buffers that statements 241 … 293 of @main write. -/
abbrev seg8_W : List (Ref sig .tc) :=
  [main_v209, main_v210, main_c_29, main_v211, main_v212, main_v213, main_v214, main_v215, main_v216, main_v217, main_v218, main_cst_30, main_v219, main_v220, main_v221, main_v222, main_v223, main_v224, main_v225, main_v226, main_v227, main_v228, main_v229, main_v230, main_call10.cst.ref, main_call10.v0.ref, main_call10.v1.ref, main_cst_31, main_v232, main_cst_32, main_v233, main_v234, main_c_33, main_call11.cst.ref, main_call11.v0.ref, main_call11.v1.ref, main_call11.cst_0.ref, main_call11.v2.ref, main_call11.v3.ref, main_call11.v4.ref, main_call11.v5.ref, main_call11.v6.ref, main_call11.v7.ref, main_call11.cst_1.ref, main_call11.v8.ref, main_call11.cst_2.ref, main_call11.v9.ref, main_call11.v10.ref, main_call11.v11.ref, main_call11.cst_3.ref, main_call11.v12.ref, main_call11.cst_4.ref, main_call11.call0.v0.ref, main_call11.call0.v1.ref, main_call11.call0.v2.ref, main_v236, main_v237, main_v238, main_cst_34, main_v239, main_v240, main_v241, main_v242, main_v243, main_v244, main_v245, main_v246, main_v247, main_v248, main_v249, main_v250, main_v251, main_v252, main_v253, main_v254, main_call12.cst.ref, main_call12.v0.ref, main_call12.v1.ref]

set_option maxRecDepth 8192 in
theorem seg8_writes : (seg8 : List (HloOp τ sig (Elt F))).Forall fun op =>
    op.writes ⊆ (seg8_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg8_keep (V : Valuation τ sig (Elt F)) (r : Ref sig .tc) (h : r ∉ seg8_W) :
    after seg8 V (Proc.devRef .tc r) = V (Proc.devRef .tc r) :=
  after_of_writes_sub seg8 V seg8_writes h

/-- The buffers that statements 294 … 300 of @main write. -/
abbrev seg9_W : List (Ref sig .tc) :=
  [main_v256, main_v257, main_v258, main_v259, main_v260, main_v261, main_v262]

set_option maxRecDepth 8192 in
theorem seg9_writes : (seg9 : List (HloOp τ sig (Elt F))).Forall fun op =>
    op.writes ⊆ (seg9_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg9_keep (V : Valuation τ sig (Elt F)) (r : Ref sig .tc) (h : r ∉ seg9_W) :
    after seg9 V (Proc.devRef .tc r) = V (Proc.devRef .tc r) :=
  after_of_writes_sub seg9 V seg9_writes h

/-- The buffers that statements 301 … 356 of @main write. -/
abbrev seg10_W : List (Ref sig .tc) :=
  [main_v263, main_v264, main_v265, main_c_35, main_v266, main_v267, main_c_36, main_v268, main_v269, main_v270, main_v271, main_v272, main_v273, main_v274, main_v275, main_cst_37, main_v276, main_v277, main_v278, main_v279, main_v280, main_v281, main_v282, main_v283, main_v284, main_v285, main_v286, main_v287, main_call13.cst.ref, main_call13.v0.ref, main_call13.v1.ref, main_cst_38, main_v289, main_cst_39, main_v290, main_v291, main_c_40, main_call14.cst.ref, main_call14.v0.ref, main_call14.v1.ref, main_call14.cst_0.ref, main_call14.v2.ref, main_call14.v3.ref, main_call14.v4.ref, main_call14.v5.ref, main_call14.v6.ref, main_call14.v7.ref, main_call14.cst_1.ref, main_call14.v8.ref, main_call14.cst_2.ref, main_call14.v9.ref, main_call14.v10.ref, main_call14.v11.ref, main_call14.cst_3.ref, main_call14.v12.ref, main_call14.cst_4.ref, main_call14.call0.v0.ref, main_call14.call0.v1.ref, main_call14.call0.v2.ref, main_v293, main_v294, main_v295, main_cst_41, main_v296, main_v297, main_v298, main_v299, main_v300, main_v301, main_v302, main_v303, main_v304, main_v305, main_v306, main_v307, main_v308, main_v309, main_v310, main_v311]

set_option maxRecDepth 8192 in
theorem seg10_writes : (seg10 : List (HloOp τ sig (Elt F))).Forall fun op =>
    op.writes ⊆ (seg10_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer those statements do not write keeps its contents through them. -/
theorem seg10_keep (V : Valuation τ sig (Elt F)) (r : Ref sig .tc) (h : r ∉ seg10_W) :
    after seg10 V (Proc.devRef .tc r) = V (Proc.devRef .tc r) :=
  after_of_writes_sub seg10 V seg10_writes h

end Cert.ReferenceIdeal.RefRun

end
-- ==== Proof.RefSpec.lean ====
/- The reference network as pure functions of its nine argument arrays.

   A five-layer message-passing network on 50000 nodes and 320000 edges with 256 hidden features.
   From the edge list: row = edge_index[0], col = edge_index[1]; deg = the number of edges into each
   node (a scatter-add of ones at col); dinv = deg^(-1/2) where deg > 0 and 0 elsewhere;
   norm = dinv[row] * dinv[col].  One layer, from node features h:
     msg  = norm[:, None] * (h[row] + [edge_attr[:, 3:] @ ew1 | edge_attr[:, 0:3] @ ew2])
     agg  = the sum of msg over the edges into each node (a scatter-add at col)
     y    = max([h | agg] @ w + b, 0)
     mu   = the column means of y,  var = the column variances of y (biased)
     h'   = (y - mu) * rsqrt(var + 1e-5) * g + beta,  followed by max(., 0) in every layer but the last.
   Every stage is a definition of its own, written with the operations and the shape records of the
   printed reference program, so that the program's run folds back to these terms, and so that a
   stage can be compared with another computation of it without opening the other stages. -/
import proofs.«107720_j79044578115931_2_alg».proof.ReferenceIdeal

noncomputable section

namespace Cert.ReferenceIdeal.RefSpec

open Cert.ReferenceIdeal Idealize.ShloMosaic
open Cert.ReferenceIdeal.Facts₀ Cert.ReferenceIdeal.Facts

variable {F : FTy → Type} [FloatOps F] [Cert.ReferenceIdeal.Facts]

/-! ## Small shared pieces -/

/-- A float scalar spread over a shape. -/
def splat (S : Shape) (h : S_.BroadcastsInDim S (![] : Fin 0 → Fin S.rank)) (w : BitVec 32) : Vec F S .f32 :=
  broadcastInDim S ![] h (constant S_ .f32 w : Vec F S_ .f32)

/-- A vector of 256 column values repeated down the 50000 rows: [256] → [1,256] → [50000,256]. -/
def rowB (v : Vec F S256 .f32) : Vec F S50000x256 .f32 :=
  broadcastInDim S50000x256 ![0, 1] bcast_S1x256_S50000x256_0_1 (broadcastInDim S1x256 ![1] bcast_S256_S1x256_1 v)

/-- max(x, 0), elementwise on [50000,256]. -/
def refRelu (x : Vec F S50000x256 .f32) : Vec F S50000x256 .f32 :=
  maximumf x (broadcastInDim S50000x256 ![] bcast_S_S50000x256 (constant S_ .f32 0x00000000#32 : Vec F S_ .f32))

/-- An index vector with negative entries wrapped (i < 0 ↦ i + 50000), as the [320000,1] table a gather reads. -/
def wrapIdx (v : Vec F S320000 .i32) : Vec F S320000x1 .i32 :=
  broadcastInDim S320000x1 ![0] bcast_S320000_S320000x1_0
    (select (cmpi .slt v (broadcastInDim S320000 ![] bcast_S_S320000 (constantI S_ 32 0#32 : Vec F S_ .i32)))
      (addi v (broadcastInDim S320000 ![] bcast_S_S320000 (constantI S_ 32 50000#32 : Vec F S_ .i32))) v)

/-- An index vector as the [320000,1] table a scatter reads. -/
def colIdx (v : Vec F S320000 .i32) : Vec F S320000x1 .i32 :=
  broadcastInDim S320000x1 ![0] bcast_S320000_S320000x1_0 v

/-! ## The edge list and the normalization -/

/-- row = edge_index[0]. -/
def refRow (ei : Vec F S2x320000 .i32) : Vec F S320000 .i32 :=
  shapeCast S320000 (extractStridedSlice S1x320000 ![0, 0] ei slices_S2x320000_S1x320000_0_0) shapeCasts_S1x320000_S320000

/-- col = edge_index[1]. -/
def refCol (ei : Vec F S2x320000 .i32) : Vec F S320000 .i32 :=
  shapeCast S320000 (extractStridedSlice S1x320000 ![1, 0] ei slices_S2x320000_S1x320000_1_0) shapeCasts_S1x320000_S320000

/-- deg: the number of edges into each node, a scatter-add of ones at col into zeros. -/
def refDeg (col : Vec F S320000 .i32) : Vec F S50000 .f32 :=
  Host.scatterAdd scatter_S50000_S320000x1_S320000_n_0_0_1
    (broadcastInDim S50000 ![] bcast_S_S50000 (constant S_ .f32 0x00000000#32 : Vec F S_ .f32))
    (colIdx col)
    (broadcastInDim S320000 ![] bcast_S_S320000 (constant S_ .f32 0x3F800000#32 : Vec F S_ .f32))

/-- dinv = deg^(-1/2) where deg > 0, and 0 elsewhere. -/
def refDinv (deg : Vec F S50000 .f32) : Vec F S50000 .f32 :=
  select (cmpf .ogt deg (broadcastInDim S50000 ![] bcast_S_S50000 (constant S_ .f32 0x00000000#32 : Vec F S_ .f32)))
    (Host.powf deg (broadcastInDim S50000 ![] bcast_S_S50000 (constant S_ .f32 0xBF000000#32 : Vec F S_ .f32)))
    (broadcastInDim S50000 ![] bcast_S_S50000 (id (constant S_ .f32 0x00000000#32 : Vec F S_ .f32)))

/-- norm = dinv[row] * dinv[col], from the two index vectors. -/
def refNormOf (row col : Vec F S320000 .i32) : Vec F S320000 .f32 :=
  mulf (Host.gather gather_S50000_S320000x1_S320000_n_0_n_n_0_1_1 (refDinv (refDeg col)) (wrapIdx row))
    (Host.gather gather_S50000_S320000x1_S320000_n_0_n_n_0_1_1 (refDinv (refDeg col)) (wrapIdx col))

/-- norm as a function of edge_index. -/
def refNorm (ei : Vec F S2x320000 .i32) : Vec F S320000 .f32 := refNormOf (refRow ei) (refCol ei)

/-! ## One layer, stage by stage (no stage mentions the layer's number) -/

/-- h[row]: the rows of h at the source node of each edge. -/
def refHRow (h : Vec F S50000x256 .f32) (row : Vec F S320000 .i32) : Vec F S320000x256 .f32 :=
  Host.gather gather_S50000x256_S320000x1_S320000x256_1_0_n_n_0_1_1256 h (wrapIdx row)

/-- The edge features [edge_attr[:, 3:] @ e1 | edge_attr[:, 0:3] @ e2], e1 : [1,128], e2 : [3,128]. -/
def refEdgeFea (ea : Vec F S320000x4 .f32) (e1 : Vec F S1x128 .f32) (e2 : Vec F S3x128 .f32) : Vec F S320000x256 .f32 :=
  concatenate S320000x256 1
    [⟨S320000x128, Host.dotGeneral dot_S320000x1_S1x128_S320000x128_1_0_0_1_n_n none
        (extractStridedSlice S320000x1 ![0, 3] ea slices_S320000x4_S320000x1_0_3) e1⟩,
     ⟨S320000x128, Host.dotGeneral dot_S320000x3_S3x128_S320000x128_1_0_0_1_n_n none
        (extractStridedSlice S320000x3 ![0, 0] ea slices_S320000x4_S320000x3_0_0) e2⟩]
    concatenates_S320000x128_S320000x128_S320000x256_d1

/-- msg = norm[:, None] * (hrow + edge features). -/
def refMsg (norm : Vec F S320000 .f32) (hrow : Vec F S320000x256 .f32) (ea : Vec F S320000x4 .f32)
    (e1 : Vec F S1x128 .f32) (e2 : Vec F S3x128 .f32) : Vec F S320000x256 .f32 :=
  mulf (broadcastInDim S320000x256 ![0, 1] bcast_S320000x1_S320000x256_0_1
          (broadcastInDim S320000x1 ![0] bcast_S320000_S320000x1_0 norm))
    (addf hrow (refEdgeFea ea e1 e2))

/-- agg: msg summed over the edges into each node, a scatter-add at col into zeros. -/
def refAgg (msg : Vec F S320000x256 .f32) (col : Vec F S320000 .i32) : Vec F S50000x256 .f32 :=
  Host.scatterAdd scatter_S50000x256_S320000x1_S320000x256_1_0_0_1
    (broadcastInDim S50000x256 ![] bcast_S_S50000x256 (constant S_ .f32 0x00000000#32 : Vec F S_ .f32))
    (colIdx col) msg

/-- y = max([h | agg] @ w + b, 0), w : [512,256], b : [256]. -/
def refY (h agg : Vec F S50000x256 .f32) (w : Vec F S512x256 .f32) (b : Vec F S256 .f32) : Vec F S50000x256 .f32 :=
  refRelu (addf
    (Host.dotGeneral dot_S50000x512_S512x256_S50000x256_1_0_0_1_n_n none
      (concatenate S50000x512 1 [⟨S50000x256, h⟩, ⟨S50000x256, agg⟩] concatenates_S50000x256_S50000x256_S50000x512_d1) w)
    (rowB b))

/-- mu: the column sums of y over the 50000 rows, divided by 50000. -/
def refMean (y : Vec F S50000x256 .f32) : Vec F S256 .f32 :=
  Host.divf (Host.reduceAdd y (constant S_ .f32 0x00000000#32 : Vec F S_ .f32) reducesTo_S50000x256_S256_d0 h_S_)
    (broadcastInDim S256 ![] bcast_S_S256 (constant S_ .f32 0x47435000#32 : Vec F S_ .f32))

/-- The centred squares of y: (y - column mean)^2, the column mean computed as [1,256] and spread. -/
def refSqDev (y : Vec F S50000x256 .f32) : Vec F S50000x256 .f32 :=
  mulf
    (subf y (broadcastInDim S50000x256 ![0, 1] bcast_S1x256_S50000x256_0_1
      (Host.divf (broadcastInDim S1x256 ![1] bcast_S256_S1x256_1
          (Host.reduceAdd y (constant S_ .f32 0x00000000#32 : Vec F S_ .f32) reducesTo_S50000x256_S256_d0 h_S_))
        (broadcastInDim S1x256 ![] bcast_S_S1x256 (constant S_ .f32 0x47435000#32 : Vec F S_ .f32)))))
    (subf y (broadcastInDim S50000x256 ![0, 1] bcast_S1x256_S50000x256_0_1
      (Host.divf (broadcastInDim S1x256 ![1] bcast_S256_S1x256_1
          (Host.reduceAdd y (constant S_ .f32 0x00000000#32 : Vec F S_ .f32) reducesTo_S50000x256_S256_d0 h_S_))
        (broadcastInDim S1x256 ![] bcast_S_S1x256 (constant S_ .f32 0x47435000#32 : Vec F S_ .f32)))))

/-- The divisor of the variance: 50000 - ddof with ddof = 0, as a float scalar. -/
def refVarDen : Vec F S_ .f32 :=
  subf (constant S_ .f32 0x47435000#32 : Vec F S_ .f32) (sitofp .f32 (constantI S_ 32 0#32 : Vec F S_ .i32))

/-- var: the column sums of the centred squares divided by 50000 - 0 where that divisor is positive
    (a NaN elsewhere: jnp.var's guard). -/
def refVar (y : Vec F S50000x256 .f32) : Vec F S256 .f32 :=
  select (broadcastInDim S256 ![] bcast_S_S256 (cmpf .ogt (refVarDen (F := F)) (constant S_ .f32 0x00000000#32 : Vec F S_ .f32)))
    (Host.divf (Host.reduceAdd (refSqDev y) (constant S_ .f32 0x00000000#32 : Vec F S_ .f32) reducesTo_S50000x256_S256_d0 h_S_)
      (broadcastInDim S256 ![] bcast_S_S256 (refVarDen (F := F))))
    (broadcastInDim S256 ![] bcast_S_S256 (id (constant S_ .f32 0x7FC00000#32 : Vec F S_ .f32)))

/-- The normalization (y - mu) * rsqrt(var + 1e-5) * g + beta, each [256] vector spread down the rows. -/
def refBn (y : Vec F S50000x256 .f32) (mu var g beta : Vec F S256 .f32) : Vec F S50000x256 .f32 :=
  addf
    (mulf
      (mulf (subf y (rowB mu))
        (rowB (Host.rsqrt (addf var (broadcastInDim S256 ![] bcast_S_S256 (constant S_ .f32 0x3727C5AC#32 : Vec F S_ .f32))))))
      (rowB g))
    (rowB beta)

/-- The normalization followed by max(., 0): every layer but the last. -/
def refBnRelu (y : Vec F S50000x256 .f32) (mu var g beta : Vec F S256 .f32) : Vec F S50000x256 .f32 :=
  refRelu (refBn y mu var g beta)

/-! ## The parameters of layer l: slice l of each stacked array, its leading unit axis dropped -/

/-- What slicing the stacked parameter arrays at layer l asks of the shapes. -/
structure SliceFacts (l : Nat) : Prop where
  e1 : S5x1x128.Slices ![l, 0, 0] S1x1x128
  e2 : S5x3x128.Slices ![l, 0, 0] S1x3x128
  w : S5x512x256.Slices ![l, 0, 0] S1x512x256
  v : S5x256.Slices ![l, 0] S1x256

/-- ew1[l] : [1,128]. -/
def ew1At (l : Nat) (hl : S5x1x128.Slices ![l, 0, 0] S1x1x128) (p : Vec F S5x1x128 .f32) : Vec F S1x128 .f32 :=
  shapeCast S1x128 (extractStridedSlice S1x1x128 ![l, 0, 0] p hl) shapeCasts_S1x1x128_S1x128

/-- ew2[l] : [3,128]. -/
def ew2At (l : Nat) (hl : S5x3x128.Slices ![l, 0, 0] S1x3x128) (p : Vec F S5x3x128 .f32) : Vec F S3x128 .f32 :=
  shapeCast S3x128 (extractStridedSlice S1x3x128 ![l, 0, 0] p hl) shapeCasts_S1x3x128_S3x128

/-- mlp_w[l] : [512,256]. -/
def wAt (l : Nat) (hl : S5x512x256.Slices ![l, 0, 0] S1x512x256) (p : Vec F S5x512x256 .f32) : Vec F S512x256 .f32 :=
  shapeCast S512x256 (extractStridedSlice S1x512x256 ![l, 0, 0] p hl) shapeCasts_S1x512x256_S512x256

/-- p[l] : [256] for a stacked [5,256] array (mlp_b, bn_g, bn_b). -/
def vecAt (l : Nat) (hl : S5x256.Slices ![l, 0] S1x256) (p : Vec F S5x256 .f32) : Vec F S256 .f32 :=
  shapeCast S256 (extractStridedSlice S1x256 ![l, 0] p hl) shapeCasts_S1x256_S256

/-! ## The layers and the network -/

/-- y of layer l from h, the normalization, the index vectors and the arguments. -/
def refLayerY (l : Nat) (hl : SliceFacts l) (h : Vec F S50000x256 .f32) (norm : Vec F S320000 .f32)
    (row col : Vec F S320000 .i32) (ea : Vec F S320000x4 .f32) (mlp_w : Vec F S5x512x256 .f32) (mlp_b : Vec F S5x256 .f32)
    (ew1 : Vec F S5x1x128 .f32) (ew2 : Vec F S5x3x128 .f32) : Vec F S50000x256 .f32 :=
  refY h (refAgg (refMsg norm (refHRow h row) ea (ew1At l hl.e1 ew1) (ew2At l hl.e2 ew2)) col) (wAt l hl.w mlp_w) (vecAt l hl.v mlp_b)

/-- Layer l with its final max(., 0): the layers 0 … 3. -/
def refLayer (l : Nat) (hl : SliceFacts l) (h : Vec F S50000x256 .f32) (norm : Vec F S320000 .f32)
    (row col : Vec F S320000 .i32) (ea : Vec F S320000x4 .f32) (mlp_w : Vec F S5x512x256 .f32) (mlp_b : Vec F S5x256 .f32)
    (ew1 : Vec F S5x1x128 .f32) (ew2 : Vec F S5x3x128 .f32) (bn_g bn_b : Vec F S5x256 .f32) : Vec F S50000x256 .f32 :=
  refBnRelu (refLayerY l hl h norm row col ea mlp_w mlp_b ew1 ew2)
    (refMean (refLayerY l hl h norm row col ea mlp_w mlp_b ew1 ew2))
    (refVar (refLayerY l hl h norm row col ea mlp_w mlp_b ew1 ew2))
    (vecAt l hl.v bn_g) (vecAt l hl.v bn_b)

/-- Layer l without the final max(., 0): the last layer. -/
def refLayerLast (l : Nat) (hl : SliceFacts l) (h : Vec F S50000x256 .f32) (norm : Vec F S320000 .f32)
    (row col : Vec F S320000 .i32) (ea : Vec F S320000x4 .f32) (mlp_w : Vec F S5x512x256 .f32) (mlp_b : Vec F S5x256 .f32)
    (ew1 : Vec F S5x1x128 .f32) (ew2 : Vec F S5x3x128 .f32) (bn_g bn_b : Vec F S5x256 .f32) : Vec F S50000x256 .f32 :=
  refBn (refLayerY l hl h norm row col ea mlp_w mlp_b ew1 ew2)
    (refMean (refLayerY l hl h norm row col ea mlp_w mlp_b ew1 ew2))
    (refVar (refLayerY l hl h norm row col ea mlp_w mlp_b ew1 ew2))
    (vecAt l hl.v bn_g) (vecAt l hl.v bn_b)

theorem sf0 : SliceFacts 0 := ⟨slices_S5x1x128_S1x1x128_0_0_0, slices_S5x3x128_S1x3x128_0_0_0, slices_S5x512x256_S1x512x256_0_0_0, slices_S5x256_S1x256_0_0⟩
theorem sf1 : SliceFacts 1 := ⟨slices_S5x1x128_S1x1x128_1_0_0, slices_S5x3x128_S1x3x128_1_0_0, slices_S5x512x256_S1x512x256_1_0_0, slices_S5x256_S1x256_1_0⟩
theorem sf2 : SliceFacts 2 := ⟨slices_S5x1x128_S1x1x128_2_0_0, slices_S5x3x128_S1x3x128_2_0_0, slices_S5x512x256_S1x512x256_2_0_0, slices_S5x256_S1x256_2_0⟩
theorem sf3 : SliceFacts 3 := ⟨slices_S5x1x128_S1x1x128_3_0_0, slices_S5x3x128_S1x3x128_3_0_0, slices_S5x512x256_S1x512x256_3_0_0, slices_S5x256_S1x256_3_0⟩
theorem sf4 : SliceFacts 4 := ⟨slices_S5x1x128_S1x1x128_4_0_0, slices_S5x3x128_S1x3x128_4_0_0, slices_S5x512x256_S1x512x256_4_0_0, slices_S5x256_S1x256_4_0⟩

/-- The five layers from given normalization and index vectors. -/
def refNet (x : Vec F S50000x256 .f32) (norm : Vec F S320000 .f32) (row col : Vec F S320000 .i32)
    (ea : Vec F S320000x4 .f32) (mlp_w : Vec F S5x512x256 .f32) (mlp_b : Vec F S5x256 .f32)
    (ew1 : Vec F S5x1x128 .f32) (ew2 : Vec F S5x3x128 .f32) (bn_g bn_b : Vec F S5x256 .f32) : Vec F S50000x256 .f32 :=
  refLayerLast 4 sf4
    (refLayer 3 sf3
      (refLayer 2 sf2
        (refLayer 1 sf1
          (refLayer 0 sf0 x norm row col ea mlp_w mlp_b ew1 ew2 bn_g bn_b)
          norm row col ea mlp_w mlp_b ew1 ew2 bn_g bn_b)
        norm row col ea mlp_w mlp_b ew1 ew2 bn_g bn_b)
      norm row col ea mlp_w mlp_b ew1 ew2 bn_g bn_b)
    norm row col ea mlp_w mlp_b ew1 ew2 bn_g bn_b

/-- The reference's result as ONE function of its nine arguments. -/
def refOut (x : Vec F S50000x256 .f32) (ei : Vec F S2x320000 .i32) (ea : Vec F S320000x4 .f32)
    (mlp_w : Vec F S5x512x256 .f32) (mlp_b : Vec F S5x256 .f32) (ew1 : Vec F S5x1x128 .f32) (ew2 : Vec F S5x3x128 .f32)
    (bn_g bn_b : Vec F S5x256 .f32) : Vec F S50000x256 .f32 :=
  refNet x (refNorm ei) (refRow ei) (refCol ei) ea mlp_w mlp_b ew1 ew2 bn_g bn_b

end Cert.ReferenceIdeal.RefSpec

end
-- ==== Proof.RefPro.lean ====
/- The prologue of the reference program read at any contents of the buffers: it leaves the two index vectors
   (row and col of the edge list) and the edge normalization, each the specification's function of edge_index. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 2000000 in
/-- row = edge_index[0]. -/
theorem pro_row (V : Valuation τ sig (Elt F)) :
    after pro V (Proc.devRef .tc main_v1) = refRow (V (Proc.devRef .tc main_arg1)) := by
  simp only [refRow]
  simp only [pro, seg0]
  after_results_simp
  rfl

set_option maxRecDepth 16384 in
set_option maxHeartbeats 2000000 in
/-- col = edge_index[1]. -/
theorem pro_col (V : Valuation τ sig (Elt F)) :
    after pro V (Proc.devRef .tc main_v3) = refCol (V (Proc.devRef .tc main_arg1)) := by
  simp only [refCol]
  simp only [pro, seg0]
  after_results_simp
  rfl

set_option maxRecDepth 16384 in
set_option maxHeartbeats 4000000 in
/-- norm = dinv[row] * dinv[col]. -/
theorem pro_norm (V : Valuation τ sig (Elt F)) :
    after pro V (Proc.devRef .tc main_v27) = refNorm (V (Proc.devRef .tc main_arg1)) := by
  simp only [refNorm, refNormOf, refDinv, refDeg, refRow, refCol, wrapIdx, colIdx]
  simp only [pro, seg0]
  after_results_simp
  rfl

end Cert.ReferenceIdeal.RefRun

end
-- ==== Proof.RefL0.lean ====
/- The first layer's stretch of the reference program read at any contents of the buffers: it leaves its output buffer
   at the layer function of the contents of its input buffer, of the normalization and index buffers and of the
   parameter arrays. The stretch's operations are folded in order; each intermediate buffer is written once, so the
   fold at the output is the composition of the operations' functions, which is the layer function unfolded. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 4000000 in
/-- Layer 0: the output buffer after the stretch, from any contents `V`. -/
theorem L0_out (V : Valuation τ sig (Elt F)) :
    after L0 V (Proc.devRef .tc main_v84)
      = refLayer 0 sf0 (V (Proc.devRef .tc main_arg0)) (V (Proc.devRef .tc main_v27)) (V (Proc.devRef .tc main_v1))
          (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  simp only [refLayer, refBnRelu, refBn, refRelu, refLayerY, refY, refAgg, refMsg, refEdgeFea, refHRow, refMean, refVar, refSqDev,
    refVarDen, rowB, wrapIdx, colIdx, ew1At, ew2At, wAt, vecAt]
  simp only [L0, seg1, seg2, List.cons_append, List.nil_append]
  after_results_simp
  rfl

end Cert.ReferenceIdeal.RefRun

end
-- ==== Proof.RefL1.lean ====
/- The second layer's stretch of the reference program read at any contents of the buffers: it leaves its output buffer
   at the layer function of the contents of its input buffer, of the normalization and index buffers and of the
   parameter arrays. The stretch's operations are folded in order; each intermediate buffer is written once, so the
   fold at the output is the composition of the operations' functions, which is the layer function unfolded. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 4000000 in
/-- Layer 1: the output buffer after the stretch, from any contents `V`. -/
theorem L1_out (V : Valuation τ sig (Elt F)) :
    after L1 V (Proc.devRef .tc main_v141)
      = refLayer 1 sf1 (V (Proc.devRef .tc main_v84)) (V (Proc.devRef .tc main_v27)) (V (Proc.devRef .tc main_v1))
          (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  simp only [refLayer, refBnRelu, refBn, refRelu, refLayerY, refY, refAgg, refMsg, refEdgeFea, refHRow, refMean, refVar, refSqDev,
    refVarDen, rowB, wrapIdx, colIdx, ew1At, ew2At, wAt, vecAt]
  simp only [L1, seg3, seg4, List.cons_append, List.nil_append]
  after_results_simp
  rfl

end Cert.ReferenceIdeal.RefRun

end
-- ==== Proof.RefL2.lean ====
/- The third layer's stretch of the reference program read at any contents of the buffers: it leaves its output buffer
   at the layer function of the contents of its input buffer, of the normalization and index buffers and of the
   parameter arrays. The stretch's operations are folded in order; each intermediate buffer is written once, so the
   fold at the output is the composition of the operations' functions, which is the layer function unfolded. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 4000000 in
/-- Layer 2: the output buffer after the stretch, from any contents `V`. -/
theorem L2_out (V : Valuation τ sig (Elt F)) :
    after L2 V (Proc.devRef .tc main_v198)
      = refLayer 2 sf2 (V (Proc.devRef .tc main_v141)) (V (Proc.devRef .tc main_v27)) (V (Proc.devRef .tc main_v1))
          (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  simp only [refLayer, refBnRelu, refBn, refRelu, refLayerY, refY, refAgg, refMsg, refEdgeFea, refHRow, refMean, refVar, refSqDev,
    refVarDen, rowB, wrapIdx, colIdx, ew1At, ew2At, wAt, vecAt]
  simp only [L2, seg5, seg6, List.cons_append, List.nil_append]
  after_results_simp
  rfl

end Cert.ReferenceIdeal.RefRun

end
-- ==== Proof.RefL3.lean ====
/- The fourth layer's stretch of the reference program read at any contents of the buffers: it leaves its output buffer
   at the layer function of the contents of its input buffer, of the normalization and index buffers and of the
   parameter arrays. The stretch's operations are folded in order; each intermediate buffer is written once, so the
   fold at the output is the composition of the operations' functions, which is the layer function unfolded. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 4000000 in
/-- Layer 3: the output buffer after the stretch, from any contents `V`. -/
theorem L3_out (V : Valuation τ sig (Elt F)) :
    after L3 V (Proc.devRef .tc main_v255)
      = refLayer 3 sf3 (V (Proc.devRef .tc main_v198)) (V (Proc.devRef .tc main_v27)) (V (Proc.devRef .tc main_v1))
          (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  simp only [refLayer, refBnRelu, refBn, refRelu, refLayerY, refY, refAgg, refMsg, refEdgeFea, refHRow, refMean, refVar, refSqDev,
    refVarDen, rowB, wrapIdx, colIdx, ew1At, ew2At, wAt, vecAt]
  simp only [L3, seg7, seg8, List.cons_append, List.nil_append]
  after_results_simp
  rfl

end Cert.ReferenceIdeal.RefRun

end
-- ==== Proof.RefL4.lean ====
/- The fifth layer's stretch of the reference program read at any contents of the buffers: it leaves its output buffer
   at the layer function of the contents of its input buffer, of the normalization and index buffers and of the
   parameter arrays. The stretch's operations are folded in order; each intermediate buffer is written once, so the
   fold at the output is the composition of the operations' functions, which is the layer function unfolded. -/
import proofs.«107720_j79044578115931_2_alg».proof.Proof.RefOps
import proofs.«107720_j79044578115931_2_alg».proof.Proof.RefSpec

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

set_option maxRecDepth 16384 in
set_option maxHeartbeats 4000000 in
/-- Layer 4: the output buffer after the stretch, from any contents `V`. -/
theorem L4_out (V : Valuation τ sig (Elt F)) :
    after L4 V (Proc.devRef .tc main_v311)
      = refLayerLast 4 sf4 (V (Proc.devRef .tc main_v255)) (V (Proc.devRef .tc main_v27)) (V (Proc.devRef .tc main_v1))
          (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  simp only [refLayerLast, refBnRelu, refBn, refRelu, refLayerY, refY, refAgg, refMsg, refEdgeFea, refHRow, refMean, refVar, refSqDev,
    refVarDen, rowB, wrapIdx, colIdx, ew1At, ew2At, wAt, vecAt]
  simp only [L4, seg9, seg10, List.cons_append, List.nil_append]
  after_results_simp
  rfl

end Cert.ReferenceIdeal.RefRun

end
-- ==== Proof.RefRun.lean ====
/- The reference program's run, read back as one function of its nine arguments.

   The operations are the prologue followed by the five layers' stretches. The prologue leaves the index vectors and
   the edge normalization; a layer's stretch reads them, the arguments and the previous layer's output, writes only its
   own buffers, and leaves its output at the layer function. So the buffers every stretch reads besides its input
   stay, through every later stretch, at the specification's functions of the arguments (`Ready`), and the result
   buffer ends at the five layer functions composed: the specification `refOut`. -/
import proofs.«107720_j79044578115931_2_alg».proof.Proof.RefMain
import proofs.«107720_j79044578115931_2_alg».proof.Proof.RefWrites
import proofs.«107720_j79044578115931_2_alg».proof.Proof.RefPro
import proofs.«107720_j79044578115931_2_alg».proof.Proof.RefL0
import proofs.«107720_j79044578115931_2_alg».proof.Proof.RefL1
import proofs.«107720_j79044578115931_2_alg».proof.Proof.RefL2
import proofs.«107720_j79044578115931_2_alg».proof.Proof.RefL3
import proofs.«107720_j79044578115931_2_alg».proof.Proof.RefL4
import Idealize.ShloMosaic.PureOps.Ideal

noncomputable section

namespace Cert.ReferenceIdeal.RefRun

open Cert.ReferenceIdeal Idealize.ShloMosaic Idealize.ShloMosaic.TcCoe Idealize.SL.Sem Idealize.ShloMosaic.StableHlo
open Cert.ReferenceIdeal.Facts₀ Cert.ReferenceIdeal.Facts Cert.ReferenceIdeal.RefSpec

variable {F : FTy → Type} [FloatOps F] [Cert.ReferenceIdeal.Facts]

/-- The fold over two lines run one after the other. -/
theorem after_append (a b : List (HloOp τ sig (Elt F))) (V : Valuation τ sig (Elt F)) :
    after (a ++ b) V = after b (after a V) := by
  induction a generalizing V with
  | nil => rfl
  | cons op a ih => simp only [List.cons_append, after_cons, ih]

/-- Two consecutive segments leave a buffer neither writes as it was. -/
theorem keep2 {a b : List (HloOp τ sig (Elt F))} {Wa Wb : List (Ref sig .tc)}
    (ha : a.Forall fun op => op.writes ⊆ (Wa.map (Proc.devRef (τ := τ) .tc)).toFinset)
    (hb : b.Forall fun op => op.writes ⊆ (Wb.map (Proc.devRef (τ := τ) .tc)).toFinset)
    (W : Valuation τ sig (Elt F)) {r : Ref sig .tc} (h1 : r ∉ Wa) (h2 : r ∉ Wb) :
    after (a ++ b) W (Proc.devRef .tc r) = W (Proc.devRef .tc r) := by
  rw [after_append, after_of_writes_sub b _ hb h2, after_of_writes_sub a _ ha h1]

/-- The whole line is the prologue, then the layers in order. -/
theorem after_ops (V : Valuation τ sig (Elt F)) :
    after ops V = after L4 (after L3 (after L2 (after L1 (after L0 (after pro V))))) := by
  show after (pro ++ L0 ++ L1 ++ L2 ++ L3 ++ L4) V = _
  rw [after_append (pro ++ L0 ++ L1 ++ L2 ++ L3) L4, after_append (pro ++ L0 ++ L1 ++ L2) L3, after_append (pro ++ L0 ++ L1) L2,
    after_append (pro ++ L0) L1, after_append pro L0]

/-- The buffers a layer's stretch reads besides its input, and the arguments. -/
abbrev envRefs : List (Ref sig .tc) :=
  [main_v27, main_v1, main_v3, main_arg0, main_arg1, main_arg2, main_arg3, main_arg4, main_arg5, main_arg6, main_arg7, main_arg8]

/-- Contents `W` reached from launch contents `V` in which the normalization and the two index vectors are the
    specification's functions of edge_index and the nine arguments are as at launch. -/
structure Ready (V W : Valuation τ sig (Elt F)) : Prop where
  norm : W (Proc.devRef .tc main_v27) = refNorm (V (Proc.devRef .tc main_arg1))
  row : W (Proc.devRef .tc main_v1) = refRow (V (Proc.devRef .tc main_arg1))
  col : W (Proc.devRef .tc main_v3) = refCol (V (Proc.devRef .tc main_arg1))
  a0 : W (Proc.devRef .tc main_arg0) = V (Proc.devRef .tc main_arg0)
  a1 : W (Proc.devRef .tc main_arg1) = V (Proc.devRef .tc main_arg1)
  a2 : W (Proc.devRef .tc main_arg2) = V (Proc.devRef .tc main_arg2)
  a3 : W (Proc.devRef .tc main_arg3) = V (Proc.devRef .tc main_arg3)
  a4 : W (Proc.devRef .tc main_arg4) = V (Proc.devRef .tc main_arg4)
  a5 : W (Proc.devRef .tc main_arg5) = V (Proc.devRef .tc main_arg5)
  a6 : W (Proc.devRef .tc main_arg6) = V (Proc.devRef .tc main_arg6)
  a7 : W (Proc.devRef .tc main_arg7) = V (Proc.devRef .tc main_arg7)
  a8 : W (Proc.devRef .tc main_arg8) = V (Proc.devRef .tc main_arg8)

/-- The prologue establishes it: it writes no argument. -/
theorem ready_pro (V : Valuation τ sig (Elt F)) : Ready V (after pro V) :=
  ⟨pro_norm V, pro_row V, pro_col V, seg0_keep V main_arg0 (by decide), seg0_keep V main_arg1 (by decide),
    seg0_keep V main_arg2 (by decide), seg0_keep V main_arg3 (by decide), seg0_keep V main_arg4 (by decide),
    seg0_keep V main_arg5 (by decide), seg0_keep V main_arg6 (by decide), seg0_keep V main_arg7 (by decide),
    seg0_keep V main_arg8 (by decide)⟩

/-- Two consecutive segments that write none of those buffers keep it. -/
theorem ready_step {a b : List (HloOp τ sig (Elt F))} {Wa Wb : List (Ref sig .tc)}
    (ha : a.Forall fun op => op.writes ⊆ (Wa.map (Proc.devRef (τ := τ) .tc)).toFinset)
    (hb : b.Forall fun op => op.writes ⊆ (Wb.map (Proc.devRef (τ := τ) .tc)).toFinset)
    (hd : ∀ r ∈ envRefs, r ∉ Wa ∧ r ∉ Wb) {V W : Valuation τ sig (Elt F)} (h : Ready V W) : Ready V (after (a ++ b) W) := by
  have k : ∀ r ∈ envRefs, after (a ++ b) W (Proc.devRef .tc r) = W (Proc.devRef .tc r) :=
    fun r hr => keep2 ha hb W (hd r hr).1 (hd r hr).2
  exact ⟨(k main_v27 (by decide)).trans h.norm, (k main_v1 (by decide)).trans h.row, (k main_v3 (by decide)).trans h.col,
    (k main_arg0 (by decide)).trans h.a0, (k main_arg1 (by decide)).trans h.a1, (k main_arg2 (by decide)).trans h.a2,
    (k main_arg3 (by decide)).trans h.a3, (k main_arg4 (by decide)).trans h.a4, (k main_arg5 (by decide)).trans h.a5,
    (k main_arg6 (by decide)).trans h.a6, (k main_arg7 (by decide)).trans h.a7, (k main_arg8 (by decide)).trans h.a8⟩

theorem ready_L0 {V W : Valuation τ sig (Elt F)} (h : Ready V W) : Ready V (after L0 W) :=
  ready_step seg1_writes seg2_writes (by decide) h

theorem ready_L1 {V W : Valuation τ sig (Elt F)} (h : Ready V W) : Ready V (after L1 W) :=
  ready_step seg3_writes seg4_writes (by decide) h

theorem ready_L2 {V W : Valuation τ sig (Elt F)} (h : Ready V W) : Ready V (after L2 W) :=
  ready_step seg5_writes seg6_writes (by decide) h

theorem ready_L3 {V W : Valuation τ sig (Elt F)} (h : Ready V W) : Ready V (after L3 W) :=
  ready_step seg7_writes seg8_writes (by decide) h

theorem ready_L4 {V W : Valuation τ sig (Elt F)} (h : Ready V W) : Ready V (after L4 W) :=
  ready_step seg9_writes seg10_writes (by decide) h

/-- Layer 0 from contents that are ready: its output is the layer function of x and the arguments. -/
theorem L0_ready {V W : Valuation τ sig (Elt F)} (h : Ready V W) :
    after L0 W (Proc.devRef .tc main_v84)
      = refLayer 0 sf0 (V (Proc.devRef .tc main_arg0)) (refNorm (V (Proc.devRef .tc main_arg1))) (refRow (V (Proc.devRef .tc main_arg1))) (refCol (V (Proc.devRef .tc main_arg1)))
          (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [L0_out, h.norm, h.row, h.col, h.a0, h.a2, h.a3, h.a4, h.a5, h.a6, h.a7, h.a8]

/-- Layer 1 from contents that are ready: its output is the layer function of the previous layer's output and the arguments. -/
theorem L1_ready {V W : Valuation τ sig (Elt F)} (h : Ready V W) :
    after L1 W (Proc.devRef .tc main_v141)
      = refLayer 1 sf1 (W (Proc.devRef .tc main_v84)) (refNorm (V (Proc.devRef .tc main_arg1))) (refRow (V (Proc.devRef .tc main_arg1))) (refCol (V (Proc.devRef .tc main_arg1)))
          (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [L1_out, h.norm, h.row, h.col, h.a2, h.a3, h.a4, h.a5, h.a6, h.a7, h.a8]

/-- Layer 2 from contents that are ready: its output is the layer function of the previous layer's output and the arguments. -/
theorem L2_ready {V W : Valuation τ sig (Elt F)} (h : Ready V W) :
    after L2 W (Proc.devRef .tc main_v198)
      = refLayer 2 sf2 (W (Proc.devRef .tc main_v141)) (refNorm (V (Proc.devRef .tc main_arg1))) (refRow (V (Proc.devRef .tc main_arg1))) (refCol (V (Proc.devRef .tc main_arg1)))
          (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [L2_out, h.norm, h.row, h.col, h.a2, h.a3, h.a4, h.a5, h.a6, h.a7, h.a8]

/-- Layer 3 from contents that are ready: its output is the layer function of the previous layer's output and the arguments. -/
theorem L3_ready {V W : Valuation τ sig (Elt F)} (h : Ready V W) :
    after L3 W (Proc.devRef .tc main_v255)
      = refLayer 3 sf3 (W (Proc.devRef .tc main_v198)) (refNorm (V (Proc.devRef .tc main_arg1))) (refRow (V (Proc.devRef .tc main_arg1))) (refCol (V (Proc.devRef .tc main_arg1)))
          (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [L3_out, h.norm, h.row, h.col, h.a2, h.a3, h.a4, h.a5, h.a6, h.a7, h.a8]

/-- Layer 4 from contents that are ready: its output is the layer function of the previous layer's output and the arguments. -/
theorem L4_ready {V W : Valuation τ sig (Elt F)} (h : Ready V W) :
    after L4 W (Proc.devRef .tc main_v311)
      = refLayerLast 4 sf4 (W (Proc.devRef .tc main_v255)) (refNorm (V (Proc.devRef .tc main_arg1))) (refRow (V (Proc.devRef .tc main_arg1))) (refCol (V (Proc.devRef .tc main_arg1)))
          (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [L4_out, h.norm, h.row, h.col, h.a2, h.a3, h.a4, h.a5, h.a6, h.a7, h.a8]

/-- After the whole line the buffers are ready still: in particular the nine arguments are as at launch. -/
theorem ready_ops (V : Valuation τ sig (Elt F)) : Ready V (after ops V) := by
  rw [after_ops]
  exact ready_L4 (ready_L3 (ready_L2 (ready_L1 (ready_L0 (ready_pro V)))))

/-- The result buffer after the whole line is the specification of the nine arguments. -/
theorem ops_out (V : Valuation τ sig (Elt F)) :
    after ops V (Proc.devRef .tc main_v311)
      = refOut (V (Proc.devRef .tc main_arg0)) (V (Proc.devRef .tc main_arg1)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  have r0 := ready_pro V
  have r1 := ready_L0 r0
  have r2 := ready_L1 r1
  have r3 := ready_L2 r2
  have r4 := ready_L3 r3
  rw [after_ops, L4_ready r4, L3_ready r3, L2_ready r2, L1_ready r1, L0_ready r0]
  rfl

/-- From any memory with zero counters, for any float values: every weakly fair execution of the reference program
    terminates with its result buffer at the specification of the nine argument arrays, and the arguments unchanged. -/
theorem run_valueF (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v311)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have R := ready_ops (launchContents m c)
      ⟨(h c main_v311).trans (ops_out (launchContents m c)), (h c main_arg0).trans R.a0, (h c main_arg1).trans R.a1,
        (h c main_arg2).trans R.a2, (h c main_arg3).trans R.a3, (h c main_arg4).trans R.a4, (h c main_arg5).trans R.a5,
        (h c main_arg6).trans R.a6, (h c main_arg7).trans R.a7, (h c main_arg8).trans R.a8⟩)
    (run_fold m ρ)

/-- The same at the extended reals. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v311)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
              (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  run_valueF (F := Ideal) m ρ

end Cert.ReferenceIdeal.RefRun

end
-- ==== Proof.BridgeLib.lean ====
/-
  Small reads at an index used to compare two spellings of one layer of the network.

  * A sum over 512 positions is the sum over the first 256 plus the sum over the last 256; a sum over three
    positions and over one position written out.
  * Two arrays with equal row counts laid side by side: an entry whose column falls in the left piece is the left
    piece's entry, one whose column falls in the right piece is the right piece's entry, the left width less.
  * A scalar, a flat array and a row spread over a larger shape, and the reshapes between a flat array and a
    one-row or one-column array, each read at an index.
-/
import Idealize.ShloMosaic.PureOps.Ideal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.ValueIdx

/-! ## Sums -/

theorem sum_split_512 (f : Fin 512 → EReal) :
    ∑ k : Fin 512, f k = (∑ k : Fin 256, f ⟨k.val, by omega⟩) + ∑ k : Fin 256, f ⟨256 + k.val, by omega⟩ := by
  have h := Fin.sum_univ_add (a := 256) (b := 256) (fun i : Fin (256 + 256) => f ⟨i.val, i.isLt⟩)
  exact h

theorem sum_three (f : Fin 3 → EReal) : ∑ k : Fin 3, f k = (f 0 + f 1) + f 2 := Fin.sum_univ_three f

theorem sum_one (f : Fin 1 → EReal) : ∑ k : Fin 1, f k = f 0 := Fin.sum_univ_one f

/-! ## Two arrays side by side -/

section Layout
variable {α : Type}

theorem cat2_left {N A B C : Nat}
    (hc : Shape.Concatenates [(⟨2, ![N, A]⟩ : Shape), ⟨2, ![N, B]⟩] ⟨2, ![N, C]⟩ 1)
    (x₁ : (⟨2, ![N, A]⟩ : Shape).Idx → α) (x₂ : (⟨2, ![N, B]⟩ : Shape).Idx → α) (n : Fin N) (k : Fin A) (c : Fin C)
    (hkc : c.val = k.val) :
    concatenate ⟨2, ![N, C]⟩ 1 [⟨⟨2, ![N, A]⟩, x₁⟩, ⟨⟨2, ![N, B]⟩, x₂⟩] hc (ix2 n c) = x₁ (ix2 n k) :=
  concatenate_pair_apply_left 1 x₁ x₂ hc (ix2 n c) rfl (ix2 n k) (fun b => match b with
    | ⟨0, _⟩ => rfl
    | ⟨1, _⟩ => hkc.symm)

theorem cat2_right {N A B C : Nat}
    (hc : Shape.Concatenates [(⟨2, ![N, A]⟩ : Shape), ⟨2, ![N, B]⟩] ⟨2, ![N, C]⟩ 1)
    (x₁ : (⟨2, ![N, A]⟩ : Shape).Idx → α) (x₂ : (⟨2, ![N, B]⟩ : Shape).Idx → α) (n : Fin N) (k : Fin B) (c : Fin C)
    (hkc : c.val = A + k.val) :
    concatenate ⟨2, ![N, C]⟩ 1 [⟨⟨2, ![N, A]⟩, x₁⟩, ⟨⟨2, ![N, B]⟩, x₂⟩] hc (ix2 n c) = x₂ (ix2 n k) :=
  concatenate_pair_apply_right 1 x₁ x₂ hc (ix2 n c) rfl rfl (ix2 n k) (fun b => match b with
    | ⟨0, _⟩ => fun _ => rfl
    | ⟨1, _⟩ => fun h => absurd rfl h) (by show k.val + A = c.val; omega)

/-! ## Spreading and reshaping -/

/-- A scalar spread over a shape holds the scalar everywhere. -/
theorem splat_apply {t : Shape} (h : (⟨0, ![]⟩ : Shape).BroadcastsInDim t ![]) (x : (⟨0, ![]⟩ : Shape).Idx → α)
    (j : t.Idx) : broadcastInDim t ![] h x j = x ix0 :=
  broadcastInDim_apply _ h x j ix0 (fun a => a.elim0)

/-- A flat array as a column. -/
theorem col_apply {E : ℕ} (hE : E ≠ 1) (h : (⟨1, ![E]⟩ : Shape).BroadcastsInDim ⟨2, ![E, 1]⟩ ![0])
    (x : (⟨1, ![E]⟩ : Shape).Idx → α) (e : Fin E) :
    broadcastInDim ⟨2, ![E, 1]⟩ ![0] h x (ix2 e (0 : Fin 1)) = x (ix1 e) :=
  broadcastInDim_apply _ h x _ (ix1 e) (fun a => match a with
    | ⟨0, _⟩ => by show e.val = if E = 1 then 0 else e.val; rw [if_neg hE])

/-- A column repeated along the features. -/
theorem along_apply {E G : ℕ} (hE : E ≠ 1) (h : (⟨2, ![E, 1]⟩ : Shape).BroadcastsInDim ⟨2, ![E, G]⟩ ![0, 1])
    (x : (⟨2, ![E, 1]⟩ : Shape).Idx → α) (e : Fin E) (g : Fin G) :
    broadcastInDim ⟨2, ![E, G]⟩ ![0, 1] h x (ix2 e g) = x (ix2 e (0 : Fin 1)) :=
  broadcastInDim_apply _ h x _ (ix2 e (0 : Fin 1)) (fun a => match a with
    | ⟨0, _⟩ => by show e.val = if E = 1 then 0 else e.val; rw [if_neg hE]
    | ⟨1, _⟩ => by show 0 = if (1 : ℕ) = 1 then 0 else g.val; rw [if_pos rfl])

/-- A flat array as a row. -/
theorem row_apply {G : ℕ} (hG : G ≠ 1) (h : (⟨1, ![G]⟩ : Shape).BroadcastsInDim ⟨2, ![1, G]⟩ ![1])
    (x : (⟨1, ![G]⟩ : Shape).Idx → α) (g : Fin G) :
    broadcastInDim ⟨2, ![1, G]⟩ ![1] h x (ix2 (0 : Fin 1) g) = x (ix1 g) :=
  broadcastInDim_apply _ h x _ (ix1 g) (fun a => match a with
    | ⟨0, _⟩ => by show g.val = if G = 1 then 0 else g.val; rw [if_neg hG])

/-- A row repeated down the rows. -/
theorem down_apply {N G : ℕ} (hG : G ≠ 1) (h : (⟨2, ![1, G]⟩ : Shape).BroadcastsInDim ⟨2, ![N, G]⟩ ![0, 1])
    (x : (⟨2, ![1, G]⟩ : Shape).Idx → α) (n : Fin N) (g : Fin G) :
    broadcastInDim ⟨2, ![N, G]⟩ ![0, 1] h x (ix2 n g) = x (ix2 (0 : Fin 1) g) :=
  broadcastInDim_apply _ h x _ (ix2 (0 : Fin 1) g) (fun a => match a with
    | ⟨0, _⟩ => by show 0 = if (1 : ℕ) = 1 then 0 else n.val; rw [if_pos rfl]
    | ⟨1, _⟩ => by show g.val = if G = 1 then 0 else g.val; rw [if_neg hG])

/-- The reshape of a flat array to one row. -/
theorem toRow_apply {G : ℕ} (h : (⟨1, ![G]⟩ : Shape).ShapeCasts ⟨2, ![1, G]⟩) (b : (⟨1, ![G]⟩ : Shape).Idx → α) (g : Fin G) :
    shapeCast ⟨2, ![1, G]⟩ b h (ix2 (0 : Fin 1) g) = b (ix1 g) :=
  shapeCast_apply b h _ (ix1 g) (by
    rw [Shape.rowMajor_val_two, Shape.rowMajor_val_one]; show g.val = 0 * G + g.val; omega)

/-- The reshape of one row to a flat array. -/
theorem ofRow_apply {G : ℕ} (h : (⟨2, ![1, G]⟩ : Shape).ShapeCasts ⟨1, ![G]⟩) (b : (⟨2, ![1, G]⟩ : Shape).Idx → α) (g : Fin G) :
    shapeCast ⟨1, ![G]⟩ b h (ix1 g) = b (ix2 (0 : Fin 1) g) :=
  shapeCast_apply b h _ (ix2 (0 : Fin 1) g) (by
    rw [Shape.rowMajor_val_two, Shape.rowMajor_val_one]; show 0 * G + g.val = g.val; omega)

/-- The reshape of a flat array to one column. -/
theorem toCol_apply {N : ℕ} (h : (⟨1, ![N]⟩ : Shape).ShapeCasts ⟨2, ![N, 1]⟩) (v : (⟨1, ![N]⟩ : Shape).Idx → α) (r : Fin N) :
    shapeCast ⟨2, ![N, 1]⟩ v h (ix2 r (0 : Fin 1)) = v (ix1 r) :=
  shapeCast_apply v h _ (ix1 r) (by
    rw [Shape.rowMajor_val_two, Shape.rowMajor_val_one]; show r.val = r.val * 1 + 0; omega)

end Layout

end Cert.Bridge

end
-- ==== Proof.BridgeDot.lean ====
/-
  The three matrix products of the reference network read at an index: at the extended reals the host's
  contraction of a [M, K] array with a [K, N] array over its one contracted axis is, at entry (m, n), the sum over
  k of l(m, k) · r(k, n). The contraction index of one axis is re-indexed by its coordinate.
-/
import proofs.«107720_j79044578115931_2_alg».proof.ReferenceIdeal
import Idealize.ShloMosaic.Lib.ValueIdx
import Idealize.ShloMosaic.Lib.Pipeline.Value
import Idealize.ShloMosaic.PureOps.Ideal.Laws

noncomputable section

namespace Cert.Bridge

open Cert.ReferenceIdeal Idealize.ShloMosaic Idealize.ShloMosaic.ValueIdx
open Cert.ReferenceIdeal.Facts₀ Cert.ReferenceIdeal.Facts

variable [Cert.ReferenceIdeal.Facts]

/-! ### The contraction of a [50000, 512] array with a [512, 256] array, read at an index -/

theorem dotW_lhs0 (i : S50000x256.Idx) (q : dot_S50000x512_S512x256_S50000x256_1_0_0_1_n_n.contr.Idx) : (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch from List.not_mem_nil),
    dif_pos (show (0 : Fin S50000x512.rank) ∈ dot_S50000x512_S512x256_S50000x256_1_0_0_1_n_n.lhsNonContracting from List.mem_singleton.mpr rfl)]
  rfl
theorem dotW_lhs1 (i : S50000x256.Idx) (q : dot_S50000x512_S512x256_S50000x256_1_0_0_1_n_n.contr.Idx) : (dot_S50000x512_S512x256_S50000x256_1_0_0_1_n_n.lhsIdx i q 1).val = (q ⟨0, Nat.one_pos⟩).val :=
  dot_S50000x512_S512x256_S50000x256_1_0_0_1_n_n.lhsIdx_val_of_single rfl i q
theorem dotW_rhs0 (i : S50000x256.Idx) (q : dot_S50000x512_S512x256_S50000x256_1_0_0_1_n_n.contr.Idx) : (dot_S50000x512_S512x256_S50000x256_1_0_0_1_n_n.rhsIdx i q 0).val = (q ⟨0, Nat.one_pos⟩).val :=
  dot_S50000x512_S512x256_S50000x256_1_0_0_1_n_n.rhsIdx_val_of_single rfl i q
theorem dotW_rhs1 (i : S50000x256.Idx) (q : dot_S50000x512_S512x256_S50000x256_1_0_0_1_n_n.contr.Idx) : (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch from List.not_mem_nil),
    dif_pos (show (1 : Fin S512x256.rank) ∈ dot_S50000x512_S512x256_S50000x256_1_0_0_1_n_n.rhsNonContracting from List.mem_singleton.mpr rfl)]
  rfl

/-- Entry (m, n) of the product is the sum over k of l(m, k) · r(k, n). -/
theorem dotW_apply (l : FVec Ideal S50000x512 .f32) (r : FVec Ideal S512x256 .f32) (m : Fin 50000) (n : Fin 256) :
    Host.dotGeneral dot_S50000x512_S512x256_S50000x256_1_0_0_1_n_n none l r (ix2 m n) = ∑ k : Fin 512, l (ix2 m k) * r (ix2 k n) := by
  simp only [Host.dotGeneral]
  rw [Ideal.dotGeneral_apply, ← Equiv.sum_comp (ValueIdx.contrEquiv1 dot_S50000x512_S512x256_S50000x256_1_0_0_1_n_n 512 rfl rfl).symm]
  refine Finset.sum_congr rfl fun k _ => ?_
  have hk := ValueIdx.contrEquiv1_symm_val dot_S50000x512_S512x256_S50000x256_1_0_0_1_n_n 512 rfl rfl k
  have el : dot_S50000x512_S512x256_S50000x256_1_0_0_1_n_n.lhsIdx (ix2 m n) ((ValueIdx.contrEquiv1 dot_S50000x512_S512x256_S50000x256_1_0_0_1_n_n 512 rfl rfl).symm k) = ix2 m k := funext fun a => Fin.ext (by
    match a with
    | ⟨0, _⟩ => exact dotW_lhs0 _ _
    | ⟨1, _⟩ => exact (dotW_lhs1 _ _).trans hk)
  have er : dot_S50000x512_S512x256_S50000x256_1_0_0_1_n_n.rhsIdx (ix2 m n) ((ValueIdx.contrEquiv1 dot_S50000x512_S512x256_S50000x256_1_0_0_1_n_n 512 rfl rfl).symm k) = ix2 k n := funext fun a => Fin.ext (by
    match a with
    | ⟨0, _⟩ => exact (dotW_rhs0 _ _).trans hk
    | ⟨1, _⟩ => exact dotW_rhs1 _ _)
  rw [el, er]

/-! ### The contraction of a [320000, 1] array with a [1, 128] array, read at an index -/

theorem dotE1_lhs0 (i : S320000x128.Idx) (q : dot_S320000x1_S1x128_S320000x128_1_0_0_1_n_n.contr.Idx) : (dot_S320000x1_S1x128_S320000x128_1_0_0_1_n_n.lhsIdx i q 0).val = (i 0).val := by
  unfold DotDims.lhsIdx
  rw [dif_neg (show ¬(0 : Fin S320000x1.rank) ∈ dot_S320000x1_S1x128_S320000x128_1_0_0_1_n_n.lhsBatch from List.not_mem_nil),
    dif_pos (show (0 : Fin S320000x1.rank) ∈ dot_S320000x1_S1x128_S320000x128_1_0_0_1_n_n.lhsNonContracting from List.mem_singleton.mpr rfl)]
  rfl
theorem dotE1_lhs1 (i : S320000x128.Idx) (q : dot_S320000x1_S1x128_S320000x128_1_0_0_1_n_n.contr.Idx) : (dot_S320000x1_S1x128_S320000x128_1_0_0_1_n_n.lhsIdx i q 1).val = (q ⟨0, Nat.one_pos⟩).val :=
  dot_S320000x1_S1x128_S320000x128_1_0_0_1_n_n.lhsIdx_val_of_single rfl i q
theorem dotE1_rhs0 (i : S320000x128.Idx) (q : dot_S320000x1_S1x128_S320000x128_1_0_0_1_n_n.contr.Idx) : (dot_S320000x1_S1x128_S320000x128_1_0_0_1_n_n.rhsIdx i q 0).val = (q ⟨0, Nat.one_pos⟩).val :=
  dot_S320000x1_S1x128_S320000x128_1_0_0_1_n_n.rhsIdx_val_of_single rfl i q
theorem dotE1_rhs1 (i : S320000x128.Idx) (q : dot_S320000x1_S1x128_S320000x128_1_0_0_1_n_n.contr.Idx) : (dot_S320000x1_S1x128_S320000x128_1_0_0_1_n_n.rhsIdx i q 1).val = (i 1).val := by
  unfold DotDims.rhsIdx
  rw [dif_neg (show ¬(1 : Fin S1x128.rank) ∈ dot_S320000x1_S1x128_S320000x128_1_0_0_1_n_n.rhsBatch from List.not_mem_nil),
    dif_pos (show (1 : Fin S1x128.rank) ∈ dot_S320000x1_S1x128_S320000x128_1_0_0_1_n_n.rhsNonContracting from List.mem_singleton.mpr rfl)]
  rfl

/-- Entry (m, n) of the product is the sum over k of l(m, k) · r(k, n). -/
theorem dotE1_apply (l : FVec Ideal S320000x1 .f32) (r : FVec Ideal S1x128 .f32) (m : Fin 320000) (n : Fin 128) :
    Host.dotGeneral dot_S320000x1_S1x128_S320000x128_1_0_0_1_n_n none l r (ix2 m n) = ∑ k : Fin 1, l (ix2 m k) * r (ix2 k n) := by
  simp only [Host.dotGeneral]
  rw [Ideal.dotGeneral_apply, ← Equiv.sum_comp (ValueIdx.contrEquiv1 dot_S320000x1_S1x128_S320000x128_1_0_0_1_n_n 1 rfl rfl).symm]
  refine Finset.sum_congr rfl fun k _ => ?_
  have hk := ValueIdx.contrEquiv1_symm_val dot_S320000x1_S1x128_S320000x128_1_0_0_1_n_n 1 rfl rfl k
  have el : dot_S320000x1_S1x128_S320000x128_1_0_0_1_n_n.lhsIdx (ix2 m n) ((ValueIdx.contrEquiv1 dot_S320000x1_S1x128_S320000x128_1_0_0_1_n_n 1 rfl rfl).symm k) = ix2 m k := funext fun a => Fin.ext (by
    match a with
    | ⟨0, _⟩ => exact dotE1_lhs0 _ _
    | ⟨1, _⟩ => exact (dotE1_lhs1 _ _).trans hk)
  have er : dot_S320000x1_S1x128_S320000x128_1_0_0_1_n_n.rhsIdx (ix2 m n) ((ValueIdx.contrEquiv1 dot_S320000x1_S1x128_S320000x128_1_0_0_1_n_n 1 rfl rfl).symm k) = ix2 k n := funext fun a => Fin.ext (by
    match a with
    | ⟨0, _⟩ => exact (dotE1_rhs0 _ _).trans hk
    | ⟨1, _⟩ => exact dotE1_rhs1 _ _)
  rw [el, er]

/-! ### The contraction of a [320000, 3] array with a [3, 128] array, read at an index -/

theorem dotE3_lhs0 (i : S320000x128.Idx) (q : dot_S320000x3_S3x128_S320000x128_1_0_0_1_n_n.contr.Idx) : (dot_S320000x3_S3x128_S320000x128_1_0_0_1_n_n.lhsIdx i q 0).val = (i 0).val := by
  unfold DotDims.lhsIdx
  rw [dif_neg (show ¬(0 : Fin S320000x3.rank) ∈ dot_S320000x3_S3x128_S320000x128_1_0_0_1_n_n.lhsBatch from List.not_mem_nil),
    dif_pos (show (0 : Fin S320000x3.rank) ∈ dot_S320000x3_S3x128_S320000x128_1_0_0_1_n_n.lhsNonContracting from List.mem_singleton.mpr rfl)]
  rfl
theorem dotE3_lhs1 (i : S320000x128.Idx) (q : dot_S320000x3_S3x128_S320000x128_1_0_0_1_n_n.contr.Idx) : (dot_S320000x3_S3x128_S320000x128_1_0_0_1_n_n.lhsIdx i q 1).val = (q ⟨0, Nat.one_pos⟩).val :=
  dot_S320000x3_S3x128_S320000x128_1_0_0_1_n_n.lhsIdx_val_of_single rfl i q
theorem dotE3_rhs0 (i : S320000x128.Idx) (q : dot_S320000x3_S3x128_S320000x128_1_0_0_1_n_n.contr.Idx) : (dot_S320000x3_S3x128_S320000x128_1_0_0_1_n_n.rhsIdx i q 0).val = (q ⟨0, Nat.one_pos⟩).val :=
  dot_S320000x3_S3x128_S320000x128_1_0_0_1_n_n.rhsIdx_val_of_single rfl i q
theorem dotE3_rhs1 (i : S320000x128.Idx) (q : dot_S320000x3_S3x128_S320000x128_1_0_0_1_n_n.contr.Idx) : (dot_S320000x3_S3x128_S320000x128_1_0_0_1_n_n.rhsIdx i q 1).val = (i 1).val := by
  unfold DotDims.rhsIdx
  rw [dif_neg (show ¬(1 : Fin S3x128.rank) ∈ dot_S320000x3_S3x128_S320000x128_1_0_0_1_n_n.rhsBatch from List.not_mem_nil),
    dif_pos (show (1 : Fin S3x128.rank) ∈ dot_S320000x3_S3x128_S320000x128_1_0_0_1_n_n.rhsNonContracting from List.mem_singleton.mpr rfl)]
  rfl

/-- Entry (m, n) of the product is the sum over k of l(m, k) · r(k, n). -/
theorem dotE3_apply (l : FVec Ideal S320000x3 .f32) (r : FVec Ideal S3x128 .f32) (m : Fin 320000) (n : Fin 128) :
    Host.dotGeneral dot_S320000x3_S3x128_S320000x128_1_0_0_1_n_n none l r (ix2 m n) = ∑ k : Fin 3, l (ix2 m k) * r (ix2 k n) := by
  simp only [Host.dotGeneral]
  rw [Ideal.dotGeneral_apply, ← Equiv.sum_comp (ValueIdx.contrEquiv1 dot_S320000x3_S3x128_S320000x128_1_0_0_1_n_n 3 rfl rfl).symm]
  refine Finset.sum_congr rfl fun k _ => ?_
  have hk := ValueIdx.contrEquiv1_symm_val dot_S320000x3_S3x128_S320000x128_1_0_0_1_n_n 3 rfl rfl k
  have el : dot_S320000x3_S3x128_S320000x128_1_0_0_1_n_n.lhsIdx (ix2 m n) ((ValueIdx.contrEquiv1 dot_S320000x3_S3x128_S320000x128_1_0_0_1_n_n 3 rfl rfl).symm k) = ix2 m k := funext fun a => Fin.ext (by
    match a with
    | ⟨0, _⟩ => exact dotE3_lhs0 _ _
    | ⟨1, _⟩ => exact (dotE3_lhs1 _ _).trans hk)
  have er : dot_S320000x3_S3x128_S320000x128_1_0_0_1_n_n.rhsIdx (ix2 m n) ((ValueIdx.contrEquiv1 dot_S320000x3_S3x128_S320000x128_1_0_0_1_n_n 3 rfl rfl).symm k) = ix2 k n := funext fun a => Fin.ext (by
    match a with
    | ⟨0, _⟩ => exact (dotE3_rhs0 _ _).trans hk
    | ⟨1, _⟩ => exact dotE3_rhs1 _ _)
  rw [el, er]

end Cert.Bridge

end
-- ==== Proof.BridgeFuse.lean ====
/-
  The edge message of one layer, two spellings of one function. The reference scales, by the edge's
  normalisation coefficient, the gathered node feature plus the edge features — the last edge attribute against a
  one-row weight for the first 128 features, the first three attributes against a three-row weight for the other
  128, the two products laid side by side. The kernel reads the four attributes and the coefficient as the five
  columns of one table and writes the same products out term by term. A contraction over one position is its one
  term; a contraction over three positions is the three terms added in order.
-/
import proofs.«107720_j79044578115931_2_alg».proof.Proof.RefSpec
import proofs.«107720_j79044578115931_2_alg».proof.Proof.KSpec
import proofs.«107720_j79044578115931_2_alg».proof.Proof.BridgeDot
import proofs.«107720_j79044578115931_2_alg».proof.Proof.BridgeLib

noncomputable section

namespace Cert.Bridge

open Cert.ReferenceIdeal Cert.ReferenceIdeal.RefSpec Idealize.ShloMosaic Idealize.ShloMosaic.ValueIdx
open Cert.ReferenceIdeal.Facts₀ Cert.ReferenceIdeal.Facts
open Cert.KernelIdeal.RV (fuseG fuseAt mlpG mlpAt bnG bnReluG bnAt)

variable [Cert.ReferenceIdeal.Facts]

/-- The column of the last edge attribute, at an index. -/
theorem slice3_apply (ea : Vec Ideal S320000x4 .f32) (e : Fin 320000) :
    extractStridedSlice S320000x1 ![0, 3] ea slices_S320000x4_S320000x1_0_3 (ix2 e (0 : Fin 1)) = ea (ix2 e (3 : Fin 4)) :=
  extractStridedSlice_apply _ ea slices_S320000x4_S320000x1_0_3 _ (ix2 e (3 : Fin 4)) (fun a => match a with
    | ⟨0, _⟩ => by show e.val = 0 + e.val; omega
    | ⟨1, _⟩ => rfl)

/-- The columns of the first three edge attributes, at an index. -/
theorem slice012_apply (ea : Vec Ideal S320000x4 .f32) (e : Fin 320000) (k : Fin 3) :
    extractStridedSlice S320000x3 ![0, 0] ea slices_S320000x4_S320000x3_0_0 (ix2 e k)
      = ea (ix2 e (⟨k.val, by omega⟩ : Fin 4)) :=
  extractStridedSlice_apply _ ea slices_S320000x4_S320000x3_0_0 _ (ix2 e (⟨k.val, by omega⟩ : Fin 4)) (fun a => match a with
    | ⟨0, _⟩ => by show e.val = 0 + e.val; omega
    | ⟨1, _⟩ => by show k.val = 0 + k.val; omega)

theorem refMsg_eq (hc : Shape.Concatenates [(⟨2, ![320000, 4]⟩ : Shape), ⟨2, ![320000, 1]⟩] ⟨2, ![320000, 5]⟩ 1)
    (hs : (⟨1, ![320000]⟩ : Shape).ShapeCasts ⟨2, ![320000, 1]⟩)
    (norm : Vec Ideal S320000 .f32) (hrow : Vec Ideal S320000x256 .f32) (ea : Vec Ideal S320000x4 .f32)
    (e1 : Vec Ideal S1x128 .f32) (e2 : Vec Ideal S3x128 .f32) :
    refMsg norm hrow ea e1 e2 = fuseG hrow
      (concatenate ⟨2, ![320000, 5]⟩ 1 [⟨⟨2, ![320000, 4]⟩, ea⟩, ⟨⟨2, ![320000, 1]⟩, shapeCast ⟨2, ![320000, 1]⟩ norm hs⟩] hc)
      e1 e2 := by
  funext i
  obtain ⟨e, j, rfl⟩ : ∃ (e : Fin 320000) (j : Fin 256), i = ix2 e j := ⟨i 0, i 1, eq_ix2 i⟩
  rw [Cert.KernelIdeal.RV.fuseG_ix2]
  -- the five columns of the kernel's table
  have x4 : concatenate ⟨2, ![320000, 5]⟩ 1 [⟨⟨2, ![320000, 4]⟩, ea⟩, ⟨⟨2, ![320000, 1]⟩, shapeCast ⟨2, ![320000, 1]⟩ norm hs⟩] hc
      (ix2 e (4 : Fin 5)) = norm (ix1 e) :=
    (cat2_right hc ea (shapeCast ⟨2, ![320000, 1]⟩ norm hs) e (0 : Fin 1) (4 : Fin 5) rfl).trans (toCol_apply hs norm e)
  have xk : ∀ (k : Fin 4) (c : Fin 5), c.val = k.val →
      concatenate ⟨2, ![320000, 5]⟩ 1 [⟨⟨2, ![320000, 4]⟩, ea⟩, ⟨⟨2, ![320000, 1]⟩, shapeCast ⟨2, ![320000, 1]⟩ norm hs⟩] hc
        (ix2 e c) = ea (ix2 e k) :=
    fun k c hkc => cat2_left hc ea (shapeCast ⟨2, ![320000, 1]⟩ norm hs) e k c hkc
  -- the reference's scale and sum
  unfold refMsg
  rw [mulf_apply, addf_apply, along_apply (E := 320000) (G := 256) (by decide), col_apply (E := 320000) (by decide)]
  unfold refEdgeFea
  by_cases hj : j.val < 128
  · rw [Cert.KernelIdeal.RV.fuseAt_lo _ _ _ _ _ _ hj, x4, xk (3 : Fin 4) (3 : Fin 5) rfl]
    rw [cat2_left concatenates_S320000x128_S320000x128_S320000x256_d1 _ _ e (⟨j.val, hj⟩ : Fin 128) j rfl,
      dotE1_apply, sum_one, slice3_apply]
  · have hq : j.val = 128 + (⟨j.val - 128, by have := j.isLt; omega⟩ : Fin 128).val := by show j.val = 128 + (j.val - 128); omega
    rw [Cert.KernelIdeal.RV.fuseAt_hi _ _ _ _ _ _ (⟨j.val - 128, by have := j.isLt; omega⟩ : Fin 128) hq, x4,
      xk (0 : Fin 4) (0 : Fin 5) rfl, xk (1 : Fin 4) (1 : Fin 5) rfl, xk (2 : Fin 4) (2 : Fin 5) rfl]
    rw [cat2_right concatenates_S320000x128_S320000x128_S320000x256_d1 _ _ e (⟨j.val - 128, by have := j.isLt; omega⟩ : Fin 128) j hq,
      dotE3_apply, sum_three, slice012_apply, slice012_apply, slice012_apply]
    rfl

end Cert.Bridge

end
-- ==== Proof.BridgeCommon.lean ====
/-
  The pieces every stage of the reference layer shares, read at an index: the cut-off at zero, and a vector of 256
  column values repeated down the rows.
-/
import proofs.«107720_j79044578115931_2_alg».proof.Proof.RefSpec
import proofs.«107720_j79044578115931_2_alg».proof.Proof.KSpec
import proofs.«107720_j79044578115931_2_alg».proof.Proof.BridgeLib

noncomputable section

namespace Cert.Bridge

open Cert.ReferenceIdeal Cert.ReferenceIdeal.RefSpec Idealize.ShloMosaic Idealize.ShloMosaic.ValueIdx
open Cert.ReferenceIdeal.Facts₀ Cert.ReferenceIdeal.Facts
open Cert.KernelIdeal.RV (fuseG fuseAt mlpG mlpAt bnG bnReluG bnAt)

variable [Cert.ReferenceIdeal.Facts]

/-- The cut-off at zero at an index. -/
theorem refRelu_apply (x : Vec Ideal S50000x256 .f32) (i : S50000x256.Idx) : refRelu x i = max (x i) 0 := by
  unfold refRelu
  rw [maximumf_apply, splat_apply]
  show max (x i) (Ideal.ofBits .f32 0x00000000#32) = _
  rw [Ideal.ofBits_zero_f32]

/-- A vector of column values repeated down the rows, at an index. -/
theorem rowB_apply (v : Vec Ideal S256 .f32) (n : Fin 50000) (j : Fin 256) : rowB v (ix2 n j) = v (ix1 j) := by
  unfold rowB
  rw [down_apply (N := 50000) (G := 256) (by decide), row_apply (G := 256) (by decide)]

end Cert.Bridge

end
-- ==== Proof.BridgeMlp.lean ====
/-
  The dense step of one layer, two spellings of one function. The reference multiplies the node features and the
  aggregated messages, laid side by side as one [50000, 512] array, with the whole [512, 256] weight; the kernel
  multiplies the features with the weight's upper half and the messages with its lower half and adds. A sum over the
  512 contracted positions is the sum over the first 256 plus the sum over the last 256, and no law beyond that
  regrouping of an addition is used. The bias arrives as a flat [256] array on one side and as one row on the other.
-/
import proofs.«107720_j79044578115931_2_alg».proof.Proof.RefSpec
import proofs.«107720_j79044578115931_2_alg».proof.Proof.KSpec
import proofs.«107720_j79044578115931_2_alg».proof.Proof.BridgeDot
import proofs.«107720_j79044578115931_2_alg».proof.Proof.BridgeLib
import proofs.«107720_j79044578115931_2_alg».proof.Proof.BridgeCommon

noncomputable section

namespace Cert.Bridge

open Cert.ReferenceIdeal Cert.ReferenceIdeal.RefSpec Idealize.ShloMosaic Idealize.ShloMosaic.ValueIdx
open Cert.ReferenceIdeal.Facts₀ Cert.ReferenceIdeal.Facts
open Cert.KernelIdeal.RV (fuseG fuseAt mlpG mlpAt bnG bnReluG bnAt)

variable [Cert.ReferenceIdeal.Facts]

theorem refY_eq (hs : (⟨1, ![256]⟩ : Shape).ShapeCasts ⟨2, ![1, 256]⟩)
    (h agg : Vec Ideal S50000x256 .f32) (w : Vec Ideal S512x256 .f32) (b : Vec Ideal S256 .f32) :
    refY h agg w b = mlpG h agg w (shapeCast ⟨2, ![1, 256]⟩ b hs) := by
  funext i
  obtain ⟨n, j, rfl⟩ : ∃ (n : Fin 50000) (j : Fin 256), i = ix2 n j := ⟨i 0, i 1, eq_ix2 i⟩
  rw [Cert.KernelIdeal.RV.mlpG_ix2]
  unfold mlpAt refY
  rw [refRelu_apply, addf_apply, rowB_apply, dotW_apply, sum_split_512, toRow_apply]
  have e1 : ∀ k : Fin 256,
      concatenate S50000x512 1 [⟨S50000x256, h⟩, ⟨S50000x256, agg⟩] concatenates_S50000x256_S50000x256_S50000x512_d1
        (ix2 n (⟨k.val, by omega⟩ : Fin 512)) = h (ix2 n k) :=
    fun k => cat2_left concatenates_S50000x256_S50000x256_S50000x512_d1 h agg n k _ rfl
  have e2 : ∀ k : Fin 256,
      concatenate S50000x512 1 [⟨S50000x256, h⟩, ⟨S50000x256, agg⟩] concatenates_S50000x256_S50000x256_S50000x512_d1
        (ix2 n (⟨256 + k.val, by omega⟩ : Fin 512)) = agg (ix2 n k) :=
    fun k => cat2_right concatenates_S50000x256_S50000x256_S50000x512_d1 h agg n k _ rfl
  simp only [e1, e2]

end Cert.Bridge

end
-- ==== Proof.BridgeBn.lean ====
/-
  The normalisation of one layer, two spellings of one function. The reference holds the column means, the column
  variances, the gains and the offsets as flat [256] arrays and repeats each down the rows; the kernel reads each
  as one [1, 256] row. Entry by entry both are (y − mean) · (variance + ε)^(−1/2) · gain + offset, with the same ε
  word, and the host's reciprocal square root is the kernel's at the extended reals. The column statistics kept
  with a leading unit axis are the flat ones read at the same column.
-/
import proofs.«107720_j79044578115931_2_alg».proof.Proof.RefSpec
import proofs.«107720_j79044578115931_2_alg».proof.Proof.KSpec
import proofs.«107720_j79044578115931_2_alg».proof.Proof.BridgeLib
import proofs.«107720_j79044578115931_2_alg».proof.Proof.BridgeCommon

noncomputable section

namespace Cert.Bridge

open Cert.ReferenceIdeal Cert.ReferenceIdeal.RefSpec Idealize.ShloMosaic Idealize.ShloMosaic.ValueIdx
open Cert.ReferenceIdeal.Facts₀ Cert.ReferenceIdeal.Facts
open Cert.KernelIdeal.RV (fuseG fuseAt mlpG mlpAt bnG bnReluG bnAt)

variable [Cert.ReferenceIdeal.Facts]

theorem refBn_eq (y : Vec Ideal S50000x256 .f32) (mu var g beta : Vec Ideal S256 .f32)
    (muK varK gK bK : Cert.KernelIdeal.RV.Arr 1 256)
    (hmu : ∀ j : Fin 256, muK (ix2 (0 : Fin 1) j) = mu (ix1 j)) (hvar : ∀ j : Fin 256, varK (ix2 (0 : Fin 1) j) = var (ix1 j))
    (hg : ∀ j : Fin 256, gK (ix2 (0 : Fin 1) j) = g (ix1 j)) (hb : ∀ j : Fin 256, bK (ix2 (0 : Fin 1) j) = beta (ix1 j)) :
    refBn y mu var g beta = bnG y muK varK gK bK := by
  funext i
  obtain ⟨n, j, rfl⟩ : ∃ (n : Fin 50000) (j : Fin 256), i = ix2 n j := ⟨i 0, i 1, eq_ix2 i⟩
  rw [Cert.KernelIdeal.RV.bnG_ix2]
  unfold bnAt refBn
  rw [addf_apply, mulf_apply, mulf_apply, subf_apply, rowB_apply, rowB_apply, rowB_apply, rowB_apply, hmu, hvar, hg, hb]
  show ((y (ix2 n j) - mu (ix1 j)) * Ideal.rsqrt (var (ix1 j) + broadcastInDim S256 ![] bcast_S_S256 (constant (F := Ideal) S_ .f32 0x3727C5AC#32) (ix1 j))) * g (ix1 j) + beta (ix1 j) = _
  rw [splat_apply]
  rfl

theorem refBnRelu_eq (y : Vec Ideal S50000x256 .f32) (mu var g beta : Vec Ideal S256 .f32)
    (muK varK gK bK : Cert.KernelIdeal.RV.Arr 1 256)
    (hmu : ∀ j : Fin 256, muK (ix2 (0 : Fin 1) j) = mu (ix1 j)) (hvar : ∀ j : Fin 256, varK (ix2 (0 : Fin 1) j) = var (ix1 j))
    (hg : ∀ j : Fin 256, gK (ix2 (0 : Fin 1) j) = g (ix1 j)) (hb : ∀ j : Fin 256, bK (ix2 (0 : Fin 1) j) = beta (ix1 j)) :
    refBnRelu y mu var g beta = bnReluG y muK varK gK bK := by
  funext i
  unfold refBnRelu
  rw [refRelu_apply, refBn_eq y mu var g beta muK varK gK bK hmu hvar hg hb]
  rfl

/-- A host quotient read at an index of each side, the operands agreeing there. -/
theorem hostDivf_congr {s t : Shape} (a b : FVec Ideal s .f32) (a' b' : FVec Ideal t .f32) (i : s.Idx) (k : t.Idx)
    (ha : a i = a' k) (hb : b i = b' k) : Host.divf a b i = Host.divf a' b' k := by
  show FloatOps.hostDivf (a i) (b i) = FloatOps.hostDivf (a' k) (b' k)
  rw [ha, hb]

/-- A select read at an index of each side, the operands agreeing there. -/
theorem select_congr {s t : Shape} (c : IVec s 1) (a b : s.Idx → EReal) (c' : IVec t 1) (a' b' : t.Idx → EReal) (i : s.Idx) (k : t.Idx)
    (hc : c i = c' k) (ha : a i = a' k) (hb : b i = b' k) : select c a b i = select c' a' b' k := by
  rw [select_apply, select_apply, hc, ha, hb]

/-- The column means kept as one row are the flat column means. -/
theorem mean_row (h1 : S256.BroadcastsInDim S1x256 ![1]) (h0 : S_.BroadcastsInDim S1x256 ![])
    (y : Vec Ideal S50000x256 .f32) (j : Fin 256) :
    Host.divf (F := Ideal) (φ := .f32) (broadcastInDim S1x256 ![1] h1
        (Host.reduceAdd (F := Ideal) (φ := .f32) y (constant (F := Ideal) S_ .f32 0x00000000#32) reducesTo_S50000x256_S256_d0 h_S_))
      (broadcastInDim S1x256 ![] h0 (constant (F := Ideal) S_ .f32 0x47435000#32)) (ix2 (0 : Fin 1) j)
      = refMean y (ix1 j) := by
  unfold refMean
  refine hostDivf_congr _ _ _ _ _ _ ?_ ?_
  · exact row_apply (G := 256) (by decide) h1 _ j
  · rw [splat_apply, splat_apply]

/-- The column variances kept as one row are the flat column variances. -/
theorem var_row (h1 : S256.BroadcastsInDim S1x256 ![1]) (h0 : S_.BroadcastsInDim S1x256 ![])
    (y : Vec Ideal S50000x256 .f32) (j : Fin 256) :
    select (broadcastInDim S1x256 ![] h0 (cmpf (F := Ideal) (φ := .f32) .ogt (refVarDen (F := Ideal)) (constant (F := Ideal) S_ .f32 0x00000000#32)))
      (Host.divf (F := Ideal) (φ := .f32) (broadcastInDim S1x256 ![1] h1
          (Host.reduceAdd (F := Ideal) (φ := .f32) (refSqDev y) (constant (F := Ideal) S_ .f32 0x00000000#32) reducesTo_S50000x256_S256_d0 h_S_))
        (broadcastInDim S1x256 ![] h0 (refVarDen (F := Ideal))))
      (broadcastInDim S1x256 ![] h0 (id (constant (F := Ideal) S_ .f32 0x7FC00000#32))) (ix2 (0 : Fin 1) j)
      = refVar y (ix1 j) := by
  unfold refVar
  refine select_congr _ _ _ _ _ _ _ _ ?_ ?_ ?_
  · rw [splat_apply, splat_apply]
  · refine hostDivf_congr _ _ _ _ _ _ ?_ ?_
    · exact row_apply (G := 256) (by decide) h1 _ j
    · rw [splat_apply, splat_apply]
  · rw [splat_apply, splat_apply]

end Cert.Bridge

end
-- ==== Proof.BridgeNet.lean ====
/-
  The whole network, two spellings of one function. Stage by stage one layer of the kernel program — the fused edge
  message of the gathered rows, the scatter-add, the dense step on the two halves of the weight, the column
  statistics kept as rows and the normalisation — is the reference's layer: the gather, the scatter-add and the
  column sums are the same operations on both sides and are never opened; the three dense stages are compared in
  their own modules. Five layers, each fed the previous one's result, the last without the final cut-off.
-/
import proofs.«107720_j79044578115931_2_alg».proof.Proof.RefSpec
import proofs.«107720_j79044578115931_2_alg».proof.Proof.KSpec
import proofs.«107720_j79044578115931_2_alg».proof.Proof.KStages
import proofs.«107720_j79044578115931_2_alg».proof.Proof.KLayer
import proofs.«107720_j79044578115931_2_alg».proof.Proof.BridgeLib
import proofs.«107720_j79044578115931_2_alg».proof.Proof.BridgeFuse
import proofs.«107720_j79044578115931_2_alg».proof.Proof.BridgeMlp
import proofs.«107720_j79044578115931_2_alg».proof.Proof.BridgeBn

noncomputable section

namespace Cert.Bridge

open Cert.ReferenceIdeal Cert.ReferenceIdeal.RefSpec Idealize.ShloMosaic Idealize.ShloMosaic.ValueIdx
open Cert.ReferenceIdeal.Facts₀ Cert.ReferenceIdeal.Facts
open Cert.KernelIdeal.RV (fuseG fuseAt mlpG mlpAt bnG bnReluG bnAt)

variable [Cert.ReferenceIdeal.Facts]

open Cert.KernelIdeal.KStages

/-- The dense step's result of layer l. -/
theorem layerY_eq (l : Nat) (hl : SliceFacts l) (h : Vec Ideal S50000x256 .f32) (norm : Vec Ideal S320000 .f32)
    (row col : Vec Ideal S320000 .i32) (ea : Vec Ideal S320000x4 .f32) (a3 : Vec Ideal S5x512x256 .f32)
    (a4 : Vec Ideal S5x256 .f32) (a5 : Vec Ideal S5x1x128 .f32) (a6 : Vec Ideal S5x3x128 .f32) :
    kY h (kConcat ea norm) row col (kEw1 ![l, 0, 0] hl.e1 a5) (kEw2 ![l, 0, 0] hl.e2 a6) (kW ![l, 0, 0] hl.w a3)
        (kVecRow ![l, 0] hl.v a4)
      = refLayerY l hl h norm row col ea a3 a4 a5 a6 := by
  unfold kY kConcat
  rw [← refMsg_eq]
  unfold kVecRow
  rw [← refY_eq]
  rfl

/-- A row of a stacked table, flattened and made a row again, read at a column. -/
theorem vecRow_apply (l : Nat) (hv : S5x256.Slices ![l, 0] S1x256) (a : Vec Ideal S5x256 .f32) (j : Fin 256) :
    kVecRow ![l, 0] hv a (ix2 (0 : Fin 1) j) = vecAt l hv a (ix1 j) := by
  unfold kVecRow
  exact toRow_apply _ (vecAt l hv a) j

/-- Layer l with its final cut-off. -/
theorem layer_eq (l : Nat) (hl : SliceFacts l) (h : Vec Ideal S50000x256 .f32) (norm : Vec Ideal S320000 .f32)
    (row col : Vec Ideal S320000 .i32) (ea : Vec Ideal S320000x4 .f32) (a3 : Vec Ideal S5x512x256 .f32)
    (a4 : Vec Ideal S5x256 .f32) (a5 : Vec Ideal S5x1x128 .f32) (a6 : Vec Ideal S5x3x128 .f32) (a7 a8 : Vec Ideal S5x256 .f32) :
    kLayer bnReluG h (kConcat ea norm) row col (kEw1 ![l, 0, 0] hl.e1 a5) (kEw2 ![l, 0, 0] hl.e2 a6) (kW ![l, 0, 0] hl.w a3)
        (kVecRow ![l, 0] hl.v a4) (kVecRow ![l, 0] hl.v a7) (kVecRow ![l, 0] hl.v a8)
      = refLayer l hl h norm row col ea a3 a4 a5 a6 a7 a8 := by
  unfold kLayer refLayer
  rw [layerY_eq]
  exact (refBnRelu_eq _ _ _ _ _ _ _ _ _ (fun j => mean_row _ _ _ j) (fun j => var_row _ _ _ j)
    (fun j => vecRow_apply l hl.v a7 j) (fun j => vecRow_apply l hl.v a8 j)).symm

/-- The last layer: no final cut-off. -/
theorem layerLast_eq (l : Nat) (hl : SliceFacts l) (h : Vec Ideal S50000x256 .f32) (norm : Vec Ideal S320000 .f32)
    (row col : Vec Ideal S320000 .i32) (ea : Vec Ideal S320000x4 .f32) (a3 : Vec Ideal S5x512x256 .f32)
    (a4 : Vec Ideal S5x256 .f32) (a5 : Vec Ideal S5x1x128 .f32) (a6 : Vec Ideal S5x3x128 .f32) (a7 a8 : Vec Ideal S5x256 .f32) :
    kLayer bnG h (kConcat ea norm) row col (kEw1 ![l, 0, 0] hl.e1 a5) (kEw2 ![l, 0, 0] hl.e2 a6) (kW ![l, 0, 0] hl.w a3)
        (kVecRow ![l, 0] hl.v a4) (kVecRow ![l, 0] hl.v a7) (kVecRow ![l, 0] hl.v a8)
      = refLayerLast l hl h norm row col ea a3 a4 a5 a6 a7 a8 := by
  unfold kLayer refLayerLast
  rw [layerY_eq]
  exact (refBn_eq _ _ _ _ _ _ _ _ _ (fun j => mean_row _ _ _ j) (fun j => var_row _ _ _ j)
    (fun j => vecRow_apply l hl.v a7 j) (fun j => vecRow_apply l hl.v a8 j)).symm

/-- The kernel program's network is the reference's. -/
theorem net_eq (a0 : Vec Ideal S50000x256 .f32) (a1 : Vec Ideal S2x320000 .i32) (a2 : Vec Ideal S320000x4 .f32)
    (a3 : Vec Ideal S5x512x256 .f32) (a4 : Vec Ideal S5x256 .f32) (a5 : Vec Ideal S5x1x128 .f32) (a6 : Vec Ideal S5x3x128 .f32)
    (a7 a8 : Vec Ideal S5x256 .f32) :
    kOut a0 a1 a2 a3 a4 a5 a6 a7 a8 = refOut a0 a1 a2 a3 a4 a5 a6 a7 a8 := by
  have H1 : kH1 a0 a1 a2 a3 a4 a5 a6 a7 a8
      = refLayer 0 sf0 a0 (refNorm a1) (refRow a1) (refCol a1) a2 a3 a4 a5 a6 a7 a8 :=
    layer_eq 0 sf0 a0 (refNorm a1) (refRow a1) (refCol a1) a2 a3 a4 a5 a6 a7 a8
  have H2 : kH2 a0 a1 a2 a3 a4 a5 a6 a7 a8
      = refLayer 1 sf1 (refLayer 0 sf0 a0 (refNorm a1) (refRow a1) (refCol a1) a2 a3 a4 a5 a6 a7 a8)
          (refNorm a1) (refRow a1) (refCol a1) a2 a3 a4 a5 a6 a7 a8 := by
    unfold kH2; rw [H1]
    exact layer_eq 1 sf1 _ (refNorm a1) (refRow a1) (refCol a1) a2 a3 a4 a5 a6 a7 a8
  have H3 : kH3 a0 a1 a2 a3 a4 a5 a6 a7 a8
      = refLayer 2 sf2 (refLayer 1 sf1 (refLayer 0 sf0 a0 (refNorm a1) (refRow a1) (refCol a1) a2 a3 a4 a5 a6 a7 a8)
          (refNorm a1) (refRow a1) (refCol a1) a2 a3 a4 a5 a6 a7 a8)
          (refNorm a1) (refRow a1) (refCol a1) a2 a3 a4 a5 a6 a7 a8 := by
    unfold kH3; rw [H2]
    exact layer_eq 2 sf2 _ (refNorm a1) (refRow a1) (refCol a1) a2 a3 a4 a5 a6 a7 a8
  have H4 : kH4 a0 a1 a2 a3 a4 a5 a6 a7 a8
      = refLayer 3 sf3 (refLayer 2 sf2 (refLayer 1 sf1 (refLayer 0 sf0 a0 (refNorm a1) (refRow a1) (refCol a1) a2 a3 a4 a5 a6 a7 a8)
          (refNorm a1) (refRow a1) (refCol a1) a2 a3 a4 a5 a6 a7 a8)
          (refNorm a1) (refRow a1) (refCol a1) a2 a3 a4 a5 a6 a7 a8)
          (refNorm a1) (refRow a1) (refCol a1) a2 a3 a4 a5 a6 a7 a8 := by
    unfold kH4; rw [H3]
    exact layer_eq 3 sf3 _ (refNorm a1) (refRow a1) (refCol a1) a2 a3 a4 a5 a6 a7 a8
  unfold kOut refOut refNet
  rw [H4]
  exact layerLast_eq 4 sf4 _ (refNorm a1) (refRow a1) (refCol a1) a2 a3 a4 a5 a6 a7 a8

end Cert.Bridge

end
-- ==== Proof.lean ====
/-
  The certificate of a five-layer message-passing network (50000 nodes, 320000 edges, 256 features) whose three
  dense steps per layer — the fused edge message, the dense step on the node features and the aggregated messages,
  and the normalisation by the column statistics — run as kernels on blocks of rows, against the plain array
  program that computes the same layers with whole-array operations.

  At the extended reals both programs compute one function of the nine argument arrays. The gather of node rows
  along the edges, the scatter-add of messages into their target nodes, the column sums, the degree normalisation
  and the slices of the stacked parameters are the same operations in both programs and are compared as they
  stand. The fused edge message writes out a contraction over one and over three positions term by term; the
  dense step splits a contraction over 512 positions into its first and last 256; the normalisation reads its
  column statistics as one row instead of a flat array. No law beyond regrouping a finite sum and reading an array
  at an index is used, so finiteness of the inputs is never needed.

  The three frames: the two kernel programs' are the launch of their fifteen regions among the host stretches; the
  reference's is its run with the result dropped. The idealisation rewrote no operation.
-/
import proofs.«107720_j79044578115931_2_alg».proof.Defs
import proofs.«107720_j79044578115931_2_alg».proof.Proof.Gen.Kernel
import proofs.«107720_j79044578115931_2_alg».proof.Proof.Gen.Kernel.Frame
import proofs.«107720_j79044578115931_2_alg».proof.Proof.Gen.KernelIdeal
import proofs.«107720_j79044578115931_2_alg».proof.Proof.Gen.KernelIdeal.Frame
import proofs.«107720_j79044578115931_2_alg».proof.Proof.Gen.ReferenceIdeal
import proofs.«107720_j79044578115931_2_alg».proof.Proof.Gen.Pre_finite_inputs
import proofs.«107720_j79044578115931_2_alg».proof.Proof.KRun
import proofs.«107720_j79044578115931_2_alg».proof.Proof.KFold
import proofs.«107720_j79044578115931_2_alg».proof.Proof.KRegions
import proofs.«107720_j79044578115931_2_alg».proof.Proof.RefRun
import proofs.«107720_j79044578115931_2_alg».proof.Proof.BridgeNet
import Idealize.ShloMosaic.Adequacy
import Idealize.ShloMosaic.Init

noncomputable section

namespace Cert.Proof

open Idealize.ShloMosaic Idealize.SL.Sem

/-- The kernel program runs and leaves its arguments as launched. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefRun.run_value m ρ)

/-- The idealisation rewrote nothing. -/
theorem preserves : Cert.preserves_Kernel_KernelIdeal := trivial

/-! Each region's array after its grid, as a whole-array function of its entry contents: the facts the run through the
    segments takes. -/
theorem region0 : Cert.KernelIdeal.KFold.Final0 := fun V c => Cert.KernelIdeal.RV.final0 V c
theorem region1 : Cert.KernelIdeal.KFold.Final1 := fun V c => Cert.KernelIdeal.RV.final1 V c
theorem region2 : Cert.KernelIdeal.KFold.Final2 := fun V c => Cert.KernelIdeal.RV.final2 V c
theorem region3 : Cert.KernelIdeal.KFold.Final3 := fun V c => Cert.KernelIdeal.RV.final3 V c
theorem region4 : Cert.KernelIdeal.KFold.Final4 := fun V c => Cert.KernelIdeal.RV.final4 V c
theorem region5 : Cert.KernelIdeal.KFold.Final5 := fun V c => Cert.KernelIdeal.RV.final5 V c
theorem region6 : Cert.KernelIdeal.KFold.Final6 := fun V c => Cert.KernelIdeal.RV.final6 V c
theorem region7 : Cert.KernelIdeal.KFold.Final7 := fun V c => Cert.KernelIdeal.RV.final7 V c
theorem region8 : Cert.KernelIdeal.KFold.Final8 := fun V c => Cert.KernelIdeal.RV.final8 V c
theorem region9 : Cert.KernelIdeal.KFold.Final9 := fun V c => Cert.KernelIdeal.RV.final9 V c
theorem region10 : Cert.KernelIdeal.KFold.Final10 := fun V c => Cert.KernelIdeal.RV.final10 V c
theorem region11 : Cert.KernelIdeal.KFold.Final11 := fun V c => Cert.KernelIdeal.RV.final11 V c
theorem region12 : Cert.KernelIdeal.KFold.Final12 := fun V c => Cert.KernelIdeal.RV.final12 V c
theorem region13 : Cert.KernelIdeal.KFold.Final13 := fun V c => Cert.KernelIdeal.RV.final13 V c
theorem region14 : Cert.KernelIdeal.KFold.Final14 := fun V c => Cert.KernelIdeal.RV.final14 V c

/-- From memories agreeing on the arguments both programs end with the network's result: the kernel program's run
    names its result as the composition of its stages, the reference's as the composition of its own, and the two
    compositions are one function. -/
theorem algebraic : Cert.algebraic_KernelIdeal_ReferenceIdeal := by
  intro m ρ m' ρ' _ hagree
  refine ⟨fun c => Cert.KernelIdeal.KStages.kOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KFold.result_eq m ρ
          region0 region1 region2 region3 region4 region5 region6 region7 region8 region9 region10 region11 region12 region13 region14 c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.RefRun.run_value m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact (Cert.Bridge.net_eq _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
